-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32 : Shape := ⟨2, ![512, 32]⟩
abbrev S512x2 : Shape := ⟨2, ![512, 2]⟩
abbrev S128x32 : Shape := ⟨2, ![128, 32]⟩
abbrev S128 : Shape := ⟨1, ![128]⟩
abbrev S128x128 : Shape := ⟨2, ![128, 128]⟩
abbrev S3x128x257 : Shape := ⟨3, ![3, 128, 257]⟩
abbrev S3x128 : Shape := ⟨2, ![3, 128]⟩
abbrev S3x128x128 : Shape := ⟨3, ![3, 128, 128]⟩
abbrev S3x128x256 : Shape := ⟨3, ![3, 128, 256]⟩
abbrev S_ : Shape := ⟨0, ![]⟩

class Facts : Prop where
  bcast_S_S512x32 : S_.BroadcastsInDim S512x32 (![] : Fin 0 → Fin S512x32.rank)
  reducesTo_S512x32_S_d0_1 : S512x32.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x257 : S_.BroadcastsInDim S3x128x257 (![] : Fin 0 → Fin S3x128x257.rank)
  reducesTo_S3x128x257_S_d0_1_2 : S3x128x257.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128x256 : S_.BroadcastsInDim S3x128x256 (![] : Fin 0 → Fin S3x128x256.rank)
  reducesTo_S3x128x256_S_d0_1_2 : S3x128x256.ReducesTo [0, 1, 2] S_

variable [Facts]

def fn_part5 {F : FTy → Type} [FloatOps F] (main_arg18 : FVec F S3x128x128 .f32) (main_arg19 : FVec F S3x128 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3x128x128 .f32 := Host.absf main_arg18
  let main_cst_34 : FVec F S_ .f32 := constant S_ .f32 0x7F800000#32
  let main_v90 : FVec F S3x128x128 .f32 := broadcastInDim S3x128x128 ![] bcast_S_S3x128x128 main_cst_34
  let main_v91 : IVec S3x128x128 1 := cmpf .olt main_v89 main_v90
  let main_c_35 : IVec S_ 1 := constantI S_ 1 1#1
  let main_v92 : IVec S_ 1 := (fun x v => Host.reduce IntOp.andi x v reducesTo_S3x128x128_S_d0_1_2 h_S_) main_v91 main_c_35
  let main_v93 : IVec S_ 1 := andi main_v88 main_v92
  let main_v94 : FVec F S3x128 .f32 := Host.absf main_arg19
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  main_v98

def fn_part4 {F : FTy → Type} [FloatOps F] (main_arg14 : FVec F S3x128x256 .f32) (main_arg15 : FVec F S3x128 .f32) (main_arg16 : FVec F S3x128x128 .f32) (main_arg17 : FVec F S3x128 .f32) (main_arg18 : FVec F S3x128x128 .f32) (main_arg19 : FVec F S3x128 .f32) (main_v63 : IVec S_ 1) (main_v67 : IVec S_ 1) : IVec S_ 1 :=
  let main_v68 : IVec S_ 1 := andi main_v63 main_v67
  let main_v69 : FVec F S3x128x256 .f32 := Host.absf main_arg14
  let main_cst_26 : FVec F S_ .f32 := constant S_ .f32 0x7F800000#32
  let main_v70 : FVec F S3x128x256 .f32 := broadcastInDim S3x128x256 ![] bcast_S_S3x128x256 main_cst_26
  let main_v71 : IVec S3x128x256 1 := cmpf .olt main_v69 main_v70
  let main_c_27 : IVec S_ 1 := constantI S_ 1 1#1
  let main_v72 : IVec S_ 1 := (fun x v => Host.reduce IntOp.andi x v reducesTo_S3x128x256_S_d0_1_2 h_S_) main_v71 main_c_27
  let main_v73 : IVec S_ 1 := andi main_v68 main_v72
  let main_v74 : FVec F S3x128 .f32 := Host.absf main_arg15
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg16
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S3x128 .f32) (main_arg12 : FVec F S3x128x128 .f32) (main_arg13 : FVec F S3x128 .f32) (main_arg14 : FVec F S3x128x256 .f32) (main_arg15 : FVec F S3x128 .f32) (main_arg16 : FVec F S3x128x128 .f32) (main_arg17 : FVec F S3x128 .f32) (main_arg18 : FVec F S3x128x128 .f32) (main_arg19 : FVec F S3x128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg12
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_arg17 main_arg18 main_arg19 main_v63 main_v67

def fn_part2 {F : FTy → Type} [FloatOps F] (main_arg7 : FVec F S128 .f32) (main_arg8 : FVec F S3x128x257 .f32) (main_arg9 : FVec F S3x128 .f32) (main_arg10 : FVec F S3x128x128 .f32) (main_arg11 : FVec F S3x128 .f32) (main_arg12 : FVec F S3x128x128 .f32) (main_arg13 : FVec F S3x128 .f32) (main_arg14 : FVec F S3x128x256 .f32) (main_arg15 : FVec F S3x128 .f32) (main_arg16 : FVec F S3x128x128 .f32) (main_arg17 : FVec F S3x128 .f32) (main_arg18 : FVec F S3x128x128 .f32) (main_arg19 : FVec F S3x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x257 .f32 := Host.absf main_arg8
  let main_cst_14 : FVec F S_ .f32 := constant S_ .f32 0x7F800000#32
  let main_v40 : FVec F S3x128x257 .f32 := broadcastInDim S3x128x257 ![] bcast_S_S3x128x257 main_cst_14
  let main_v41 : IVec S3x128x257 1 := cmpf .olt main_v39 main_v40
  let main_c_15 : IVec S_ 1 := constantI S_ 1 1#1
  let main_v42 : IVec S_ 1 := (fun x v => Host.reduce IntOp.andi x v reducesTo_S3x128x257_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg10
  let main_cst_18 : FVec F S_ .f32 := constant S_ .f32 0x7F800000#32
  let main_v50 : FVec F S3x128x128 .f32 := broadcastInDim S3x128x128 ![] bcast_S_S3x128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S3x128x257 .f32) (main_arg9 : FVec F S3x128 .f32) (main_arg10 : FVec F S3x128x128 .f32) (main_arg11 : FVec F S3x128 .f32) (main_arg12 : FVec F S3x128x128 .f32) (main_arg13 : FVec F S3x128 .f32) (main_arg14 : FVec F S3x128x256 .f32) (main_arg15 : FVec F S3x128 .f32) (main_arg16 : FVec F S3x128x128 .f32) (main_arg17 : FVec F S3x128 .f32) (main_arg18 : FVec F S3x128x128 .f32) (main_arg19 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S512x32 .f32) (main_arg1 : FVec F S512x2 .f32) (main_arg2 : FVec F S128x32 .f32) (main_arg3 : FVec F S128 .f32) (main_arg4 : FVec F S128x128 .f32) (main_arg5 : FVec F S128 .f32) (main_arg6 : FVec F S128x128 .f32) (main_arg7 : FVec F S128 .f32) (main_arg8 : FVec F S3x128x257 .f32) (main_arg9 : FVec F S3x128 .f32) (main_arg10 : FVec F S3x128x128 .f32) (main_arg11 : FVec F S3x128 .f32) (main_arg12 : FVec F S3x128x128 .f32) (main_arg13 : FVec F S3x128 .f32) (main_arg14 : FVec F S3x128x256 .f32) (main_arg15 : FVec F S3x128 .f32) (main_arg16 : FVec F S3x128x128 .f32) (main_arg17 : FVec F S3x128 .f32) (main_arg18 : FVec F S3x128x128 .f32) (main_arg19 : FVec F S3x128 .f32) : IVec S_ 1 :=
  let main_v0 : FVec F S512x32 .f32 := Host.absf main_arg0
  let main_cst : FVec F S_ .f32 := constant S_ .f32 0x7F800000#32
  let main_v1 : FVec F S512x32 .f32 := broadcastInDim S512x32 ![] bcast_S_S512x32 main_cst
  let main_v2 : IVec S512x32 1 := cmpf .olt main_v0 main_v1
  let main_c : IVec S_ 1 := constantI S_ 1 1#1
  let main_v3 : IVec S_ 1 := (fun x v => Host.reduce IntOp.andi x v reducesTo_S512x32_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S512x32 : Shape := ⟨2, ![512, 32]⟩
abbrev S512x2 : Shape := ⟨2, ![512, 2]⟩
abbrev S128x32 : Shape := ⟨2, ![128, 32]⟩
abbrev S128 : Shape := ⟨1, ![128]⟩
abbrev S128x128 : Shape := ⟨2, ![128, 128]⟩
abbrev S3x128x257 : Shape := ⟨3, ![3, 128, 257]⟩
abbrev S3x128 : Shape := ⟨2, ![3, 128]⟩
abbrev S3x128x128 : Shape := ⟨3, ![3, 128, 128]⟩
abbrev S3x128x256 : Shape := ⟨3, ![3, 128, 256]⟩
abbrev S32x128 : Shape := ⟨2, ![32, 128]⟩
abbrev S512x128 : Shape := ⟨2, ![512, 128]⟩
abbrev S1x128 : Shape := ⟨2, ![1, 128]⟩
abbrev S_ : Shape := ⟨0, ![]⟩
abbrev S512x1x2 : Shape := ⟨3, ![512, 1, 2]⟩
abbrev S1x512x2 : Shape := ⟨3, ![1, 512, 2]⟩
abbrev S512x512x2 : Shape := ⟨3, ![512, 512, 2]⟩
abbrev S512x512 : Shape := ⟨2, ![512, 512]⟩
abbrev S1x128x257 : Shape := ⟨3, ![1, 128, 257]⟩
abbrev S128x257 : Shape := ⟨2, ![128, 257]⟩
abbrev S128x1 : Shape := ⟨2, ![128, 1]⟩
abbrev S1x128x128 : Shape := ⟨3, ![1, 128, 128]⟩
abbrev S64x128 : Shape := ⟨2, ![64, 128]⟩
abbrev S64x1x128 : Shape := ⟨3, ![64, 1, 128]⟩
abbrev S64x128x128 : Shape := ⟨3, ![64, 128, 128]⟩
abbrev S64x128x1 : Shape := ⟨3, ![64, 128, 1]⟩
abbrev S1x1x128 : Shape := ⟨3, ![1, 1, 128]⟩
abbrev S8192x128 : Shape := ⟨2, ![8192, 128]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 251
  | .vmem => 42
  | .smem => 0
  | _ => 0

abbrev hbmTy0_0 (i : Nat) : BufTy := match i % 128 with
  | 0 => ⟨S512x32, .f32⟩
  | 1 => ⟨S512x2, .f32⟩
  | 2 => ⟨S128x32, .f32⟩
  | 3 => ⟨S128, .f32⟩
  | 4 => ⟨S128x128, .f32⟩
  | 5 => ⟨S128, .f32⟩
  | 6 => ⟨S128x128, .f32⟩
  | 7 => ⟨S128, .f32⟩
  | 8 => ⟨S3x128x257, .f32⟩
  | 9 => ⟨S3x128, .f32⟩
  | 10 => ⟨S3x128x128, .f32⟩
  | 11 => ⟨S3x128, .f32⟩
  | 12 => ⟨S3x128x128, .f32⟩
  | 13 => ⟨S3x128, .f32⟩
  | 14 => ⟨S3x128x256, .f32⟩
  | 15 => ⟨S3x128, .f32⟩
  | 16 => ⟨S3x128x128, .f32⟩
  | 17 => ⟨S3x128, .f32⟩
  | 18 => ⟨S3x128x128, .f32⟩
  | 19 => ⟨S3x128, .f32⟩
  | 20 => ⟨S32x128, .f32⟩
  | 21 => ⟨S512x128, .f32⟩
  | 22 => ⟨S1x128, .f32⟩
  | 23 => ⟨S512x128, .f32⟩
  | 24 => ⟨S512x128, .f32⟩
  | 25 => ⟨S_, .f32⟩
  | 26 => ⟨S512x128, .f32⟩
  | 27 => ⟨S512x128, .f32⟩
  | 28 => ⟨S128x128, .f32⟩
  | 29 => ⟨S512x128, .f32⟩
  | 30 => ⟨S1x128, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S128x128, .f32⟩
  | 37 => ⟨S512x128, .f32⟩
  | 38 => ⟨S1x128, .f32⟩
  | 39 => ⟨S512x128, .f32⟩
  | 40 => ⟨S512x128, .f32⟩
  | 41 => ⟨S512x1x2, .f32⟩
  | 42 => ⟨S1x512x2, .f32⟩
  | 43 => ⟨S512x512x2, .f32⟩
  | 44 => ⟨S512x512x2, .f32⟩
  | 45 => ⟨S512x512x2, .f32⟩
  | 46 => ⟨S512x512x2, .f32⟩
  | 47 => ⟨S_, .f32⟩
  | 48 => ⟨S512x512, .f32⟩
  | 49 => ⟨S512x512, .i32⟩
  | 50 => ⟨S512x512, .i32⟩
  | 51 => ⟨S_, .i32⟩
  | 52 => ⟨S512x512, .i32⟩
  | 53 => ⟨S512x512, .i32⟩
  | 54 => ⟨S512x512, .i1⟩
  | 55 => ⟨S512x512, .f32⟩
  | 56 => ⟨S_, .f32⟩
  | 57 => ⟨S512x512, .f32⟩
  | 58 => ⟨S512x512, .i1⟩
  | 59 => ⟨S_, .f32⟩
  | 60 => ⟨S_, .f32⟩
  | 61 => ⟨S512x512, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S512x512, .f32⟩
  | 68 => ⟨S1x128x257, .f32⟩
  | 69 => ⟨S128x257, .f32⟩
  | 70 => ⟨S128x128, .f32⟩
  | 71 => ⟨S128x128, .f32⟩
  | 72 => ⟨S128x1, .f32⟩
  | 73 => ⟨S128, .f32⟩
  | 74 => ⟨S128x128, .f32⟩
  | 75 => ⟨S512x128, .f32⟩
  | 76 => ⟨S128x128, .f32⟩
  | 77 => ⟨S512x128, .f32⟩
  | 78 => ⟨S1x128x128, .f32⟩
  | 79 => ⟨S128x128, .f32⟩
  | 80 => ⟨S128x128, .f32⟩
  | 81 => ⟨S1x128x128, .f32⟩
  | 82 => ⟨S128x128, .f32⟩
  | 83 => ⟨S128x128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S1x128, .f32⟩
  | 92 => ⟨S1x128, .f32⟩
  | 93 => ⟨S1x128, .f32⟩
  | 94 => ⟨S512x128, .f32⟩
  | 95 => ⟨S512x256, .f32⟩
  | 96 => ⟨S1x128x256, .f32⟩
  | 97 => ⟨S128x256, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128x128, .f32⟩
  | 105 => ⟨S128x128, .f32⟩
  | 106 => ⟨S1x128, .f32⟩
  | 107 => ⟨S128, .f32⟩
  | 108 => ⟨S256x128, .f32⟩
  | 109 => ⟨S512x128, .f32⟩
  | 110 => ⟨S1x128, .f32⟩
  | 111 => ⟨S512x128, .f32⟩
  | 112 => ⟨S512x128, .f32⟩
  | 113 => ⟨S_, .f32⟩
  | 114 => ⟨S512x128, .f32⟩
  | 115 => ⟨S512x128, .f32⟩
  | 116 => ⟨S128x128, .f32⟩
  | 117 => ⟨S512x128, .f32⟩
  | 118 => ⟨S1x128, .f32⟩
  | 119 => ⟨S512x128, .f32⟩
  | 120 => ⟨S512x128, .f32⟩
  | 121 => ⟨S_, .f32⟩
  | 122 => ⟨S512x128, .f32⟩
  | 123 => ⟨S512x128, .f32⟩
  | 124 => ⟨S128x128, .f32⟩
  | 125 => ⟨S512x128, .f32⟩
  | 126 => ⟨S1x128, .f32⟩
  | 127 => ⟨S512x128, .f32⟩
  | _ => ⟨S512x32, .f32⟩

abbrev hbmTy0_1 (i : Nat) : BufTy := match i % 128 with
  | 0 => ⟨S512x128, .f32⟩
  | 1 => ⟨S1x128x257, .f32⟩
  | 2 => ⟨S128x257, .f32⟩
  | 3 => ⟨S128x128, .f32⟩
  | 4 => ⟨S128x128, .f32⟩
  | 5 => ⟨S128x1, .f32⟩
  | 6 => ⟨S128, .f32⟩
  | 7 => ⟨S128x128, .f32⟩
  | 8 => ⟨S512x128, .f32⟩
  | 9 => ⟨S128x128, .f32⟩
  | 10 => ⟨S512x128, .f32⟩
  | 11 => ⟨S1x128x128, .f32⟩
  | 12 => ⟨S128x128, .f32⟩
  | 13 => ⟨S128x128, .f32⟩
  | 14 => ⟨S1x128x128, .f32⟩
  | 15 => ⟨S128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S1x128, .f32⟩
  | 25 => ⟨S1x128, .f32⟩
  | 26 => ⟨S1x128, .f32⟩
  | 27 => ⟨S512x128, .f32⟩
  | 28 => ⟨S512x256, .f32⟩
  | 29 => ⟨S1x128x256, .f32⟩
  | 30 => ⟨S128x256, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S256x128, .f32⟩
  | 42 => ⟨S512x128, .f32⟩
  | 43 => ⟨S1x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S128x128, .f32⟩
  | 50 => ⟨S512x128, .f32⟩
  | 51 => ⟨S1x128, .f32⟩
  | 52 => ⟨S512x128, .f32⟩
  | 53 => ⟨S512x128, .f32⟩
  | 54 => ⟨S_, .f32⟩
  | 55 => ⟨S512x128, .f32⟩
  | 56 => ⟨S512x128, .f32⟩
  | 57 => ⟨S128x128, .f32⟩
  | 58 => ⟨S512x128, .f32⟩
  | 59 => ⟨S1x128, .f32⟩
  | 60 => ⟨S512x128, .f32⟩
  | 61 => ⟨S512x128, .f32⟩
  | 62 => ⟨S1x128x257, .f32⟩
  | 63 => ⟨S128x257, .f32⟩
  | 64 => ⟨S128x128, .f32⟩
  | 65 => ⟨S128x128, .f32⟩
  | 66 => ⟨S128x1, .f32⟩
  | 67 => ⟨S128, .f32⟩
  | 68 => ⟨S128x128, .f32⟩
  | 69 => ⟨S512x128, .f32⟩
  | 70 => ⟨S128x128, .f32⟩
  | 71 => ⟨S512x128, .f32⟩
  | 72 => ⟨S1x128x128, .f32⟩
  | 73 => ⟨S128x128, .f32⟩
  | 74 => ⟨S128x128, .f32⟩
  | 75 => ⟨S1x128x128, .f32⟩
  | 76 => ⟨S128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S512x128, .f32⟩
  | 89 => ⟨S512x256, .f32⟩
  | 90 => ⟨S1x128x256, .f32⟩
  | 91 => ⟨S128x256, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S256x128, .f32⟩
  | 103 => ⟨S512x128, .f32⟩
  | 104 => ⟨S1x128, .f32⟩
  | 105 => ⟨S512x128, .f32⟩
  | 106 => ⟨S512x128, .f32⟩
  | 107 => ⟨S_, .f32⟩
  | 108 => ⟨S512x128, .f32⟩
  | 109 => ⟨S512x128, .f32⟩
  | 110 => ⟨S128x128, .f32⟩
  | 111 => ⟨S512x128, .f32⟩
  | 112 => ⟨S1x128, .f32⟩
  | 113 => ⟨S512x128, .f32⟩
  | 114 => ⟨S512x128, .f32⟩
  | 115 => ⟨S_, .f32⟩
  | 116 => ⟨S512x128, .f32⟩
  | 117 => ⟨S512x128, .f32⟩
  | 118 => ⟨S128x128, .f32⟩
  | 119 => ⟨S512x128, .f32⟩
  | 120 => ⟨S1x128, .f32⟩
  | 121 => ⟨S512x128, .f32⟩
  | 122 => ⟨S512x128, .f32⟩
  | _ => ⟨S512x32, .f32⟩

abbrev hbmTy (i : Nat) : BufTy := match i / 128 with
  | 0 => hbmTy0_0 i
  | 1 => hbmTy0_1 i
  | _ => ⟨S512x32, .f32⟩

abbrev bufTy : (tb : Table) → Fin (tcTables nBuf tb) → BufTy
  | .hbm, ⟨i, _⟩ => hbmTy i
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S128x128, .f32⟩
  | .local _ .vmem, ⟨17, _⟩ => ⟨S128x128, .f32⟩
  | .local _ .vmem, ⟨18, _⟩ => ⟨S64x128, .f32⟩
  | .local _ .vmem, ⟨19, _⟩ => ⟨S64x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S64x128, .f32⟩
  | .local _ .vmem, ⟨30, _⟩ => ⟨S128x128, .f32⟩
  | .local _ .vmem, ⟨31, _⟩ => ⟨S128x128, .f32⟩
  | .local _ .vmem, ⟨32, _⟩ => ⟨S64x128, .f32⟩
  | .local _ .vmem, ⟨33, _⟩ => ⟨S64x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S64x128, .f32⟩
  | .local _ .vmem, ⟨41, _⟩ => ⟨S64x128, .f32⟩
  | _, _ => ⟨S512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call3_cst : Ref sig .tc := ⟨.hbm, 113, rfl⟩
abbrev main_call3_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call4_cst : Ref sig .tc := ⟨.hbm, 121, rfl⟩
abbrev main_call4_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_call5_cst : Ref sig .tc := ⟨.hbm, 174, rfl⟩
abbrev main_call5_v0 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_call6_cst : Ref sig .tc := ⟨.hbm, 182, rfl⟩
abbrev main_call6_v0 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_call7_cst : Ref sig .tc := ⟨.hbm, 235, rfl⟩
abbrev main_call7_v0 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_call8_cst : Ref sig .tc := ⟨.hbm, 243, rfl⟩
abbrev main_call8_v0 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S64x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S64x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

class Facts₀ : Prop where
  transposes_S128x32_S32x128_1_0 : S128x32.Transposes [1, 0] S32x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S128x128_S128x128_1_0 : S128x128.Transposes [1, 0] S128x128
  bcast_S512x2_S512x1x2_0_2 : S512x2.BroadcastsInDim S512x1x2 (![0, 2] : Fin 2 → Fin S512x1x2.rank)
  bcast_S512x2_S1x512x2_1_2 : S512x2.BroadcastsInDim S1x512x2 (![1, 2] : Fin 2 → Fin S1x512x2.rank)
  bcast_S512x1x2_S512x512x2_0_1_2 : S512x1x2.BroadcastsInDim S512x512x2 (![0, 1, 2] : Fin 3 → Fin S512x512x2.rank)
  bcast_S1x512x2_S512x512x2_0_1_2 : S1x512x2.BroadcastsInDim S512x512x2 (![0, 1, 2] : Fin 3 → Fin S512x512x2.rank)
  reducesTo_S512x512x2_S512x512_d2 : S512x512x2.ReducesTo [2] S512x512
  h_S_ : 0 < S_.numel
  bcast_S_S512x512 : S_.BroadcastsInDim S512x512 (![] : Fin 0 → Fin S512x512.rank)
  slices_S3x128x257_S1x128x257_0_0_0 : S3x128x257.Slices ![0, 0, 0] S1x128x257
  shapeCasts_S1x128x257_S128x257 : S1x128x257.ShapeCasts S128x257
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S64x128_S64x128x1 : S64x128.ShapeCasts S64x128x1
  shapeCasts_S128_S1x1x128 : S128.ShapeCasts S1x1x128
  broadcasts_S64x128x1_S64x128x128 : S64x128x1.Broadcasts S64x128x128
  broadcasts_S1x1x128_S64x128x128 : S1x1x128.Broadcasts S64x128x128
  shapeCasts_S64x128x128_S8192x128 : S64x128x128.ShapeCasts S8192x128
  bitsLt_bf16_f32 : FTy.bits .bf16 < FTy.bits .f32
  broadcasts_S1x128_S8192x128 : S1x128.Broadcasts S8192x128
  shapeCasts_S8192x128_S64x128x128 : S8192x128.ShapeCasts S64x128x128
  iota_S64x128_d0_w32 : S64x128.Iotas .tc 32 [0]
  iota_S64x128_d1_w32 : S64x128.Iotas .tc 32 [1]
  natLt_1_32 : 1 < 32
  reduces_S64x128x128_S64x128 : S64x128x128.Reduces [1] S64x128
  concatenates_S512x128_S512x128_S512x256_d1 : Shape.Concatenates [S512x128, S512x128] S512x256 1
  slices_S3x128x256_S1x128x256_0_0_0 : S3x128x256.Slices ![0, 0, 0] S1x128x256
  shapeCasts_S1x128x256_S128x256 : S1x128x256.ShapeCasts S128x256
  transposes_S128x256_S256x128_1_0 : S128x256.Transposes [1, 0] S256x128
  slices_S3x128x257_S1x128x257_1_0_0 : S3x128x257.Slices ![1, 0, 0] S1x128x257
  slices_S3x128x128_S1x128x128_1_0_0 : S3x128x128.Slices ![1, 0, 0] S1x128x128
  slices_S3x128_S1x128_1_0 : S3x128.Slices ![1, 0] S1x128
  slices_S3x128x256_S1x128x256_1_0_0 : S3x128x256.Slices ![1, 0, 0] S1x128x256
  slices_S3x128x257_S1x128x257_2_0_0 : S3x128x257.Slices ![2, 0, 0] S1x128x257
  slices_S3x128x128_S1x128x128_2_0_0 : S3x128x128.Slices ![2, 0, 0] S1x128x128
  slices_S3x128_S1x128_2_0 : S3x128.Slices ![2, 0] S1x128
  slices_S3x128x256_S1x128x256_2_0_0 : S3x128x256.Slices ![2, 0, 0] S1x128x256
  dot_S512x32_S32x128_S512x128_1_0_0_1_n_n_wf : DotDims.WF S512x32 S32x128 S512x128 [1] [0] [0] [1] [] []
  dot_S512x128_S128x128_S512x128_1_0_0_1_n_n_wf : DotDims.WF S512x128 S128x128 S512x128 [1] [0] [0] [1] [] []
  dot_S8192x128_S128x128_S8192x128_1_0_0_1_n_n_wf : DotDims.WF S8192x128 S128x128 S8192x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x128.size a
  hwx0_0 : ∀ i : grid0.Coords, EltTy.bits .f32 = 32 ∨ (Rect.block (s := S512x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x512.size a
  hwx0_2 : ∀ i : grid0.Coords, EltTy.bits .f32 = 32 ∨ (Rect.block (s := S512x512) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S512x128.size a
  hwx0_9 : ∀ i : grid0.Coords, EltTy.bits .f32 = 32 ∨ (Rect.block (s := S512x128) S64x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S512x128.size a
  hwx1_0 : ∀ i : grid1.Coords, EltTy.bits .f32 = 32 ∨ (Rect.block (s := S512x128) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x128.size a
  hwx1_1 : ∀ i : grid1.Coords, EltTy.bits .f32 = 32 ∨ (Rect.block (s := S512x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S512x512.size a
  hwx1_2 : ∀ i : grid1.Coords, EltTy.bits .f32 = 32 ∨ (Rect.block (s := S512x512) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S512x128.size a
  hwx1_9 : ∀ i : grid1.Coords, EltTy.bits .f32 = 32 ∨ (Rect.block (s := S512x128) S64x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S512x128.size a
  hwx2_0 : ∀ i : grid2.Coords, EltTy.bits .f32 = 32 ∨ (Rect.block (s := S512x128) S64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S512x128.size a
  hwx2_1 : ∀ i : grid2.Coords, EltTy.bits .f32 = 32 ∨ (Rect.block (s := S512x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S512x512.size a
  hwx2_2 : ∀ i : grid2.Coords, EltTy.bits .f32 = 32 ∨ (Rect.block (s := S512x512) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S64x128.size a ≤ S512x128.size a
  hwx2_9 : ∀ i : grid2.Coords, EltTy.bits .f32 = 32 ∨ (Rect.block (s := S512x128) S64x128.size (cc2_transform_9 i) (hinb2_9 i)).WholeWords (EltTy.packing .f32)

variable [Facts₀]

def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v44) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v63) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v101) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v103) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v116) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v117) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v106) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v118) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v109) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v119) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v120) S64x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v158) S64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v160) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S64x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v173) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v174) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v163) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v175) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v166) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v176) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v177) S64x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S512x32 : Shape := ⟨2, ![512, 32]⟩
abbrev S512x2 : Shape := ⟨2, ![512, 2]⟩
abbrev S128x32 : Shape := ⟨2, ![128, 32]⟩
abbrev S128 : Shape := ⟨1, ![128]⟩
abbrev S128x128 : Shape := ⟨2, ![128, 128]⟩
abbrev S3x128x257 : Shape := ⟨3, ![3, 128, 257]⟩
abbrev S3x128 : Shape := ⟨2, ![3, 128]⟩
abbrev S3x128x128 : Shape := ⟨3, ![3, 128, 128]⟩
abbrev S3x128x256 : Shape := ⟨3, ![3, 128, 256]⟩
abbrev S32x128 : Shape := ⟨2, ![32, 128]⟩
abbrev S512x128 : Shape := ⟨2, ![512, 128]⟩
abbrev S1x128 : Shape := ⟨2, ![1, 128]⟩
abbrev S_ : Shape := ⟨0, ![]⟩
abbrev S512x1x2 : Shape := ⟨3, ![512, 1, 2]⟩
abbrev S1x512x2 : Shape := ⟨3, ![1, 512, 2]⟩
abbrev S512x512x2 : Shape := ⟨3, ![512, 512, 2]⟩
abbrev S512x512 : Shape := ⟨2, ![512, 512]⟩
abbrev S512x512x1 : Shape := ⟨3, ![512, 512, 1]⟩
abbrev S1x128x257 : Shape := ⟨3, ![1, 128, 257]⟩
abbrev S128x257 : Shape := ⟨2, ![128, 257]⟩
abbrev S128x1 : Shape := ⟨2, ![128, 1]⟩
abbrev S512x1x128 : Shape := ⟨3, ![512, 1, 128]⟩
abbrev S1x512x128 : Shape := ⟨3, ![1, 512, 128]⟩
abbrev S512x512x128 : Shape := ⟨3, ![512, 512, 128]⟩
abbrev S1x1x128 : Shape := ⟨3, ![1, 1, 128]⟩
abbrev S1x128x128 : Shape := ⟨3, ![1, 128, 128]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 330
  | .vmem => 0
  | .smem => 0
  | _ => 0

abbrev hbmTy0_0 (i : Nat) : BufTy := match i % 128 with
  | 0 => ⟨S512x32, .f32⟩
  | 1 => ⟨S512x2, .f32⟩
  | 2 => ⟨S128x32, .f32⟩
  | 3 => ⟨S128, .f32⟩
  | 4 => ⟨S128x128, .f32⟩
  | 5 => ⟨S128, .f32⟩
  | 6 => ⟨S128x128, .f32⟩
  | 7 => ⟨S128, .f32⟩
  | 8 => ⟨S3x128x257, .f32⟩
  | 9 => ⟨S3x128, .f32⟩
  | 10 => ⟨S3x128x128, .f32⟩
  | 11 => ⟨S3x128, .f32⟩
  | 12 => ⟨S3x128x128, .f32⟩
  | 13 => ⟨S3x128, .f32⟩
  | 14 => ⟨S3x128x256, .f32⟩
  | 15 => ⟨S3x128, .f32⟩
  | 16 => ⟨S3x128x128, .f32⟩
  | 17 => ⟨S3x128, .f32⟩
  | 18 => ⟨S3x128x128, .f32⟩
  | 19 => ⟨S3x128, .f32⟩
  | 20 => ⟨S32x128, .f32⟩
  | 21 => ⟨S512x128, .f32⟩
  | 22 => ⟨S1x128, .f32⟩
  | 23 => ⟨S512x128, .f32⟩
  | 24 => ⟨S512x128, .f32⟩
  | 25 => ⟨S_, .f32⟩
  | 26 => ⟨S512x128, .f32⟩
  | 27 => ⟨S512x128, .f32⟩
  | 28 => ⟨S128x128, .f32⟩
  | 29 => ⟨S512x128, .f32⟩
  | 30 => ⟨S1x128, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S128x128, .f32⟩
  | 37 => ⟨S512x128, .f32⟩
  | 38 => ⟨S1x128, .f32⟩
  | 39 => ⟨S512x128, .f32⟩
  | 40 => ⟨S512x128, .f32⟩
  | 41 => ⟨S512x1x2, .f32⟩
  | 42 => ⟨S1x512x2, .f32⟩
  | 43 => ⟨S512x512x2, .f32⟩
  | 44 => ⟨S512x512x2, .f32⟩
  | 45 => ⟨S512x512x2, .f32⟩
  | 46 => ⟨S512x512x2, .f32⟩
  | 47 => ⟨S_, .f32⟩
  | 48 => ⟨S512x512, .f32⟩
  | 49 => ⟨S512x512, .i32⟩
  | 50 => ⟨S512x512, .i32⟩
  | 51 => ⟨S_, .i32⟩
  | 52 => ⟨S512x512, .i32⟩
  | 53 => ⟨S512x512, .i32⟩
  | 54 => ⟨S512x512, .i1⟩
  | 55 => ⟨S512x512, .f32⟩
  | 56 => ⟨S_, .f32⟩
  | 57 => ⟨S512x512, .f32⟩
  | 58 => ⟨S512x512, .i1⟩
  | 59 => ⟨S_, .f32⟩
  | 60 => ⟨S_, .f32⟩
  | 61 => ⟨S512x512, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S512x512, .f32⟩
  | 68 => ⟨S_, .f32⟩
  | 69 => ⟨S512x512, .f32⟩
  | 70 => ⟨S512x512, .f32⟩
  | 71 => ⟨S512x512x1, .f32⟩
  | 72 => ⟨S1x128x257, .f32⟩
  | 73 => ⟨S128x257, .f32⟩
  | 74 => ⟨S128x128, .f32⟩
  | 75 => ⟨S128x128, .f32⟩
  | 76 => ⟨S128x1, .f32⟩
  | 77 => ⟨S128, .f32⟩
  | 78 => ⟨S128x128, .f32⟩
  | 79 => ⟨S512x128, .f32⟩
  | 80 => ⟨S128x128, .f32⟩
  | 81 => ⟨S512x128, .f32⟩
  | 82 => ⟨S512x1x128, .f32⟩
  | 83 => ⟨S1x512x128, .f32⟩
  | 84 => ⟨S512x512x128, .f32⟩
  | 85 => ⟨S512x512x128, .f32⟩
  | 86 => ⟨S512x512x128, .f32⟩
  | 87 => ⟨S512x512x1, .f32⟩
  | 88 => ⟨S1x1x128, .f32⟩
  | 89 => ⟨S512x512x128, .f32⟩
  | 90 => ⟨S512x512x128, .f32⟩
  | 91 => ⟨S512x512x128, .f32⟩
  | 92 => ⟨S512x512x128, .f32⟩
  | 93 => ⟨S1x128, .f32⟩
  | 94 => ⟨S128, .f32⟩
  | 95 => ⟨S1x1x128, .f32⟩
  | 96 => ⟨S512x512x128, .f32⟩
  | 97 => ⟨S512x512x128, .f32⟩
  | 98 => ⟨S_, .f32⟩
  | 99 => ⟨S512x512x128, .f32⟩
  | 100 => ⟨S512x512x128, .f32⟩
  | 101 => ⟨S1x128x128, .f32⟩
  | 102 => ⟨S128x128, .f32⟩
  | 103 => ⟨S512x512x128, .f32⟩
  | 104 => ⟨S1x128, .f32⟩
  | 105 => ⟨S128, .f32⟩
  | 106 => ⟨S1x1x128, .f32⟩
  | 107 => ⟨S512x512x128, .f32⟩
  | 108 => ⟨S512x512x128, .f32⟩
  | 109 => ⟨S_, .f32⟩
  | 110 => ⟨S512x512x128, .f32⟩
  | 111 => ⟨S512x512x128, .f32⟩
  | 112 => ⟨S1x128x128, .f32⟩
  | 113 => ⟨S128x128, .f32⟩
  | 114 => ⟨S512x512x128, .f32⟩
  | 115 => ⟨S1x128, .f32⟩
  | 116 => ⟨S128, .f32⟩
  | 117 => ⟨S1x1x128, .f32⟩
  | 118 => ⟨S512x512x128, .f32⟩
  | 119 => ⟨S512x512x128, .f32⟩
  | 120 => ⟨S512x512x128, .f32⟩
  | 121 => ⟨S512x512x128, .f32⟩
  | 122 => ⟨S_, .f32⟩
  | 123 => ⟨S512x128, .f32⟩
  | 124 => ⟨S512x256, .f32⟩
  | 125 => ⟨S1x128x256, .f32⟩
  | 126 => ⟨S128x256, .f32⟩
  | 127 => ⟨S1x128, .f32⟩
  | _ => ⟨S512x32, .f32⟩

abbrev hbmTy0_1 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S1x128x128, .f32⟩
  | 6 => ⟨S128x128, .f32⟩
  | 7 => ⟨S1x128, .f32⟩
  | 8 => ⟨S128, .f32⟩
  | 9 => ⟨S256x128, .f32⟩
  | 10 => ⟨S512x128, .f32⟩
  | 11 => ⟨S1x128, .f32⟩
  | 12 => ⟨S512x128, .f32⟩
  | 13 => ⟨S512x128, .f32⟩
  | 14 => ⟨S_, .f32⟩
  | 15 => ⟨S512x128, .f32⟩
  | 16 => ⟨S512x128, .f32⟩
  | 17 => ⟨S128x128, .f32⟩
  | 18 => ⟨S512x128, .f32⟩
  | 19 => ⟨S1x128, .f32⟩
  | 20 => ⟨S512x128, .f32⟩
  | 21 => ⟨S512x128, .f32⟩
  | 22 => ⟨S_, .f32⟩
  | 23 => ⟨S512x128, .f32⟩
  | 24 => ⟨S512x128, .f32⟩
  | 25 => ⟨S128x128, .f32⟩
  | 26 => ⟨S512x128, .f32⟩
  | 27 => ⟨S1x128, .f32⟩
  | 28 => ⟨S512x128, .f32⟩
  | 29 => ⟨S512x128, .f32⟩
  | 30 => ⟨S1x128x257, .f32⟩
  | 31 => ⟨S128x257, .f32⟩
  | 32 => ⟨S128x128, .f32⟩
  | 33 => ⟨S128x128, .f32⟩
  | 34 => ⟨S128x1, .f32⟩
  | 35 => ⟨S128, .f32⟩
  | 36 => ⟨S128x128, .f32⟩
  | 37 => ⟨S512x128, .f32⟩
  | 38 => ⟨S128x128, .f32⟩
  | 39 => ⟨S512x128, .f32⟩
  | 40 => ⟨S512x1x128, .f32⟩
  | 41 => ⟨S1x512x128, .f32⟩
  | 42 => ⟨S512x512x128, .f32⟩
  | 43 => ⟨S512x512x128, .f32⟩
  | 44 => ⟨S512x512x128, .f32⟩
  | 45 => ⟨S512x512x1, .f32⟩
  | 46 => ⟨S1x1x128, .f32⟩
  | 47 => ⟨S512x512x128, .f32⟩
  | 48 => ⟨S512x512x128, .f32⟩
  | 49 => ⟨S512x512x128, .f32⟩
  | 50 => ⟨S512x512x128, .f32⟩
  | 51 => ⟨S1x128, .f32⟩
  | 52 => ⟨S128, .f32⟩
  | 53 => ⟨S1x1x128, .f32⟩
  | 54 => ⟨S512x512x128, .f32⟩
  | 55 => ⟨S512x512x128, .f32⟩
  | 56 => ⟨S_, .f32⟩
  | 57 => ⟨S512x512x128, .f32⟩
  | 58 => ⟨S512x512x128, .f32⟩
  | 59 => ⟨S1x128x128, .f32⟩
  | 60 => ⟨S128x128, .f32⟩
  | 61 => ⟨S512x512x128, .f32⟩
  | 62 => ⟨S1x128, .f32⟩
  | 63 => ⟨S128, .f32⟩
  | 64 => ⟨S1x1x128, .f32⟩
  | 65 => ⟨S512x512x128, .f32⟩
  | 66 => ⟨S512x512x128, .f32⟩
  | 67 => ⟨S_, .f32⟩
  | 68 => ⟨S512x512x128, .f32⟩
  | 69 => ⟨S512x512x128, .f32⟩
  | 70 => ⟨S1x128x128, .f32⟩
  | 71 => ⟨S128x128, .f32⟩
  | 72 => ⟨S512x512x128, .f32⟩
  | 73 => ⟨S1x128, .f32⟩
  | 74 => ⟨S128, .f32⟩
  | 75 => ⟨S1x1x128, .f32⟩
  | 76 => ⟨S512x512x128, .f32⟩
  | 77 => ⟨S512x512x128, .f32⟩
  | 78 => ⟨S512x512x128, .f32⟩
  | 79 => ⟨S512x512x128, .f32⟩
  | 80 => ⟨S_, .f32⟩
  | 81 => ⟨S512x128, .f32⟩
  | 82 => ⟨S512x256, .f32⟩
  | 83 => ⟨S1x128x256, .f32⟩
  | 84 => ⟨S128x256, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S256x128, .f32⟩
  | 96 => ⟨S512x128, .f32⟩
  | 97 => ⟨S1x128, .f32⟩
  | 98 => ⟨S512x128, .f32⟩
  | 99 => ⟨S512x128, .f32⟩
  | 100 => ⟨S_, .f32⟩
  | 101 => ⟨S512x128, .f32⟩
  | 102 => ⟨S512x128, .f32⟩
  | 103 => ⟨S128x128, .f32⟩
  | 104 => ⟨S512x128, .f32⟩
  | 105 => ⟨S1x128, .f32⟩
  | 106 => ⟨S512x128, .f32⟩
  | 107 => ⟨S512x128, .f32⟩
  | 108 => ⟨S_, .f32⟩
  | 109 => ⟨S512x128, .f32⟩
  | 110 => ⟨S512x128, .f32⟩
  | 111 => ⟨S128x128, .f32⟩
  | 112 => ⟨S512x128, .f32⟩
  | 113 => ⟨S1x128, .f32⟩
  | 114 => ⟨S512x128, .f32⟩
  | 115 => ⟨S512x128, .f32⟩
  | 116 => ⟨S1x128x257, .f32⟩
  | 117 => ⟨S128x257, .f32⟩
  | 118 => ⟨S128x128, .f32⟩
  | 119 => ⟨S128x128, .f32⟩
  | 120 => ⟨S128x1, .f32⟩
  | 121 => ⟨S128, .f32⟩
  | 122 => ⟨S128x128, .f32⟩
  | 123 => ⟨S512x128, .f32⟩
  | 124 => ⟨S128x128, .f32⟩
  | 125 => ⟨S512x128, .f32⟩
  | 126 => ⟨S512x1x128, .f32⟩
  | 127 => ⟨S1x512x128, .f32⟩
  | _ => ⟨S512x32, .f32⟩

abbrev hbmTy0_2 (i : Nat) : BufTy := match i % 128 with
  | 0 => ⟨S512x512x128, .f32⟩
  | 1 => ⟨S512x512x128, .f32⟩
  | 2 => ⟨S512x512x128, .f32⟩
  | 3 => ⟨S512x512x1, .f32⟩
  | 4 => ⟨S1x1x128, .f32⟩
  | 5 => ⟨S512x512x128, .f32⟩
  | 6 => ⟨S512x512x128, .f32⟩
  | 7 => ⟨S512x512x128, .f32⟩
  | 8 => ⟨S512x512x128, .f32⟩
  | 9 => ⟨S1x128, .f32⟩
  | 10 => ⟨S128, .f32⟩
  | 11 => ⟨S1x1x128, .f32⟩
  | 12 => ⟨S512x512x128, .f32⟩
  | 13 => ⟨S512x512x128, .f32⟩
  | 14 => ⟨S_, .f32⟩
  | 15 => ⟨S512x512x128, .f32⟩
  | 16 => ⟨S512x512x128, .f32⟩
  | 17 => ⟨S1x128x128, .f32⟩
  | 18 => ⟨S128x128, .f32⟩
  | 19 => ⟨S512x512x128, .f32⟩
  | 20 => ⟨S1x128, .f32⟩
  | 21 => ⟨S128, .f32⟩
  | 22 => ⟨S1x1x128, .f32⟩
  | 23 => ⟨S512x512x128, .f32⟩
  | 24 => ⟨S512x512x128, .f32⟩
  | 25 => ⟨S_, .f32⟩
  | 26 => ⟨S512x512x128, .f32⟩
  | 27 => ⟨S512x512x128, .f32⟩
  | 28 => ⟨S1x128x128, .f32⟩
  | 29 => ⟨S128x128, .f32⟩
  | 30 => ⟨S512x512x128, .f32⟩
  | 31 => ⟨S1x128, .f32⟩
  | 32 => ⟨S128, .f32⟩
  | 33 => ⟨S1x1x128, .f32⟩
  | 34 => ⟨S512x512x128, .f32⟩
  | 35 => ⟨S512x512x128, .f32⟩
  | 36 => ⟨S512x512x128, .f32⟩
  | 37 => ⟨S512x512x128, .f32⟩
  | 38 => ⟨S_, .f32⟩
  | 39 => ⟨S512x128, .f32⟩
  | 40 => ⟨S512x256, .f32⟩
  | 41 => ⟨S1x128x256, .f32⟩
  | 42 => ⟨S128x256, .f32⟩
  | 43 => ⟨S1x128, .f32⟩
  | 44 => ⟨S128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S256x128, .f32⟩
  | 54 => ⟨S512x128, .f32⟩
  | 55 => ⟨S1x128, .f32⟩
  | 56 => ⟨S512x128, .f32⟩
  | 57 => ⟨S512x128, .f32⟩
  | 58 => ⟨S_, .f32⟩
  | 59 => ⟨S512x128, .f32⟩
  | 60 => ⟨S512x128, .f32⟩
  | 61 => ⟨S128x128, .f32⟩
  | 62 => ⟨S512x128, .f32⟩
  | 63 => ⟨S1x128, .f32⟩
  | 64 => ⟨S512x128, .f32⟩
  | 65 => ⟨S512x128, .f32⟩
  | 66 => ⟨S_, .f32⟩
  | 67 => ⟨S512x128, .f32⟩
  | 68 => ⟨S512x128, .f32⟩
  | 69 => ⟨S128x128, .f32⟩
  | 70 => ⟨S512x128, .f32⟩
  | 71 => ⟨S1x128, .f32⟩
  | 72 => ⟨S512x128, .f32⟩
  | 73 => ⟨S512x128, .f32⟩
  | _ => ⟨S512x32, .f32⟩

abbrev hbmTy (i : Nat) : BufTy := match i / 128 with
  | 0 => hbmTy0_0 i
  | 1 => hbmTy0_1 i
  | 2 => hbmTy0_2 i
  | _ => ⟨S512x32, .f32⟩

abbrev bufTy : (tb : Table) → Fin (tcTables nBuf tb) → BufTy
  | .hbm, ⟨i, _⟩ => hbmTy i
  | _, _ => ⟨S512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call3_cst : Ref sig .tc := ⟨.hbm, 98, rfl⟩
abbrev main_call3_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call4_cst : Ref sig .tc := ⟨.hbm, 109, rfl⟩
abbrev main_call4_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_4 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call5_cst : Ref sig .tc := ⟨.hbm, 142, rfl⟩
abbrev main_call5_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call6_cst : Ref sig .tc := ⟨.hbm, 150, rfl⟩
abbrev main_call6_v0 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_call7_cst : Ref sig .tc := ⟨.hbm, 184, rfl⟩
abbrev main_call7_v0 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_call8_cst : Ref sig .tc := ⟨.hbm, 195, rfl⟩
abbrev main_call8_v0 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_5 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_call9_cst : Ref sig .tc := ⟨.hbm, 228, rfl⟩
abbrev main_call9_v0 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_call10_cst : Ref sig .tc := ⟨.hbm, 236, rfl⟩
abbrev main_call10_v0 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_call11_cst : Ref sig .tc := ⟨.hbm, 270, rfl⟩
abbrev main_call11_v0 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_call12_cst : Ref sig .tc := ⟨.hbm, 281, rfl⟩
abbrev main_call12_v0 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_cst_6 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_call13_cst : Ref sig .tc := ⟨.hbm, 314, rfl⟩
abbrev main_call13_v0 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_call14_cst : Ref sig .tc := ⟨.hbm, 322, rfl⟩
abbrev main_call14_v0 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩

abbrev nD : Nat := 1
abbrev τ : Topo := Topo.v7x

variable {F : FTy → Type} [FloatOps F]

class Facts₀ : Prop where
  transposes_S128x32_S32x128_1_0 : S128x32.Transposes [1, 0] S32x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S128x128_S128x128_1_0 : S128x128.Transposes [1, 0] S128x128
  bcast_S512x2_S512x1x2_0_2 : S512x2.BroadcastsInDim S512x1x2 (![0, 2] : Fin 2 → Fin S512x1x2.rank)
  bcast_S512x2_S1x512x2_1_2 : S512x2.BroadcastsInDim S1x512x2 (![1, 2] : Fin 2 → Fin S1x512x2.rank)
  bcast_S512x1x2_S512x512x2_0_1_2 : S512x1x2.BroadcastsInDim S512x512x2 (![0, 1, 2] : Fin 3 → Fin S512x512x2.rank)
  bcast_S1x512x2_S512x512x2_0_1_2 : S1x512x2.BroadcastsInDim S512x512x2 (![0, 1, 2] : Fin 3 → Fin S512x512x2.rank)
  reducesTo_S512x512x2_S512x512_d2 : S512x512x2.ReducesTo [2] S512x512
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  slices_S3x128x257_S1x128x257_0_0_0 : S3x128x257.Slices ![0, 0, 0] S1x128x257
  shapeCasts_S1x128x257_S128x257 : S1x128x257.ShapeCasts S128x257
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  bcast_S128_S1x1x128_2 : S128.BroadcastsInDim S1x1x128 (![2] : Fin 1 → Fin S1x1x128.rank)
  bcast_S512x512x1_S512x512x128_0_1_2 : S512x512x1.BroadcastsInDim S512x512x128 (![0, 1, 2] : Fin 3 → Fin S512x512x128.rank)
  bcast_S1x1x128_S512x512x128_0_1_2 : S1x1x128.BroadcastsInDim S512x512x128 (![0, 1, 2] : Fin 3 → Fin S512x512x128.rank)
  slices_S3x128_S1x128_0_0 : S3x128.Slices ![0, 0] S1x128
  shapeCasts_S1x128_S128 : S1x128.ShapeCasts S128
  bcast_S_S512x512x128 : S_.BroadcastsInDim S512x512x128 (![] : Fin 0 → Fin S512x512x128.rank)
  slices_S3x128x128_S1x128x128_0_0_0 : S3x128x128.Slices ![0, 0, 0] S1x128x128
  shapeCasts_S1x128x128_S128x128 : S1x128x128.ShapeCasts S128x128
  reducesTo_S512x512x128_S512x128_d1 : S512x512x128.ReducesTo [1] S512x128
  concatenates_S512x128_S512x128_S512x256_d1 : Shape.Concatenates [S512x128, S512x128] S512x256 1
  slices_S3x128x256_S1x128x256_0_0_0 : S3x128x256.Slices ![0, 0, 0] S1x128x256
  shapeCasts_S1x128x256_S128x256 : S1x128x256.ShapeCasts S128x256
  transposes_S128x256_S256x128_1_0 : S128x256.Transposes [1, 0] S256x128
  slices_S3x128x257_S1x128x257_1_0_0 : S3x128x257.Slices ![1, 0, 0] S1x128x257
  slices_S3x128_S1x128_1_0 : S3x128.Slices ![1, 0] S1x128
  slices_S3x128x128_S1x128x128_1_0_0 : S3x128x128.Slices ![1, 0, 0] S1x128x128
  slices_S3x128x256_S1x128x256_1_0_0 : S3x128x256.Slices ![1, 0, 0] S1x128x256
  slices_S3x128x257_S1x128x257_2_0_0 : S3x128x257.Slices ![2, 0, 0] S1x128x257
  slices_S3x128_S1x128_2_0 : S3x128.Slices ![2, 0] S1x128
  slices_S3x128x128_S1x128x128_2_0_0 : S3x128x128.Slices ![2, 0, 0] S1x128x128
  slices_S3x128x256_S1x128x256_2_0_0 : S3x128x256.Slices ![2, 0, 0] S1x128x256
  dot_S512x32_S32x128_S512x128_1_0_0_1_n_n_wf : DotDims.WF S512x32 S32x128 S512x128 [1] [0] [0] [1] [] []
  dot_S512x128_S128x128_S512x128_1_0_0_1_n_n_wf : DotDims.WF S512x128 S128x128 S512x128 [1] [0] [0] [1] [] []
  dot_S512x512x128_S128x128_S512x512x128_2_1_01_0_n_n_wf : DotDims.WF S512x512x128 S128x128 S512x512x128 [2] [1] [0, 1] [0] [] []
  dot_S512x256_S256x128_S512x128_1_0_0_1_n_n_wf : DotDims.WF S512x256 S256x128 S512x128 [1] [0] [0] [1] [] []

variable [Facts₀]

def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512x128_S128x128_S512x512x128_2_1_01_0_n_n : DotDims S512x512x128 S128x128 S512x512x128 where
  lhsContracting := [2]
  rhsContracting := [1]
  lhsNonContracting := [0, 1]
  rhsNonContracting := [0]
  lhsBatch := []
  rhsBatch := []
  wf := dot_S512x512x128_S128x128_S512x512x128_2_1_01_0_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.RefSegments.lean ====
/-
  The plain program's 310 host operations, cut into four consecutive segments.

  The cuts sit in front of the three `concatenate` operations that join a layer's node features with its aggregate:
  segment 0 is the encoder, the distances and the first layer's messages; segments 1 and 2 are an update perceptron
  followed by the next layer's messages; segment 3 is the last update perceptron. Each segment reads the segments
  before it only through a handful of buffers, which is what makes the program's result computable segment by segment.
-/
import proofs.«170678_j11312943857830_2_alg».proof.Proof.Gen.ReferenceIdeal
import Idealize.ShloMosaic.Lib.StableHlo.Run

noncomputable section

namespace Cert.ReferenceIdeal.Segments

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Segment 0: operations 0 to 103 of the program, in order. -/
abbrev seg0 : List (HloOp τ sig (Elt F)) :=
  [ unary main_arg2 main_v0 ((transpose S32x128 [1, 0] · transposes_S128x32_S32x128_1_0) : (⟨S128x32, .f32⟩ : BufTy).Contents (Elt F) → (⟨S32x128, .f32⟩ : BufTy).Contents (Elt F)),
    binary main_arg0 main_v0 main_v1 ((fun l r => Host.dotGeneral dot_S512x32_S32x128_S512x128_1_0_0_1_n_n none l r) : (⟨S512x32, .f32⟩ : BufTy).Contents (Elt F) → (⟨S32x128, .f32⟩ : BufTy).Contents (Elt F) → (⟨S512x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S512x128 ![0, 1] bcast_S1x128_S512x128_0_1 : (⟨S1x128, .f32⟩ : BufTy).Contents (Elt F) → (⟨S512x128, .f32⟩ : BufTy).Contents (Elt F)),
    binary main_v1 main_v3 main_v4 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512x128, .f32⟩) main_call0_v0) (broadcastInDim S512x128 ![] bcast_S_S512x128),
    TRef.binary (TRef.of (T := ⟨S512x128, .f32⟩) main_v4) (TRef.of (T := ⟨S512x128, .f32⟩) main_call0_v0) (TRef.of (T := ⟨S512x128, .f32⟩) main_v5) maximumf,
    unary main_arg4 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S512x128 ![0, 1] bcast_S1x128_S512x128_0_1 : (⟨S1x128, .f32⟩ : BufTy).Contents (Elt F) → (⟨S512x128, .f32⟩ : BufTy).Contents (Elt F)),
    binary main_v7 main_v9 main_v10 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S512x128, .f32⟩) main_call1_v0) (broadcastInDim S512x128 ![] bcast_S_S512x128),
    TRef.binary (TRef.of (T := ⟨S512x128, .f32⟩) main_v10) (TRef.of (T := ⟨S512x128, .f32⟩) main_call1_v0) (TRef.of (T := ⟨S512x128, .f32⟩) main_v11) maximumf,
    unary main_arg6 main_v12 ((transpose S128x128 [1, 0] · transposes_S128x128_S128x128_1_0) : (⟨S128x128, .f32⟩ : BufTy).Contents (Elt F) → (⟨S128x128, .f32⟩ : BufTy).Contents (Elt F)),
    binary main_v11 main_v12 main_v13 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg7 main_v14 (broadcastInDim S1x128 ![1] bcast_S128_S1x128_1 : (⟨S128, .f32⟩ : BufTy).Contents (Elt F) → (⟨S1x128, .f32⟩ : BufTy).Contents (Elt F)),
    unary main_v14 main_v15 (broadcastInDim S512x128 ![0, 1] bcast_S1x128_S512x128_0_1 : (⟨S1x128, .f32⟩ : BufTy).Contents (Elt F) → (⟨S512x128, .f32⟩ : BufTy).Contents (Elt F)),
    binary main_v13 main_v15 main_v16 (addf : (⟨S512x128, .f32⟩ : BufTy).Contents (Elt F) → (⟨S512x128, .f32⟩ : BufTy).Contents (Elt F) → (⟨S512x128, .f32⟩ : BufTy).Contents (Elt F)),
    unary main_arg1 main_v17 (broadcastInDim S512x1x2 ![0, 2] bcast_S512x2_S512x1x2_0_2 : (⟨S512x2, .f32⟩ : BufTy).Contents (Elt F) → (⟨S512x1x2, .f32⟩ : BufTy).Contents (Elt F)),
    unary main_arg1 main_v18 (broadcastInDim S1x512x2 ![1, 2] bcast_S512x2_S1x512x2_1_2 : (⟨S512x2, .f32⟩ : BufTy).Contents (Elt F) → (⟨S1x512x2, .f32⟩ : BufTy).Contents (Elt F)),
    unary main_v17 main_v19 (broadcastInDim S512x512x2 ![0, 1, 2] bcast_S512x1x2_S512x512x2_0_1_2 : (⟨S512x1x2, .f32⟩ : BufTy).Contents (Elt F) → (⟨S512x512x2, .f32⟩ : BufTy).Contents (Elt F)),
    unary main_v18 main_v20 (broadcastInDim S512x512x2 ![0, 1, 2] bcast_S1x512x2_S512x512x2_0_1_2 : (⟨S1x512x2, .f32⟩ : BufTy).Contents (Elt F) → (⟨S512x512x2, .f32⟩ : BufTy).Contents (Elt F)),
    binary main_v19 main_v20 main_v21 (subf : (⟨S512x512x2, .f32⟩ : BufTy).Contents (Elt F) → (⟨S512x512x2, .f32⟩ : BufTy).Contents (Elt F) → (⟨S512x512x2, .f32⟩ : BufTy).Contents (Elt F)),
    binary main_v21 main_v21 main_v22 (mulf : (⟨S512x512x2, .f32⟩ : BufTy).Contents (Elt F) → (⟨S512x512x2, .f32⟩ : BufTy).Contents (Elt F) → (⟨S512x512x2, .f32⟩ : BufTy).Contents (Elt F)),
    nullary main_cst (constant S_ .f32 0x00000000#32),
    binary main_v22 main_cst main_v23 ((fun x v => Host.reduceAdd x v reducesTo_S512x512x2_S512x512_d2 h_S_) : (⟨S512x512x2, .f32⟩ : BufTy).Contents (Elt F) → (⟨S_, .f32⟩ : BufTy).Contents (Elt F) → (⟨S512x512, .f32⟩ : BufTy).Contents (Elt F)),
    nullary main_v24 (iotaInDim S512x512 32 0),
    nullary main_v25 (iotaInDim S512x512 32 1),
    nullary main_c (constantI S_ 32 0#32),
    unary main_c main_v26 (broadcastInDim S512x512 ![] bcast_S_S512x512 : (⟨S_, .i32⟩ : BufTy).Contents (Elt F) → (⟨S512x512, .i32⟩ : BufTy).Contents (Elt F)),
    binary main_v24 main_v26 main_v27 (addi : (⟨S512x512, .i32⟩ : BufTy).Contents (Elt F) → (⟨S512x512, .i32⟩ : BufTy).Contents (Elt F) → (⟨S512x512, .i32⟩ : BufTy).Contents (Elt F)),
    binary main_v27 main_v25 main_v28 (cmpi .eq : (⟨S512x512, .i32⟩ : BufTy).Contents (Elt F) → (⟨S512x512, .i32⟩ : BufTy).Contents (Elt F) → (⟨S512x512, .i1⟩ : BufTy).Contents (Elt F)),
    unary main_v28 main_v29 (uitofp .f32 : (⟨S512x512, .i1⟩ : BufTy).Contents (Elt F) → (⟨S512x512, .f32⟩ : BufTy).Contents (Elt F)),
    nullary main_cst_0 (constant S_ .f32 0x00000000#32),
    unary main_cst_0 main_v30 (broadcastInDim S512x512 ![] bcast_S_S512x512 : (⟨S_, .f32⟩ : BufTy).Contents (Elt F) → (⟨S512x512, .f32⟩ : BufTy).Contents (Elt F)),
    binary main_v29 main_v30 main_v31 (cmpf .ogt : (⟨S512x512, .f32⟩ : BufTy).Contents (Elt F) → (⟨S512x512, .f32⟩ : BufTy).Contents (Elt F) → (⟨S512x512, .i1⟩ : BufTy).Contents (Elt F)),
    nullary main_cst_1 (constant S_ .f32 0x3F800000#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S512x512, .f32⟩) main_call2_v1) (broadcastInDim S512x512 ![] bcast_S_S512x512),
    TRef.ternary (TRef.of (T := ⟨S512x512, .i1⟩) main_v31) (TRef.of (T := ⟨S512x512, .f32⟩) main_call2_v1) (TRef.of (T := ⟨S512x512, .f32⟩) main_v23) (TRef.of (T := ⟨S512x512, .f32⟩) main_v32) select,
    unary main_v32 main_v33 (Host.sqrt : (⟨S512x512, .f32⟩ : BufTy).Contents (Elt F) → (⟨S512x512, .f32⟩ : BufTy).Contents (Elt F)),
    nullary main_cst_2 (constant S_ .f32 0x3F800000#32),
    unary main_cst_2 main_v34 (broadcastInDim S512x512 ![] bcast_S_S512x512 : (⟨S_, .f32⟩ : BufTy).Contents (Elt F) → (⟨S512x512, .f32⟩ : BufTy).Contents (Elt F)),
    binary main_v34 main_v29 main_v35 (subf : (⟨S512x512, .f32⟩ : BufTy).Contents (Elt F) → (⟨S512x512, .f32⟩ : BufTy).Contents (Elt F) → (⟨S512x512, .f32⟩ : BufTy).Contents (Elt F)),
    binary main_v33 main_v35 main_v36 (mulf : (⟨S512x512, .f32⟩ : BufTy).Contents (Elt F) → (⟨S512x512, .f32⟩ : BufTy).Contents (Elt F) → (⟨S512x512, .f32⟩ : BufTy).Contents (Elt F)),
    nullary main_cst_3 (constant S_ .f32 0x3F800000#32),
    unary main_cst_3 main_v37 (broadcastInDim S512x512 ![] bcast_S_S512x512 : (⟨S_, .f32⟩ : BufTy).Contents (Elt F) → (⟨S512x512, .f32⟩ : BufTy).Contents (Elt F)),
    binary main_v37 main_v29 main_v38 (subf : (⟨S512x512, .f32⟩ : BufTy).Contents (Elt F) → (⟨S512x512, .f32⟩ : BufTy).Contents (Elt F) → (⟨S512x512, .f32⟩ : BufTy).Contents (Elt F)),
    unary main_v38 main_v39 (broadcastInDim S512x512x1 ![0, 1] bcast_S512x512_S512x512x1_0_1 : (⟨S512x512, .f32⟩ : BufTy).Contents (Elt F) → (⟨S512x512x1, .f32⟩ : BufTy).Contents (Elt F)),
    unary main_arg8 main_v40 ((extractStridedSlice S1x128x257 ![0, 0, 0] · slices_S3x128x257_S1x128x257_0_0_0) : (⟨S3x128x257, .f32⟩ : BufTy).Contents (Elt F) → (⟨S1x128x257, .f32⟩ : BufTy).Contents (Elt F)),
    reshape main_v40 main_v41 rfl shapeCasts_S1x128x257_S128x257,
    unary main_v41 main_v42 ((extractStridedSlice S128x128 ![0, 0] · slices_S128x257_S128x128_0_0) : (⟨S128x257, .f32⟩ : BufTy).Contents (Elt F) → (⟨S128x128, .f32⟩ : BufTy).Contents (Elt F)),
    unary main_v41 main_v43 ((extractStridedSlice S128x128 ![0, 128] · slices_S128x257_S128x128_0_128) : (⟨S128x257, .f32⟩ : BufTy).Contents (Elt F) → (⟨S128x128, .f32⟩ : BufTy).Contents (Elt F)),
    unary main_v41 main_v44 ((extractStridedSlice S128x1 ![0, 256] · slices_S128x257_S128x1_0_256) : (⟨S128x257, .f32⟩ : BufTy).Contents (Elt F) → (⟨S128x1, .f32⟩ : BufTy).Contents (Elt F)),
    reshape main_v44 main_v45 rfl shapeCasts_S128x1_S128,
    unary main_v42 main_v46 ((transpose S128x128 [1, 0] · transposes_S128x128_S128x128_1_0) : (⟨S128x128, .f32⟩ : BufTy).Contents (Elt F) → (⟨S128x128, .f32⟩ : BufTy).Contents (Elt F)),
    binary main_v16 main_v46 main_v47 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v43 main_v48 ((transpose S128x128 [1, 0] · transposes_S128x128_S128x128_1_0) : (⟨S128x128, .f32⟩ : BufTy).Contents (Elt F) → (⟨S128x128, .f32⟩ : BufTy).Contents (Elt F)),
    binary main_v16 main_v48 main_v49 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v47 main_v50 (broadcastInDim S512x1x128 ![0, 2] bcast_S512x128_S512x1x128_0_2 : (⟨S512x128, .f32⟩ : BufTy).Contents (Elt F) → (⟨S512x1x128, .f32⟩ : BufTy).Contents (Elt F)),
    unary main_v49 main_v51 (broadcastInDim S1x512x128 ![1, 2] bcast_S512x128_S1x512x128_1_2 : (⟨S512x128, .f32⟩ : BufTy).Contents (Elt F) → (⟨S1x512x128, .f32⟩ : BufTy).Contents (Elt F)),
    unary main_v50 main_v52 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v51 main_v53 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v52 main_v53 main_v54 (addf : (⟨S512x512x128, .f32⟩ : BufTy).Contents (Elt F) → (⟨S512x512x128, .f32⟩ : BufTy).Contents (Elt F) → (⟨S512x512x128, .f32⟩ : BufTy).Contents (Elt F)),
    unary main_v36 main_v55 (broadcastInDim S512x512x1 ![0, 1] bcast_S512x512_S512x512x1_0_1 : (⟨S512x512, .f32⟩ : BufTy).Contents (Elt F) → (⟨S512x512x1, .f32⟩ : BufTy).Contents (Elt F)),
    unary main_v45 main_v56 (broadcastInDim S1x1x128 ![2] bcast_S128_S1x1x128_2 : (⟨S128, .f32⟩ : BufTy).Contents (Elt F) → (⟨S1x1x128, .f32⟩ : BufTy).Contents (Elt F)),
    unary main_v55 main_v57 (broadcastInDim S512x512x128 ![0, 1, 2] bcast_S512x512x1_S512x512x128_0_1_2 : (⟨S512x512x1, .f32⟩ : BufTy).Contents (Elt F) → (⟨S512x512x128, .f32⟩ : BufTy).Contents (Elt F)),
    unary main_v56 main_v58 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v57 main_v58 main_v59 (mulf : (⟨S512x512x128, .f32⟩ : BufTy).Contents (Elt F) → (⟨S512x512x128, .f32⟩ : BufTy).Contents (Elt F) → (⟨S512x512x128, .f32⟩ : BufTy).Contents (Elt F)),
    binary main_v54 main_v59 main_v60 (addf : (⟨S512x512x128, .f32⟩ : BufTy).Contents (Elt F) → (⟨S512x512x128, .f32⟩ : BufTy).Contents (Elt F) → (⟨S512x512x128, .f32⟩ : BufTy).Contents (Elt F)),
    unary main_arg9 main_v61 ((extractStridedSlice S1x128 ![0, 0] · slices_S3x128_S1x128_0_0) : (⟨S3x128, .f32⟩ : BufTy).Contents (Elt F) → (⟨S1x128, .f32⟩ : BufTy).Contents (Elt F)),
    reshape main_v61 main_v62 rfl shapeCasts_S1x128_S128,
    unary main_v62 main_v63 (broadcastInDim S1x1x128 ![2] bcast_S128_S1x1x128_2 : (⟨S128, .f32⟩ : BufTy).Contents (Elt F) → (⟨S1x1x128, .f32⟩ : BufTy).Contents (Elt F)),
    unary main_v63 main_v64 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v60 main_v64 main_v65 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x512x128, .f32⟩) main_call3_v0) (broadcastInDim S512x512x128 ![] bcast_S_S512x512x128),
    TRef.binary (TRef.of (T := ⟨S512x512x128, .f32⟩) main_v65) (TRef.of (T := ⟨S512x512x128, .f32⟩) main_call3_v0) (TRef.of (T := ⟨S512x512x128, .f32⟩) main_v66) maximumf,
    unary main_arg10 main_v67 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg11 main_v70 ((extractStridedSlice S1x128 ![0, 0] · slices_S3x128_S1x128_0_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x1x128 ![2] bcast_S128_S1x1x128_2 : (⟨S128, .f32⟩ : BufTy).Contents (Elt F) → (⟨S1x1x128, .f32⟩ : BufTy).Contents (Elt F)),
    unary main_v72 main_v73 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v69 main_v73 main_v74 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x512x128, .f32⟩) main_call4_v0) (broadcastInDim S512x512x128 ![] bcast_S_S512x512x128),
    TRef.binary (TRef.of (T := ⟨S512x512x128, .f32⟩) main_v74) (TRef.of (T := ⟨S512x512x128, .f32⟩) main_call4_v0) (TRef.of (T := ⟨S512x512x128, .f32⟩) main_v75) maximumf,
    unary main_arg12 main_v76 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v76 main_v77 rfl shapeCasts_S1x128x128_S128x128,
    binary main_v75 main_v77 main_v78 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg13 main_v79 ((extractStridedSlice S1x128 ![0, 0] · slices_S3x128_S1x128_0_0) : (⟨S3x128, .f32⟩ : BufTy).Contents (Elt F) → (⟨S1x128, .f32⟩ : BufTy).Contents (Elt F)),
    reshape main_v79 main_v80 rfl shapeCasts_S1x128_S128,
    unary main_v80 main_v81 (broadcastInDim S1x1x128 ![2] bcast_S128_S1x1x128_2 : (⟨S128, .f32⟩ : BufTy).Contents (Elt F) → (⟨S1x1x128, .f32⟩ : BufTy).Contents (Elt F)),
    unary main_v81 main_v82 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v78 main_v82 main_v83 (addf : (⟨S512x512x128, .f32⟩ : BufTy).Contents (Elt F) → (⟨S512x512x128, .f32⟩ : BufTy).Contents (Elt F) → (⟨S512x512x128, .f32⟩ : BufTy).Contents (Elt F)),
    unary main_v39 main_v84 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_v83 main_v84 main_v85 (mulf : (⟨S512x512x128, .f32⟩ : BufTy).Contents (Elt F) → (⟨S512x512x128, .f32⟩ : BufTy).Contents (Elt F) → (⟨S512x512x128, .f32⟩ : BufTy).Contents (Elt F)),
    nullary main_cst_4 (constant S_ .f32 0x00000000#32),
    binary main_v85 main_cst_4 main_v86 ((fun x v => Host.reduceAdd x v reducesTo_S512x512x128_S512x128_d1 h_S_) : (⟨S512x512x128, .f32⟩ : BufTy).Contents (Elt F) → (⟨S_, .f32⟩ : BufTy).Contents (Elt F) → (⟨S512x128, .f32⟩ : BufTy).Contents (Elt F)) ]

set_option maxHeartbeats 4000000 in
/-- Segment 1: operations 104 to 189 of the program, in order. -/
abbrev seg1 : List (HloOp τ sig (Elt F)) :=
  [ binary main_v16 main_v86 main_v87 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    unary main_arg14 main_v88 ((extractStridedSlice S1x128x256 ![0, 0, 0] · slices_S3x128x256_S1x128x256_0_0_0) : (⟨S3x128x256, .f32⟩ : BufTy).Contents (Elt F) → (⟨S1x128x256, .f32⟩ : BufTy).Contents (Elt F)),
    reshape main_v88 main_v89 rfl shapeCasts_S1x128x256_S128x256,
    unary main_arg15 main_v90 ((extractStridedSlice S1x128 ![0, 0] · slices_S3x128_S1x128_0_0) : (⟨S3x128, .f32⟩ : BufTy).Contents (Elt F) → (⟨S1x128, .f32⟩ : BufTy).Contents (Elt F)),
    reshape main_v90 main_v91 rfl shapeCasts_S1x128_S128,
    unary main_arg16 main_v92 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v92 main_v93 rfl shapeCasts_S1x128x128_S128x128,
    unary main_arg17 main_v94 ((extractStridedSlice S1x128 ![0, 0] · slices_S3x128_S1x128_0_0) : (⟨S3x128, .f32⟩ : BufTy).Contents (Elt F) → (⟨S1x128, .f32⟩ : BufTy).Contents (Elt F)),
    reshape main_v94 main_v95 rfl shapeCasts_S1x128_S128,
    unary main_arg18 main_v96 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v96 main_v97 rfl shapeCasts_S1x128x128_S128x128,
    unary main_arg19 main_v98 ((extractStridedSlice S1x128 ![0, 0] · slices_S3x128_S1x128_0_0) : (⟨S3x128, .f32⟩ : BufTy).Contents (Elt F) → (⟨S1x128, .f32⟩ : BufTy).Contents (Elt F)),
    reshape main_v98 main_v99 rfl shapeCasts_S1x128_S128,
    unary main_v89 main_v100 ((transpose S256x128 [1, 0] · transposes_S128x256_S256x128_1_0) : (⟨S128x256, .f32⟩ : BufTy).Contents (Elt F) → (⟨S256x128, .f32⟩ : BufTy).Contents (Elt F)),
    binary main_v87 main_v100 main_v101 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_v91 main_v102 (broadcastInDim S1x128 ![1] bcast_S128_S1x128_1 : (⟨S128, .f32⟩ : BufTy).Contents (Elt F) → (⟨S1x128, .f32⟩ : BufTy).Contents (Elt F)),
    unary main_v102 main_v103 (broadcastInDim S512x128 ![0, 1] bcast_S1x128_S512x128_0_1 : (⟨S1x128, .f32⟩ : BufTy).Contents (Elt F) → (⟨S512x128, .f32⟩ : BufTy).Contents (Elt F)),
    binary main_v101 main_v103 main_v104 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x128, .f32⟩) main_call5_v0) (broadcastInDim S512x128 ![] bcast_S_S512x128),
    TRef.binary (TRef.of (T := ⟨S512x128, .f32⟩) main_v104) (TRef.of (T := ⟨S512x128, .f32⟩) main_call5_v0) (TRef.of (T := ⟨S512x128, .f32⟩) main_v105) maximumf,
    unary main_v93 main_v106 ((transpose S128x128 [1, 0] · transposes_S128x128_S128x128_1_0) : (⟨S128x128, .f32⟩ : BufTy).Contents (Elt F) → (⟨S128x128, .f32⟩ : BufTy).Contents (Elt F)),
    binary main_v105 main_v106 main_v107 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v95 main_v108 (broadcastInDim S1x128 ![1] bcast_S128_S1x128_1 : (⟨S128, .f32⟩ : BufTy).Contents (Elt F) → (⟨S1x128, .f32⟩ : BufTy).Contents (Elt F)),
    unary main_v108 main_v109 (broadcastInDim S512x128 ![0, 1] bcast_S1x128_S512x128_0_1 : (⟨S1x128, .f32⟩ : BufTy).Contents (Elt F) → (⟨S512x128, .f32⟩ : BufTy).Contents (Elt F)),
    binary main_v107 main_v109 main_v110 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x128, .f32⟩) main_call6_v0) (broadcastInDim S512x128 ![] bcast_S_S512x128),
    TRef.binary (TRef.of (T := ⟨S512x128, .f32⟩) main_v110) (TRef.of (T := ⟨S512x128, .f32⟩) main_call6_v0) (TRef.of (T := ⟨S512x128, .f32⟩) main_v111) maximumf,
    unary main_v97 main_v112 ((transpose S128x128 [1, 0] · transposes_S128x128_S128x128_1_0) : (⟨S128x128, .f32⟩ : BufTy).Contents (Elt F) → (⟨S128x128, .f32⟩ : BufTy).Contents (Elt F)),
    binary main_v111 main_v112 main_v113 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v99 main_v114 (broadcastInDim S1x128 ![1] bcast_S128_S1x128_1 : (⟨S128, .f32⟩ : BufTy).Contents (Elt F) → (⟨S1x128, .f32⟩ : BufTy).Contents (Elt F)),
    unary main_v114 main_v115 (broadcastInDim S512x128 ![0, 1] bcast_S1x128_S512x128_0_1 : (⟨S1x128, .f32⟩ : BufTy).Contents (Elt F) → (⟨S512x128, .f32⟩ : BufTy).Contents (Elt F)),
    binary main_v113 main_v115 main_v116 (addf : (⟨S512x128, .f32⟩ : BufTy).Contents (Elt F) → (⟨S512x128, .f32⟩ : BufTy).Contents (Elt F) → (⟨S512x128, .f32⟩ : BufTy).Contents (Elt F)),
    unary main_arg8 main_v117 ((extractStridedSlice S1x128x257 ![1, 0, 0] · slices_S3x128x257_S1x128x257_1_0_0) : (⟨S3x128x257, .f32⟩ : BufTy).Contents (Elt F) → (⟨S1x128x257, .f32⟩ : BufTy).Contents (Elt F)),
    reshape main_v117 main_v118 rfl shapeCasts_S1x128x257_S128x257,
    unary main_v118 main_v119 ((extractStridedSlice S128x128 ![0, 0] · slices_S128x257_S128x128_0_0) : (⟨S128x257, .f32⟩ : BufTy).Contents (Elt F) → (⟨S128x128, .f32⟩ : BufTy).Contents (Elt F)),
    unary main_v118 main_v120 ((extractStridedSlice S128x128 ![0, 128] · slices_S128x257_S128x128_0_128) : (⟨S128x257, .f32⟩ : BufTy).Contents (Elt F) → (⟨S128x128, .f32⟩ : BufTy).Contents (Elt F)),
    unary main_v118 main_v121 ((extractStridedSlice S128x1 ![0, 256] · slices_S128x257_S128x1_0_256) : (⟨S128x257, .f32⟩ : BufTy).Contents (Elt F) → (⟨S128x1, .f32⟩ : BufTy).Contents (Elt F)),
    reshape main_v121 main_v122 rfl shapeCasts_S128x1_S128,
    unary main_v119 main_v123 ((transpose S128x128 [1, 0] · transposes_S128x128_S128x128_1_0) : (⟨S128x128, .f32⟩ : BufTy).Contents (Elt F) → (⟨S128x128, .f32⟩ : BufTy).Contents (Elt F)),
    binary main_v116 main_v123 main_v124 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v120 main_v125 ((transpose S128x128 [1, 0] · transposes_S128x128_S128x128_1_0) : (⟨S128x128, .f32⟩ : BufTy).Contents (Elt F) → (⟨S128x128, .f32⟩ : BufTy).Contents (Elt F)),
    binary main_v116 main_v125 main_v126 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v124 main_v127 (broadcastInDim S512x1x128 ![0, 2] bcast_S512x128_S512x1x128_0_2 : (⟨S512x128, .f32⟩ : BufTy).Contents (Elt F) → (⟨S512x1x128, .f32⟩ : BufTy).Contents (Elt F)),
    unary main_v126 main_v128 (broadcastInDim S1x512x128 ![1, 2] bcast_S512x128_S1x512x128_1_2 : (⟨S512x128, .f32⟩ : BufTy).Contents (Elt F) → (⟨S1x512x128, .f32⟩ : BufTy).Contents (Elt F)),
    unary main_v127 main_v129 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v128 main_v130 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v129 main_v130 main_v131 (addf : (⟨S512x512x128, .f32⟩ : BufTy).Contents (Elt F) → (⟨S512x512x128, .f32⟩ : BufTy).Contents (Elt F) → (⟨S512x512x128, .f32⟩ : BufTy).Contents (Elt F)),
    unary main_v36 main_v132 (broadcastInDim S512x512x1 ![0, 1] bcast_S512x512_S512x512x1_0_1 : (⟨S512x512, .f32⟩ : BufTy).Contents (Elt F) → (⟨S512x512x1, .f32⟩ : BufTy).Contents (Elt F)),
    unary main_v122 main_v133 (broadcastInDim S1x1x128 ![2] bcast_S128_S1x1x128_2 : (⟨S128, .f32⟩ : BufTy).Contents (Elt F) → (⟨S1x1x128, .f32⟩ : BufTy).Contents (Elt F)),
    unary main_v132 main_v134 (broadcastInDim S512x512x128 ![0, 1, 2] bcast_S512x512x1_S512x512x128_0_1_2 : (⟨S512x512x1, .f32⟩ : BufTy).Contents (Elt F) → (⟨S512x512x128, .f32⟩ : BufTy).Contents (Elt F)),
    unary main_v133 main_v135 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v134 main_v135 main_v136 (mulf : (⟨S512x512x128, .f32⟩ : BufTy).Contents (Elt F) → (⟨S512x512x128, .f32⟩ : BufTy).Contents (Elt F) → (⟨S512x512x128, .f32⟩ : BufTy).Contents (Elt F)),
    binary main_v131 main_v136 main_v137 (addf : (⟨S512x512x128, .f32⟩ : BufTy).Contents (Elt F) → (⟨S512x512x128, .f32⟩ : BufTy).Contents (Elt F) → (⟨S512x512x128, .f32⟩ : BufTy).Contents (Elt F)),
    unary main_arg9 main_v138 ((extractStridedSlice S1x128 ![1, 0] · slices_S3x128_S1x128_1_0) : (⟨S3x128, .f32⟩ : BufTy).Contents (Elt F) → (⟨S1x128, .f32⟩ : BufTy).Contents (Elt F)),
    reshape main_v138 main_v139 rfl shapeCasts_S1x128_S128,
    unary main_v139 main_v140 (broadcastInDim S1x1x128 ![2] bcast_S128_S1x1x128_2 : (⟨S128, .f32⟩ : BufTy).Contents (Elt F) → (⟨S1x1x128, .f32⟩ : BufTy).Contents (Elt F)),
    unary main_v140 main_v141 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v137 main_v141 main_v142 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x512x128, .f32⟩) main_call7_v0) (broadcastInDim S512x512x128 ![] bcast_S_S512x512x128),
    TRef.binary (TRef.of (T := ⟨S512x512x128, .f32⟩) main_v142) (TRef.of (T := ⟨S512x512x128, .f32⟩) main_call7_v0) (TRef.of (T := ⟨S512x512x128, .f32⟩) main_v143) maximumf,
    unary main_arg10 main_v144 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v144 main_v145 rfl shapeCasts_S1x128x128_S128x128,
    binary main_v143 main_v145 main_v146 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg11 main_v147 ((extractStridedSlice S1x128 ![1, 0] · slices_S3x128_S1x128_1_0) : (⟨S3x128, .f32⟩ : BufTy).Contents (Elt F) → (⟨S1x128, .f32⟩ : BufTy).Contents (Elt F)),
    reshape main_v147 main_v148 rfl shapeCasts_S1x128_S128,
    unary main_v148 main_v149 (broadcastInDim S1x1x128 ![2] bcast_S128_S1x1x128_2 : (⟨S128, .f32⟩ : BufTy).Contents (Elt F) → (⟨S1x1x128, .f32⟩ : BufTy).Contents (Elt F)),
    unary main_v149 main_v150 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v146 main_v150 main_v151 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S512x512x128, .f32⟩) main_call8_v0) (broadcastInDim S512x512x128 ![] bcast_S_S512x512x128),
    TRef.binary (TRef.of (T := ⟨S512x512x128, .f32⟩) main_v151) (TRef.of (T := ⟨S512x512x128, .f32⟩) main_call8_v0) (TRef.of (T := ⟨S512x512x128, .f32⟩) main_v152) maximumf,
    unary main_arg12 main_v153 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v153 main_v154 rfl shapeCasts_S1x128x128_S128x128,
    binary main_v152 main_v154 main_v155 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg13 main_v156 ((extractStridedSlice S1x128 ![1, 0] · slices_S3x128_S1x128_1_0) : (⟨S3x128, .f32⟩ : BufTy).Contents (Elt F) → (⟨S1x128, .f32⟩ : BufTy).Contents (Elt F)),
    reshape main_v156 main_v157 rfl shapeCasts_S1x128_S128,
    unary main_v157 main_v158 (broadcastInDim S1x1x128 ![2] bcast_S128_S1x1x128_2 : (⟨S128, .f32⟩ : BufTy).Contents (Elt F) → (⟨S1x1x128, .f32⟩ : BufTy).Contents (Elt F)),
    unary main_v158 main_v159 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v155 main_v159 main_v160 (addf : (⟨S512x512x128, .f32⟩ : BufTy).Contents (Elt F) → (⟨S512x512x128, .f32⟩ : BufTy).Contents (Elt F) → (⟨S512x512x128, .f32⟩ : BufTy).Contents (Elt F)),
    unary main_v39 main_v161 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_v160 main_v161 main_v162 (mulf : (⟨S512x512x128, .f32⟩ : BufTy).Contents (Elt F) → (⟨S512x512x128, .f32⟩ : BufTy).Contents (Elt F) → (⟨S512x512x128, .f32⟩ : BufTy).Contents (Elt F)),
    nullary main_cst_5 (constant S_ .f32 0x00000000#32),
    binary main_v162 main_cst_5 main_v163 ((fun x v => Host.reduceAdd x v reducesTo_S512x512x128_S512x128_d1 h_S_) : (⟨S512x512x128, .f32⟩ : BufTy).Contents (Elt F) → (⟨S_, .f32⟩ : BufTy).Contents (Elt F) → (⟨S512x128, .f32⟩ : BufTy).Contents (Elt F)) ]

set_option maxHeartbeats 4000000 in
/-- Segment 2: operations 190 to 275 of the program, in order. -/
abbrev seg2 : List (HloOp τ sig (Elt F)) :=
  [ binary main_v116 main_v163 main_v164 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    unary main_arg14 main_v165 ((extractStridedSlice S1x128x256 ![1, 0, 0] · slices_S3x128x256_S1x128x256_1_0_0) : (⟨S3x128x256, .f32⟩ : BufTy).Contents (Elt F) → (⟨S1x128x256, .f32⟩ : BufTy).Contents (Elt F)),
    reshape main_v165 main_v166 rfl shapeCasts_S1x128x256_S128x256,
    unary main_arg15 main_v167 ((extractStridedSlice S1x128 ![1, 0] · slices_S3x128_S1x128_1_0) : (⟨S3x128, .f32⟩ : BufTy).Contents (Elt F) → (⟨S1x128, .f32⟩ : BufTy).Contents (Elt F)),
    reshape main_v167 main_v168 rfl shapeCasts_S1x128_S128,
    unary main_arg16 main_v169 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v169 main_v170 rfl shapeCasts_S1x128x128_S128x128,
    unary main_arg17 main_v171 ((extractStridedSlice S1x128 ![1, 0] · slices_S3x128_S1x128_1_0) : (⟨S3x128, .f32⟩ : BufTy).Contents (Elt F) → (⟨S1x128, .f32⟩ : BufTy).Contents (Elt F)),
    reshape main_v171 main_v172 rfl shapeCasts_S1x128_S128,
    unary main_arg18 main_v173 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v173 main_v174 rfl shapeCasts_S1x128x128_S128x128,
    unary main_arg19 main_v175 ((extractStridedSlice S1x128 ![1, 0] · slices_S3x128_S1x128_1_0) : (⟨S3x128, .f32⟩ : BufTy).Contents (Elt F) → (⟨S1x128, .f32⟩ : BufTy).Contents (Elt F)),
    reshape main_v175 main_v176 rfl shapeCasts_S1x128_S128,
    unary main_v166 main_v177 ((transpose S256x128 [1, 0] · transposes_S128x256_S256x128_1_0) : (⟨S128x256, .f32⟩ : BufTy).Contents (Elt F) → (⟨S256x128, .f32⟩ : BufTy).Contents (Elt F)),
    binary main_v164 main_v177 main_v178 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_v168 main_v179 (broadcastInDim S1x128 ![1] bcast_S128_S1x128_1 : (⟨S128, .f32⟩ : BufTy).Contents (Elt F) → (⟨S1x128, .f32⟩ : BufTy).Contents (Elt F)),
    unary main_v179 main_v180 (broadcastInDim S512x128 ![0, 1] bcast_S1x128_S512x128_0_1 : (⟨S1x128, .f32⟩ : BufTy).Contents (Elt F) → (⟨S512x128, .f32⟩ : BufTy).Contents (Elt F)),
    binary main_v178 main_v180 main_v181 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x128, .f32⟩) main_call9_v0) (broadcastInDim S512x128 ![] bcast_S_S512x128),
    TRef.binary (TRef.of (T := ⟨S512x128, .f32⟩) main_v181) (TRef.of (T := ⟨S512x128, .f32⟩) main_call9_v0) (TRef.of (T := ⟨S512x128, .f32⟩) main_v182) maximumf,
    unary main_v170 main_v183 ((transpose S128x128 [1, 0] · transposes_S128x128_S128x128_1_0) : (⟨S128x128, .f32⟩ : BufTy).Contents (Elt F) → (⟨S128x128, .f32⟩ : BufTy).Contents (Elt F)),
    binary main_v182 main_v183 main_v184 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v172 main_v185 (broadcastInDim S1x128 ![1] bcast_S128_S1x128_1 : (⟨S128, .f32⟩ : BufTy).Contents (Elt F) → (⟨S1x128, .f32⟩ : BufTy).Contents (Elt F)),
    unary main_v185 main_v186 (broadcastInDim S512x128 ![0, 1] bcast_S1x128_S512x128_0_1 : (⟨S1x128, .f32⟩ : BufTy).Contents (Elt F) → (⟨S512x128, .f32⟩ : BufTy).Contents (Elt F)),
    binary main_v184 main_v186 main_v187 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x128, .f32⟩) main_call10_v0) (broadcastInDim S512x128 ![] bcast_S_S512x128),
    TRef.binary (TRef.of (T := ⟨S512x128, .f32⟩) main_v187) (TRef.of (T := ⟨S512x128, .f32⟩) main_call10_v0) (TRef.of (T := ⟨S512x128, .f32⟩) main_v188) maximumf,
    unary main_v174 main_v189 ((transpose S128x128 [1, 0] · transposes_S128x128_S128x128_1_0) : (⟨S128x128, .f32⟩ : BufTy).Contents (Elt F) → (⟨S128x128, .f32⟩ : BufTy).Contents (Elt F)),
    binary main_v188 main_v189 main_v190 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v176 main_v191 (broadcastInDim S1x128 ![1] bcast_S128_S1x128_1 : (⟨S128, .f32⟩ : BufTy).Contents (Elt F) → (⟨S1x128, .f32⟩ : BufTy).Contents (Elt F)),
    unary main_v191 main_v192 (broadcastInDim S512x128 ![0, 1] bcast_S1x128_S512x128_0_1 : (⟨S1x128, .f32⟩ : BufTy).Contents (Elt F) → (⟨S512x128, .f32⟩ : BufTy).Contents (Elt F)),
    binary main_v190 main_v192 main_v193 (addf : (⟨S512x128, .f32⟩ : BufTy).Contents (Elt F) → (⟨S512x128, .f32⟩ : BufTy).Contents (Elt F) → (⟨S512x128, .f32⟩ : BufTy).Contents (Elt F)),
    unary main_arg8 main_v194 ((extractStridedSlice S1x128x257 ![2, 0, 0] · slices_S3x128x257_S1x128x257_2_0_0) : (⟨S3x128x257, .f32⟩ : BufTy).Contents (Elt F) → (⟨S1x128x257, .f32⟩ : BufTy).Contents (Elt F)),
    reshape main_v194 main_v195 rfl shapeCasts_S1x128x257_S128x257,
    unary main_v195 main_v196 ((extractStridedSlice S128x128 ![0, 0] · slices_S128x257_S128x128_0_0) : (⟨S128x257, .f32⟩ : BufTy).Contents (Elt F) → (⟨S128x128, .f32⟩ : BufTy).Contents (Elt F)),
    unary main_v195 main_v197 ((extractStridedSlice S128x128 ![0, 128] · slices_S128x257_S128x128_0_128) : (⟨S128x257, .f32⟩ : BufTy).Contents (Elt F) → (⟨S128x128, .f32⟩ : BufTy).Contents (Elt F)),
    unary main_v195 main_v198 ((extractStridedSlice S128x1 ![0, 256] · slices_S128x257_S128x1_0_256) : (⟨S128x257, .f32⟩ : BufTy).Contents (Elt F) → (⟨S128x1, .f32⟩ : BufTy).Contents (Elt F)),
    reshape main_v198 main_v199 rfl shapeCasts_S128x1_S128,
    unary main_v196 main_v200 ((transpose S128x128 [1, 0] · transposes_S128x128_S128x128_1_0) : (⟨S128x128, .f32⟩ : BufTy).Contents (Elt F) → (⟨S128x128, .f32⟩ : BufTy).Contents (Elt F)),
    binary main_v193 main_v200 main_v201 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v197 main_v202 ((transpose S128x128 [1, 0] · transposes_S128x128_S128x128_1_0) : (⟨S128x128, .f32⟩ : BufTy).Contents (Elt F) → (⟨S128x128, .f32⟩ : BufTy).Contents (Elt F)),
    binary main_v193 main_v202 main_v203 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v201 main_v204 (broadcastInDim S512x1x128 ![0, 2] bcast_S512x128_S512x1x128_0_2 : (⟨S512x128, .f32⟩ : BufTy).Contents (Elt F) → (⟨S512x1x128, .f32⟩ : BufTy).Contents (Elt F)),
    unary main_v203 main_v205 (broadcastInDim S1x512x128 ![1, 2] bcast_S512x128_S1x512x128_1_2 : (⟨S512x128, .f32⟩ : BufTy).Contents (Elt F) → (⟨S1x512x128, .f32⟩ : BufTy).Contents (Elt F)),
    unary main_v204 main_v206 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v205 main_v207 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v206 main_v207 main_v208 (addf : (⟨S512x512x128, .f32⟩ : BufTy).Contents (Elt F) → (⟨S512x512x128, .f32⟩ : BufTy).Contents (Elt F) → (⟨S512x512x128, .f32⟩ : BufTy).Contents (Elt F)),
    unary main_v36 main_v209 (broadcastInDim S512x512x1 ![0, 1] bcast_S512x512_S512x512x1_0_1 : (⟨S512x512, .f32⟩ : BufTy).Contents (Elt F) → (⟨S512x512x1, .f32⟩ : BufTy).Contents (Elt F)),
    unary main_v199 main_v210 (broadcastInDim S1x1x128 ![2] bcast_S128_S1x1x128_2 : (⟨S128, .f32⟩ : BufTy).Contents (Elt F) → (⟨S1x1x128, .f32⟩ : BufTy).Contents (Elt F)),
    unary main_v209 main_v211 (broadcastInDim S512x512x128 ![0, 1, 2] bcast_S512x512x1_S512x512x128_0_1_2 : (⟨S512x512x1, .f32⟩ : BufTy).Contents (Elt F) → (⟨S512x512x128, .f32⟩ : BufTy).Contents (Elt F)),
    unary main_v210 main_v212 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v211 main_v212 main_v213 (mulf : (⟨S512x512x128, .f32⟩ : BufTy).Contents (Elt F) → (⟨S512x512x128, .f32⟩ : BufTy).Contents (Elt F) → (⟨S512x512x128, .f32⟩ : BufTy).Contents (Elt F)),
    binary main_v208 main_v213 main_v214 (addf : (⟨S512x512x128, .f32⟩ : BufTy).Contents (Elt F) → (⟨S512x512x128, .f32⟩ : BufTy).Contents (Elt F) → (⟨S512x512x128, .f32⟩ : BufTy).Contents (Elt F)),
    unary main_arg9 main_v215 ((extractStridedSlice S1x128 ![2, 0] · slices_S3x128_S1x128_2_0) : (⟨S3x128, .f32⟩ : BufTy).Contents (Elt F) → (⟨S1x128, .f32⟩ : BufTy).Contents (Elt F)),
    reshape main_v215 main_v216 rfl shapeCasts_S1x128_S128,
    unary main_v216 main_v217 (broadcastInDim S1x1x128 ![2] bcast_S128_S1x1x128_2 : (⟨S128, .f32⟩ : BufTy).Contents (Elt F) → (⟨S1x1x128, .f32⟩ : BufTy).Contents (Elt F)),
    unary main_v217 main_v218 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v214 main_v218 main_v219 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S512x512x128, .f32⟩) main_call11_v0) (broadcastInDim S512x512x128 ![] bcast_S_S512x512x128),
    TRef.binary (TRef.of (T := ⟨S512x512x128, .f32⟩) main_v219) (TRef.of (T := ⟨S512x512x128, .f32⟩) main_call11_v0) (TRef.of (T := ⟨S512x512x128, .f32⟩) main_v220) maximumf,
    unary main_arg10 main_v221 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v221 main_v222 rfl shapeCasts_S1x128x128_S128x128,
    binary main_v220 main_v222 main_v223 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg11 main_v224 ((extractStridedSlice S1x128 ![2, 0] · slices_S3x128_S1x128_2_0) : (⟨S3x128, .f32⟩ : BufTy).Contents (Elt F) → (⟨S1x128, .f32⟩ : BufTy).Contents (Elt F)),
    reshape main_v224 main_v225 rfl shapeCasts_S1x128_S128,
    unary main_v225 main_v226 (broadcastInDim S1x1x128 ![2] bcast_S128_S1x1x128_2 : (⟨S128, .f32⟩ : BufTy).Contents (Elt F) → (⟨S1x1x128, .f32⟩ : BufTy).Contents (Elt F)),
    unary main_v226 main_v227 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v223 main_v227 main_v228 (addf : (⟨S512x512x128, .f32⟩ : BufTy).Contents (Elt F) → (⟨S512x512x128, .f32⟩ : BufTy).Contents (Elt F) → (⟨S512x512x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S512x512x128, .f32⟩) main_call12_v0) (broadcastInDim S512x512x128 ![] bcast_S_S512x512x128),
    TRef.binary (TRef.of (T := ⟨S512x512x128, .f32⟩) main_v228) (TRef.of (T := ⟨S512x512x128, .f32⟩) main_call12_v0) (TRef.of (T := ⟨S512x512x128, .f32⟩) main_v229) maximumf,
    unary main_arg12 main_v230 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v230 main_v231 rfl shapeCasts_S1x128x128_S128x128,
    binary main_v229 main_v231 main_v232 ((fun l r => Host.dotGeneral dot_S512x512x128_S128x128_S512x512x128_2_1_01_0_n_n none l r) : (⟨S512x512x128, .f32⟩ : BufTy).Contents (Elt F) → (⟨S128x128, .f32⟩ : BufTy).Contents (Elt F) → (⟨S512x512x128, .f32⟩ : BufTy).Contents (Elt F)),
    unary main_arg13 main_v233 ((extractStridedSlice S1x128 ![2, 0] · slices_S3x128_S1x128_2_0) : (⟨S3x128, .f32⟩ : BufTy).Contents (Elt F) → (⟨S1x128, .f32⟩ : BufTy).Contents (Elt F)),
    reshape main_v233 main_v234 rfl shapeCasts_S1x128_S128,
    unary main_v234 main_v235 (broadcastInDim S1x1x128 ![2] bcast_S128_S1x1x128_2 : (⟨S128, .f32⟩ : BufTy).Contents (Elt F) → (⟨S1x1x128, .f32⟩ : BufTy).Contents (Elt F)),
    unary main_v235 main_v236 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v232 main_v236 main_v237 (addf : (⟨S512x512x128, .f32⟩ : BufTy).Contents (Elt F) → (⟨S512x512x128, .f32⟩ : BufTy).Contents (Elt F) → (⟨S512x512x128, .f32⟩ : BufTy).Contents (Elt F)),
    unary main_v39 main_v238 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_v237 main_v238 main_v239 (mulf : (⟨S512x512x128, .f32⟩ : BufTy).Contents (Elt F) → (⟨S512x512x128, .f32⟩ : BufTy).Contents (Elt F) → (⟨S512x512x128, .f32⟩ : BufTy).Contents (Elt F)),
    nullary main_cst_6 (constant S_ .f32 0x00000000#32),
    binary main_v239 main_cst_6 main_v240 ((fun x v => Host.reduceAdd x v reducesTo_S512x512x128_S512x128_d1 h_S_) : (⟨S512x512x128, .f32⟩ : BufTy).Contents (Elt F) → (⟨S_, .f32⟩ : BufTy).Contents (Elt F) → (⟨S512x128, .f32⟩ : BufTy).Contents (Elt F)) ]

set_option maxHeartbeats 4000000 in
/-- Segment 3: operations 276 to 309 of the program, in order. -/
abbrev seg3 : List (HloOp τ sig (Elt F)) :=
  [ binary main_v193 main_v240 main_v241 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    unary main_arg14 main_v242 ((extractStridedSlice S1x128x256 ![2, 0, 0] · slices_S3x128x256_S1x128x256_2_0_0) : (⟨S3x128x256, .f32⟩ : BufTy).Contents (Elt F) → (⟨S1x128x256, .f32⟩ : BufTy).Contents (Elt F)),
    reshape main_v242 main_v243 rfl shapeCasts_S1x128x256_S128x256,
    unary main_arg15 main_v244 ((extractStridedSlice S1x128 ![2, 0] · slices_S3x128_S1x128_2_0) : (⟨S3x128, .f32⟩ : BufTy).Contents (Elt F) → (⟨S1x128, .f32⟩ : BufTy).Contents (Elt F)),
    reshape main_v244 main_v245 rfl shapeCasts_S1x128_S128,
    unary main_arg16 main_v246 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v246 main_v247 rfl shapeCasts_S1x128x128_S128x128,
    unary main_arg17 main_v248 ((extractStridedSlice S1x128 ![2, 0] · slices_S3x128_S1x128_2_0) : (⟨S3x128, .f32⟩ : BufTy).Contents (Elt F) → (⟨S1x128, .f32⟩ : BufTy).Contents (Elt F)),
    reshape main_v248 main_v249 rfl shapeCasts_S1x128_S128,
    unary main_arg18 main_v250 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v250 main_v251 rfl shapeCasts_S1x128x128_S128x128,
    unary main_arg19 main_v252 ((extractStridedSlice S1x128 ![2, 0] · slices_S3x128_S1x128_2_0) : (⟨S3x128, .f32⟩ : BufTy).Contents (Elt F) → (⟨S1x128, .f32⟩ : BufTy).Contents (Elt F)),
    reshape main_v252 main_v253 rfl shapeCasts_S1x128_S128,
    unary main_v243 main_v254 ((transpose S256x128 [1, 0] · transposes_S128x256_S256x128_1_0) : (⟨S128x256, .f32⟩ : BufTy).Contents (Elt F) → (⟨S256x128, .f32⟩ : BufTy).Contents (Elt F)),
    binary main_v241 main_v254 main_v255 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_v245 main_v256 (broadcastInDim S1x128 ![1] bcast_S128_S1x128_1 : (⟨S128, .f32⟩ : BufTy).Contents (Elt F) → (⟨S1x128, .f32⟩ : BufTy).Contents (Elt F)),
    unary main_v256 main_v257 (broadcastInDim S512x128 ![0, 1] bcast_S1x128_S512x128_0_1 : (⟨S1x128, .f32⟩ : BufTy).Contents (Elt F) → (⟨S512x128, .f32⟩ : BufTy).Contents (Elt F)),
    binary main_v255 main_v257 main_v258 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S512x128, .f32⟩) main_call13_v0) (broadcastInDim S512x128 ![] bcast_S_S512x128),
    TRef.binary (TRef.of (T := ⟨S512x128, .f32⟩) main_v258) (TRef.of (T := ⟨S512x128, .f32⟩) main_call13_v0) (TRef.of (T := ⟨S512x128, .f32⟩) main_v259) maximumf,
    unary main_v247 main_v260 ((transpose S128x128 [1, 0] · transposes_S128x128_S128x128_1_0) : (⟨S128x128, .f32⟩ : BufTy).Contents (Elt F) → (⟨S128x128, .f32⟩ : BufTy).Contents (Elt F)),
    binary main_v259 main_v260 main_v261 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v249 main_v262 (broadcastInDim S1x128 ![1] bcast_S128_S1x128_1 : (⟨S128, .f32⟩ : BufTy).Contents (Elt F) → (⟨S1x128, .f32⟩ : BufTy).Contents (Elt F)),
    unary main_v262 main_v263 (broadcastInDim S512x128 ![0, 1] bcast_S1x128_S512x128_0_1 : (⟨S1x128, .f32⟩ : BufTy).Contents (Elt F) → (⟨S512x128, .f32⟩ : BufTy).Contents (Elt F)),
    binary main_v261 main_v263 main_v264 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S512x128, .f32⟩) main_call14_v0) (broadcastInDim S512x128 ![] bcast_S_S512x128),
    TRef.binary (TRef.of (T := ⟨S512x128, .f32⟩) main_v264) (TRef.of (T := ⟨S512x128, .f32⟩) main_call14_v0) (TRef.of (T := ⟨S512x128, .f32⟩) main_v265) maximumf,
    unary main_v251 main_v266 ((transpose S128x128 [1, 0] · transposes_S128x128_S128x128_1_0) : (⟨S128x128, .f32⟩ : BufTy).Contents (Elt F) → (⟨S128x128, .f32⟩ : BufTy).Contents (Elt F)),
    binary main_v265 main_v266 main_v267 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v253 main_v268 (broadcastInDim S1x128 ![1] bcast_S128_S1x128_1 : (⟨S128, .f32⟩ : BufTy).Contents (Elt F) → (⟨S1x128, .f32⟩ : BufTy).Contents (Elt F)),
    unary main_v268 main_v269 (broadcastInDim S512x128 ![0, 1] bcast_S1x128_S512x128_0_1 : (⟨S1x128, .f32⟩ : BufTy).Contents (Elt F) → (⟨S512x128, .f32⟩ : BufTy).Contents (Elt F)),
    binary main_v267 main_v269 main_v270 (addf : (⟨S512x128, .f32⟩ : BufTy).Contents (Elt F) → (⟨S512x128, .f32⟩ : BufTy).Contents (Elt F) → (⟨S512x128, .f32⟩ : BufTy).Contents (Elt F)) ]

end Cert.ReferenceIdeal.Segments

end
-- ==== Proof.RefSeg0.lean ====
/-
  Segment 0 of the plain program, value by value.

  Started from any buffer contents that hold, in the few buffers the segment reads, the stages computed before it,
  the segment leaves in the buffers read after it the stages it computes; the buffers it does not write — the
  arguments among them — keep their contents.
-/
import proofs.«170678_j11312943857830_2_alg».proof.Proof.RefSegments
import proofs.«170678_j11312943857830_2_alg».proof.Proof.RefRead

noncomputable section

namespace Cert.ReferenceIdeal.RefSeg0

open Cert.ReferenceIdeal Cert.ReferenceIdeal.Gen Cert.ReferenceIdeal.Segments
open Idealize.ShloMosaic Idealize.ShloMosaic.TcCoe Idealize.SL.Sem Idealize.ShloMosaic.StableHlo

set_option maxRecDepth 8192 in
set_option maxHeartbeats 16000000 in
/-- After the segment, buffer `main_v16` holds its stage. -/
theorem at_v16 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13) :
    after (seg0 (F := Ideal)) V (Proc.devRef .tc main_v16) = Cert.ReferenceIdeal.ReadP.val_main_v16 (F := Ideal) x0 x2 x3 x4 x5 x6 x7 := by
  after_results_simp
  try simp only [h_arg0, h_arg1, h_arg2, h_arg3, h_arg4, h_arg5, h_arg6, h_arg7, h_arg8, h_arg9, h_arg10, h_arg11, h_arg12, h_arg13]
  all_goals rfl

set_option maxRecDepth 8192 in
set_option maxHeartbeats 16000000 in
/-- After the segment, buffer `main_v86` holds its stage. -/
theorem at_v86 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13) :
    after (seg0 (F := Ideal)) V (Proc.devRef .tc main_v86) = Cert.ReferenceIdeal.ReadP.val_main_v86 (F := Ideal) x0 x1 x2 x3 x4 x5 x6 x7 x8 x9 x10 x11 x12 x13 := by
  after_results_simp
  try simp only [h_arg0, h_arg1, h_arg2, h_arg3, h_arg4, h_arg5, h_arg6, h_arg7, h_arg8, h_arg9, h_arg10, h_arg11, h_arg12, h_arg13]
  all_goals rfl

set_option maxRecDepth 8192 in
set_option maxHeartbeats 16000000 in
/-- After the segment, buffer `main_v36` holds its stage. -/
theorem at_v36 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13) :
    after (seg0 (F := Ideal)) V (Proc.devRef .tc main_v36) = Cert.ReferenceIdeal.ReadP.val_main_v36 (F := Ideal) x1 := by
  after_results_simp
  try simp only [h_arg0, h_arg1, h_arg2, h_arg3, h_arg4, h_arg5, h_arg6, h_arg7, h_arg8, h_arg9, h_arg10, h_arg11, h_arg12, h_arg13]
  all_goals rfl

set_option maxRecDepth 8192 in
set_option maxHeartbeats 16000000 in
/-- After the segment, buffer `main_v39` holds its stage. -/
theorem at_v39 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13) :
    after (seg0 (F := Ideal)) V (Proc.devRef .tc main_v39) = Cert.ReferenceIdeal.ReadP.val_main_v39 (F := Ideal) := by
  after_results_simp
  try simp only [h_arg0, h_arg1, h_arg2, h_arg3, h_arg4, h_arg5, h_arg6, h_arg7, h_arg8, h_arg9, h_arg10, h_arg11, h_arg12, h_arg13]
  all_goals rfl

set_option maxRecDepth 8192 in
set_option maxHeartbeats 16000000 in
theorem keep_arg0 (V : Valuation τ sig (Elt Ideal)) :
    after (seg0 (F := Ideal)) V (Proc.devRef .tc main_arg0) = V (Proc.devRef .tc main_arg0) := by
  after_results_simp <;> rfl

set_option maxRecDepth 8192 in
set_option maxHeartbeats 16000000 in
theorem keep_arg1 (V : Valuation τ sig (Elt Ideal)) :
    after (seg0 (F := Ideal)) V (Proc.devRef .tc main_arg1) = V (Proc.devRef .tc main_arg1) := by
  after_results_simp <;> rfl

set_option maxRecDepth 8192 in
set_option maxHeartbeats 16000000 in
theorem keep_arg2 (V : Valuation τ sig (Elt Ideal)) :
    after (seg0 (F := Ideal)) V (Proc.devRef .tc main_arg2) = V (Proc.devRef .tc main_arg2) := by
  after_results_simp <;> rfl

set_option maxRecDepth 8192 in
set_option maxHeartbeats 16000000 in
theorem keep_arg3 (V : Valuation τ sig (Elt Ideal)) :
    after (seg0 (F := Ideal)) V (Proc.devRef .tc main_arg3) = V (Proc.devRef .tc main_arg3) := by
  after_results_simp <;> rfl

set_option maxRecDepth 8192 in
set_option maxHeartbeats 16000000 in
theorem keep_arg4 (V : Valuation τ sig (Elt Ideal)) :
    after (seg0 (F := Ideal)) V (Proc.devRef .tc main_arg4) = V (Proc.devRef .tc main_arg4) := by
  after_results_simp <;> rfl

set_option maxRecDepth 8192 in
set_option maxHeartbeats 16000000 in
theorem keep_arg5 (V : Valuation τ sig (Elt Ideal)) :
    after (seg0 (F := Ideal)) V (Proc.devRef .tc main_arg5) = V (Proc.devRef .tc main_arg5) := by
  after_results_simp <;> rfl

set_option maxRecDepth 8192 in
set_option maxHeartbeats 16000000 in
theorem keep_arg6 (V : Valuation τ sig (Elt Ideal)) :
    after (seg0 (F := Ideal)) V (Proc.devRef .tc main_arg6) = V (Proc.devRef .tc main_arg6) := by
  after_results_simp <;> rfl

set_option maxRecDepth 8192 in
set_option maxHeartbeats 16000000 in
theorem keep_arg7 (V : Valuation τ sig (Elt Ideal)) :
    after (seg0 (F := Ideal)) V (Proc.devRef .tc main_arg7) = V (Proc.devRef .tc main_arg7) := by
  after_results_simp <;> rfl

set_option maxRecDepth 8192 in
set_option maxHeartbeats 16000000 in
theorem keep_arg8 (V : Valuation τ sig (Elt Ideal)) :
    after (seg0 (F := Ideal)) V (Proc.devRef .tc main_arg8) = V (Proc.devRef .tc main_arg8) := by
  after_results_simp <;> rfl

set_option maxRecDepth 8192 in
set_option maxHeartbeats 16000000 in
theorem keep_arg9 (V : Valuation τ sig (Elt Ideal)) :
    after (seg0 (F := Ideal)) V (Proc.devRef .tc main_arg9) = V (Proc.devRef .tc main_arg9) := by
  after_results_simp <;> rfl

set_option maxRecDepth 8192 in
set_option maxHeartbeats 16000000 in
theorem keep_arg10 (V : Valuation τ sig (Elt Ideal)) :
    after (seg0 (F := Ideal)) V (Proc.devRef .tc main_arg10) = V (Proc.devRef .tc main_arg10) := by
  after_results_simp <;> rfl

set_option maxRecDepth 8192 in
set_option maxHeartbeats 16000000 in
theorem keep_arg11 (V : Valuation τ sig (Elt Ideal)) :
    after (seg0 (F := Ideal)) V (Proc.devRef .tc main_arg11) = V (Proc.devRef .tc main_arg11) := by
  after_results_simp <;> rfl

set_option maxRecDepth 8192 in
set_option maxHeartbeats 16000000 in
theorem keep_arg12 (V : Valuation τ sig (Elt Ideal)) :
    after (seg0 (F := Ideal)) V (Proc.devRef .tc main_arg12) = V (Proc.devRef .tc main_arg12) := by
  after_results_simp <;> rfl

set_option maxRecDepth 8192 in
set_option maxHeartbeats 16000000 in
theorem keep_arg13 (V : Valuation τ sig (Elt Ideal)) :
    after (seg0 (F := Ideal)) V (Proc.devRef .tc main_arg13) = V (Proc.devRef .tc main_arg13) := by
  after_results_simp <;> rfl

set_option maxRecDepth 8192 in
set_option maxHeartbeats 16000000 in
theorem keep_arg14 (V : Valuation τ sig (Elt Ideal)) :
    after (seg0 (F := Ideal)) V (Proc.devRef .tc main_arg14) = V (Proc.devRef .tc main_arg14) := by
  after_results_simp <;> rfl

set_option maxRecDepth 8192 in
set_option maxHeartbeats 16000000 in
theorem keep_arg15 (V : Valuation τ sig (Elt Ideal)) :
    after (seg0 (F := Ideal)) V (Proc.devRef .tc main_arg15) = V (Proc.devRef .tc main_arg15) := by
  after_results_simp <;> rfl

set_option maxRecDepth 8192 in
set_option maxHeartbeats 16000000 in
theorem keep_arg16 (V : Valuation τ sig (Elt Ideal)) :
    after (seg0 (F := Ideal)) V (Proc.devRef .tc main_arg16) = V (Proc.devRef .tc main_arg16) := by
  after_results_simp <;> rfl

set_option maxRecDepth 8192 in
set_option maxHeartbeats 16000000 in
theorem keep_arg17 (V : Valuation τ sig (Elt Ideal)) :
    after (seg0 (F := Ideal)) V (Proc.devRef .tc main_arg17) = V (Proc.devRef .tc main_arg17) := by
  after_results_simp <;> rfl

set_option maxRecDepth 8192 in
set_option maxHeartbeats 16000000 in
theorem keep_arg18 (V : Valuation τ sig (Elt Ideal)) :
    after (seg0 (F := Ideal)) V (Proc.devRef .tc main_arg18) = V (Proc.devRef .tc main_arg18) := by
  after_results_simp <;> rfl

set_option maxRecDepth 8192 in
set_option maxHeartbeats 16000000 in
theorem keep_arg19 (V : Valuation τ sig (Elt Ideal)) :
    after (seg0 (F := Ideal)) V (Proc.devRef .tc main_arg19) = V (Proc.devRef .tc main_arg19) := by
  after_results_simp <;> rfl

end Cert.ReferenceIdeal.RefSeg0

end
-- ==== Proof.RefSeg1.lean ====
/-
  Segment 1 of the plain program, value by value.

  Started from any buffer contents that hold, in the few buffers the segment reads, the stages computed before it,
  the segment leaves in the buffers read after it the stages it computes; the buffers it does not write — the
  arguments among them — keep their contents.
-/
import proofs.«170678_j11312943857830_2_alg».proof.Proof.RefSegments
import proofs.«170678_j11312943857830_2_alg».proof.Proof.RefRead

noncomputable section

namespace Cert.ReferenceIdeal.RefSeg1

open Cert.ReferenceIdeal Cert.ReferenceIdeal.Gen Cert.ReferenceIdeal.Segments
open Idealize.ShloMosaic Idealize.ShloMosaic.TcCoe Idealize.SL.Sem Idealize.ShloMosaic.StableHlo

set_option maxRecDepth 8192 in
set_option maxHeartbeats 16000000 in
/-- After the segment, buffer `main_v116` holds its stage. -/
theorem at_v116 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_v16 : V (Proc.devRef .tc main_v16) = Cert.ReferenceIdeal.ReadP.val_main_v16 (F := Ideal) x0 x2 x3 x4 x5 x6 x7)
    (h_v86 : V (Proc.devRef .tc main_v86) = Cert.ReferenceIdeal.ReadP.val_main_v86 (F := Ideal) x0 x1 x2 x3 x4 x5 x6 x7 x8 x9 x10 x11 x12 x13)
    (h_v36 : V (Proc.devRef .tc main_v36) = Cert.ReferenceIdeal.ReadP.val_main_v36 (F := Ideal) x1)
    (h_v39 : V (Proc.devRef .tc main_v39) = Cert.ReferenceIdeal.ReadP.val_main_v39 (F := Ideal))
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13)
    (h_arg14 : V (Proc.devRef .tc main_arg14) = x14)
    (h_arg15 : V (Proc.devRef .tc main_arg15) = x15)
    (h_arg16 : V (Proc.devRef .tc main_arg16) = x16)
    (h_arg17 : V (Proc.devRef .tc main_arg17) = x17)
    (h_arg18 : V (Proc.devRef .tc main_arg18) = x18)
    (h_arg19 : V (Proc.devRef .tc main_arg19) = x19) :
    after (seg1 (F := Ideal)) V (Proc.devRef .tc main_v116) = Cert.ReferenceIdeal.ReadP.val_main_v116 (F := Ideal) x0 x1 x2 x3 x4 x5 x6 x7 x8 x9 x10 x11 x12 x13 x14 x15 x16 x17 x18 x19 := by
  after_results_simp
  try simp only [h_arg8, h_arg9, h_arg10, h_arg11, h_arg12, h_arg13, h_arg14, h_arg15, h_arg16, h_arg17, h_arg18, h_arg19]
  try rw [h_v16]
  try rw [h_v86]
  try rw [h_v36]
  try rw [h_v39]
  all_goals rfl

set_option maxRecDepth 8192 in
set_option maxHeartbeats 16000000 in
/-- After the segment, buffer `main_v163` holds its stage. -/
theorem at_v163 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_v16 : V (Proc.devRef .tc main_v16) = Cert.ReferenceIdeal.ReadP.val_main_v16 (F := Ideal) x0 x2 x3 x4 x5 x6 x7)
    (h_v86 : V (Proc.devRef .tc main_v86) = Cert.ReferenceIdeal.ReadP.val_main_v86 (F := Ideal) x0 x1 x2 x3 x4 x5 x6 x7 x8 x9 x10 x11 x12 x13)
    (h_v36 : V (Proc.devRef .tc main_v36) = Cert.ReferenceIdeal.ReadP.val_main_v36 (F := Ideal) x1)
    (h_v39 : V (Proc.devRef .tc main_v39) = Cert.ReferenceIdeal.ReadP.val_main_v39 (F := Ideal))
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13)
    (h_arg14 : V (Proc.devRef .tc main_arg14) = x14)
    (h_arg15 : V (Proc.devRef .tc main_arg15) = x15)
    (h_arg16 : V (Proc.devRef .tc main_arg16) = x16)
    (h_arg17 : V (Proc.devRef .tc main_arg17) = x17)
    (h_arg18 : V (Proc.devRef .tc main_arg18) = x18)
    (h_arg19 : V (Proc.devRef .tc main_arg19) = x19) :
    after (seg1 (F := Ideal)) V (Proc.devRef .tc main_v163) = Cert.ReferenceIdeal.ReadP.val_main_v163 (F := Ideal) x0 x1 x2 x3 x4 x5 x6 x7 x8 x9 x10 x11 x12 x13 x14 x15 x16 x17 x18 x19 := by
  after_results_simp
  try simp only [h_arg8, h_arg9, h_arg10, h_arg11, h_arg12, h_arg13, h_arg14, h_arg15, h_arg16, h_arg17, h_arg18, h_arg19]
  try rw [h_v16]
  try rw [h_v86]
  try rw [h_v36]
  try rw [h_v39]
  all_goals rfl

set_option maxRecDepth 8192 in
set_option maxHeartbeats 16000000 in
theorem keep_v36 (V : Valuation τ sig (Elt Ideal)) :
    after (seg1 (F := Ideal)) V (Proc.devRef .tc main_v36) = V (Proc.devRef .tc main_v36) := by
  after_results_simp <;> rfl

set_option maxRecDepth 8192 in
set_option maxHeartbeats 16000000 in
theorem keep_v39 (V : Valuation τ sig (Elt Ideal)) :
    after (seg1 (F := Ideal)) V (Proc.devRef .tc main_v39) = V (Proc.devRef .tc main_v39) := by
  after_results_simp <;> rfl

set_option maxRecDepth 8192 in
set_option maxHeartbeats 16000000 in
theorem keep_arg0 (V : Valuation τ sig (Elt Ideal)) :
    after (seg1 (F := Ideal)) V (Proc.devRef .tc main_arg0) = V (Proc.devRef .tc main_arg0) := by
  after_results_simp <;> rfl

set_option maxRecDepth 8192 in
set_option maxHeartbeats 16000000 in
theorem keep_arg1 (V : Valuation τ sig (Elt Ideal)) :
    after (seg1 (F := Ideal)) V (Proc.devRef .tc main_arg1) = V (Proc.devRef .tc main_arg1) := by
  after_results_simp <;> rfl

set_option maxRecDepth 8192 in
set_option maxHeartbeats 16000000 in
theorem keep_arg2 (V : Valuation τ sig (Elt Ideal)) :
    after (seg1 (F := Ideal)) V (Proc.devRef .tc main_arg2) = V (Proc.devRef .tc main_arg2) := by
  after_results_simp <;> rfl

set_option maxRecDepth 8192 in
set_option maxHeartbeats 16000000 in
theorem keep_arg3 (V : Valuation τ sig (Elt Ideal)) :
    after (seg1 (F := Ideal)) V (Proc.devRef .tc main_arg3) = V (Proc.devRef .tc main_arg3) := by
  after_results_simp <;> rfl

set_option maxRecDepth 8192 in
set_option maxHeartbeats 16000000 in
theorem keep_arg4 (V : Valuation τ sig (Elt Ideal)) :
    after (seg1 (F := Ideal)) V (Proc.devRef .tc main_arg4) = V (Proc.devRef .tc main_arg4) := by
  after_results_simp <;> rfl

set_option maxRecDepth 8192 in
set_option maxHeartbeats 16000000 in
theorem keep_arg5 (V : Valuation τ sig (Elt Ideal)) :
    after (seg1 (F := Ideal)) V (Proc.devRef .tc main_arg5) = V (Proc.devRef .tc main_arg5) := by
  after_results_simp <;> rfl

set_option maxRecDepth 8192 in
set_option maxHeartbeats 16000000 in
theorem keep_arg6 (V : Valuation τ sig (Elt Ideal)) :
    after (seg1 (F := Ideal)) V (Proc.devRef .tc main_arg6) = V (Proc.devRef .tc main_arg6) := by
  after_results_simp <;> rfl

set_option maxRecDepth 8192 in
set_option maxHeartbeats 16000000 in
theorem keep_arg7 (V : Valuation τ sig (Elt Ideal)) :
    after (seg1 (F := Ideal)) V (Proc.devRef .tc main_arg7) = V (Proc.devRef .tc main_arg7) := by
  after_results_simp <;> rfl

set_option maxRecDepth 8192 in
set_option maxHeartbeats 16000000 in
theorem keep_arg8 (V : Valuation τ sig (Elt Ideal)) :
    after (seg1 (F := Ideal)) V (Proc.devRef .tc main_arg8) = V (Proc.devRef .tc main_arg8) := by
  after_results_simp <;> rfl

set_option maxRecDepth 8192 in
set_option maxHeartbeats 16000000 in
theorem keep_arg9 (V : Valuation τ sig (Elt Ideal)) :
    after (seg1 (F := Ideal)) V (Proc.devRef .tc main_arg9) = V (Proc.devRef .tc main_arg9) := by
  after_results_simp <;> rfl

set_option maxRecDepth 8192 in
set_option maxHeartbeats 16000000 in
theorem keep_arg10 (V : Valuation τ sig (Elt Ideal)) :
    after (seg1 (F := Ideal)) V (Proc.devRef .tc main_arg10) = V (Proc.devRef .tc main_arg10) := by
  after_results_simp <;> rfl

set_option maxRecDepth 8192 in
set_option maxHeartbeats 16000000 in
theorem keep_arg11 (V : Valuation τ sig (Elt Ideal)) :
    after (seg1 (F := Ideal)) V (Proc.devRef .tc main_arg11) = V (Proc.devRef .tc main_arg11) := by
  after_results_simp <;> rfl

set_option maxRecDepth 8192 in
set_option maxHeartbeats 16000000 in
theorem keep_arg12 (V : Valuation τ sig (Elt Ideal)) :
    after (seg1 (F := Ideal)) V (Proc.devRef .tc main_arg12) = V (Proc.devRef .tc main_arg12) := by
  after_results_simp <;> rfl

set_option maxRecDepth 8192 in
set_option maxHeartbeats 16000000 in
theorem keep_arg13 (V : Valuation τ sig (Elt Ideal)) :
    after (seg1 (F := Ideal)) V (Proc.devRef .tc main_arg13) = V (Proc.devRef .tc main_arg13) := by
  after_results_simp <;> rfl

set_option maxRecDepth 8192 in
set_option maxHeartbeats 16000000 in
theorem keep_arg14 (V : Valuation τ sig (Elt Ideal)) :
    after (seg1 (F := Ideal)) V (Proc.devRef .tc main_arg14) = V (Proc.devRef .tc main_arg14) := by
  after_results_simp <;> rfl

set_option maxRecDepth 8192 in
set_option maxHeartbeats 16000000 in
theorem keep_arg15 (V : Valuation τ sig (Elt Ideal)) :
    after (seg1 (F := Ideal)) V (Proc.devRef .tc main_arg15) = V (Proc.devRef .tc main_arg15) := by
  after_results_simp <;> rfl

set_option maxRecDepth 8192 in
set_option maxHeartbeats 16000000 in
theorem keep_arg16 (V : Valuation τ sig (Elt Ideal)) :
    after (seg1 (F := Ideal)) V (Proc.devRef .tc main_arg16) = V (Proc.devRef .tc main_arg16) := by
  after_results_simp <;> rfl

set_option maxRecDepth 8192 in
set_option maxHeartbeats 16000000 in
theorem keep_arg17 (V : Valuation τ sig (Elt Ideal)) :
    after (seg1 (F := Ideal)) V (Proc.devRef .tc main_arg17) = V (Proc.devRef .tc main_arg17) := by
  after_results_simp <;> rfl

set_option maxRecDepth 8192 in
set_option maxHeartbeats 16000000 in
theorem keep_arg18 (V : Valuation τ sig (Elt Ideal)) :
    after (seg1 (F := Ideal)) V (Proc.devRef .tc main_arg18) = V (Proc.devRef .tc main_arg18) := by
  after_results_simp <;> rfl

set_option maxRecDepth 8192 in
set_option maxHeartbeats 16000000 in
theorem keep_arg19 (V : Valuation τ sig (Elt Ideal)) :
    after (seg1 (F := Ideal)) V (Proc.devRef .tc main_arg19) = V (Proc.devRef .tc main_arg19) := by
  after_results_simp <;> rfl

end Cert.ReferenceIdeal.RefSeg1

end
-- ==== Proof.RefSeg2.lean ====
/-
  Segment 2 of the plain program, value by value.

  Started from any buffer contents that hold, in the few buffers the segment reads, the stages computed before it,
  the segment leaves in the buffers read after it the stages it computes; the buffers it does not write — the
  arguments among them — keep their contents.
-/
import proofs.«170678_j11312943857830_2_alg».proof.Proof.RefSegments
import proofs.«170678_j11312943857830_2_alg».proof.Proof.RefRead

noncomputable section

namespace Cert.ReferenceIdeal.RefSeg2

open Cert.ReferenceIdeal Cert.ReferenceIdeal.Gen Cert.ReferenceIdeal.Segments
open Idealize.ShloMosaic Idealize.ShloMosaic.TcCoe Idealize.SL.Sem Idealize.ShloMosaic.StableHlo

set_option maxRecDepth 8192 in
set_option maxHeartbeats 16000000 in
/-- After the segment, buffer `main_v193` holds its stage. -/
theorem at_v193 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_v116 : V (Proc.devRef .tc main_v116) = Cert.ReferenceIdeal.ReadP.val_main_v116 (F := Ideal) x0 x1 x2 x3 x4 x5 x6 x7 x8 x9 x10 x11 x12 x13 x14 x15 x16 x17 x18 x19)
    (h_v163 : V (Proc.devRef .tc main_v163) = Cert.ReferenceIdeal.ReadP.val_main_v163 (F := Ideal) x0 x1 x2 x3 x4 x5 x6 x7 x8 x9 x10 x11 x12 x13 x14 x15 x16 x17 x18 x19)
    (h_v36 : V (Proc.devRef .tc main_v36) = Cert.ReferenceIdeal.ReadP.val_main_v36 (F := Ideal) x1)
    (h_v39 : V (Proc.devRef .tc main_v39) = Cert.ReferenceIdeal.ReadP.val_main_v39 (F := Ideal))
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13)
    (h_arg14 : V (Proc.devRef .tc main_arg14) = x14)
    (h_arg15 : V (Proc.devRef .tc main_arg15) = x15)
    (h_arg16 : V (Proc.devRef .tc main_arg16) = x16)
    (h_arg17 : V (Proc.devRef .tc main_arg17) = x17)
    (h_arg18 : V (Proc.devRef .tc main_arg18) = x18)
    (h_arg19 : V (Proc.devRef .tc main_arg19) = x19) :
    after (seg2 (F := Ideal)) V (Proc.devRef .tc main_v193) = Cert.ReferenceIdeal.ReadP.val_main_v193 (F := Ideal) x0 x1 x2 x3 x4 x5 x6 x7 x8 x9 x10 x11 x12 x13 x14 x15 x16 x17 x18 x19 := by
  after_results_simp
  try simp only [h_arg8, h_arg9, h_arg10, h_arg11, h_arg12, h_arg13, h_arg14, h_arg15, h_arg16, h_arg17, h_arg18, h_arg19]
  try rw [h_v116]
  try rw [h_v163]
  try rw [h_v36]
  try rw [h_v39]
  all_goals rfl

set_option maxRecDepth 8192 in
set_option maxHeartbeats 16000000 in
/-- After the segment, buffer `main_v240` holds its stage. -/
theorem at_v240 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_v116 : V (Proc.devRef .tc main_v116) = Cert.ReferenceIdeal.ReadP.val_main_v116 (F := Ideal) x0 x1 x2 x3 x4 x5 x6 x7 x8 x9 x10 x11 x12 x13 x14 x15 x16 x17 x18 x19)
    (h_v163 : V (Proc.devRef .tc main_v163) = Cert.ReferenceIdeal.ReadP.val_main_v163 (F := Ideal) x0 x1 x2 x3 x4 x5 x6 x7 x8 x9 x10 x11 x12 x13 x14 x15 x16 x17 x18 x19)
    (h_v36 : V (Proc.devRef .tc main_v36) = Cert.ReferenceIdeal.ReadP.val_main_v36 (F := Ideal) x1)
    (h_v39 : V (Proc.devRef .tc main_v39) = Cert.ReferenceIdeal.ReadP.val_main_v39 (F := Ideal))
    (h_arg8 : V (Proc.devRef .tc main_arg8) = x8)
    (h_arg9 : V (Proc.devRef .tc main_arg9) = x9)
    (h_arg10 : V (Proc.devRef .tc main_arg10) = x10)
    (h_arg11 : V (Proc.devRef .tc main_arg11) = x11)
    (h_arg12 : V (Proc.devRef .tc main_arg12) = x12)
    (h_arg13 : V (Proc.devRef .tc main_arg13) = x13)
    (h_arg14 : V (Proc.devRef .tc main_arg14) = x14)
    (h_arg15 : V (Proc.devRef .tc main_arg15) = x15)
    (h_arg16 : V (Proc.devRef .tc main_arg16) = x16)
    (h_arg17 : V (Proc.devRef .tc main_arg17) = x17)
    (h_arg18 : V (Proc.devRef .tc main_arg18) = x18)
    (h_arg19 : V (Proc.devRef .tc main_arg19) = x19) :
    after (seg2 (F := Ideal)) V (Proc.devRef .tc main_v240) = Cert.ReferenceIdeal.ReadP.val_main_v240 (F := Ideal) x0 x1 x2 x3 x4 x5 x6 x7 x8 x9 x10 x11 x12 x13 x14 x15 x16 x17 x18 x19 := by
  after_results_simp
  try simp only [h_arg8, h_arg9, h_arg10, h_arg11, h_arg12, h_arg13, h_arg14, h_arg15, h_arg16, h_arg17, h_arg18, h_arg19]
  try rw [h_v116]
  try rw [h_v163]
  try rw [h_v36]
  try rw [h_v39]
  all_goals rfl

set_option maxRecDepth 8192 in
set_option maxHeartbeats 16000000 in
theorem keep_v36 (V : Valuation τ sig (Elt Ideal)) :
    after (seg2 (F := Ideal)) V (Proc.devRef .tc main_v36) = V (Proc.devRef .tc main_v36) := by
  after_results_simp <;> rfl

set_option maxRecDepth 8192 in
set_option maxHeartbeats 16000000 in
theorem keep_v39 (V : Valuation τ sig (Elt Ideal)) :
    after (seg2 (F := Ideal)) V (Proc.devRef .tc main_v39) = V (Proc.devRef .tc main_v39) := by
  after_results_simp <;> rfl

set_option maxRecDepth 8192 in
set_option maxHeartbeats 16000000 in
theorem keep_arg0 (V : Valuation τ sig (Elt Ideal)) :
    after (seg2 (F := Ideal)) V (Proc.devRef .tc main_arg0) = V (Proc.devRef .tc main_arg0) := by
  after_results_simp <;> rfl

set_option maxRecDepth 8192 in
set_option maxHeartbeats 16000000 in
theorem keep_arg1 (V : Valuation τ sig (Elt Ideal)) :
    after (seg2 (F := Ideal)) V (Proc.devRef .tc main_arg1) = V (Proc.devRef .tc main_arg1) := by
  after_results_simp <;> rfl

set_option maxRecDepth 8192 in
set_option maxHeartbeats 16000000 in
theorem keep_arg2 (V : Valuation τ sig (Elt Ideal)) :
    after (seg2 (F := Ideal)) V (Proc.devRef .tc main_arg2) = V (Proc.devRef .tc main_arg2) := by
  after_results_simp <;> rfl

set_option maxRecDepth 8192 in
set_option maxHeartbeats 16000000 in
theorem keep_arg3 (V : Valuation τ sig (Elt Ideal)) :
    after (seg2 (F := Ideal)) V (Proc.devRef .tc main_arg3) = V (Proc.devRef .tc main_arg3) := by
  after_results_simp <;> rfl

set_option maxRecDepth 8192 in
set_option maxHeartbeats 16000000 in
theorem keep_arg4 (V : Valuation τ sig (Elt Ideal)) :
    after (seg2 (F := Ideal)) V (Proc.devRef .tc main_arg4) = V (Proc.devRef .tc main_arg4) := by
  after_results_simp <;> rfl

set_option maxRecDepth 8192 in
set_option maxHeartbeats 16000000 in
theorem keep_arg5 (V : Valuation τ sig (Elt Ideal)) :
    after (seg2 (F := Ideal)) V (Proc.devRef .tc main_arg5) = V (Proc.devRef .tc main_arg5) := by
  after_results_simp <;> rfl

set_option maxRecDepth 8192 in
set_option maxHeartbeats 16000000 in
theorem keep_arg6 (V : Valuation τ sig (Elt Ideal)) :
    after (seg2 (F := Ideal)) V (Proc.devRef .tc main_arg6) = V (Proc.devRef .tc main_arg6) := by
  after_results_simp <;> rfl

set_option maxRecDepth 8192 in
set_option maxHeartbeats 16000000 in
theorem keep_arg7 (V : Valuation τ sig (Elt Ideal)) :
    after (seg2 (F := Ideal)) V (Proc.devRef .tc main_arg7) = V (Proc.devRef .tc main_arg7) := by
  after_results_simp <;> rfl

set_option maxRecDepth 8192 in
set_option maxHeartbeats 16000000 in
theorem keep_arg8 (V : Valuation τ sig (Elt Ideal)) :
    after (seg2 (F := Ideal)) V (Proc.devRef .tc main_arg8) = V (Proc.devRef .tc main_arg8) := by
  after_results_simp <;> rfl

set_option maxRecDepth 8192 in
set_option maxHeartbeats 16000000 in
theorem keep_arg9 (V : Valuation τ sig (Elt Ideal)) :
    after (seg2 (F := Ideal)) V (Proc.devRef .tc main_arg9) = V (Proc.devRef .tc main_arg9) := by
  after_results_simp <;> rfl

set_option maxRecDepth 8192 in
set_option maxHeartbeats 16000000 in
theorem keep_arg10 (V : Valuation τ sig (Elt Ideal)) :
    after (seg2 (F := Ideal)) V (Proc.devRef .tc main_arg10) = V (Proc.devRef .tc main_arg10) := by
  after_results_simp <;> rfl

set_option maxRecDepth 8192 in
set_option maxHeartbeats 16000000 in
theorem keep_arg11 (V : Valuation τ sig (Elt Ideal)) :
    after (seg2 (F := Ideal)) V (Proc.devRef .tc main_arg11) = V (Proc.devRef .tc main_arg11) := by
  after_results_simp <;> rfl

set_option maxRecDepth 8192 in
set_option maxHeartbeats 16000000 in
theorem keep_arg12 (V : Valuation τ sig (Elt Ideal)) :
    after (seg2 (F := Ideal)) V (Proc.devRef .tc main_arg12) = V (Proc.devRef .tc main_arg12) := by
  after_results_simp <;> rfl

set_option maxRecDepth 8192 in
set_option maxHeartbeats 16000000 in
theorem keep_arg13 (V : Valuation τ sig (Elt Ideal)) :
    after (seg2 (F := Ideal)) V (Proc.devRef .tc main_arg13) = V (Proc.devRef .tc main_arg13) := by
  after_results_simp <;> rfl

set_option maxRecDepth 8192 in
set_option maxHeartbeats 16000000 in
theorem keep_arg14 (V : Valuation τ sig (Elt Ideal)) :
    after (seg2 (F := Ideal)) V (Proc.devRef .tc main_arg14) = V (Proc.devRef .tc main_arg14) := by
  after_results_simp <;> rfl

set_option maxRecDepth 8192 in
set_option maxHeartbeats 16000000 in
theorem keep_arg15 (V : Valuation τ sig (Elt Ideal)) :
    after (seg2 (F := Ideal)) V (Proc.devRef .tc main_arg15) = V (Proc.devRef .tc main_arg15) := by
  after_results_simp <;> rfl

set_option maxRecDepth 8192 in
set_option maxHeartbeats 16000000 in
theorem keep_arg16 (V : Valuation τ sig (Elt Ideal)) :
    after (seg2 (F := Ideal)) V (Proc.devRef .tc main_arg16) = V (Proc.devRef .tc main_arg16) := by
  after_results_simp <;> rfl

set_option maxRecDepth 8192 in
set_option maxHeartbeats 16000000 in
theorem keep_arg17 (V : Valuation τ sig (Elt Ideal)) :
    after (seg2 (F := Ideal)) V (Proc.devRef .tc main_arg17) = V (Proc.devRef .tc main_arg17) := by
  after_results_simp <;> rfl

set_option maxRecDepth 8192 in
set_option maxHeartbeats 16000000 in
theorem keep_arg18 (V : Valuation τ sig (Elt Ideal)) :
    after (seg2 (F := Ideal)) V (Proc.devRef .tc main_arg18) = V (Proc.devRef .tc main_arg18) := by
  after_results_simp <;> rfl

set_option maxRecDepth 8192 in
set_option maxHeartbeats 16000000 in
theorem keep_arg19 (V : Valuation τ sig (Elt Ideal)) :
    after (seg2 (F := Ideal)) V (Proc.devRef .tc main_arg19) = V (Proc.devRef .tc main_arg19) := by
  after_results_simp <;> rfl

end Cert.ReferenceIdeal.RefSeg2

end
-- ==== Proof.RefSeg3.lean ====
/-
  Segment 3 of the plain program, value by value.

  Started from any buffer contents that hold, in the few buffers the segment reads, the stages computed before it,
  the segment leaves in the buffers read after it the stages it computes; the buffers it does not write — the
  arguments among them — keep their contents.
-/
import proofs.«170678_j11312943857830_2_alg».proof.Proof.RefSegments
import proofs.«170678_j11312943857830_2_alg».proof.Proof.RefRead

noncomputable section

namespace Cert.ReferenceIdeal.RefSeg3

open Cert.ReferenceIdeal Cert.ReferenceIdeal.Gen Cert.ReferenceIdeal.Segments
open Idealize.ShloMosaic Idealize.ShloMosaic.TcCoe Idealize.SL.Sem Idealize.ShloMosaic.StableHlo

set_option maxRecDepth 8192 in
set_option maxHeartbeats 16000000 in
/-- After the segment, buffer `main_v270` holds its stage. -/
theorem at_v270 (V : Valuation τ sig (Elt Ideal)) (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal))
    (h_v193 : V (Proc.devRef .tc main_v193) = Cert.ReferenceIdeal.ReadP.val_main_v193 (F := Ideal) x0 x1 x2 x3 x4 x5 x6 x7 x8 x9 x10 x11 x12 x13 x14 x15 x16 x17 x18 x19)
    (h_v240 : V (Proc.devRef .tc main_v240) = Cert.ReferenceIdeal.ReadP.val_main_v240 (F := Ideal) x0 x1 x2 x3 x4 x5 x6 x7 x8 x9 x10 x11 x12 x13 x14 x15 x16 x17 x18 x19)
    (h_arg14 : V (Proc.devRef .tc main_arg14) = x14)
    (h_arg15 : V (Proc.devRef .tc main_arg15) = x15)
    (h_arg16 : V (Proc.devRef .tc main_arg16) = x16)
    (h_arg17 : V (Proc.devRef .tc main_arg17) = x17)
    (h_arg18 : V (Proc.devRef .tc main_arg18) = x18)
    (h_arg19 : V (Proc.devRef .tc main_arg19) = x19) :
    after (seg3 (F := Ideal)) V (Proc.devRef .tc main_v270) = Cert.ReferenceIdeal.ReadP.val_main_v270 (F := Ideal) x0 x1 x2 x3 x4 x5 x6 x7 x8 x9 x10 x11 x12 x13 x14 x15 x16 x17 x18 x19 := by
  after_results_simp
  try simp only [h_arg14, h_arg15, h_arg16, h_arg17, h_arg18, h_arg19]
  try rw [h_v193]
  try rw [h_v240]
  all_goals rfl

set_option maxRecDepth 8192 in
set_option maxHeartbeats 16000000 in
theorem keep_arg0 (V : Valuation τ sig (Elt Ideal)) :
    after (seg3 (F := Ideal)) V (Proc.devRef .tc main_arg0) = V (Proc.devRef .tc main_arg0) := by
  after_results_simp <;> rfl

set_option maxRecDepth 8192 in
set_option maxHeartbeats 16000000 in
theorem keep_arg1 (V : Valuation τ sig (Elt Ideal)) :
    after (seg3 (F := Ideal)) V (Proc.devRef .tc main_arg1) = V (Proc.devRef .tc main_arg1) := by
  after_results_simp <;> rfl

set_option maxRecDepth 8192 in
set_option maxHeartbeats 16000000 in
theorem keep_arg2 (V : Valuation τ sig (Elt Ideal)) :
    after (seg3 (F := Ideal)) V (Proc.devRef .tc main_arg2) = V (Proc.devRef .tc main_arg2) := by
  after_results_simp <;> rfl

set_option maxRecDepth 8192 in
set_option maxHeartbeats 16000000 in
theorem keep_arg3 (V : Valuation τ sig (Elt Ideal)) :
    after (seg3 (F := Ideal)) V (Proc.devRef .tc main_arg3) = V (Proc.devRef .tc main_arg3) := by
  after_results_simp <;> rfl

set_option maxRecDepth 8192 in
set_option maxHeartbeats 16000000 in
theorem keep_arg4 (V : Valuation τ sig (Elt Ideal)) :
    after (seg3 (F := Ideal)) V (Proc.devRef .tc main_arg4) = V (Proc.devRef .tc main_arg4) := by
  after_results_simp <;> rfl

set_option maxRecDepth 8192 in
set_option maxHeartbeats 16000000 in
theorem keep_arg5 (V : Valuation τ sig (Elt Ideal)) :
    after (seg3 (F := Ideal)) V (Proc.devRef .tc main_arg5) = V (Proc.devRef .tc main_arg5) := by
  after_results_simp <;> rfl

set_option maxRecDepth 8192 in
set_option maxHeartbeats 16000000 in
theorem keep_arg6 (V : Valuation τ sig (Elt Ideal)) :
    after (seg3 (F := Ideal)) V (Proc.devRef .tc main_arg6) = V (Proc.devRef .tc main_arg6) := by
  after_results_simp <;> rfl

set_option maxRecDepth 8192 in
set_option maxHeartbeats 16000000 in
theorem keep_arg7 (V : Valuation τ sig (Elt Ideal)) :
    after (seg3 (F := Ideal)) V (Proc.devRef .tc main_arg7) = V (Proc.devRef .tc main_arg7) := by
  after_results_simp <;> rfl

set_option maxRecDepth 8192 in
set_option maxHeartbeats 16000000 in
theorem keep_arg8 (V : Valuation τ sig (Elt Ideal)) :
    after (seg3 (F := Ideal)) V (Proc.devRef .tc main_arg8) = V (Proc.devRef .tc main_arg8) := by
  after_results_simp <;> rfl

set_option maxRecDepth 8192 in
set_option maxHeartbeats 16000000 in
theorem keep_arg9 (V : Valuation τ sig (Elt Ideal)) :
    after (seg3 (F := Ideal)) V (Proc.devRef .tc main_arg9) = V (Proc.devRef .tc main_arg9) := by
  after_results_simp <;> rfl

set_option maxRecDepth 8192 in
set_option maxHeartbeats 16000000 in
theorem keep_arg10 (V : Valuation τ sig (Elt Ideal)) :
    after (seg3 (F := Ideal)) V (Proc.devRef .tc main_arg10) = V (Proc.devRef .tc main_arg10) := by
  after_results_simp <;> rfl

set_option maxRecDepth 8192 in
set_option maxHeartbeats 16000000 in
theorem keep_arg11 (V : Valuation τ sig (Elt Ideal)) :
    after (seg3 (F := Ideal)) V (Proc.devRef .tc main_arg11) = V (Proc.devRef .tc main_arg11) := by
  after_results_simp <;> rfl

set_option maxRecDepth 8192 in
set_option maxHeartbeats 16000000 in
theorem keep_arg12 (V : Valuation τ sig (Elt Ideal)) :
    after (seg3 (F := Ideal)) V (Proc.devRef .tc main_arg12) = V (Proc.devRef .tc main_arg12) := by
  after_results_simp <;> rfl

set_option maxRecDepth 8192 in
set_option maxHeartbeats 16000000 in
theorem keep_arg13 (V : Valuation τ sig (Elt Ideal)) :
    after (seg3 (F := Ideal)) V (Proc.devRef .tc main_arg13) = V (Proc.devRef .tc main_arg13) := by
  after_results_simp <;> rfl

set_option maxRecDepth 8192 in
set_option maxHeartbeats 16000000 in
theorem keep_arg14 (V : Valuation τ sig (Elt Ideal)) :
    after (seg3 (F := Ideal)) V (Proc.devRef .tc main_arg14) = V (Proc.devRef .tc main_arg14) := by
  after_results_simp <;> rfl

set_option maxRecDepth 8192 in
set_option maxHeartbeats 16000000 in
theorem keep_arg15 (V : Valuation τ sig (Elt Ideal)) :
    after (seg3 (F := Ideal)) V (Proc.devRef .tc main_arg15) = V (Proc.devRef .tc main_arg15) := by
  after_results_simp <;> rfl

set_option maxRecDepth 8192 in
set_option maxHeartbeats 16000000 in
theorem keep_arg16 (V : Valuation τ sig (Elt Ideal)) :
    after (seg3 (F := Ideal)) V (Proc.devRef .tc main_arg16) = V (Proc.devRef .tc main_arg16) := by
  after_results_simp <;> rfl

set_option maxRecDepth 8192 in
set_option maxHeartbeats 16000000 in
theorem keep_arg17 (V : Valuation τ sig (Elt Ideal)) :
    after (seg3 (F := Ideal)) V (Proc.devRef .tc main_arg17) = V (Proc.devRef .tc main_arg17) := by
  after_results_simp <;> rfl

set_option maxRecDepth 8192 in
set_option maxHeartbeats 16000000 in
theorem keep_arg18 (V : Valuation τ sig (Elt Ideal)) :
    after (seg3 (F := Ideal)) V (Proc.devRef .tc main_arg18) = V (Proc.devRef .tc main_arg18) := by
  after_results_simp <;> rfl

set_option maxRecDepth 8192 in
set_option maxHeartbeats 16000000 in
theorem keep_arg19 (V : Valuation τ sig (Elt Ideal)) :
    after (seg3 (F := Ideal)) V (Proc.devRef .tc main_arg19) = V (Proc.devRef .tc main_arg19) := by
  after_results_simp <;> rfl

end Cert.ReferenceIdeal.RefSeg3

end
-- ==== Proof.LibAfter.lean ====
/-
  Running a list of host operations in two parts.

  The contents of the buffers after a list of operations is a fold over the list, so after the concatenation of two
  lists it is the contents after the second list, started from the contents after the first.
-/
import Idealize.ShloMosaic.Lib.StableHlo.Run

noncomputable section

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons, ih]

/-- A list cut at position k: the contents after the whole list from the contents after its first k operations. -/
theorem after_take_drop (k : ℕ) (l : List (HloOp τ sig Val)) (V : Valuation τ sig Val) :
    after l V = after (l.drop k) (after (l.take k) V) := by
  rw [← after_append, List.take_append_drop]

end Cert.LibAfter

end
-- ==== Proof.RefValueRun.lean ====
/-
  The plain program's run, with its result named by its last stage.

  The program is a straight line of 310 host operations, so every weakly fair execution terminates with each buffer at
  the fold of the operations over the launch contents. Cutting the line into its four segments, the fold is followed
  segment by segment: the buffers a segment reads hold the stages computed so far, so the buffers it writes hold the
  stages it computes; the argument arrays are written by no operation. Hence the returned array is the last stage of
  the launch arguments, and the arguments end as launched.
-/
import proofs.«170678_j11312943857830_2_alg».proof.Proof.RefRun
import proofs.«170678_j11312943857830_2_alg».proof.Proof.RefSeg0
import proofs.«170678_j11312943857830_2_alg».proof.Proof.RefSeg1
import proofs.«170678_j11312943857830_2_alg».proof.Proof.RefSeg2
import proofs.«170678_j11312943857830_2_alg».proof.Proof.RefSeg3
import proofs.«170678_j11312943857830_2_alg».proof.Proof.LibAfter

noncomputable section

namespace Cert.ReferenceIdeal.ValueRun

open Cert.ReferenceIdeal Cert.ReferenceIdeal.Gen Cert.ReferenceIdeal.Segments
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The program is its four segments in order. -/
theorem ops_split : (Cert.ReferenceIdeal.ValueP.ops : List (HloOp τ sig (Elt Ideal))) = seg0 ++ (seg1 ++ (seg2 ++ seg3)) := rfl

/-- The buffer contents after segments 0, 0–1, 0–2. -/
abbrev V1 (c : Dev nD) : Valuation τ sig (Elt Ideal) := after (seg0 (F := Ideal)) (launchContents m c)
abbrev V2 (c : Dev nD) : Valuation τ sig (Elt Ideal) := after (seg1 (F := Ideal)) (V1 m c)
abbrev V3 (c : Dev nD) : Valuation τ sig (Elt Ideal) := after (seg2 (F := Ideal)) (V2 m c)

theorem after_ops (c : Dev nD) : after (Cert.ReferenceIdeal.ValueP.ops (F := Ideal)) (launchContents m c) = after (seg3 (F := Ideal)) (V3 m c) := by
  rw [ops_split, Cert.LibAfter.after_append, Cert.LibAfter.after_append, Cert.LibAfter.after_append]

/-! ## The arguments are never written -/

theorem arg_at1_0 (c : Dev nD) : V1 m c (Proc.devRef .tc main_arg0) = m ((c.tc : Thread nD τ).loc main_arg0) := RefSeg0.keep_arg0 _
theorem arg_at2_0 (c : Dev nD) : V2 m c (Proc.devRef .tc main_arg0) = m ((c.tc : Thread nD τ).loc main_arg0) := (RefSeg1.keep_arg0 _).trans (arg_at1_0 m c)
theorem arg_at3_0 (c : Dev nD) : V3 m c (Proc.devRef .tc main_arg0) = m ((c.tc : Thread nD τ).loc main_arg0) := (RefSeg2.keep_arg0 _).trans (arg_at2_0 m c)
theorem arg_end_0 (c : Dev nD) : after (Cert.ReferenceIdeal.ValueP.ops (F := Ideal)) (launchContents m c) (Proc.devRef .tc main_arg0) = m ((c.tc : Thread nD τ).loc main_arg0) := by
  rw [after_ops]; exact (RefSeg3.keep_arg0 _).trans (arg_at3_0 m c)
theorem arg_at1_1 (c : Dev nD) : V1 m c (Proc.devRef .tc main_arg1) = m ((c.tc : Thread nD τ).loc main_arg1) := RefSeg0.keep_arg1 _
theorem arg_at2_1 (c : Dev nD) : V2 m c (Proc.devRef .tc main_arg1) = m ((c.tc : Thread nD τ).loc main_arg1) := (RefSeg1.keep_arg1 _).trans (arg_at1_1 m c)
theorem arg_at3_1 (c : Dev nD) : V3 m c (Proc.devRef .tc main_arg1) = m ((c.tc : Thread nD τ).loc main_arg1) := (RefSeg2.keep_arg1 _).trans (arg_at2_1 m c)
theorem arg_end_1 (c : Dev nD) : after (Cert.ReferenceIdeal.ValueP.ops (F := Ideal)) (launchContents m c) (Proc.devRef .tc main_arg1) = m ((c.tc : Thread nD τ).loc main_arg1) := by
  rw [after_ops]; exact (RefSeg3.keep_arg1 _).trans (arg_at3_1 m c)
theorem arg_at1_2 (c : Dev nD) : V1 m c (Proc.devRef .tc main_arg2) = m ((c.tc : Thread nD τ).loc main_arg2) := RefSeg0.keep_arg2 _
theorem arg_at2_2 (c : Dev nD) : V2 m c (Proc.devRef .tc main_arg2) = m ((c.tc : Thread nD τ).loc main_arg2) := (RefSeg1.keep_arg2 _).trans (arg_at1_2 m c)
theorem arg_at3_2 (c : Dev nD) : V3 m c (Proc.devRef .tc main_arg2) = m ((c.tc : Thread nD τ).loc main_arg2) := (RefSeg2.keep_arg2 _).trans (arg_at2_2 m c)
theorem arg_end_2 (c : Dev nD) : after (Cert.ReferenceIdeal.ValueP.ops (F := Ideal)) (launchContents m c) (Proc.devRef .tc main_arg2) = m ((c.tc : Thread nD τ).loc main_arg2) := by
  rw [after_ops]; exact (RefSeg3.keep_arg2 _).trans (arg_at3_2 m c)
theorem arg_at1_3 (c : Dev nD) : V1 m c (Proc.devRef .tc main_arg3) = m ((c.tc : Thread nD τ).loc main_arg3) := RefSeg0.keep_arg3 _
theorem arg_at2_3 (c : Dev nD) : V2 m c (Proc.devRef .tc main_arg3) = m ((c.tc : Thread nD τ).loc main_arg3) := (RefSeg1.keep_arg3 _).trans (arg_at1_3 m c)
theorem arg_at3_3 (c : Dev nD) : V3 m c (Proc.devRef .tc main_arg3) = m ((c.tc : Thread nD τ).loc main_arg3) := (RefSeg2.keep_arg3 _).trans (arg_at2_3 m c)
theorem arg_end_3 (c : Dev nD) : after (Cert.ReferenceIdeal.ValueP.ops (F := Ideal)) (launchContents m c) (Proc.devRef .tc main_arg3) = m ((c.tc : Thread nD τ).loc main_arg3) := by
  rw [after_ops]; exact (RefSeg3.keep_arg3 _).trans (arg_at3_3 m c)
theorem arg_at1_4 (c : Dev nD) : V1 m c (Proc.devRef .tc main_arg4) = m ((c.tc : Thread nD τ).loc main_arg4) := RefSeg0.keep_arg4 _
theorem arg_at2_4 (c : Dev nD) : V2 m c (Proc.devRef .tc main_arg4) = m ((c.tc : Thread nD τ).loc main_arg4) := (RefSeg1.keep_arg4 _).trans (arg_at1_4 m c)
theorem arg_at3_4 (c : Dev nD) : V3 m c (Proc.devRef .tc main_arg4) = m ((c.tc : Thread nD τ).loc main_arg4) := (RefSeg2.keep_arg4 _).trans (arg_at2_4 m c)
theorem arg_end_4 (c : Dev nD) : after (Cert.ReferenceIdeal.ValueP.ops (F := Ideal)) (launchContents m c) (Proc.devRef .tc main_arg4) = m ((c.tc : Thread nD τ).loc main_arg4) := by
  rw [after_ops]; exact (RefSeg3.keep_arg4 _).trans (arg_at3_4 m c)
theorem arg_at1_5 (c : Dev nD) : V1 m c (Proc.devRef .tc main_arg5) = m ((c.tc : Thread nD τ).loc main_arg5) := RefSeg0.keep_arg5 _
theorem arg_at2_5 (c : Dev nD) : V2 m c (Proc.devRef .tc main_arg5) = m ((c.tc : Thread nD τ).loc main_arg5) := (RefSeg1.keep_arg5 _).trans (arg_at1_5 m c)
theorem arg_at3_5 (c : Dev nD) : V3 m c (Proc.devRef .tc main_arg5) = m ((c.tc : Thread nD τ).loc main_arg5) := (RefSeg2.keep_arg5 _).trans (arg_at2_5 m c)
theorem arg_end_5 (c : Dev nD) : after (Cert.ReferenceIdeal.ValueP.ops (F := Ideal)) (launchContents m c) (Proc.devRef .tc main_arg5) = m ((c.tc : Thread nD τ).loc main_arg5) := by
  rw [after_ops]; exact (RefSeg3.keep_arg5 _).trans (arg_at3_5 m c)
theorem arg_at1_6 (c : Dev nD) : V1 m c (Proc.devRef .tc main_arg6) = m ((c.tc : Thread nD τ).loc main_arg6) := RefSeg0.keep_arg6 _
theorem arg_at2_6 (c : Dev nD) : V2 m c (Proc.devRef .tc main_arg6) = m ((c.tc : Thread nD τ).loc main_arg6) := (RefSeg1.keep_arg6 _).trans (arg_at1_6 m c)
theorem arg_at3_6 (c : Dev nD) : V3 m c (Proc.devRef .tc main_arg6) = m ((c.tc : Thread nD τ).loc main_arg6) := (RefSeg2.keep_arg6 _).trans (arg_at2_6 m c)
theorem arg_end_6 (c : Dev nD) : after (Cert.ReferenceIdeal.ValueP.ops (F := Ideal)) (launchContents m c) (Proc.devRef .tc main_arg6) = m ((c.tc : Thread nD τ).loc main_arg6) := by
  rw [after_ops]; exact (RefSeg3.keep_arg6 _).trans (arg_at3_6 m c)
theorem arg_at1_7 (c : Dev nD) : V1 m c (Proc.devRef .tc main_arg7) = m ((c.tc : Thread nD τ).loc main_arg7) := RefSeg0.keep_arg7 _
theorem arg_at2_7 (c : Dev nD) : V2 m c (Proc.devRef .tc main_arg7) = m ((c.tc : Thread nD τ).loc main_arg7) := (RefSeg1.keep_arg7 _).trans (arg_at1_7 m c)
theorem arg_at3_7 (c : Dev nD) : V3 m c (Proc.devRef .tc main_arg7) = m ((c.tc : Thread nD τ).loc main_arg7) := (RefSeg2.keep_arg7 _).trans (arg_at2_7 m c)
theorem arg_end_7 (c : Dev nD) : after (Cert.ReferenceIdeal.ValueP.ops (F := Ideal)) (launchContents m c) (Proc.devRef .tc main_arg7) = m ((c.tc : Thread nD τ).loc main_arg7) := by
  rw [after_ops]; exact (RefSeg3.keep_arg7 _).trans (arg_at3_7 m c)
theorem arg_at1_8 (c : Dev nD) : V1 m c (Proc.devRef .tc main_arg8) = m ((c.tc : Thread nD τ).loc main_arg8) := RefSeg0.keep_arg8 _
theorem arg_at2_8 (c : Dev nD) : V2 m c (Proc.devRef .tc main_arg8) = m ((c.tc : Thread nD τ).loc main_arg8) := (RefSeg1.keep_arg8 _).trans (arg_at1_8 m c)
theorem arg_at3_8 (c : Dev nD) : V3 m c (Proc.devRef .tc main_arg8) = m ((c.tc : Thread nD τ).loc main_arg8) := (RefSeg2.keep_arg8 _).trans (arg_at2_8 m c)
theorem arg_end_8 (c : Dev nD) : after (Cert.ReferenceIdeal.ValueP.ops (F := Ideal)) (launchContents m c) (Proc.devRef .tc main_arg8) = m ((c.tc : Thread nD τ).loc main_arg8) := by
  rw [after_ops]; exact (RefSeg3.keep_arg8 _).trans (arg_at3_8 m c)
theorem arg_at1_9 (c : Dev nD) : V1 m c (Proc.devRef .tc main_arg9) = m ((c.tc : Thread nD τ).loc main_arg9) := RefSeg0.keep_arg9 _
theorem arg_at2_9 (c : Dev nD) : V2 m c (Proc.devRef .tc main_arg9) = m ((c.tc : Thread nD τ).loc main_arg9) := (RefSeg1.keep_arg9 _).trans (arg_at1_9 m c)
theorem arg_at3_9 (c : Dev nD) : V3 m c (Proc.devRef .tc main_arg9) = m ((c.tc : Thread nD τ).loc main_arg9) := (RefSeg2.keep_arg9 _).trans (arg_at2_9 m c)
theorem arg_end_9 (c : Dev nD) : after (Cert.ReferenceIdeal.ValueP.ops (F := Ideal)) (launchContents m c) (Proc.devRef .tc main_arg9) = m ((c.tc : Thread nD τ).loc main_arg9) := by
  rw [after_ops]; exact (RefSeg3.keep_arg9 _).trans (arg_at3_9 m c)
theorem arg_at1_10 (c : Dev nD) : V1 m c (Proc.devRef .tc main_arg10) = m ((c.tc : Thread nD τ).loc main_arg10) := RefSeg0.keep_arg10 _
theorem arg_at2_10 (c : Dev nD) : V2 m c (Proc.devRef .tc main_arg10) = m ((c.tc : Thread nD τ).loc main_arg10) := (RefSeg1.keep_arg10 _).trans (arg_at1_10 m c)
theorem arg_at3_10 (c : Dev nD) : V3 m c (Proc.devRef .tc main_arg10) = m ((c.tc : Thread nD τ).loc main_arg10) := (RefSeg2.keep_arg10 _).trans (arg_at2_10 m c)
theorem arg_end_10 (c : Dev nD) : after (Cert.ReferenceIdeal.ValueP.ops (F := Ideal)) (launchContents m c) (Proc.devRef .tc main_arg10) = m ((c.tc : Thread nD τ).loc main_arg10) := by
  rw [after_ops]; exact (RefSeg3.keep_arg10 _).trans (arg_at3_10 m c)
theorem arg_at1_11 (c : Dev nD) : V1 m c (Proc.devRef .tc main_arg11) = m ((c.tc : Thread nD τ).loc main_arg11) := RefSeg0.keep_arg11 _
theorem arg_at2_11 (c : Dev nD) : V2 m c (Proc.devRef .tc main_arg11) = m ((c.tc : Thread nD τ).loc main_arg11) := (RefSeg1.keep_arg11 _).trans (arg_at1_11 m c)
theorem arg_at3_11 (c : Dev nD) : V3 m c (Proc.devRef .tc main_arg11) = m ((c.tc : Thread nD τ).loc main_arg11) := (RefSeg2.keep_arg11 _).trans (arg_at2_11 m c)
theorem arg_end_11 (c : Dev nD) : after (Cert.ReferenceIdeal.ValueP.ops (F := Ideal)) (launchContents m c) (Proc.devRef .tc main_arg11) = m ((c.tc : Thread nD τ).loc main_arg11) := by
  rw [after_ops]; exact (RefSeg3.keep_arg11 _).trans (arg_at3_11 m c)
theorem arg_at1_12 (c : Dev nD) : V1 m c (Proc.devRef .tc main_arg12) = m ((c.tc : Thread nD τ).loc main_arg12) := RefSeg0.keep_arg12 _
theorem arg_at2_12 (c : Dev nD) : V2 m c (Proc.devRef .tc main_arg12) = m ((c.tc : Thread nD τ).loc main_arg12) := (RefSeg1.keep_arg12 _).trans (arg_at1_12 m c)
theorem arg_at3_12 (c : Dev nD) : V3 m c (Proc.devRef .tc main_arg12) = m ((c.tc : Thread nD τ).loc main_arg12) := (RefSeg2.keep_arg12 _).trans (arg_at2_12 m c)
theorem arg_end_12 (c : Dev nD) : after (Cert.ReferenceIdeal.ValueP.ops (F := Ideal)) (launchContents m c) (Proc.devRef .tc main_arg12) = m ((c.tc : Thread nD τ).loc main_arg12) := by
  rw [after_ops]; exact (RefSeg3.keep_arg12 _).trans (arg_at3_12 m c)
theorem arg_at1_13 (c : Dev nD) : V1 m c (Proc.devRef .tc main_arg13) = m ((c.tc : Thread nD τ).loc main_arg13) := RefSeg0.keep_arg13 _
theorem arg_at2_13 (c : Dev nD) : V2 m c (Proc.devRef .tc main_arg13) = m ((c.tc : Thread nD τ).loc main_arg13) := (RefSeg1.keep_arg13 _).trans (arg_at1_13 m c)
theorem arg_at3_13 (c : Dev nD) : V3 m c (Proc.devRef .tc main_arg13) = m ((c.tc : Thread nD τ).loc main_arg13) := (RefSeg2.keep_arg13 _).trans (arg_at2_13 m c)
theorem arg_end_13 (c : Dev nD) : after (Cert.ReferenceIdeal.ValueP.ops (F := Ideal)) (launchContents m c) (Proc.devRef .tc main_arg13) = m ((c.tc : Thread nD τ).loc main_arg13) := by
  rw [after_ops]; exact (RefSeg3.keep_arg13 _).trans (arg_at3_13 m c)
theorem arg_at1_14 (c : Dev nD) : V1 m c (Proc.devRef .tc main_arg14) = m ((c.tc : Thread nD τ).loc main_arg14) := RefSeg0.keep_arg14 _
theorem arg_at2_14 (c : Dev nD) : V2 m c (Proc.devRef .tc main_arg14) = m ((c.tc : Thread nD τ).loc main_arg14) := (RefSeg1.keep_arg14 _).trans (arg_at1_14 m c)
theorem arg_at3_14 (c : Dev nD) : V3 m c (Proc.devRef .tc main_arg14) = m ((c.tc : Thread nD τ).loc main_arg14) := (RefSeg2.keep_arg14 _).trans (arg_at2_14 m c)
theorem arg_end_14 (c : Dev nD) : after (Cert.ReferenceIdeal.ValueP.ops (F := Ideal)) (launchContents m c) (Proc.devRef .tc main_arg14) = m ((c.tc : Thread nD τ).loc main_arg14) := by
  rw [after_ops]; exact (RefSeg3.keep_arg14 _).trans (arg_at3_14 m c)
theorem arg_at1_15 (c : Dev nD) : V1 m c (Proc.devRef .tc main_arg15) = m ((c.tc : Thread nD τ).loc main_arg15) := RefSeg0.keep_arg15 _
theorem arg_at2_15 (c : Dev nD) : V2 m c (Proc.devRef .tc main_arg15) = m ((c.tc : Thread nD τ).loc main_arg15) := (RefSeg1.keep_arg15 _).trans (arg_at1_15 m c)
theorem arg_at3_15 (c : Dev nD) : V3 m c (Proc.devRef .tc main_arg15) = m ((c.tc : Thread nD τ).loc main_arg15) := (RefSeg2.keep_arg15 _).trans (arg_at2_15 m c)
theorem arg_end_15 (c : Dev nD) : after (Cert.ReferenceIdeal.ValueP.ops (F := Ideal)) (launchContents m c) (Proc.devRef .tc main_arg15) = m ((c.tc : Thread nD τ).loc main_arg15) := by
  rw [after_ops]; exact (RefSeg3.keep_arg15 _).trans (arg_at3_15 m c)
theorem arg_at1_16 (c : Dev nD) : V1 m c (Proc.devRef .tc main_arg16) = m ((c.tc : Thread nD τ).loc main_arg16) := RefSeg0.keep_arg16 _
theorem arg_at2_16 (c : Dev nD) : V2 m c (Proc.devRef .tc main_arg16) = m ((c.tc : Thread nD τ).loc main_arg16) := (RefSeg1.keep_arg16 _).trans (arg_at1_16 m c)
theorem arg_at3_16 (c : Dev nD) : V3 m c (Proc.devRef .tc main_arg16) = m ((c.tc : Thread nD τ).loc main_arg16) := (RefSeg2.keep_arg16 _).trans (arg_at2_16 m c)
theorem arg_end_16 (c : Dev nD) : after (Cert.ReferenceIdeal.ValueP.ops (F := Ideal)) (launchContents m c) (Proc.devRef .tc main_arg16) = m ((c.tc : Thread nD τ).loc main_arg16) := by
  rw [after_ops]; exact (RefSeg3.keep_arg16 _).trans (arg_at3_16 m c)
theorem arg_at1_17 (c : Dev nD) : V1 m c (Proc.devRef .tc main_arg17) = m ((c.tc : Thread nD τ).loc main_arg17) := RefSeg0.keep_arg17 _
theorem arg_at2_17 (c : Dev nD) : V2 m c (Proc.devRef .tc main_arg17) = m ((c.tc : Thread nD τ).loc main_arg17) := (RefSeg1.keep_arg17 _).trans (arg_at1_17 m c)
theorem arg_at3_17 (c : Dev nD) : V3 m c (Proc.devRef .tc main_arg17) = m ((c.tc : Thread nD τ).loc main_arg17) := (RefSeg2.keep_arg17 _).trans (arg_at2_17 m c)
theorem arg_end_17 (c : Dev nD) : after (Cert.ReferenceIdeal.ValueP.ops (F := Ideal)) (launchContents m c) (Proc.devRef .tc main_arg17) = m ((c.tc : Thread nD τ).loc main_arg17) := by
  rw [after_ops]; exact (RefSeg3.keep_arg17 _).trans (arg_at3_17 m c)
theorem arg_at1_18 (c : Dev nD) : V1 m c (Proc.devRef .tc main_arg18) = m ((c.tc : Thread nD τ).loc main_arg18) := RefSeg0.keep_arg18 _
theorem arg_at2_18 (c : Dev nD) : V2 m c (Proc.devRef .tc main_arg18) = m ((c.tc : Thread nD τ).loc main_arg18) := (RefSeg1.keep_arg18 _).trans (arg_at1_18 m c)
theorem arg_at3_18 (c : Dev nD) : V3 m c (Proc.devRef .tc main_arg18) = m ((c.tc : Thread nD τ).loc main_arg18) := (RefSeg2.keep_arg18 _).trans (arg_at2_18 m c)
theorem arg_end_18 (c : Dev nD) : after (Cert.ReferenceIdeal.ValueP.ops (F := Ideal)) (launchContents m c) (Proc.devRef .tc main_arg18) = m ((c.tc : Thread nD τ).loc main_arg18) := by
  rw [after_ops]; exact (RefSeg3.keep_arg18 _).trans (arg_at3_18 m c)
theorem arg_at1_19 (c : Dev nD) : V1 m c (Proc.devRef .tc main_arg19) = m ((c.tc : Thread nD τ).loc main_arg19) := RefSeg0.keep_arg19 _
theorem arg_at2_19 (c : Dev nD) : V2 m c (Proc.devRef .tc main_arg19) = m ((c.tc : Thread nD τ).loc main_arg19) := (RefSeg1.keep_arg19 _).trans (arg_at1_19 m c)
theorem arg_at3_19 (c : Dev nD) : V3 m c (Proc.devRef .tc main_arg19) = m ((c.tc : Thread nD τ).loc main_arg19) := (RefSeg2.keep_arg19 _).trans (arg_at2_19 m c)
theorem arg_end_19 (c : Dev nD) : after (Cert.ReferenceIdeal.ValueP.ops (F := Ideal)) (launchContents m c) (Proc.devRef .tc main_arg19) = m ((c.tc : Thread nD τ).loc main_arg19) := by
  rw [after_ops]; exact (RefSeg3.keep_arg19 _).trans (arg_at3_19 m c)

/-! ## The returned array -/

/-- The returned array is the program's last stage of the launch arguments. -/
theorem result_eq (c : Dev nD) :
    after (Cert.ReferenceIdeal.ValueP.ops (F := Ideal)) (launchContents m c) (Proc.devRef .tc main_v270) = Cert.ReferenceIdeal.ReadP.val_main_v270 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_ops]
  -- segment 0
  have a16 := RefSeg0.at_v16 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) rfl rfl rfl rfl rfl rfl rfl rfl rfl rfl rfl rfl rfl rfl
  have a86 := RefSeg0.at_v86 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) rfl rfl rfl rfl rfl rfl rfl rfl rfl rfl rfl rfl rfl rfl
  have a36 := RefSeg0.at_v36 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) rfl rfl rfl rfl rfl rfl rfl rfl rfl rfl rfl rfl rfl rfl
  have a39 := RefSeg0.at_v39 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) rfl rfl rfl rfl rfl rfl rfl rfl rfl rfl rfl rfl rfl rfl
  -- segment 1
  have b116 := RefSeg1.at_v116 (V1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) a16 a86 a36 a39 (arg_at1_8 m c) (arg_at1_9 m c) (arg_at1_10 m c) (arg_at1_11 m c) (arg_at1_12 m c) (arg_at1_13 m c) (arg_at1_14 m c) (arg_at1_15 m c) (arg_at1_16 m c) (arg_at1_17 m c) (arg_at1_18 m c) (arg_at1_19 m c)
  have b163 := RefSeg1.at_v163 (V1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) a16 a86 a36 a39 (arg_at1_8 m c) (arg_at1_9 m c) (arg_at1_10 m c) (arg_at1_11 m c) (arg_at1_12 m c) (arg_at1_13 m c) (arg_at1_14 m c) (arg_at1_15 m c) (arg_at1_16 m c) (arg_at1_17 m c) (arg_at1_18 m c) (arg_at1_19 m c)
  have b36 := (RefSeg1.keep_v36 (V1 m c)).trans a36
  have b39 := (RefSeg1.keep_v39 (V1 m c)).trans a39
  -- segment 2
  have c193 := RefSeg2.at_v193 (V2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) b116 b163 b36 b39 (arg_at2_8 m c) (arg_at2_9 m c) (arg_at2_10 m c) (arg_at2_11 m c) (arg_at2_12 m c) (arg_at2_13 m c) (arg_at2_14 m c) (arg_at2_15 m c) (arg_at2_16 m c) (arg_at2_17 m c) (arg_at2_18 m c) (arg_at2_19 m c)
  have c240 := RefSeg2.at_v240 (V2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) b116 b163 b36 b39 (arg_at2_8 m c) (arg_at2_9 m c) (arg_at2_10 m c) (arg_at2_11 m c) (arg_at2_12 m c) (arg_at2_13 m c) (arg_at2_14 m c) (arg_at2_15 m c) (arg_at2_16 m c) (arg_at2_17 m c) (arg_at2_18 m c) (arg_at2_19 m c)
  -- segment 3
  exact RefSeg3.at_v270 (V3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) c193 c240 (arg_at3_14 m c) (arg_at3_15 m c) (arg_at3_16 m c) (arg_at3_17 m c) (arg_at3_18 m c) (arg_at3_19 m c)

/-! ## The run -/

set_option maxRecDepth 8192 in
set_option maxHeartbeats 16000000 in
/-- Every weakly fair execution of the plain program terminates with the returned array at its last stage of the
    launch arguments and every argument array unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v270) = Cert.ReferenceIdeal.ReadP.val_main_v270 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v270).trans (result_eq m c),
      (h c main_arg0).trans (arg_end_0 m c),
      (h c main_arg1).trans (arg_end_1 m c),
      (h c main_arg2).trans (arg_end_2 m c),
      (h c main_arg3).trans (arg_end_3 m c),
      (h c main_arg4).trans (arg_end_4 m c),
      (h c main_arg5).trans (arg_end_5 m c),
      (h c main_arg6).trans (arg_end_6 m c),
      (h c main_arg7).trans (arg_end_7 m c),
      (h c main_arg8).trans (arg_end_8 m c),
      (h c main_arg9).trans (arg_end_9 m c),
      (h c main_arg10).trans (arg_end_10 m c),
      (h c main_arg11).trans (arg_end_11 m c),
      (h c main_arg12).trans (arg_end_12 m c),
      (h c main_arg13).trans (arg_end_13 m c),
      (h c main_arg14).trans (arg_end_14 m c),
      (h c main_arg15).trans (arg_end_15 m c),
      (h c main_arg16).trans (arg_end_16 m c),
      (h c main_arg17).trans (arg_end_17 m c),
      (h c main_arg18).trans (arg_end_18 m c),
      (h c main_arg19).trans (arg_end_19 m c)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.ValueRun

end
-- ==== Proof.KernelRun.lean ====
/-
  The idealized kernel's run with its result named.

  The program is three launches of the pairwise-message kernel among stretches of host operations. Every weakly
  fair execution terminates without a fault, and the buffer contents at each boundary are a fold: a host stretch
  applies its operations in order, a launch replaces the output array by what its write-backs leave. The last
  boundary's contents at the result buffer are therefore what the program returns; the argument arrays are read
  back unchanged through the same fold. The statement below is the run over the program's segments with both facts
  in its conclusion, so that the returned array can be computed from the fold alone.
-/
import proofs.«170678_j11312943857830_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v207) = W25 m ρ c (Proc.devRef .tc main_v207)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v207 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c),
       (h c _ (mem_uc main_arg18 (by decide))).trans (W25_main_arg18 m ρ c),
       (h c _ (mem_uc main_arg19 (by decide))).trans (W25_main_arg19 m ρ c)⟩)

end Cert.KernelIdeal.ValueRun

end
-- ==== Proof.HostStage0.lean ====
/-
  The host operations of stretch group 0, value by value.

  Outside its three launches the program applies, to the same arguments, the same host operations as the plain
  program it is compared with — the encoder, the pairwise distances, the per-layer projections and the per-layer
  update perceptron — so each buffer it fills holds the corresponding stage of that program, as one syntactic
  term of the arguments (a matrix product's requested precision does not enter its value on the extended reals).
  Only the operands handed to a launch are laid out differently: the bias and distance-weight vectors as one-row
  tables, the two hidden weight tables transposed.
-/
import proofs.«170678_j11312943857830_2_alg».proof.Proof.Gen.KernelIdeal.Frame
import proofs.«170678_j11312943857830_2_alg».proof.Proof.RefRead
import Idealize.ShloMosaic.Lib.StableHlo.Run

noncomputable section

namespace Cert.KernelIdeal.HostStage0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 8192 in
set_option maxHeartbeats 40000000 in
/-- The node features entering the layer. -/
theorem at_v16 (c : Dev nD) :
    W7 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rfl

set_option maxRecDepth 8192 in
set_option maxHeartbeats 40000000 in
/-- The receiver projection. -/
theorem at_v44 (c : Dev nD) :
    W7 m ρ c (Proc.devRef .tc main_v44) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  after_results_simp
  rfl

set_option maxRecDepth 8192 in
set_option maxHeartbeats 40000000 in
/-- The sender projection. -/
theorem at_v46 (c : Dev nD) :
    W7 m ρ c (Proc.devRef .tc main_v46) = Cert.ReferenceIdeal.ReadP.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  after_results_simp
  rfl

set_option maxRecDepth 8192 in
set_option maxHeartbeats 40000000 in
/-- The pairwise distances. -/
theorem at_v36 (c : Dev nD) :
    W7 m ρ c (Proc.devRef .tc main_v36) = Cert.ReferenceIdeal.ReadP.val_main_v36 (F := Ideal) (m ((c : Thread nD τ).loc main_arg1)) := by
  after_results_simp
  rfl

set_option maxRecDepth 8192 in
set_option maxHeartbeats 40000000 in
/-- Operand 3: a length-128 vector of the layer's weights as a one-row table. -/
theorem at_v59 (c : Dev nD) :
    W7 m ρ c (Proc.devRef .tc main_v59) = shapeCast S1x128 (Cert.ReferenceIdeal.ReadP.val_main_v45 (F := Ideal) (m ((c : Thread nD τ).loc main_arg8))) shapeCasts_S128_S1x128 := by
  after_results_simp
  rfl

set_option maxRecDepth 8192 in
set_option maxHeartbeats 40000000 in
/-- Operand 4: a length-128 vector of the layer's weights as a one-row table. -/
theorem at_v60 (c : Dev nD) :
    W7 m ρ c (Proc.devRef .tc main_v60) = shapeCast S1x128 (Cert.ReferenceIdeal.ReadP.val_main_v62 (F := Ideal) (m ((c : Thread nD τ).loc main_arg9))) shapeCasts_S128_S1x128 := by
  after_results_simp
  rfl

set_option maxRecDepth 8192 in
set_option maxHeartbeats 40000000 in
/-- Operand 6: a length-128 vector of the layer's weights as a one-row table. -/
theorem at_v61 (c : Dev nD) :
    W7 m ρ c (Proc.devRef .tc main_v61) = shapeCast S1x128 (Cert.ReferenceIdeal.ReadP.val_main_v71 (F := Ideal) (m ((c : Thread nD τ).loc main_arg11))) shapeCasts_S128_S1x128 := by
  after_results_simp
  rfl

set_option maxRecDepth 8192 in
set_option maxHeartbeats 40000000 in
/-- Operand 8: a length-128 vector of the layer's weights as a one-row table. -/
theorem at_v62 (c : Dev nD) :
    W7 m ρ c (Proc.devRef .tc main_v62) = shapeCast S1x128 (Cert.ReferenceIdeal.ReadP.val_main_v80 (F := Ideal) (m ((c : Thread nD τ).loc main_arg13))) shapeCasts_S128_S1x128 := by
  after_results_simp
  rfl

set_option maxRecDepth 8192 in
set_option maxHeartbeats 40000000 in
/-- Operand 5: a 128 × 128 weight table, transposed. -/
theorem at_v49 (c : Dev nD) :
    W7 m ρ c (Proc.devRef .tc main_v49) = transpose S128x128 [1, 0] (Cert.ReferenceIdeal.ReadP.val_main_v68 (F := Ideal) (m ((c : Thread nD τ).loc main_arg10))) transposes_S128x128_S128x128_1_0 := by
  after_results_simp
  rfl

set_option maxRecDepth 8192 in
set_option maxHeartbeats 40000000 in
/-- Operand 7: a 128 × 128 weight table, transposed. -/
theorem at_v52 (c : Dev nD) :
    W7 m ρ c (Proc.devRef .tc main_v52) = transpose S128x128 [1, 0] (Cert.ReferenceIdeal.ReadP.val_main_v77 (F := Ideal) (m ((c : Thread nD τ).loc main_arg12))) transposes_S128x128_S128x128_1_0 := by
  after_results_simp
  rfl

end Cert.KernelIdeal.HostStage0

end
-- ==== Proof.HostStage1.lean ====
/-
  The host operations of stretch group 1, value by value.

  Outside its three launches the program applies, to the same arguments, the same host operations as the plain
  program it is compared with — the encoder, the pairwise distances, the per-layer projections and the per-layer
  update perceptron — so each buffer it fills holds the corresponding stage of that program, as one syntactic
  term of the arguments (a matrix product's requested precision does not enter its value on the extended reals).
  Only the operands handed to a launch are laid out differently: the bias and distance-weight vectors as one-row
  tables, the two hidden weight tables transposed.
-/
import proofs.«170678_j11312943857830_2_alg».proof.Proof.Gen.KernelIdeal.Frame
import proofs.«170678_j11312943857830_2_alg».proof.Proof.RefRead
import Idealize.ShloMosaic.Lib.StableHlo.Run

noncomputable section

namespace Cert.KernelIdeal.HostStage1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 8192 in
set_option maxHeartbeats 8000000 in
/-- The node features entering the layer. -/
theorem at_v93 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- The receiver projection. -/
theorem at_v101 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v101) = Cert.ReferenceIdeal.ReadP.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- The sender projection. -/
theorem at_v103 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v103) = Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- The pairwise distances. -/
theorem at_v36 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v36) = Cert.ReferenceIdeal.ReadP.val_main_v36 (F := Ideal) (m ((c : Thread nD τ).loc main_arg1)) := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 3: a length-128 vector of the layer's weights as a one-row table. -/
theorem at_v116 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v116) = shapeCast S1x128 (Cert.ReferenceIdeal.ReadP.val_main_v122 (F := Ideal) (m ((c : Thread nD τ).loc main_arg8))) shapeCasts_S128_S1x128 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 4: a length-128 vector of the layer's weights as a one-row table. -/
theorem at_v117 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v117) = shapeCast S1x128 (Cert.ReferenceIdeal.ReadP.val_main_v139 (F := Ideal) (m ((c : Thread nD τ).loc main_arg9))) shapeCasts_S128_S1x128 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 6: a length-128 vector of the layer's weights as a one-row table. -/
theorem at_v118 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v118) = shapeCast S1x128 (Cert.ReferenceIdeal.ReadP.val_main_v148 (F := Ideal) (m ((c : Thread nD τ).loc main_arg11))) shapeCasts_S128_S1x128 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 8: a length-128 vector of the layer's weights as a one-row table. -/
theorem at_v119 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v119) = shapeCast S1x128 (Cert.ReferenceIdeal.ReadP.val_main_v157 (F := Ideal) (m ((c : Thread nD τ).loc main_arg13))) shapeCasts_S128_S1x128 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 5: a 128 × 128 weight table, transposed. -/
theorem at_v106 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v106) = transpose S128x128 [1, 0] (Cert.ReferenceIdeal.ReadP.val_main_v145 (F := Ideal) (m ((c : Thread nD τ).loc main_arg10))) transposes_S128x128_S128x128_1_0 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

set_option maxRecDepth 8192 in
set_option maxHeartbeats 8000000 in
/-- Operand 7: a 128 × 128 weight table, transposed. -/
theorem at_v109 (c : Dev nD)
    (h_v16 : W8 m ρ c (Proc.devRef .tc main_v16) = Cert.ReferenceIdeal.ReadP.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h_v63 : W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (h_v36 : W8 m ρ c (Proc.devRef .tc main_v36) = Cert.ReferenceIdeal.ReadP.val_main_v36 (F := Ideal) (m ((c : Thread nD τ).loc main_arg1)))
    (h_arg8 : W8 m ρ c (Proc.devRef .tc main_arg8) = m ((c : Thread nD τ).loc main_arg8))
    (h_arg9 : W8 m ρ c (Proc.devRef .tc main_arg9) = m ((c : Thread nD τ).loc main_arg9))
    (h_arg10 : W8 m ρ c (Proc.devRef .tc main_arg10) = m ((c : Thread nD τ).loc main_arg10))
    (h_arg11 : W8 m ρ c (Proc.devRef .tc main_arg11) = m ((c : Thread nD τ).loc main_arg11))
    (h_arg12 : W8 m ρ c (Proc.devRef .tc main_arg12) = m ((c : Thread nD τ).loc main_arg12))
    (h_arg13 : W8 m ρ c (Proc.devRef .tc main_arg13) = m ((c : Thread nD τ).loc main_arg13))
    (h_arg14 : W8 m ρ c (Proc.devRef .tc main_arg14) = m ((c : Thread nD τ).loc main_arg14))
    (h_arg15 : W8 m ρ c (Proc.devRef .tc main_arg15) = m ((c : Thread nD τ).loc main_arg15))
    (h_arg16 : W8 m ρ c (Proc.devRef .tc main_arg16) = m ((c : Thread nD τ).loc main_arg16))
    (h_arg17 : W8 m ρ c (Proc.devRef .tc main_arg17) = m ((c : Thread nD τ).loc main_arg17))
    (h_arg18 : W8 m ρ c (Proc.devRef .tc main_arg18) = m ((c : Thread nD τ).loc main_arg18))
    (h_arg19 : W8 m ρ c (Proc.devRef .tc main_arg19) = m ((c : Thread nD τ).loc main_arg19)) :
    W13 m ρ c (Proc.devRef .tc main_v109) = transpose S128x128 [1, 0] (Cert.ReferenceIdeal.ReadP.val_main_v154 (F := Ideal) (m ((c : Thread nD τ).loc main_arg12))) transposes_S128x128_S128x128_1_0 := by
  after_results_simp
  try simp only [h_arg8, h_arg9, h_arg10, h_arg11, h_arg12, h_arg13, h_arg14, h_arg15, h_arg16, h_arg17, h_arg18, h_arg19]
  try rw [h_v16]
  try rw [h_v63]
  try rw [h_v36]
  all_goals rfl

end Cert.KernelIdeal.HostStage1

end
-- ==== Proof.HostStage2.lean ====
/-
  The host operations of stretch group 2, value by value.

  Outside its three launches the program applies, to the same arguments, the same host operations as the plain
  program it is compared with — the encoder, the pairwise distances, the per-layer projections and the per-layer
  update perceptron — so each buffer it fills holds the corresponding stage of that program, as one syntactic
  term of the arguments (a matrix product's requested precision does not enter its value on the extended reals).
  Only the operands handed to a launch are laid out differently: the bias and distance-weight vectors as one-row
  tables, the two hidden weight tables transposed.
-/
import proofs.«170678_j11312943857830_2_alg».proof.Proof.Gen.KernelIdeal.Frame
import proofs.«170678_j11312943857830_2_alg».proof.Proof.RefRead
import Idealize.ShloMosaic.Lib.StableHlo.Run

noncomputable section

namespace Cert.KernelIdeal.HostStage2

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 8192 in
set_option maxHeartbeats 8000000 in
/-- The node features entering the layer. -/
theorem at_v150 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v150) = Cert.ReferenceIdeal.ReadP.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- The receiver projection. -/
theorem at_v158 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v158) = Cert.ReferenceIdeal.ReadP.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- The sender projection. -/
theorem at_v160 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v160) = Cert.ReferenceIdeal.ReadP.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- The pairwise distances. -/
theorem at_v36 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v36) = Cert.ReferenceIdeal.ReadP.val_main_v36 (F := Ideal) (m ((c : Thread nD τ).loc main_arg1)) := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 3: a length-128 vector of the layer's weights as a one-row table. -/
theorem at_v173 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v173) = shapeCast S1x128 (Cert.ReferenceIdeal.ReadP.val_main_v199 (F := Ideal) (m ((c : Thread nD τ).loc main_arg8))) shapeCasts_S128_S1x128 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 4: a length-128 vector of the layer's weights as a one-row table. -/
theorem at_v174 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v174) = shapeCast S1x128 (Cert.ReferenceIdeal.ReadP.val_main_v216 (F := Ideal) (m ((c : Thread nD τ).loc main_arg9))) shapeCasts_S128_S1x128 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 6: a length-128 vector of the layer's weights as a one-row table. -/
theorem at_v175 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v175) = shapeCast S1x128 (Cert.ReferenceIdeal.ReadP.val_main_v225 (F := Ideal) (m ((c : Thread nD τ).loc main_arg11))) shapeCasts_S128_S1x128 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 8: a length-128 vector of the layer's weights as a one-row table. -/
theorem at_v176 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v176) = shapeCast S1x128 (Cert.ReferenceIdeal.ReadP.val_main_v234 (F := Ideal) (m ((c : Thread nD τ).loc main_arg13))) shapeCasts_S128_S1x128 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 5: a 128 × 128 weight table, transposed. -/
theorem at_v163 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v163) = transpose S128x128 [1, 0] (Cert.ReferenceIdeal.ReadP.val_main_v222 (F := Ideal) (m ((c : Thread nD τ).loc main_arg10))) transposes_S128x128_S128x128_1_0 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

set_option maxRecDepth 8192 in
set_option maxHeartbeats 8000000 in
/-- Operand 7: a 128 × 128 weight table, transposed. -/
theorem at_v166 (c : Dev nD)
    (h_v93 : W14 m ρ c (Proc.devRef .tc main_v93) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v120 : W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v36 : W14 m ρ c (Proc.devRef .tc main_v36) = Cert.ReferenceIdeal.ReadP.val_main_v36 (F := Ideal) (m ((c : Thread nD τ).loc main_arg1)))
    (h_arg8 : W14 m ρ c (Proc.devRef .tc main_arg8) = m ((c : Thread nD τ).loc main_arg8))
    (h_arg9 : W14 m ρ c (Proc.devRef .tc main_arg9) = m ((c : Thread nD τ).loc main_arg9))
    (h_arg10 : W14 m ρ c (Proc.devRef .tc main_arg10) = m ((c : Thread nD τ).loc main_arg10))
    (h_arg11 : W14 m ρ c (Proc.devRef .tc main_arg11) = m ((c : Thread nD τ).loc main_arg11))
    (h_arg12 : W14 m ρ c (Proc.devRef .tc main_arg12) = m ((c : Thread nD τ).loc main_arg12))
    (h_arg13 : W14 m ρ c (Proc.devRef .tc main_arg13) = m ((c : Thread nD τ).loc main_arg13))
    (h_arg14 : W14 m ρ c (Proc.devRef .tc main_arg14) = m ((c : Thread nD τ).loc main_arg14))
    (h_arg15 : W14 m ρ c (Proc.devRef .tc main_arg15) = m ((c : Thread nD τ).loc main_arg15))
    (h_arg16 : W14 m ρ c (Proc.devRef .tc main_arg16) = m ((c : Thread nD τ).loc main_arg16))
    (h_arg17 : W14 m ρ c (Proc.devRef .tc main_arg17) = m ((c : Thread nD τ).loc main_arg17))
    (h_arg18 : W14 m ρ c (Proc.devRef .tc main_arg18) = m ((c : Thread nD τ).loc main_arg18))
    (h_arg19 : W14 m ρ c (Proc.devRef .tc main_arg19) = m ((c : Thread nD τ).loc main_arg19)) :
    W19 m ρ c (Proc.devRef .tc main_v166) = transpose S128x128 [1, 0] (Cert.ReferenceIdeal.ReadP.val_main_v231 (F := Ideal) (m ((c : Thread nD τ).loc main_arg12))) transposes_S128x128_S128x128_1_0 := by
  after_results_simp
  try simp only [h_arg8, h_arg9, h_arg10, h_arg11, h_arg12, h_arg13, h_arg14, h_arg15, h_arg16, h_arg17, h_arg18, h_arg19]
  try rw [h_v93]
  try rw [h_v120]
  try rw [h_v36]
  all_goals rfl

end Cert.KernelIdeal.HostStage2

end
-- ==== Proof.HostStage3.lean ====
/-
  The host operations of stretch group 3, value by value.

  Outside its three launches the program applies, to the same arguments, the same host operations as the plain
  program it is compared with — the encoder, the pairwise distances, the per-layer projections and the per-layer
  update perceptron — so each buffer it fills holds the corresponding stage of that program, as one syntactic
  term of the arguments (a matrix product's requested precision does not enter its value on the extended reals).
  Only the operands handed to a launch are laid out differently: the bias and distance-weight vectors as one-row
  tables, the two hidden weight tables transposed.
-/
import proofs.«170678_j11312943857830_2_alg».proof.Proof.Gen.KernelIdeal.Frame
import proofs.«170678_j11312943857830_2_alg».proof.Proof.RefRead
import Idealize.ShloMosaic.Lib.StableHlo.Run

noncomputable section

namespace Cert.KernelIdeal.HostStage3

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 8192 in
set_option maxHeartbeats 8000000 in
/-- The returned node features. -/
theorem at_v207 (c : Dev nD)
    (h_v150 : W20 m ρ c (Proc.devRef .tc main_v150) = Cert.ReferenceIdeal.ReadP.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_v177 : W20 m ρ c (Proc.devRef .tc main_v177) = Cert.ReferenceIdeal.ReadP.val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h_arg14 : W20 m ρ c (Proc.devRef .tc main_arg14) = m ((c : Thread nD τ).loc main_arg14))
    (h_arg15 : W20 m ρ c (Proc.devRef .tc main_arg15) = m ((c : Thread nD τ).loc main_arg15))
    (h_arg16 : W20 m ρ c (Proc.devRef .tc main_arg16) = m ((c : Thread nD τ).loc main_arg16))
    (h_arg17 : W20 m ρ c (Proc.devRef .tc main_arg17) = m ((c : Thread nD τ).loc main_arg17))
    (h_arg18 : W20 m ρ c (Proc.devRef .tc main_arg18) = m ((c : Thread nD τ).loc main_arg18))
    (h_arg19 : W20 m ρ c (Proc.devRef .tc main_arg19) = m ((c : Thread nD τ).loc main_arg19)) :
    W25 m ρ c (Proc.devRef .tc main_v207) = Cert.ReferenceIdeal.ReadP.val_main_v270 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  after_results_simp
  try simp only [h_arg14, h_arg15, h_arg16, h_arg17, h_arg18, h_arg19]
  try rw [h_v150]
  try rw [h_v177]
  all_goals rfl

end Cert.KernelIdeal.HostStage3

end
-- ==== Proof.Region0Cases.lean ====
/-
  What one grid point of the message kernel leaves in its output block, as a value.

  The body stores once per point (twice at the first sender block of a receiver block, where it first stores the
  zero block): the last store's value is the body's arithmetic applied to the blocks it loaded, with the output
  block's previous contents — the zero block just stored, or what the point before left — as the accumulator.
-/
import proofs.«170678_j11312943857830_2_alg».proof.Proof.Gen.KernelIdeal.Frame
import Idealize.ShloMosaic.Lib.Pipeline.Value
import Idealize.ShloMosaic.Lib.Tactic

noncomputable section

namespace Cert.KernelIdeal.Region0

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A later sender block: the body adds this block's partial sums to what the point before left. -/
theorem out_later (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : ¬cond0_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) (xo : Vec F S64x128 .f32) :
    out0_B_9 c i arg2 harg2 arg3 harg3 arg4 harg4 arg5 harg5 arg6 harg6 arg7 harg7 arg8 harg8 arg9 harg9 arg10 harg10 arg11 harg11 hc x0 x1 x2 x3 x4 x5 x6 x7 x8 xo
      = k0_pay1 (BitVec.ofNat 32 (i 0).val) (BitVec.ofNat 32 (i 1).val) (k0_pay3 x0 x1 x2 x3 x4 x5) (k0_pay4 x6) x7 x8 xo := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc x0 x1 x2 x3 x4 x5 x6 x7 x8 xo)]
  unfold kernelRun0_B
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

/-- The first sender block: the body stores the zero block, reads it back and adds this block's partial sums. -/
theorem out_first (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : cond0_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) :
    out0_A_9 c i arg2 harg2 arg3 harg3 arg4 harg4 arg5 harg5 arg6 harg6 arg7 harg7 arg8 harg8 arg9 harg9 arg10 harg10 arg11 harg11 hc x0 x1 x2 x3 x4 x5 x6 x7 x8
      = k0_pay1 (BitVec.ofNat 32 (i 0).val) (BitVec.ofNat 32 (i 1).val) (k0_pay3 x0 x1 x2 x3 x4 x5) (k0_pay4 x6) x7 x8 (k0_pay2 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc x0 x1 x2 x3 x4 x5 x6 x7 x8)]
  unfold kernelRun0_A
  dsimp only
  rw [View.canon_cons_unit_zero (S := S64x128) hz]
  sl_unfold_words
  rw [View.readCov_unit_zero (S := S64x128) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

end Cert.KernelIdeal.Region0

end
-- ==== Proof.BlockCoords.lean ====
/-
  Rows and columns of the 512 × 512 receiver–sender plane, by block.

  The kernel walks the plane in tiles of 64 receivers by 128 senders. `rowAt bi r` is receiver `64 bi + r` and
  `colAt bj s` is sender `128 bj + s`; both are written with a remainder modulo 512 so that they are total
  functions of the block number, and agree with the plain sums for the eight receiver blocks and four sender blocks
  that exist.
-/
import Mathlib.Tactic

namespace Cert.BlockCoords

/-- Receiver `64 bi + r`. -/
def rowAt (bi : ℕ) (r : Fin 64) : Fin 512 := ⟨(64 * bi + r.val) % 512, Nat.mod_lt _ (by decide)⟩

/-- Sender `128 bj + s`. -/
def colAt (bj : ℕ) (s : Fin 128) : Fin 512 := ⟨(128 * bj + s.val) % 512, Nat.mod_lt _ (by decide)⟩

theorem rowAt_val (bi : ℕ) (r : Fin 64) (h : bi < 8) : (rowAt bi r).val = 64 * bi + r.val := by
  have := r.isLt
  show (64 * bi + r.val) % 512 = _
  omega

theorem colAt_val (bj : ℕ) (s : Fin 128) (h : bj < 4) : (colAt bj s).val = 128 * bj + s.val := by
  have := s.isLt
  show (128 * bj + s.val) % 512 = _
  omega

/-- A receiver is the sender of the same tile position exactly when their plain indices agree. -/
theorem rowAt_eq_colAt_iff (bi bj : ℕ) (r : Fin 64) (s : Fin 128) (hi : bi < 8) (hj : bj < 4) :
    rowAt bi r = colAt bj s ↔ 64 * bi + r.val = 128 * bj + s.val := by
  rw [Fin.ext_iff, rowAt_val bi r hi, colAt_val bj s hj]

/-- Every receiver lies in its own block: row `i` is `rowAt (i / 64) (i % 64)`. -/
theorem rowAt_div_mod (i : Fin 512) : rowAt (i.val / 64) ⟨i.val % 64, Nat.mod_lt _ (by decide)⟩ = i := by
  have := i.isLt
  apply Fin.ext
  show (64 * (i.val / 64) + i.val % 64) % 512 = i.val
  omega

end Cert.BlockCoords
-- ==== Proof.Region0Blocks.lean ====
/-
  The blocks the message kernel loads at a grid point, as entries of the arrays the launch finds.

  The grid is 8 receiver blocks by 4 sender blocks, walked row by row: point `t` is receiver block `t / 4` and
  sender block `t % 4`. The receiver projection's block is rows `64 (t / 4) …`, the sender projection's block rows
  `128 (t % 4) …`, the distance block the corresponding 64 × 128 tile; the weights and biases are whole arrays at
  every point.
-/
import proofs.«170678_j11312943857830_2_alg».proof.Proof.Gen.KernelIdeal.Frame
import proofs.«170678_j11312943857830_2_alg».proof.Proof.BlockCoords
import Idealize.ShloMosaic.Lib.Pipeline.Value
import Idealize.ShloMosaic.Lib.ValueIdx

noncomputable section

namespace Cert.KernelIdeal.Region0

open Cert.KernelIdeal Cert.KernelIdeal.Gen Cert.BlockCoords
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed block-index maps and grid coordinates in closed form, decided once over the 32 points. -/
theorem point_facts : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = t.val % 4)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 4 ∧ win0_9.index t (1 : Fin 2) = 0)
    ∧ ((grid0.coords t 0).val = t.val / 4 ∧ (grid0.coords t 1).val = t.val % 4) :=
  (by decide +kernel : ∀ t : Fin grid0.N, _)

/-- The receiver projection's block: rows `64 (t / 4) + r`. -/
theorem read_recv (c : Dev nD) (t : Fin cfg0.N) (r : Fin 64) (p : Fin 128) :
    iblk0 V c 0 t (ix2 r p) = (V c (Pipeline.arrRef spec0 0) : S512x128.Idx → Elt F .f32) (ix2 (rowAt (t.val / 4) r) p) := by
  obtain ⟨⟨e0, e1⟩, -⟩ := point_facts t
  have hN : cfg0.N = 32 := N_0
  have ht := t.isLt
  have hr := r.isLt
  unfold iblk0
  rw [View.read_apply]
  refine congrArg (V c (Pipeline.arrRef spec0 0) : S512x128.Idx → Elt F .f32) (funext fun a => Fin.ext ?_)
  match a with
  | ⟨0, _⟩ => show win0_0.index t (0 : Fin 2) * 64 + 1 * r.val = (64 * (t.val / 4) + r.val) % 512; rw [e0]; omega
  | ⟨1, _⟩ => show win0_0.index t (1 : Fin 2) * 128 + 1 * p.val = p.val; rw [e1]; omega

/-- The sender projection's block: rows `128 (t % 4) + s`. -/
theorem read_send (c : Dev nD) (t : Fin cfg0.N) (s : Fin 128) (p : Fin 128) :
    iblk0 V c 1 t (ix2 s p) = (V c (Pipeline.arrRef spec0 1) : S512x128.Idx → Elt F .f32) (ix2 (colAt (t.val % 4) s) p) := by
  obtain ⟨-, ⟨e0, e1⟩, -⟩ := point_facts t
  have hs := s.isLt
  unfold iblk0
  rw [View.read_apply]
  refine congrArg (V c (Pipeline.arrRef spec0 1) : S512x128.Idx → Elt F .f32) (funext fun a => Fin.ext ?_)
  match a with
  | ⟨0, _⟩ => show win0_1.index t (0 : Fin 2) * 128 + 1 * s.val = (128 * (t.val % 4) + s.val) % 512; rw [e0]; omega
  | ⟨1, _⟩ => show win0_1.index t (1 : Fin 2) * 128 + 1 * p.val = p.val; rw [e1]; omega

/-- The distance tile: receiver rows `64 (t / 4) + r`, sender columns `128 (t % 4) + s`. -/
theorem read_dist (c : Dev nD) (t : Fin cfg0.N) (r : Fin 64) (s : Fin 128) :
    iblk0 V c 2 t (ix2 r s)
      = (V c (Pipeline.arrRef spec0 2) : S512x512.Idx → Elt F .f32) (ix2 (rowAt (t.val / 4) r) (colAt (t.val % 4) s)) := by
  obtain ⟨-, -, ⟨e0, e1⟩, -⟩ := point_facts t
  have hN : cfg0.N = 32 := N_0
  have ht := t.isLt
  have hr := r.isLt
  have hs := s.isLt
  unfold iblk0
  rw [View.read_apply]
  refine congrArg (V c (Pipeline.arrRef spec0 2) : S512x512.Idx → Elt F .f32) (funext fun a => Fin.ext ?_)
  match a with
  | ⟨0, _⟩ => show win0_2.index t (0 : Fin 2) * 64 + 1 * r.val = (64 * (t.val / 4) + r.val) % 512; rw [e0]; omega
  | ⟨1, _⟩ => show win0_2.index t (1 : Fin 2) * 128 + 1 * s.val = (128 * (t.val % 4) + s.val) % 512; rw [e1]; omega

/-- Operand 3 is one row of 128 entries, whole at every point. -/
theorem read_row3 (c : Dev nD) (t : Fin cfg0.N) (p : Fin 128) :
    iblk0 V c 3 t (ix2 (0 : Fin 1) p) = (V c (Pipeline.arrRef spec0 3) : S1x128.Idx → Elt F .f32) (ix2 (0 : Fin 1) p) := by
  obtain ⟨-, -, -, ⟨e0, e1⟩, -⟩ := point_facts t
  unfold iblk0
  rw [View.read_apply]
  refine congrArg (V c (Pipeline.arrRef spec0 3) : S1x128.Idx → Elt F .f32) (funext fun a => Fin.ext ?_)
  match a with
  | ⟨0, _⟩ => show win0_3.index t (0 : Fin 2) * 1 + 1 * 0 = 0; rw [e0]
  | ⟨1, _⟩ => show win0_3.index t (1 : Fin 2) * 128 + 1 * p.val = p.val; rw [e1]; omega

/-- Operand 4 is one row of 128 entries, whole at every point. -/
theorem read_row4 (c : Dev nD) (t : Fin cfg0.N) (p : Fin 128) :
    iblk0 V c 4 t (ix2 (0 : Fin 1) p) = (V c (Pipeline.arrRef spec0 4) : S1x128.Idx → Elt F .f32) (ix2 (0 : Fin 1) p) := by
  obtain ⟨-, -, -, -, ⟨e0, e1⟩, -⟩ := point_facts t
  unfold iblk0
  rw [View.read_apply]
  refine congrArg (V c (Pipeline.arrRef spec0 4) : S1x128.Idx → Elt F .f32) (funext fun a => Fin.ext ?_)
  match a with
  | ⟨0, _⟩ => show win0_4.index t (0 : Fin 2) * 1 + 1 * 0 = 0; rw [e0]
  | ⟨1, _⟩ => show win0_4.index t (1 : Fin 2) * 128 + 1 * p.val = p.val; rw [e1]; omega

/-- Operand 6 is one row of 128 entries, whole at every point. -/
theorem read_row6 (c : Dev nD) (t : Fin cfg0.N) (p : Fin 128) :
    iblk0 V c 6 t (ix2 (0 : Fin 1) p) = (V c (Pipeline.arrRef spec0 6) : S1x128.Idx → Elt F .f32) (ix2 (0 : Fin 1) p) := by
  obtain ⟨-, -, -, -, -, -, ⟨e0, e1⟩, -⟩ := point_facts t
  unfold iblk0
  rw [View.read_apply]
  refine congrArg (V c (Pipeline.arrRef spec0 6) : S1x128.Idx → Elt F .f32) (funext fun a => Fin.ext ?_)
  match a with
  | ⟨0, _⟩ => show win0_6.index t (0 : Fin 2) * 1 + 1 * 0 = 0; rw [e0]
  | ⟨1, _⟩ => show win0_6.index t (1 : Fin 2) * 128 + 1 * p.val = p.val; rw [e1]; omega

/-- Operand 8 is one row of 128 entries, whole at every point. -/
theorem read_row8 (c : Dev nD) (t : Fin cfg0.N) (p : Fin 128) :
    iblk0 V c 8 t (ix2 (0 : Fin 1) p) = (V c (Pipeline.arrRef spec0 8) : S1x128.Idx → Elt F .f32) (ix2 (0 : Fin 1) p) := by
  obtain ⟨-, -, -, -, -, -, -, -, ⟨e0, e1⟩, -⟩ := point_facts t
  unfold iblk0
  rw [View.read_apply]
  refine congrArg (V c (Pipeline.arrRef spec0 8) : S1x128.Idx → Elt F .f32) (funext fun a => Fin.ext ?_)
  match a with
  | ⟨0, _⟩ => show win0_8.index t (0 : Fin 2) * 1 + 1 * 0 = 0; rw [e0]
  | ⟨1, _⟩ => show win0_8.index t (1 : Fin 2) * 128 + 1 * p.val = p.val; rw [e1]; omega

/-- Operand 5 is a 128 × 128 weight table, whole at every point. -/
theorem read_table5 (c : Dev nD) (t : Fin cfg0.N) (p q : Fin 128) :
    iblk0 V c 5 t (ix2 p q) = (V c (Pipeline.arrRef spec0 5) : S128x128.Idx → Elt F .f32) (ix2 p q) := by
  obtain ⟨-, -, -, -, -, ⟨e0, e1⟩, -⟩ := point_facts t
  unfold iblk0
  rw [View.read_apply]
  refine congrArg (V c (Pipeline.arrRef spec0 5) : S128x128.Idx → Elt F .f32) (funext fun a => Fin.ext ?_)
  match a with
  | ⟨0, _⟩ => show win0_5.index t (0 : Fin 2) * 128 + 1 * p.val = p.val; rw [e0]; omega
  | ⟨1, _⟩ => show win0_5.index t (1 : Fin 2) * 128 + 1 * q.val = q.val; rw [e1]; omega

/-- Operand 7 is a 128 × 128 weight table, whole at every point. -/
theorem read_table7 (c : Dev nD) (t : Fin cfg0.N) (p q : Fin 128) :
    iblk0 V c 7 t (ix2 p q) = (V c (Pipeline.arrRef spec0 7) : S128x128.Idx → Elt F .f32) (ix2 p q) := by
  obtain ⟨-, -, -, -, -, -, -, ⟨e0, e1⟩, -⟩ := point_facts t
  unfold iblk0
  rw [View.read_apply]
  refine congrArg (V c (Pipeline.arrRef spec0 7) : S128x128.Idx → Elt F .f32) (funext fun a => Fin.ext ?_)
  match a with
  | ⟨0, _⟩ => show win0_7.index t (0 : Fin 2) * 128 + 1 * p.val = p.val; rw [e0]; omega
  | ⟨1, _⟩ => show win0_7.index t (1 : Fin 2) * 128 + 1 * q.val = q.val; rw [e1]; omega

end Cert.KernelIdeal.Region0

end
-- ==== Proof.MessageSum.lean ====
/-
  The pairwise message sum of one graph layer, as one function on the extended reals.

  For a receiver `i`, a sender `j` and an output feature `k` the edge's message is the three-layer perceptron
      m(i, j, k) = (∑ q, relu (∑ p, relu (A i p + B j p + D i j · wd p + b1 p) · W2T p q + b2 q) · W3T q k) + b3 k
  of the receiver's projection `A i`, the sender's projection `B j` and the pair's distance `D i j`, and the
  layer's aggregate at `(i, k)` is the sum over every sender of that message times the off-diagonal mask
  (`0` on `j = i`, `1` elsewhere). Both programs compute this function; they differ in how the sum over the
  senders is cut (four blocks of 128 accumulated in turn, against one sum of 512) and in how the mask is produced.
  All arrays are curried functions of literal `Fin` coordinates, so that no statement depends on a program's
  shape names.
-/
import Idealize.ShloMosaic.PureOps.Ideal
import Idealize.ShloMosaic.Lib.ValueIdx

noncomputable section

namespace Cert.MessageSum

/-- The off-diagonal mask: a node sends no message to itself. -/
def offDiag (i j : Fin 512) : EReal := if i = j then 0 else 1

/-- The edge perceptron on one receiver row `a`, one sender row `b` and the pair's distance `d`, at output
    feature `k`: two rectified hidden layers of 128 units and a linear read-out. -/
def perceptron (a b : Fin 128 → EReal) (d : EReal) (wd b1 b2 b3 : Fin 128 → EReal)
    (W2T W3T : Fin 128 → Fin 128 → EReal) (k : Fin 128) : EReal :=
  (∑ q : Fin 128, max ((∑ p : Fin 128, max (a p + b p + d * wd p + b1 p) 0 * W2T p q) + b2 q) 0 * W3T q k) + b3 k

/-- The edge's message at output feature `k`, masked off the diagonal. -/
def edge (A B : Fin 512 → Fin 128 → EReal) (D : Fin 512 → Fin 512 → EReal) (wd b1 b2 b3 : Fin 128 → EReal)
    (W2T W3T : Fin 128 → Fin 128 → EReal) (i j : Fin 512) (k : Fin 128) : EReal :=
  perceptron (A i) (B j) (D i j) wd b1 b2 b3 W2T W3T k * offDiag i j

/-- The layer's aggregate: the sum of the masked messages over every sender. -/
def total (A B : Fin 512 → Fin 128 → EReal) (D : Fin 512 → Fin 512 → EReal) (wd b1 b2 b3 : Fin 128 → EReal)
    (W2T W3T : Fin 128 → Fin 128 → EReal) (i : Fin 512) (k : Fin 128) : EReal :=
  ∑ j : Fin 512, edge A B D wd b1 b2 b3 W2T W3T i j k

end Cert.MessageSum

end
-- ==== Proof.PayloadCommon.lean ====
/-
  Reading the layout operations, the block product, the row reduction and the off-diagonal mask of the
  message kernel's tile at an index given by coordinates.

  A tile pairs 64 receivers with 128 senders over 128 features. Its intermediate values live either in the
  cube [64, 128, 128] (receiver, sender, feature) or in the matrix [8192, 128] whose row 128 r + j is the pair
  (r, j); the lemmas below say which operand element each reshaping or broadcast reads, that the product with
  a [128, 128] matrix into a zero accumulator is the sum over the contracted feature, that the sum over the
  sender axis is the sum over j, and that the integer comparison of the global receiver and sender numbers,
  converted to a float, is 0 on the diagonal and 1 off it.
-/
import proofs.«170678_j11312943857830_2_alg».proof.Proof.Gen.KernelIdeal
import Idealize.ShloMosaic.Lib.ValueLayout
import Idealize.ShloMosaic.PureOps.Ideal.Laws

noncomputable section

open scoped BigOperators

namespace Cert.KernelIdeal.PayloadCommon

open Idealize.ShloMosaic Idealize.ShloMosaic.ValueIdx Cert.KernelIdeal Cert.KernelIdeal.Gen

variable {α : Type}

/-! ## The narrowing to bf16 in front of a product is the identity on extended reals -/

/-- At an index, an f32 vector narrowed to bf16 reads the same extended real. -/
theorem truncf_bf16_apply {s : Shape} (a : FVec Ideal s .f32) (h : FTy.bf16.bits < FTy.f32.bits) (i : s.Idx) :
    (truncf .bf16 a h : FVec Ideal s .bf16) i = a i := rfl

/-! ## Reshapings that insert unit axes or merge the two leading axes -/

/-- [a, b] viewed as [a, 1, b]: the element at (i, 0, j) is the element at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] viewed as [a, b, 1]: the element at (i, j, 0) is the element at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a] viewed as [1, 1, a]: the element at (0, 0, i) is the element at i. -/
theorem cast_a_11a {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one])

/-- The cube [a, b, c] flattened to the matrix [m, c], m = a b: row i b + j of the matrix is the pair (i, j). -/
theorem cast_abc_mc {a b c m : ℕ} (x : (⟨3, ![a, b, c]⟩ : Shape).Idx → α)
    (h : (⟨3, ![a, b, c]⟩ : Shape).ShapeCasts ⟨2, ![m, c]⟩) (i : Fin a) (j : Fin b) (k : Fin c) (row : Fin m)
    (hrow : row.val = i.val * b + j.val) :
    shapeCast ⟨2, ![m, c]⟩ x h (ix2 row k) = x (ix3 i j k) :=
  shapeCast_apply x h _ _ (by
    rw [Shape.rowMajor_val_three, Shape.rowMajor_val_two]
    show (i.val * b + j.val) * c + k.val = row.val * c + k.val
    rw [hrow])

/-- The matrix [m, c] cut back into the cube [a, b, c]: the pair (i, j) is row i b + j of the matrix. -/
theorem cast_mc_abc {a b c m : ℕ} (x : (⟨2, ![m, c]⟩ : Shape).Idx → α)
    (h : (⟨2, ![m, c]⟩ : Shape).ShapeCasts ⟨3, ![a, b, c]⟩) (i : Fin a) (j : Fin b) (k : Fin c) (row : Fin m)
    (hrow : row.val = i.val * b + j.val) :
    shapeCast ⟨3, ![a, b, c]⟩ x h (ix3 i j k) = x (ix2 row k) :=
  shapeCast_apply x h _ _ (by
    rw [Shape.rowMajor_val_three, Shape.rowMajor_val_two]
    show row.val * c + k.val = (i.val * b + j.val) * c + k.val
    rw [hrow])

/-! ## The row of a pair in the flattened matrix -/

/-- The pair (receiver r, sender j) of the tile is row 128 r + j of the [8192, 128] matrix. -/
def pairRow (r : Fin 64) (j : Fin 128) : Fin 8192 := ⟨r.val * 128 + j.val, by have := r.isLt; have := j.isLt; omega⟩

theorem pairRow_val (r : Fin 64) (j : Fin 128) : (pairRow r j).val = r.val * 128 + j.val := rfl

/-! ## Broadcasts into the cube [64, 128, 128] -/

/-- A receiver's row copied to every sender. -/
theorem bc_64x1x128 (x : S64x1x128.Idx → α) (h : S64x1x128.Broadcasts S64x128x128) (r : Fin 64) (j p : Fin 128) :
    broadcastTo S64x128x128 x h (ix3 r j p) = x (ix3 r (0 : Fin 1) p) :=
  broadcastTo_apply x h _ _ fun a => match a with
    | ⟨0, _⟩ => rfl
    | ⟨1, _⟩ => rfl
    | ⟨2, _⟩ => rfl

/-- A sender's row copied to every receiver. -/
theorem bc_1x128x128 (x : S1x128x128.Idx → α) (h : S1x128x128.Broadcasts S64x128x128) (r : Fin 64) (j p : Fin 128) :
    broadcastTo S64x128x128 x h (ix3 r j p) = x (ix3 (0 : Fin 1) j p) :=
  broadcastTo_apply x h _ _ fun a => match a with
    | ⟨0, _⟩ => rfl
    | ⟨1, _⟩ => rfl
    | ⟨2, _⟩ => rfl

/-- A pair's scalar copied to every feature. -/
theorem bc_64x128x1 (x : S64x128x1.Idx → α) (h : S64x128x1.Broadcasts S64x128x128) (r : Fin 64) (j p : Fin 128) :
    broadcastTo S64x128x128 x h (ix3 r j p) = x (ix3 r j (0 : Fin 1)) :=
  broadcastTo_apply x h _ _ fun a => match a with
    | ⟨0, _⟩ => rfl
    | ⟨1, _⟩ => rfl
    | ⟨2, _⟩ => rfl

/-- A feature vector copied to every pair. -/
theorem bc_1x1x128 (x : S1x1x128.Idx → α) (h : S1x1x128.Broadcasts S64x128x128) (r : Fin 64) (j p : Fin 128) :
    broadcastTo S64x128x128 x h (ix3 r j p) = x (ix3 (0 : Fin 1) (0 : Fin 1) p) :=
  broadcastTo_apply x h _ _ fun a => match a with
    | ⟨0, _⟩ => rfl
    | ⟨1, _⟩ => rfl
    | ⟨2, _⟩ => rfl

/-! ## The product of the [8192, 128] matrix with a [128, 128] matrix -/

/-- The left operand's row coordinate is the result's. -/
theorem dot_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left operand's column coordinate is the contracted one. -/
theorem dot_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row coordinate is the contracted one. -/
theorem dot_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's column coordinate is the result's. -/
theorem dot_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Into a zero accumulator, the product at (row, q) is the sum over the contracted feature p of
    left (row, p) times right (p, q). -/
theorem matmul_row_apply {φ₁ φ₂ : FTy} (lhs : FVec Ideal S8192x128 φ₁) (rhs : FVec Ideal S128x128 φ₂)
    (row : Fin 8192) (q : Fin 128) :
    matmul (F := Ideal) dot_S8192x128_S128x128_S8192x128_1_0_0_1_n_n none lhs rhs (constant (F := Ideal) S8192x128 .f32 0x00000000#32) (ix2 row q)
      = ∑ p : Fin 128, lhs (ix2 row p) * rhs (ix2 p q) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 row q) ((ValueIdx.contrEquiv1 dot_S8192x128_S128x128_S8192x128_1_0_0_1_n_n 128 rfl rfl).symm k) = ix2 row k := funext fun a => Fin.ext (by
    match a with
    | ⟨0, _⟩ => exact dot_lhs_0 _ _
    | ⟨1, _⟩ => exact (dot_lhs_1 _ _).trans hk)
  have er : dot_S8192x128_S128x128_S8192x128_1_0_0_1_n_n.rhsIdx (ix2 row q) ((ValueIdx.contrEquiv1 dot_S8192x128_S128x128_S8192x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-! ## The sum over the sender axis -/

/-- The reduction of the cube over its middle axis, at (r, k), is the sum over the senders j of the cube at (r, j, k). -/
theorem reduce_senders_apply (src : FVec Ideal S64x128x128 .f32) (h : S64x128x128.Reduces [1] S64x128)
    (hφ : FKind.Formats .f32) (hacc : (0x00000000#32 : BitVec 32) = FKind.add.neutral .f32 hφ) (r : Fin 64) (k : Fin 128) :
    multiReduction (F := Ideal) .add [1] S64x128 src 0x00000000#32 h hφ hacc (ix2 r k) = ∑ j : Fin 128, src (ix3 r j k) := by
  rw [Ideal.multiReduction_add_single]
  refine Finset.sum_congr rfl fun j _ => congrArg src ?_
  funext c
  apply Fin.ext
  match c with
  | ⟨0, _⟩ => rfl
  | ⟨1, _⟩ => rfl
  | ⟨2, _⟩ => rfl

/-! ## The off-diagonal mask -/

/-- Below 2 ^ 32 two naturals are equal exactly when their 32-bit words are. -/
theorem ofNat32_inj {a b : ℕ} (ha : a < 4294967296) (hb : b < 4294967296) :
    BitVec.ofNat 32 a = BitVec.ofNat 32 b ↔ a = b := by
  constructor
  · intro h
    have h' := congrArg BitVec.toNat h
    simp only [BitVec.toNat_ofNat, Nat.reducePow] at h'
    omega
  · rintro rfl; rfl

/-- Block number times block length plus the offset in the block, computed on 32-bit words, is the word of the
    natural number: nothing wraps at these sizes. -/
theorem word_affine (c n t : ℕ) (hc : c < 256) (hn : n < 8) (ht : t < 128) :
    IntOp.addi (Scalar.muli (BitVec.ofNat 32 n) (BitVec.ofNat 32 c)) (BitVec.ofNat 32 t) = BitVec.ofNat 32 (c * n + t) := by
  show BitVec.ofNat 32 n * BitVec.ofNat 32 c + BitVec.ofNat 32 t = _
  rw [← BitVec.ofNat_mul, ← BitVec.ofNat_add, Nat.mul_comm n c]

/-- The comparison "global receiver number ≠ global sender number" on 32-bit words is the comparison of the
    natural numbers 64 bi + r and 128 bj + j. -/
theorem mask_word (bi bj r j : ℕ) (hbi : bi < 8) (hbj : bj < 4) (hr : r < 64) (hj : j < 128) :
    IntOp.cmpi .ne (IntOp.addi (Scalar.muli (BitVec.ofNat 32 bi) 64#32) (BitVec.ofNat 32 r))
        (IntOp.addi (Scalar.muli (BitVec.ofNat 32 bj) 128#32) (BitVec.ofNat 32 j))
      = if 64 * bi + r = 128 * bj + j then 0#1 else 1#1 := by
  rw [word_affine 64 bi r (by omega) hbi (by omega), word_affine 128 bj j (by omega) (by omega) hj]
  show BitVec.ofBool (BitVec.ofNat 32 (64 * bi + r) != BitVec.ofNat 32 (128 * bj + j)) = _
  by_cases h : 64 * bi + r = 128 * bj + j
  · rw [if_pos h, h]; simp
  · rw [if_neg h]
    have hne : BitVec.ofNat 32 (64 * bi + r) ≠ BitVec.ofNat 32 (128 * bj + j) :=
      fun e => h ((ofNat32_inj (by omega) (by omega)).mp e)
    have hb : (BitVec.ofNat 32 (64 * bi + r) != BitVec.ofNat 32 (128 * bj + j)) = true := by
      rw [bne_iff_ne]; exact hne
    rw [hb]; rfl

/-- The mask at (r, j): the comparison, widened to 32 bits and converted to a float, is 0 where the global
    receiver number 64 bi + r equals the global sender number 128 bj + j, and 1 elsewhere. -/
theorem mask_apply (bi bj : ℕ) (hbi : bi < 8) (hbj : bj < 4) (h0 : S64x128.Iotas .tc 32 [0]) (h1 : S64x128.Iotas .tc 32 [1])
    (hlt : 1 < 32) (r : Fin 64) (j : Fin 128) :
    (sitofp (F := Ideal) .f32 (extui 32 (cmpi .ne
        (addi (broadcast S64x128 (Scalar.muli (BitVec.ofNat 32 bi) 64#32)) (iota .tc S64x128 32 [0] h0))
        (addi (broadcast S64x128 (Scalar.muli (BitVec.ofNat 32 bj) 128#32)) (iota .tc S64x128 32 [1] h1))) hlt)
      : FVec Ideal S64x128 .f32) (ix2 r j)
      = if 64 * bi + r.val = 128 * bj + j.val then (0 : EReal) else 1 := by
  show FloatOps.sitofp (F := Ideal) .f32 ((IntOp.cmpi .ne
      (IntOp.addi (Scalar.muli (BitVec.ofNat 32 bi) 64#32) (iota .tc S64x128 32 [0] h0 (ix2 r j)))
      (IntOp.addi (Scalar.muli (BitVec.ofNat 32 bj) 128#32) (iota .tc S64x128 32 [1] h1 (ix2 r j)))).setWidth 32) = _
  rw [iota_single_apply, iota_single_apply]
  show FloatOps.sitofp (F := Ideal) .f32 ((IntOp.cmpi .ne
      (IntOp.addi (Scalar.muli (BitVec.ofNat 32 bi) 64#32) (BitVec.ofNat 32 r.val))
      (IntOp.addi (Scalar.muli (BitVec.ofNat 32 bj) 128#32) (BitVec.ofNat 32 j.val))).setWidth 32) = _
  rw [mask_word bi bj r.val j.val hbi hbj r.isLt j.isLt]
  by_cases h : 64 * bi + r.val = 128 * bj + j.val
  · rw [if_pos h, if_pos h]
    show (((BitVec.setWidth 32 0#1).toInt : ℝ) : EReal) = 0
    have e : (BitVec.setWidth 32 0#1).toInt = 0 := by decide
    rw [e]; simp
  · rw [if_neg h, if_neg h]
    show (((BitVec.setWidth 32 1#1).toInt : ℝ) : EReal) = 1
    have e : (BitVec.setWidth 32 1#1).toInt = 1 := by decide
    rw [e]; simp

end Cert.KernelIdeal.PayloadCommon

end
-- ==== Proof.Payload0.lean ====
/-
  The message kernel's tile payload read at an index, for the first of the kernel's three calls.

  With the grid coordinates (bi, bj), the value the body stores to the output block at (r, k) is the block's previous
  value plus, summed over the tile's 128 senders j, the edge perceptron
      (∑ q, relu (∑ p, relu (A r p + B j p + D r j · wd p + b1 p) · W2T p q + b2 q) · W3T q k) + b3 k
  times the mask that is 0 where the global receiver number 64 bi + r equals the global sender number 128 bj + j and
  1 elsewhere (`block_sum`); and the block the first sender tile starts from is zero (`zero_block`). At the ideal
  values the narrowing of the products' operands is the identity, a product into a zero accumulator is the plain
  sum over the contracted feature, and the reduction over the sender axis is the sum over j; the rest is reading
  each reshaping and broadcast at its index.
-/
import proofs.«170678_j11312943857830_2_alg».proof.Proof.Gen.KernelIdeal.Skeleton
import proofs.«170678_j11312943857830_2_alg».proof.Proof.MessageSum
import proofs.«170678_j11312943857830_2_alg».proof.Proof.PayloadCommon
import Idealize.ShloMosaic.Lib.ValueLayout
import Idealize.ShloMosaic.PureOps.Ideal.Laws

noncomputable section

open scoped BigOperators

namespace Cert.KernelIdeal.Payload0

open Idealize.ShloMosaic Idealize.ShloMosaic.ValueIdx Cert.KernelIdeal Cert.KernelIdeal.Gen Cert.KernelIdeal.PayloadCommon

/-- The bias of the second layer, copied to every pair: row `row` of the [8192, 128] matrix at feature q is b2 q. -/
theorem pay4_apply (x6 : Vec Ideal S1x128 .f32) (row : Fin 8192) (q : Fin 128) :
    Gen.k0_pay4 (F := Ideal) x6 (ix2 row q) = x6 (ix2 (0 : Fin 1) q) := by
  unfold Gen.k0_pay4
  refine (broadcastTo_1b_ab_apply _ _ row q).trans ?_
  refine (shapeCast_a_1a_apply _ _ (0 : Fin 1) q).trans ?_
  exact shapeCast_1a_a_apply _ _ q

/-- The first layer and the first product: at the row of the pair (r, j) and feature q, the sum over p of
    relu (A r p + B j p + D r j · wd p + b1 p) · W2T p q. -/
theorem pay3_apply (x0 : Vec Ideal S64x128 .f32) (x1 : Vec Ideal S128x128 .f32) (x2 : Vec Ideal S64x128 .f32)
    (x3 x4 : Vec Ideal S1x128 .f32) (x5 : Vec Ideal S128x128 .f32) (r : Fin 64) (j q : Fin 128) (row : Fin 8192)
    (hrow : row.val = r.val * 128 + j.val) :
    Gen.k0_pay3 (F := Ideal) x0 x1 x2 x3 x4 x5 (ix2 row q)
      = ∑ p : Fin 128, max (x0 (ix2 r p) + x1 (ix2 j p) + x2 (ix2 r j) * x3 (ix2 (0 : Fin 1) p) + x4 (ix2 (0 : Fin 1) p)) 0
          * x5 (ix2 p q) := by
  unfold Gen.k0_pay3
  refine (matmul_row_apply _ _ row q).trans (Finset.sum_congr rfl fun p _ => ?_)
  refine congrArg₂ (· * ·) ((truncf_bf16_apply _ _ _).trans ?_) ((truncf_bf16_apply _ _ _).trans (congrFun (shapeCast_self x5 _) _))
  refine (cast_abc_mc _ _ r j p row hrow).trans ?_
  refine (maximumf_apply _ _ _).trans (congrArg₂ max ?_ Ideal.ofBits_zero_f32)
  refine (addf_apply _ _ _).trans (congrArg₂ (· + ·) ((addf_apply _ _ _).trans (congrArg₂ (· + ·) ((addf_apply _ _ _).trans (congrArg₂ (· + ·) ?_ ?_)) ((mulf_apply _ _ _).trans (congrArg₂ (· * ·) ?_ ?_)))) ?_)
  · exact (bc_64x1x128 _ _ r j p).trans ((cast_ab_a1b _ _ r (0 : Fin 1) p).trans (congrFun (shapeCast_self x0 _) _))
  · exact (bc_1x128x128 _ _ r j p).trans ((shapeCast_ab_1ab_apply _ _ (0 : Fin 1) j p).trans (congrFun (shapeCast_self x1 _) _))
  · exact (bc_64x128x1 _ _ r j p).trans ((cast_ab_ab1 _ _ r j (0 : Fin 1)).trans (congrFun (shapeCast_self x2 _) _))
  · exact (bc_1x1x128 _ _ r j p).trans ((cast_a_11a _ _ (0 : Fin 1) (0 : Fin 1) p).trans (shapeCast_1a_a_apply _ _ p))
  · exact (bc_1x1x128 _ _ r j p).trans ((cast_a_11a _ _ (0 : Fin 1) (0 : Fin 1) p).trans (shapeCast_1a_a_apply _ _ p))

/-- The second layer, the read-out, the mask, the sum over the senders and the accumulation, over any values
    `v36`, `v38` of the first product and the second bias: at (r, k) the block's previous value plus the sum over the
    senders j of (∑ q, relu (v36 (row r j) q + v38 (row r j) q) · W3T q k + b3 k) times the mask at (r, j). -/
theorem pay1_apply (bi bj : ℕ) (hbi : bi < 8) (hbj : bj < 4) (v36 v38 : FVec Ideal S8192x128 .f32)
    (x7 : Vec Ideal S128x128 .f32) (x8 : Vec Ideal S1x128 .f32) (xo : Vec Ideal S64x128 .f32) (r : Fin 64) (k : Fin 128) :
    Gen.k0_pay1 (F := Ideal) (BitVec.ofNat 32 bi) (BitVec.ofNat 32 bj) v36 v38 x7 x8 xo (ix2 r k)
      = xo (ix2 r k) + ∑ j : Fin 128,
          ((∑ q : Fin 128, max (v36 (ix2 (pairRow r j) q) + v38 (ix2 (pairRow r j) q)) 0 * x7 (ix2 q k))
              + x8 (ix2 (0 : Fin 1) k))
            * (if 64 * bi + r.val = 128 * bj + j.val then (0 : EReal) else 1) := by
  unfold Gen.k0_pay1
  refine (addf_apply _ _ _).trans (congrArg₂ (· + ·) (congrFun (shapeCast_self xo _) _) ?_)
  refine (reduce_senders_apply _ _ _ _ r k).trans (Finset.sum_congr rfl fun j _ => ?_)
  refine (mulf_apply _ _ _).trans (congrArg₂ (· * ·) ?_ ?_)
  · refine (cast_mc_abc _ _ r j k (pairRow r j) (pairRow_val r j)).trans ?_
    refine (addf_apply _ _ _).trans (congrArg₂ (· + ·) ?_ ?_)
    · refine (matmul_row_apply _ _ (pairRow r j) k).trans (Finset.sum_congr rfl fun q _ => ?_)
      refine congrArg₂ (· * ·) ((truncf_bf16_apply _ _ _).trans ?_) ((truncf_bf16_apply _ _ _).trans (congrFun (shapeCast_self x7 _) _))
      exact (maximumf_apply _ _ _).trans (congrArg₂ max (addf_apply _ _ _) Ideal.ofBits_zero_f32)
    · exact (broadcastTo_1b_ab_apply _ _ (pairRow r j) k).trans
        ((shapeCast_a_1a_apply _ _ (0 : Fin 1) k).trans (shapeCast_1a_a_apply _ _ k))
  · exact (bc_64x128x1 _ _ r j k).trans ((cast_ab_ab1 _ _ r j (0 : Fin 1)).trans (mask_apply bi bj hbi hbj _ _ _ r j))

/-- THE TILE'S CONTRIBUTION. With the grid coordinates (bi, bj), the payload stored to the output block at (r, k) is the
    block's previous value plus the sum over the tile's 128 senders of the edge perceptron of receiver row r and
    sender row j, times the off-diagonal mask of the global receiver number 64 bi + r and sender number 128 bj + j. -/
theorem block_sum (bi bj : ℕ) (hbi : bi < 8) (hbj : bj < 4)
    (x0 : Vec Ideal S64x128 .f32) (x1 : Vec Ideal S128x128 .f32) (x2 : Vec Ideal S64x128 .f32) (x3 x4 : Vec Ideal S1x128 .f32)
    (x5 : Vec Ideal S128x128 .f32) (x6 : Vec Ideal S1x128 .f32) (x7 : Vec Ideal S128x128 .f32) (x8 : Vec Ideal S1x128 .f32)
    (xo : Vec Ideal S64x128 .f32) (r : Fin 64) (k : Fin 128) :
    Gen.k0_pay1 (F := Ideal) (BitVec.ofNat 32 bi) (BitVec.ofNat 32 bj) (Gen.k0_pay3 (F := Ideal) x0 x1 x2 x3 x4 x5)
        (Gen.k0_pay4 (F := Ideal) x6) x7 x8 xo (ValueIdx.ix2 r k)
      = xo (ValueIdx.ix2 r k)
        + ∑ jj : Fin 128, Cert.MessageSum.perceptron
            (fun p => x0 (ValueIdx.ix2 r p)) (fun p => x1 (ValueIdx.ix2 jj p)) (x2 (ValueIdx.ix2 r jj))
            (fun p => x3 (ValueIdx.ix2 (0 : Fin 1) p)) (fun p => x4 (ValueIdx.ix2 (0 : Fin 1) p))
            (fun q => x6 (ValueIdx.ix2 (0 : Fin 1) q)) (fun k' => x8 (ValueIdx.ix2 (0 : Fin 1) k'))
            (fun p q => x5 (ValueIdx.ix2 p q)) (fun q k' => x7 (ValueIdx.ix2 q k')) k
          * (if 64 * bi + r.val = 128 * bj + jj.val then (0 : EReal) else 1) := by
  rw [pay1_apply bi bj hbi hbj]
  refine congrArg (xo (ix2 r k) + ·) (Finset.sum_congr rfl fun jj _ => ?_)
  refine congrArg (· * (if 64 * bi + r.val = 128 * bj + jj.val then (0 : EReal) else 1)) ?_
  show _ = (∑ q : Fin 128, max ((∑ p : Fin 128, max (x0 (ix2 r p) + x1 (ix2 jj p) + x2 (ix2 r jj) * x3 (ix2 (0 : Fin 1) p)
      + x4 (ix2 (0 : Fin 1) p)) 0 * x5 (ix2 p q)) + x6 (ix2 (0 : Fin 1) q)) 0 * x7 (ix2 q k)) + x8 (ix2 (0 : Fin 1) k)
  refine congrArg (· + x8 (ix2 (0 : Fin 1) k)) (Finset.sum_congr rfl fun q _ => ?_)
  rw [pay3_apply x0 x1 x2 x3 x4 x5 r jj q (pairRow r jj) (pairRow_val r jj), pay4_apply]

/-- The block the first sender tile starts from: zero everywhere. -/
theorem zero_block (r : Fin 64) (k : Fin 128) : Gen.k0_pay2 (F := Ideal) (ValueIdx.ix2 r k) = 0 := by
  unfold Gen.k0_pay2
  exact Ideal.ofBits_zero_f32

end Cert.KernelIdeal.Payload0

end
-- ==== Proof.LibBlockSum.lean ====
/-
  A sum over `a * b` indices, block by block.

  Over any commutative additive monoid, the sum of `f` over `Fin n` with `n = a * b` is the sum over the block number
  `k < a` of the sum over the position `j < b` inside the block of `f (b k + j)`. The inner terms are written with a
  guard `b k + j < n` (always true) so that the statement needs no proof term in its indices.
-/
import Mathlib.Algebra.BigOperators.Fin
import Mathlib.Logic.Equiv.Fin.Basic
import Mathlib.Tactic

open scoped BigOperators

namespace Cert.LibBlockSum

theorem sum_blocks {M : Type} [AddCommMonoid M] (a b n : ℕ) (hn : a * b = n) (f : Fin n → M) :
    ∑ e : Fin n, f e = ∑ k ∈ Finset.range a, ∑ j : Fin b, (if h : b * k + j.val < n then f ⟨b * k + j.val, h⟩ else 0) := by
  subst hn
  rw [← (finProdFinEquiv (m := a) (n := b)).sum_comp f, Fintype.sum_prod_type, Finset.sum_range]
  refine Finset.sum_congr rfl fun k _ => Finset.sum_congr rfl fun j _ => ?_
  have hlt : b * k.val + j.val < a * b := by
    have hk := k.isLt; have hj := j.isLt
    have h1 : b * k.val + j.val < b * (k.val + 1) := by rw [Nat.mul_succ]; omega
    have h2 : b * (k.val + 1) ≤ b * a := Nat.mul_le_mul_left b hk
    rw [Nat.mul_comm a b]; omega
  rw [dif_pos hlt]
  refine congrArg f (Fin.ext ?_)
  show j.val + b * k.val = b * k.val + j.val
  omega

end Cert.LibBlockSum
-- ==== Proof.Region0Sum.lean ====
/-
  What a launch of the message kernel leaves in its output array: the layer's aggregate.

  At grid point `t` (receiver block `t / 4`, sender block `t % 4`) the body adds to entry `(r, k)` of the output
  block the sum, over the 128 senders of the block, of the masked edge messages. The block is zeroed at the first
  sender block, carried from point to point across the four sender blocks, and written back after the fourth. So the
  array ends, at receiver `64 bi + r`, with `((0 + S₀) + S₁) + S₂) + S₃` of the four per-block sums — the sum over
  all 512 senders, cut into four consecutive blocks of 128.
-/
import proofs.«170678_j11312943857830_2_alg».proof.Proof.Region0Cases
import proofs.«170678_j11312943857830_2_alg».proof.Proof.Region0Blocks
import proofs.«170678_j11312943857830_2_alg».proof.Proof.Payload0
import proofs.«170678_j11312943857830_2_alg».proof.Proof.MessageSum
import proofs.«170678_j11312943857830_2_alg».proof.Proof.LibBlockSum
import Idealize.ShloMosaic.Lib.Pipeline.Value

noncomputable section

namespace Cert.KernelIdeal.Region0

open Cert.KernelIdeal Cert.KernelIdeal.Gen Cert.BlockCoords Cert.MessageSum
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The launch's arrays as curried functions -/

abbrev recv (c : Dev nD) : Fin 512 → Fin 128 → EReal := fun i p => (V c (Pipeline.arrRef spec0 0) : S512x128.Idx → Elt Ideal .f32) (ix2 i p)
abbrev send (c : Dev nD) : Fin 512 → Fin 128 → EReal := fun j p => (V c (Pipeline.arrRef spec0 1) : S512x128.Idx → Elt Ideal .f32) (ix2 j p)
abbrev dist (c : Dev nD) : Fin 512 → Fin 512 → EReal := fun i j => (V c (Pipeline.arrRef spec0 2) : S512x512.Idx → Elt Ideal .f32) (ix2 i j)
abbrev row3 (c : Dev nD) : Fin 128 → EReal := fun p => (V c (Pipeline.arrRef spec0 3) : S1x128.Idx → Elt Ideal .f32) (ix2 (0 : Fin 1) p)
abbrev row4 (c : Dev nD) : Fin 128 → EReal := fun p => (V c (Pipeline.arrRef spec0 4) : S1x128.Idx → Elt Ideal .f32) (ix2 (0 : Fin 1) p)
abbrev tab5 (c : Dev nD) : Fin 128 → Fin 128 → EReal := fun p q => (V c (Pipeline.arrRef spec0 5) : S128x128.Idx → Elt Ideal .f32) (ix2 p q)
abbrev row6 (c : Dev nD) : Fin 128 → EReal := fun p => (V c (Pipeline.arrRef spec0 6) : S1x128.Idx → Elt Ideal .f32) (ix2 (0 : Fin 1) p)
abbrev tab7 (c : Dev nD) : Fin 128 → Fin 128 → EReal := fun p q => (V c (Pipeline.arrRef spec0 7) : S128x128.Idx → Elt Ideal .f32) (ix2 p q)
abbrev row8 (c : Dev nD) : Fin 128 → EReal := fun p => (V c (Pipeline.arrRef spec0 8) : S1x128.Idx → Elt Ideal .f32) (ix2 (0 : Fin 1) p)

/-- The masked edge message between receiver `i` and sender `j`, of the arrays the launch finds. -/
abbrev msg (c : Dev nD) (i j : Fin 512) (k : Fin 128) : EReal :=
  edge (recv V c) (send V c) (dist V c) (row3 V c) (row4 V c) (row6 V c) (row8 V c) (tab5 V c) (tab7 V c) i j k

/-- The layer's aggregate of the arrays the launch finds, as contents of the output array. -/
def aggregate (c : Dev nD) : S512x128.Idx → EReal := fun i =>
  total (recv V c) (send V c) (dist V c) (row3 V c) (row4 V c) (row6 V c) (row8 V c) (tab5 V c) (tab7 V c)
    ⟨(i 0).val, (i 0).isLt⟩ ⟨(i 1).val, (i 1).isLt⟩

/-- The aggregate at an index whose coordinates are `a` and `k`. -/
theorem aggregate_apply (c : Dev nD) (i : S512x128.Idx) (a : Fin 512) (k : Fin 128) (ha : (i 0).val = a.val) (hk : (i 1).val = k.val) :
    aggregate V c i = ∑ j : Fin 512, msg V c a j k := by
  have e1 : (⟨(i 0).val, (i 0).isLt⟩ : Fin 512) = a := Fin.ext ha
  have e2 : (⟨(i 1).val, (i 1).isLt⟩ : Fin 128) = k := Fin.ext hk
  show total (recv V c) (send V c) (dist V c) (row3 V c) (row4 V c) (row6 V c) (row8 V c) (tab5 V c) (tab7 V c)
    ⟨(i 0).val, (i 0).isLt⟩ ⟨(i 1).val, (i 1).isLt⟩ = _
  rw [e1, e2]
  rfl

/-- What one grid point adds at entry `(r, k)` of its output block: the messages of sender block `bj` to receiver
    `64 bi + r`. -/
def addend (c : Dev nD) (bi bj : ℕ) (r : Fin 64) (k : Fin 128) : EReal :=
  ∑ s : Fin 128, msg V c (rowAt bi r) (colAt bj s) k

/-! ## One grid point -/

/-- The body's sum at a point, in terms of the arrays: the loaded blocks are the arrays' tiles, and the mask computed
    from the grid position is the off-diagonal mask of the plane. -/
theorem block_sum_eq (c : Dev nD) (t : Fin cfg0.N) (r : Fin 64) (k : Fin 128) (xo : EReal) :
    xo + ∑ s : Fin 128, perceptron
        (fun p => iblk0 V c 0 t (ix2 r p)) (fun p => iblk0 V c 1 t (ix2 s p)) (iblk0 V c 2 t (ix2 r s))
        (fun p => iblk0 V c 3 t (ix2 (0 : Fin 1) p)) (fun p => iblk0 V c 4 t (ix2 (0 : Fin 1) p))
        (fun q => iblk0 V c 6 t (ix2 (0 : Fin 1) q)) (fun k' => iblk0 V c 8 t (ix2 (0 : Fin 1) k'))
        (fun p q => iblk0 V c 5 t (ix2 p q)) (fun q k' => iblk0 V c 7 t (ix2 q k')) k
        * (if 64 * (grid0.coords t 0).val + r.val = 128 * (grid0.coords t 1).val + s.val then (0 : EReal) else 1)
      = xo + addend V c (t.val / 4) (t.val % 4) r k := by
  obtain ⟨-, -, -, -, -, -, -, -, -, -, ⟨g0, g1⟩⟩ := point_facts t
  have hN : cfg0.N = 32 := N_0
  have ht := t.isLt
  unfold addend
  refine congrArg (xo + ·) (Finset.sum_congr rfl fun s _ => ?_)
  have e0 : (fun p => iblk0 V c 0 t (ix2 r p)) = recv V c (rowAt (t.val / 4) r) := funext fun p => read_recv V c t r p
  have e1 : (fun p => iblk0 V c 1 t (ix2 s p)) = send V c (colAt (t.val % 4) s) := funext fun p => read_send V c t s p
  have e2 : iblk0 V c 2 t (ix2 r s) = dist V c (rowAt (t.val / 4) r) (colAt (t.val % 4) s) := read_dist V c t r s
  have e3 : (fun p => iblk0 V c 3 t (ix2 (0 : Fin 1) p)) = row3 V c := funext fun p => read_row3 V c t p
  have e4 : (fun p => iblk0 V c 4 t (ix2 (0 : Fin 1) p)) = row4 V c := funext fun p => read_row4 V c t p
  have e6 : (fun q => iblk0 V c 6 t (ix2 (0 : Fin 1) q)) = row6 V c := funext fun p => read_row6 V c t p
  have e8 : (fun k' => iblk0 V c 8 t (ix2 (0 : Fin 1) k')) = row8 V c := funext fun p => read_row8 V c t p
  have e5 : (fun p q => iblk0 V c 5 t (ix2 p q)) = tab5 V c := funext fun p => funext fun q => read_table5 V c t p q
  have e7 : (fun q k' => iblk0 V c 7 t (ix2 q k')) = tab7 V c := funext fun p => funext fun q => read_table7 V c t p q
  have em : (if 64 * (grid0.coords t 0).val + r.val = 128 * (grid0.coords t 1).val + s.val then (0 : EReal) else 1)
      = offDiag (rowAt (t.val / 4) r) (colAt (t.val % 4) s) := by
    unfold offDiag
    rw [g0, g1]
    exact if_congr (rowAt_eq_colAt_iff (t.val / 4) (t.val % 4) r s (by omega) (by omega)).symm rfl rfl
  rw [e0, e1, e2, e3, e4, e6, e8, e5, e7, em]
  rfl

/-- The first sender block of a receiver block: the output block is zeroed, then this block's messages are added. -/
theorem point_first (c : Dev nD) (t : Fin cfg0.N) (h0 : t.val % 4 = 0) (r : Fin 64) (k : Fin 128) :
    outsAt0 V c t.val t.isLt (ix2 r k) = 0 + addend V c (t.val / 4) (t.val % 4) r k := by
  obtain ⟨-, -, -, -, -, -, -, -, -, -, ⟨g0, g1⟩⟩ := point_facts t
  have hN : cfg0.N = 32 := N_0
  have ht := t.isLt
  rw [outsAt0_A V c t h0, out_first]
  refine (Cert.KernelIdeal.Payload0.block_sum (grid0.coords t 0).val (grid0.coords t 1).val (by omega) (by omega)
    (iblk0 V c 0 t) (iblk0 V c 1 t) (iblk0 V c 2 t) (iblk0 V c 3 t) (iblk0 V c 4 t) (iblk0 V c 5 t) (iblk0 V c 6 t) (iblk0 V c 7 t) (iblk0 V c 8 t) (k0_pay2 (F := Ideal)) r k).trans ?_
  rw [Cert.KernelIdeal.Payload0.zero_block r k]
  exact block_sum_eq V c t r k 0

/-- A later sender block: this block's messages are added to what the point before left. -/
theorem point_later (c : Dev nD) (t : Fin cfg0.N) (h0 : ¬t.val % 4 = 0) (r : Fin 64) (k : Fin 128) :
    outsAt0 V c t.val t.isLt (ix2 r k)
      = outsAt0 V c (t.val - 1) (Nat.lt_of_le_of_lt (Nat.sub_le _ _) t.isLt) (ix2 r k) + addend V c (t.val / 4) (t.val % 4) r k := by
  obtain ⟨-, -, -, -, -, -, -, -, -, -, ⟨g0, g1⟩⟩ := point_facts t
  have hN : cfg0.N = 32 := N_0
  have ht := t.isLt
  rw [outsAt0_B V c t h0, out_later]
  refine (Cert.KernelIdeal.Payload0.block_sum (grid0.coords t 0).val (grid0.coords t 1).val (by omega) (by omega)
    (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)) r k).trans ?_
  exact block_sum_eq V c t r k _

/-! ## The running sum across a receiver block's four points -/

/-- After point `n` the output block holds, at `(r, k)`, the messages of the sender blocks `0 … n % 4` to receiver
    `64 (n / 4) + r`: by induction on the point. -/
theorem outs_eq (c : Dev nD) : ∀ (n : ℕ) (h : n < cfg0.N) (r : Fin 64) (k : Fin 128),
    outsAt0 V c n h (ix2 r k) = ∑ b ∈ Finset.range (n % 4 + 1), addend V c (n / 4) b r k
  | 0, h, r, k => by
    rw [point_first V c ⟨0, h⟩ rfl r k]
    show 0 + addend V c (0 / 4) (0 % 4) r k = ∑ b ∈ Finset.range (0 % 4 + 1), addend V c (0 / 4) b r k
    rw [zero_add, show 0 % 4 + 1 = 1 from rfl, Finset.sum_range_one]
  | n + 1, h, r, k => by
    by_cases h0 : (n + 1) % 4 = 0
    · rw [point_first V c ⟨n + 1, h⟩ h0 r k]
      show 0 + addend V c ((n + 1) / 4) ((n + 1) % 4) r k = _
      have e : (n + 1) % 4 + 1 = 1 := by omega
      rw [zero_add, e, Finset.sum_range_one, h0]
    · rw [point_later V c ⟨n + 1, h⟩ h0 r k]
      show outsAt0 V c n _ (ix2 r k) + addend V c ((n + 1) / 4) ((n + 1) % 4) r k = _
      rw [outs_eq c n (Nat.lt_of_succ_lt h) r k]
      have e1 : n / 4 = (n + 1) / 4 := by omega
      have e2 : n % 4 + 1 = (n + 1) % 4 := by omega
      rw [e1, e2, Finset.sum_range_succ]

/-- The four per-block sums of a receiver are its sum over all 512 senders. -/
theorem four_blocks (c : Dev nD) (bi : ℕ) (r : Fin 64) (k : Fin 128) :
    ∑ b ∈ Finset.range 4, addend V c bi b r k = ∑ j : Fin 512, msg V c (rowAt bi r) j k := by
  refine Eq.trans ?_ (Cert.LibBlockSum.sum_blocks 4 128 512 rfl (fun j => msg V c (rowAt bi r) j k)).symm
  refine Finset.sum_congr rfl fun b hb => ?_
  have hb4 : b < 4 := Finset.mem_range.mp hb
  unfold addend
  refine Finset.sum_congr rfl fun s _ => ?_
  have hs := s.isLt
  have hlt : 128 * b + s.val < 512 := by omega
  rw [dif_pos hlt]
  refine congrArg (fun j => msg V c (rowAt bi r) j k) (Fin.ext ?_)
  exact colAt_val b s hb4

/-! ## The write-backs and the final array -/

/-- The point that ends a receiver block writes back that block of the aggregate. -/
theorem flushed_eq (c : Dev nD) (t : Fin cfg0.N) (hf : (cfg0.win 9).flush t = true) :
    (dat0 V c).flushed 9 t = ((cfg0.win 9).blk t).view.read (Elt Ideal) (aggregate V c) := by
  have h3 : t.val % 4 = 3 := (flush0_9 t).mp hf
  obtain ⟨-, -, -, -, -, -, -, -, -, ⟨e0, e1⟩, -⟩ := point_facts t
  have hN : cfg0.N = 32 := N_0
  have ht := t.isLt
  show (cfg0.win 9).cut (grid0.coords t) ((dat0 V c).after 9 t) = _
  rw [after0_9]
  funext y
  obtain ⟨r, k, rfl⟩ : ∃ (r : Fin 64) (k : Fin 128), y = ix2 r k := ⟨y 0, y 1, eq_ix2 y⟩
  show outsAt0 V c t.val t.isLt (ix2 r k) = aggregate V c (((cfg0.win 9).blk t).view.emb (ix2 r k))
  have e4 : t.val % 4 + 1 = 4 := by omega
  have hr := r.isLt
  rw [outs_eq V c t.val t.isLt r k, e4, four_blocks V c (t.val / 4) r k]
  refine (aggregate_apply V c _ (rowAt (t.val / 4) r) k ?_ ?_).symm
  · show win0_9.index t (0 : Fin 2) * 64 + 1 * r.val = (64 * (t.val / 4) + r.val) % 512
    rw [e0]; omega
  · show win0_9.index t (1 : Fin 2) * 128 + 1 * k.val = k.val
    rw [e1]; omega

/-- An index of the output array is in point `t`'s block iff each coordinate is in the block's range on its axis. -/
theorem mem_blk (t : Fin cfg0.N) (i : S512x128.Idx) :
    i ∈ ((cfg0.win 9).blk t).view.set ↔ ∀ a : Fin 2, win0_9.index t a * S64x128.size a ≤ (i a).val ∧ (i a).val < win0_9.index t a * S64x128.size a + S64x128.size a := by
  show i ∈ ((View.whole main_v63).slice (win0_9.rect t)).set ↔ _
  rw [View.set_slice_whole, Rect.mem_set_unit]
  exact Iff.rfl

/-- Every entry of the output array is written back by the last point of its receiver block. -/
theorem cover (i : S512x128.Idx) : ∃ t : Fin cfg0.N, (cfg0.win 9).flush t = true ∧ i ∈ ((cfg0.win 9).blk t).view.set := by
  have hN : cfg0.N = 32 := N_0
  have hi0 : (i 0).val < 512 := (i 0).isLt
  have hi1 : (i 1).val < 128 := (i 1).isLt
  have hlt : 4 * ((i 0).val / 64) + 3 < cfg0.N := by omega
  refine ⟨⟨4 * ((i 0).val / 64) + 3, hlt⟩, (flush0_9 _).mpr (by show (4 * ((i 0).val / 64) + 3) % 4 = 3; omega), ?_⟩
  obtain ⟨-, -, -, -, -, -, -, -, -, ⟨e0, e1⟩, -⟩ := point_facts (⟨4 * ((i 0).val / 64) + 3, hlt⟩ : Fin cfg0.N)
  rw [mem_blk]
  intro a
  match a with
  | ⟨0, _⟩ =>
    show win0_9.index ⟨4 * ((i 0).val / 64) + 3, hlt⟩ (0 : Fin 2) * 64 ≤ (i 0).val ∧ (i 0).val < win0_9.index ⟨4 * ((i 0).val / 64) + 3, hlt⟩ (0 : Fin 2) * 64 + 64
    rw [e0]; show (4 * ((i 0).val / 64) + 3) / 4 * 64 ≤ (i 0).val ∧ (i 0).val < (4 * ((i 0).val / 64) + 3) / 4 * 64 + 64; omega
  | ⟨1, _⟩ =>
    show win0_9.index ⟨4 * ((i 0).val / 64) + 3, hlt⟩ (1 : Fin 2) * 128 ≤ (i 1).val ∧ (i 1).val < win0_9.index ⟨4 * ((i 0).val / 64) + 3, hlt⟩ (1 : Fin 2) * 128 + 128
    rw [e1]; omega

/-- The output array after the launch is the layer's aggregate of the arrays the launch found. -/
theorem final (c : Dev nD) : (dat0 V c).arrAt 9 cfg0.N = aggregate V c :=
  (dat0 V c).arrAt_eq_of_cover 9 (aggregate V c) (flushed_eq V c) cover

end Cert.KernelIdeal.Region0

end
-- ==== Proof.RefLayerCommon.lean ====
/-
  The off-diagonal mask of the reference program, read at an index.

  The reference builds the identity matrix as the comparison of a row counter (plus the constant zero) with a
  column counter, converted to a float: its entry at `(i, j)` is `1` when `i = j` and `0` otherwise. One minus
  that entry is the mask `offDiag i j` of the shared specification, and the mask keeps its value when a third
  axis of extent one is appended. Every layer of the network multiplies its messages by this one array, so
  the three layers share these lemmas.
-/
import proofs.«170678_j11312943857830_2_alg».proof.Proof.RefRead
import proofs.«170678_j11312943857830_2_alg».proof.Proof.MessageSum
import Idealize.ShloMosaic.PureOps.IdealRules

noncomputable section

open Cert.ReferenceIdeal Cert.ReferenceIdeal.ReadP Idealize.ShloMosaic Idealize.ShloMosaic.ValueIdx

namespace Cert.RefLayerCommon

/-- Two naturals below 512 that have the same 32-bit word are equal: the word of a number below `2 ^ 32` is
    the number itself. -/
theorem word_inj {a b : Nat} (ha : a < 512) (hb : b < 512) (h : BitVec.ofNat 32 a = BitVec.ofNat 32 b) : a = b := by
  have h' := congrArg BitVec.toNat h
  simp only [BitVec.toNat_ofNat] at h'
  omega

/-- The identity matrix at `(i, j)`: the unsigned conversion of the one-bit word of `i + 0 = j`. -/
theorem eye_apply (i j : Fin 512) :
    val_main_v29 (F := Ideal) (ix2 i j) = if i = j then 1 else 0 := by
  rw [val_main_v29_apply, val_main_v28_apply, val_main_v27_apply, val_main_v24_apply, val_main_v25_apply,
    val_main_v26_apply, val_main_c_apply]
  show (((IntOp.cmpi .eq (IntOp.addi (BitVec.ofNat 32 i.val) 0#32) (BitVec.ofNat 32 j.val)).toNat : ℝ) : EReal) = _
  simp only [IntOp.cmpi, IntOp.addi, BitVec.add_zero]
  by_cases h : i = j
  · subst h
    simp
  · have hne : (BitVec.ofNat 32 i.val == BitVec.ofNat 32 j.val) = false := by
      rw [beq_eq_false_iff_ne]
      exact fun hw => h (Fin.ext (word_inj i.isLt j.isLt hw))
    rw [hne, if_neg h]
    simp

/-- One minus the identity matrix is the off-diagonal mask. The constant's word `0x3F800000` is the float one. -/
theorem nondiag_apply (i j : Fin 512) :
    val_main_v38 (F := Ideal) (ix2 i j) = Cert.MessageSum.offDiag i j := by
  rw [val_main_v38_apply, val_main_v37_apply, val_main_cst_3_apply, eye_apply]
  simp only [Ideal.subf_def, Ideal.ofBits_def]
  rw [show Ideal.ofBits .f32 0x3F800000#32 = 1 from IdealRules.sign_bit.ideal_onePat .f32]
  unfold Cert.MessageSum.offDiag
  by_cases h : i = j
  · rw [if_pos h, if_pos h]
    show ((1 : ℝ) : EReal) - ((1 : ℝ) : EReal) = 0
    rw [← EReal.coe_sub, sub_self, EReal.coe_zero]
  · rw [if_neg h, if_neg h, sub_zero]

/-- The mask with an axis of extent one appended reads the mask at the first two coordinates. -/
theorem mask_apply (i j : Fin 512) (c : Fin 1) :
    val_main_v39 (F := Ideal) (ix3 i j c) = Cert.MessageSum.offDiag i j := by
  rw [val_main_v39_apply]
  have e : idx_main_v39 (ix3 i j c) = ix2 i j := funext fun a => by
    match a with
    | ⟨0, _⟩ => rfl
    | ⟨1, _⟩ => rfl
  rw [e, nondiag_apply]

end Cert.RefLayerCommon

end
-- ==== Proof.RefLayer0.lean ====
/-
  The first graph layer of the reference program computes the shared message sum of its own inputs.

  The layer's aggregate is a sum over the 512 senders of a product: the edge perceptron's output times the
  off-diagonal mask. The perceptron is read stage by stage at an index: the first hidden layer
  `max (A i p + B j p + D i j * wd p + b1 p) 0` from its four broadcast summands, the second hidden layer and the
  read-out as contractions over the 128 hidden units against the transposed weight slices. Every layout
  operation (broadcast, slice, reshape) reads its operand at an index computed from literal coordinates, so
  each stage is a rewriting chain followed by the identification of the composed index functions.
-/
import proofs.«170678_j11312943857830_2_alg».proof.Proof.RefRead
import proofs.«170678_j11312943857830_2_alg».proof.Proof.MessageSum
import Idealize.ShloMosaic.PureOps.IdealRules
import proofs.«170678_j11312943857830_2_alg».proof.Proof.RefLayerCommon

noncomputable section

open Cert.ReferenceIdeal Cert.ReferenceIdeal.ReadP Idealize.ShloMosaic Idealize.ShloMosaic.ValueIdx

namespace Cert.RefLayer0

/-- The first hidden layer at receiver `i`, sender `j`, unit `p`. -/
theorem h1_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (i j : Fin 512) (p : Fin 128) :
    val_main_v66 (F := Ideal) x0 x1 x2 x3 x4 x5 x6 x7 x8 x9 (ix3 i j p)
      = max (val_main_v47 (F := Ideal) x0 x2 x3 x4 x5 x6 x7 x8 (ix2 i p) + val_main_v49 (F := Ideal) x0 x2 x3 x4 x5 x6 x7 x8 (ix2 j p)
          + val_main_v36 (F := Ideal) x1 (ix2 i j) * val_main_v45 (F := Ideal) x8 (ix1 p) + val_main_v62 (F := Ideal) x9 (ix1 p)) 0 := by
  rw [val_main_v66_apply, val_main_v65_apply, val_main_v60_apply, val_main_v54_apply, val_main_v59_apply,
    val_main_v52_apply, val_main_v50_apply, val_main_v53_apply, val_main_v51_apply,
    val_main_v57_apply, val_main_v55_apply, val_main_v58_apply, val_main_v56_apply,
    val_main_v64_apply, val_main_v63_apply, val_main_call3_v0_apply, val_main_call3_cst_apply]
  have eA : idx_main_v50 (idx_main_v52 (ix3 i j p)) = ix2 i p := funext fun a => by
    match a with
    | ⟨0, _⟩ => rfl
    | ⟨1, _⟩ => rfl
  have eB : idx_main_v51 (idx_main_v53 (ix3 i j p)) = ix2 j p := funext fun a => by
    match a with
    | ⟨0, _⟩ => rfl
    | ⟨1, _⟩ => rfl
  have eD : idx_main_v55 (idx_main_v57 (ix3 i j p)) = ix2 i j := funext fun a => by
    match a with
    | ⟨0, _⟩ => rfl
    | ⟨1, _⟩ => rfl
  have eW : idx_main_v56 (idx_main_v58 (ix3 i j p)) = ix1 p := funext fun a => by
    match a with
    | ⟨0, _⟩ => rfl
  have eb : idx_main_v63 (idx_main_v64 (ix3 i j p)) = ix1 p := funext fun a => by
    match a with
    | ⟨0, _⟩ => rfl
  rw [eA, eB, eD, eW, eb]
  simp only [Ideal.addf_def, Ideal.mulf_def, Ideal.maximumf_def, Ideal.ofBits_def, Ideal.ofBits_zero_f32]

/-- The second hidden layer at `(i, j)`, unit `q`: the contraction of the first over its units against the
    weight slice read transposed, plus the bias, rectified. -/
theorem h2_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (i j : Fin 512) (q : Fin 128) :
    val_main_v75 (F := Ideal) x0 x1 x2 x3 x4 x5 x6 x7 x8 x9 x10 x11 (ix3 i j q)
      = max ((∑ p : Fin 128, val_main_v66 (F := Ideal) x0 x1 x2 x3 x4 x5 x6 x7 x8 x9 (ix3 i j p) * val_main_v68 (F := Ideal) x10 (ix2 q p))
          + val_main_v71 (F := Ideal) x11 (ix1 q)) 0 := by
  rw [val_main_v75_apply, val_main_v74_apply, val_main_v69_apply, val_main_v73_apply, val_main_v72_apply,
    val_main_call4_v0_apply, val_main_call4_cst_apply]
  have eL : ∀ p : Fin 128, lidx_main_v69 (ix3 i j q) p = ix3 i j p := fun p => funext fun a => by
    match a with
    | ⟨0, _⟩ => rfl
    | ⟨1, _⟩ => rfl
    | ⟨2, _⟩ => rfl
  have eR : ∀ p : Fin 128, ridx_main_v69 (ix3 i j q) p = ix2 q p := fun p => funext fun a => by
    match a with
    | ⟨0, _⟩ => rfl
    | ⟨1, _⟩ => rfl
  have eb : idx_main_v72 (idx_main_v73 (ix3 i j q)) = ix1 q := funext fun a => by
    match a with
    | ⟨0, _⟩ => rfl
  rw [eb]
  simp only [eL, eR, Ideal.addf_def, Ideal.maximumf_def, Ideal.ofBits_def, Ideal.ofBits_zero_f32]

/-- The read-out at `(i, j)`, output feature `k`, before the mask. -/
theorem m_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (i j : Fin 512) (k : Fin 128) :
    val_main_v83 (F := Ideal) x0 x1 x2 x3 x4 x5 x6 x7 x8 x9 x10 x11 x12 x13 (ix3 i j k)
      = (∑ q : Fin 128, val_main_v75 (F := Ideal) x0 x1 x2 x3 x4 x5 x6 x7 x8 x9 x10 x11 (ix3 i j q) * val_main_v77 (F := Ideal) x12 (ix2 k q))
          + val_main_v80 (F := Ideal) x13 (ix1 k) := by
  rw [val_main_v83_apply, val_main_v78_apply, val_main_v82_apply, val_main_v81_apply]
  have eL : ∀ q : Fin 128, lidx_main_v78 (ix3 i j k) q = ix3 i j q := fun q => funext fun a => by
    match a with
    | ⟨0, _⟩ => rfl
    | ⟨1, _⟩ => rfl
    | ⟨2, _⟩ => rfl
  have eR : ∀ q : Fin 128, ridx_main_v78 (ix3 i j k) q = ix2 k q := fun q => funext fun a => by
    match a with
    | ⟨0, _⟩ => rfl
    | ⟨1, _⟩ => rfl
  have eb : idx_main_v81 (idx_main_v82 (ix3 i j k)) = ix1 k := funext fun a => by
    match a with
    | ⟨0, _⟩ => rfl
  rw [eb]
  simp only [eL, eR, Ideal.addf_def]

/-- The mask broadcast along the feature axis is the off-diagonal mask of `(i, j)`. -/
theorem maskB_apply (i j : Fin 512) (k : Fin 128) :
    val_main_v84 (F := Ideal) (ix3 i j k) = Cert.MessageSum.offDiag i j := by
  rw [val_main_v84_apply]
  have e : idx_main_v84 (ix3 i j k) = ix3 i j (⟨0, Nat.one_pos⟩ : Fin 1) := funext fun a => by
    match a with
    | ⟨0, _⟩ => rfl
    | ⟨1, _⟩ => rfl
    | ⟨2, _⟩ => rfl
  rw [e, Cert.RefLayerCommon.mask_apply]

/-- The layer's aggregate is the shared message sum of the layer's own projections, distance, weights and
    biases; the weight slices enter transposed, as the contractions read them. -/
theorem total_eq (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (i : Fin 512) (k : Fin 128) :
    val_main_v86 (F := Ideal) x0 x1 x2 x3 x4 x5 x6 x7 x8 x9 x10 x11 x12 x13 (ix2 i k)
      = Cert.MessageSum.total
          (fun i p => val_main_v47 (F := Ideal) x0 x2 x3 x4 x5 x6 x7 x8 (ix2 i p))
          (fun j p => val_main_v49 (F := Ideal) x0 x2 x3 x4 x5 x6 x7 x8 (ix2 j p))
          (fun i j => val_main_v36 (F := Ideal) x1 (ix2 i j))
          (fun p => val_main_v45 (F := Ideal) x8 (ix1 p))
          (fun p => val_main_v62 (F := Ideal) x9 (ix1 p))
          (fun q => val_main_v71 (F := Ideal) x11 (ix1 q))
          (fun k => val_main_v80 (F := Ideal) x13 (ix1 k))
          (fun p q => val_main_v68 (F := Ideal) x10 (ix2 q p))
          (fun q k => val_main_v77 (F := Ideal) x12 (ix2 k q))
          i k := by
  rw [val_main_v86_apply, val_main_cst_4_apply, Ideal.ofBits_def, Ideal.ofBits_zero_f32, zero_add]
  unfold Cert.MessageSum.total Cert.MessageSum.edge Cert.MessageSum.perceptron
  refine Finset.sum_congr rfl fun j _ => ?_
  have e : idx_main_v86 (ix2 i k) j = ix3 i j k := funext fun a => by
    match a with
    | ⟨0, _⟩ => rfl
    | ⟨1, _⟩ => rfl
    | ⟨2, _⟩ => rfl
  rw [e, val_main_v85_apply, Ideal.mulf_def, maskB_apply, m_apply]
  simp only [h2_apply, h1_apply]

end Cert.RefLayer0

end
-- ==== Proof.OperandLayout.lean ====
/-
  The two re-layouts applied to a layer's weights before a launch, read at an entry.

  A length-128 vector handed to the kernel as a one-row table holds the vector's entry `p` at `(0, p)`; a 128 × 128
  weight table handed over transposed holds at `(p, q)` the table's entry `(q, p)`.
-/
import proofs.«170678_j11312943857830_2_alg».proof.KernelIdeal
import Idealize.ShloMosaic.Lib.Pipeline.Value
import Idealize.ShloMosaic.Lib.ValueIdx

noncomputable section

namespace Cert.KernelIdeal.OperandLayout

open Cert.KernelIdeal Idealize.ShloMosaic Idealize.ShloMosaic.ValueIdx

/-- A vector as a one-row table, at its only row. -/
theorem row_read {α : Type} (x : S128.Idx → α) (h : S128.ShapeCasts S1x128) (p : Fin 128) :
    shapeCast S1x128 x h (ix2 (0 : Fin 1) p) = x (ix1 p) := by
  refine shapeCast_apply x h (ix2 (0 : Fin 1) p) (ix1 p) ?_
  rw [Shape.rowMajor_val_one, Shape.rowMajor_val_two]
  show p.val = 0 * 128 + p.val
  omega

/-- A transposed table, at an entry. -/
theorem table_read {α : Type} (x : S128x128.Idx → α) (h : S128x128.Transposes [1, 0] S128x128) (p q : Fin 128) :
    transpose S128x128 [1, 0] x h (ix2 p q) = x (ix2 q p) :=
  transpose_apply [1, 0] x h (ix2 p q) (ix2 q p) (fun b => match b with
    | ⟨0, _⟩ => rfl
    | ⟨1, _⟩ => rfl)

end Cert.KernelIdeal.OperandLayout

end
-- ==== Proof.Layer0.lean ====
/-
  Layer 0: the launch returns the plain program's aggregate.

  The launch's nine operand arrays are stages of the plain program — the two projections, the distances, and the
  layer's weights re-laid (vectors as one-row tables, the hidden tables transposed). The output array after the launch
  is the message sum of those arrays; the plain program's aggregate stage is the same message sum of the same stages.
-/
import proofs.«170678_j11312943857830_2_alg».proof.Proof.Region0Sum
import proofs.«170678_j11312943857830_2_alg».proof.Proof.RefLayer0
import proofs.«170678_j11312943857830_2_alg».proof.Proof.OperandLayout
import Idealize.ShloMosaic.Lib.ValueIdx

noncomputable section

namespace Cert.KernelIdeal.Layer0

open Cert.KernelIdeal Cert.KernelIdeal.Gen Cert.MessageSum
open Idealize.ShloMosaic Idealize.ShloMosaic.TcCoe Idealize.SL.Sem Idealize.ShloMosaic.ValueIdx

variable (m : (ℓ : Loc nD τ sig) → Buf (Elt Ideal) ℓ) (ρ : Dev nD → PrngReg)

/-- The output array after launch 0 is the plain program's aggregate stage of this layer. -/
theorem aggregate_eq (c : Dev nD)
    (h0 : W7 m ρ c (Proc.devRef .tc main_v44) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (h1 : W7 m ρ c (Proc.devRef .tc main_v46) = Cert.ReferenceIdeal.ReadP.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (h2 : W7 m ρ c (Proc.devRef .tc main_v36) = Cert.ReferenceIdeal.ReadP.val_main_v36 (F := Ideal) (m ((c : Thread nD τ).loc main_arg1)))
    (h3 : W7 m ρ c (Proc.devRef .tc main_v59) = shapeCast S1x128 (Cert.ReferenceIdeal.ReadP.val_main_v45 (F := Ideal) (m ((c : Thread nD τ).loc main_arg8))) shapeCasts_S128_S1x128)
    (h4 : W7 m ρ c (Proc.devRef .tc main_v60) = shapeCast S1x128 (Cert.ReferenceIdeal.ReadP.val_main_v62 (F := Ideal) (m ((c : Thread nD τ).loc main_arg9))) shapeCasts_S128_S1x128)
    (h5 : W7 m ρ c (Proc.devRef .tc main_v49) = transpose S128x128 [1, 0] (Cert.ReferenceIdeal.ReadP.val_main_v68 (F := Ideal) (m ((c : Thread nD τ).loc main_arg10))) transposes_S128x128_S128x128_1_0)
    (h6 : W7 m ρ c (Proc.devRef .tc main_v61) = shapeCast S1x128 (Cert.ReferenceIdeal.ReadP.val_main_v71 (F := Ideal) (m ((c : Thread nD τ).loc main_arg11))) shapeCasts_S128_S1x128)
    (h7 : W7 m ρ c (Proc.devRef .tc main_v52) = transpose S128x128 [1, 0] (Cert.ReferenceIdeal.ReadP.val_main_v77 (F := Ideal) (m ((c : Thread nD τ).loc main_arg12))) transposes_S128x128_S128x128_1_0)
    (h8 : W7 m ρ c (Proc.devRef .tc main_v62) = shapeCast S1x128 (Cert.ReferenceIdeal.ReadP.val_main_v80 (F := Ideal) (m ((c : Thread nD τ).loc main_arg13))) shapeCasts_S128_S1x128) :
    W8 m ρ c (Proc.devRef .tc main_v63) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 9).trans ?_
  rw [Region0.final (V7 m ρ) c]
  funext i
  obtain ⟨a, k, rfl⟩ : ∃ (a : Fin 512) (k : Fin 128), i = (ix2 a k : S512x128.Idx) := ⟨i 0, i 1, eq_ix2 i⟩
  refine Eq.trans ?_ (Cert.RefLayer0.total_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) a k).symm
  unfold Region0.aggregate
  have e0 : Region0.recv (V7 m ρ) c = fun i p => Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i p) := funext fun i => funext fun p => congrFun h0 (ix2 i p)
  have e1 : Region0.send (V7 m ρ) c = fun i p => Cert.ReferenceIdeal.ReadP.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i p) := funext fun i => funext fun p => congrFun h1 (ix2 i p)
  have e2 : Region0.dist (V7 m ρ) c = fun i j => Cert.ReferenceIdeal.ReadP.val_main_v36 (F := Ideal) (m ((c : Thread nD τ).loc main_arg1)) (ix2 i j) := funext fun i => funext fun j => congrFun h2 (ix2 i j)
  have e3 : Region0.row3 (V7 m ρ) c = fun p => Cert.ReferenceIdeal.ReadP.val_main_v45 (F := Ideal) (m ((c : Thread nD τ).loc main_arg8)) (ix1 p) := funext fun p => (congrFun h3 (ix2 (0 : Fin 1) p)).trans (OperandLayout.row_read _ _ p)
  have e4 : Region0.row4 (V7 m ρ) c = fun p => Cert.ReferenceIdeal.ReadP.val_main_v62 (F := Ideal) (m ((c : Thread nD τ).loc main_arg9)) (ix1 p) := funext fun p => (congrFun h4 (ix2 (0 : Fin 1) p)).trans (OperandLayout.row_read _ _ p)
  have e6 : Region0.row6 (V7 m ρ) c = fun p => Cert.ReferenceIdeal.ReadP.val_main_v71 (F := Ideal) (m ((c : Thread nD τ).loc main_arg11)) (ix1 p) := funext fun p => (congrFun h6 (ix2 (0 : Fin 1) p)).trans (OperandLayout.row_read _ _ p)
  have e8 : Region0.row8 (V7 m ρ) c = fun p => Cert.ReferenceIdeal.ReadP.val_main_v80 (F := Ideal) (m ((c : Thread nD τ).loc main_arg13)) (ix1 p) := funext fun p => (congrFun h8 (ix2 (0 : Fin 1) p)).trans (OperandLayout.row_read _ _ p)
  have e5 : Region0.tab5 (V7 m ρ) c = fun p q => Cert.ReferenceIdeal.ReadP.val_main_v68 (F := Ideal) (m ((c : Thread nD τ).loc main_arg10)) (ix2 q p) := funext fun p => funext fun q => (congrFun h5 (ix2 p q)).trans (OperandLayout.table_read _ _ p q)
  have e7 : Region0.tab7 (V7 m ρ) c = fun p q => Cert.ReferenceIdeal.ReadP.val_main_v77 (F := Ideal) (m ((c : Thread nD τ).loc main_arg12)) (ix2 q p) := funext fun p => funext fun q => (congrFun h7 (ix2 p q)).trans (OperandLayout.table_read _ _ p q)
  rw [e0, e1, e2, e3, e4, e6, e8, e5, e7]

end Cert.KernelIdeal.Layer0

end
-- ==== Proof.Region1Cases.lean ====
/-
  What one grid point of the message kernel leaves in its output block, as a value.

  The body stores once per point (twice at the first sender block of a receiver block, where it first stores the
  zero block): the last store's value is the body's arithmetic applied to the blocks it loaded, with the output
  block's previous contents — the zero block just stored, or what the point before left — as the accumulator.
-/
import proofs.«170678_j11312943857830_2_alg».proof.Proof.Gen.KernelIdeal.Frame
import Idealize.ShloMosaic.Lib.Pipeline.Value
import Idealize.ShloMosaic.Lib.Tactic

noncomputable section

namespace Cert.KernelIdeal.Region1

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A later sender block: the body adds this block's partial sums to what the point before left. -/
theorem out_later (c : Dev nD) (i : grid1.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : ¬cond1_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) (xo : Vec F S64x128 .f32) :
    out1_B_9 c i arg2 harg2 arg3 harg3 arg4 harg4 arg5 harg5 arg6 harg6 arg7 harg7 arg8 harg8 arg9 harg9 arg10 harg10 arg11 harg11 hc x0 x1 x2 x3 x4 x5 x6 x7 x8 xo
      = k1_pay1 (BitVec.ofNat 32 (i 0).val) (BitVec.ofNat 32 (i 1).val) (k1_pay3 x0 x1 x2 x3 x4 x5) (k1_pay4 x6) x7 x8 xo := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc x0 x1 x2 x3 x4 x5 x6 x7 x8 xo)]
  unfold kernelRun1_B
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

/-- The first sender block: the body stores the zero block, reads it back and adds this block's partial sums. -/
theorem out_first (c : Dev nD) (i : grid1.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : cond1_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) :
    out1_A_9 c i arg2 harg2 arg3 harg3 arg4 harg4 arg5 harg5 arg6 harg6 arg7 harg7 arg8 harg8 arg9 harg9 arg10 harg10 arg11 harg11 hc x0 x1 x2 x3 x4 x5 x6 x7 x8
      = k1_pay1 (BitVec.ofNat 32 (i 0).val) (BitVec.ofNat 32 (i 1).val) (k1_pay3 x0 x1 x2 x3 x4 x5) (k1_pay4 x6) x7 x8 (k1_pay2 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc x0 x1 x2 x3 x4 x5 x6 x7 x8)]
  unfold kernelRun1_A
  dsimp only
  rw [View.canon_cons_unit_zero (S := S64x128) hz]
  sl_unfold_words
  rw [View.readCov_unit_zero (S := S64x128) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

end Cert.KernelIdeal.Region1

end
-- ==== Proof.Region1Blocks.lean ====
/-
  The blocks the message kernel loads at a grid point, as entries of the arrays the launch finds.

  The grid is 8 receiver blocks by 4 sender blocks, walked row by row: point `t` is receiver block `t / 4` and
  sender block `t % 4`. The receiver projection's block is rows `64 (t / 4) …`, the sender projection's block rows
  `128 (t % 4) …`, the distance block the corresponding 64 × 128 tile; the weights and biases are whole arrays at
  every point.
-/
import proofs.«170678_j11312943857830_2_alg».proof.Proof.Gen.KernelIdeal.Frame
import proofs.«170678_j11312943857830_2_alg».proof.Proof.BlockCoords
import Idealize.ShloMosaic.Lib.Pipeline.Value
import Idealize.ShloMosaic.Lib.ValueIdx

noncomputable section

namespace Cert.KernelIdeal.Region1

open Cert.KernelIdeal Cert.KernelIdeal.Gen Cert.BlockCoords
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed block-index maps and grid coordinates in closed form, decided once over the 32 points. -/
theorem point_facts : ∀ t : Fin cfg1.N,
    (win1_0.index t (0 : Fin 2) = t.val / 4 ∧ win1_0.index t (1 : Fin 2) = 0)
    ∧ (win1_1.index t (0 : Fin 2) = t.val % 4 ∧ win1_1.index t (1 : Fin 2) = 0)
    ∧ (win1_2.index t (0 : Fin 2) = t.val / 4 ∧ win1_2.index t (1 : Fin 2) = t.val % 4)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val / 4 ∧ win1_9.index t (1 : Fin 2) = 0)
    ∧ ((grid1.coords t 0).val = t.val / 4 ∧ (grid1.coords t 1).val = t.val % 4) :=
  (by decide +kernel : ∀ t : Fin grid1.N, _)

/-- The receiver projection's block: rows `64 (t / 4) + r`. -/
theorem read_recv (c : Dev nD) (t : Fin cfg1.N) (r : Fin 64) (p : Fin 128) :
    iblk1 V c 0 t (ix2 r p) = (V c (Pipeline.arrRef spec1 0) : S512x128.Idx → Elt F .f32) (ix2 (rowAt (t.val / 4) r) p) := by
  obtain ⟨⟨e0, e1⟩, -⟩ := point_facts t
  have hN : cfg1.N = 32 := N_1
  have ht := t.isLt
  have hr := r.isLt
  unfold iblk1
  rw [View.read_apply]
  refine congrArg (V c (Pipeline.arrRef spec1 0) : S512x128.Idx → Elt F .f32) (funext fun a => Fin.ext ?_)
  match a with
  | ⟨0, _⟩ => show win1_0.index t (0 : Fin 2) * 64 + 1 * r.val = (64 * (t.val / 4) + r.val) % 512; rw [e0]; omega
  | ⟨1, _⟩ => show win1_0.index t (1 : Fin 2) * 128 + 1 * p.val = p.val; rw [e1]; omega

/-- The sender projection's block: rows `128 (t % 4) + s`. -/
theorem read_send (c : Dev nD) (t : Fin cfg1.N) (s : Fin 128) (p : Fin 128) :
    iblk1 V c 1 t (ix2 s p) = (V c (Pipeline.arrRef spec1 1) : S512x128.Idx → Elt F .f32) (ix2 (colAt (t.val % 4) s) p) := by
  obtain ⟨-, ⟨e0, e1⟩, -⟩ := point_facts t
  have hs := s.isLt
  unfold iblk1
  rw [View.read_apply]
  refine congrArg (V c (Pipeline.arrRef spec1 1) : S512x128.Idx → Elt F .f32) (funext fun a => Fin.ext ?_)
  match a with
  | ⟨0, _⟩ => show win1_1.index t (0 : Fin 2) * 128 + 1 * s.val = (128 * (t.val % 4) + s.val) % 512; rw [e0]; omega
  | ⟨1, _⟩ => show win1_1.index t (1 : Fin 2) * 128 + 1 * p.val = p.val; rw [e1]; omega

/-- The distance tile: receiver rows `64 (t / 4) + r`, sender columns `128 (t % 4) + s`. -/
theorem read_dist (c : Dev nD) (t : Fin cfg1.N) (r : Fin 64) (s : Fin 128) :
    iblk1 V c 2 t (ix2 r s)
      = (V c (Pipeline.arrRef spec1 2) : S512x512.Idx → Elt F .f32) (ix2 (rowAt (t.val / 4) r) (colAt (t.val % 4) s)) := by
  obtain ⟨-, -, ⟨e0, e1⟩, -⟩ := point_facts t
  have hN : cfg1.N = 32 := N_1
  have ht := t.isLt
  have hr := r.isLt
  have hs := s.isLt
  unfold iblk1
  rw [View.read_apply]
  refine congrArg (V c (Pipeline.arrRef spec1 2) : S512x512.Idx → Elt F .f32) (funext fun a => Fin.ext ?_)
  match a with
  | ⟨0, _⟩ => show win1_2.index t (0 : Fin 2) * 64 + 1 * r.val = (64 * (t.val / 4) + r.val) % 512; rw [e0]; omega
  | ⟨1, _⟩ => show win1_2.index t (1 : Fin 2) * 128 + 1 * s.val = (128 * (t.val % 4) + s.val) % 512; rw [e1]; omega

/-- Operand 3 is one row of 128 entries, whole at every point. -/
theorem read_row3 (c : Dev nD) (t : Fin cfg1.N) (p : Fin 128) :
    iblk1 V c 3 t (ix2 (0 : Fin 1) p) = (V c (Pipeline.arrRef spec1 3) : S1x128.Idx → Elt F .f32) (ix2 (0 : Fin 1) p) := by
  obtain ⟨-, -, -, ⟨e0, e1⟩, -⟩ := point_facts t
  unfold iblk1
  rw [View.read_apply]
  refine congrArg (V c (Pipeline.arrRef spec1 3) : S1x128.Idx → Elt F .f32) (funext fun a => Fin.ext ?_)
  match a with
  | ⟨0, _⟩ => show win1_3.index t (0 : Fin 2) * 1 + 1 * 0 = 0; rw [e0]
  | ⟨1, _⟩ => show win1_3.index t (1 : Fin 2) * 128 + 1 * p.val = p.val; rw [e1]; omega

/-- Operand 4 is one row of 128 entries, whole at every point. -/
theorem read_row4 (c : Dev nD) (t : Fin cfg1.N) (p : Fin 128) :
    iblk1 V c 4 t (ix2 (0 : Fin 1) p) = (V c (Pipeline.arrRef spec1 4) : S1x128.Idx → Elt F .f32) (ix2 (0 : Fin 1) p) := by
  obtain ⟨-, -, -, -, ⟨e0, e1⟩, -⟩ := point_facts t
  unfold iblk1
  rw [View.read_apply]
  refine congrArg (V c (Pipeline.arrRef spec1 4) : S1x128.Idx → Elt F .f32) (funext fun a => Fin.ext ?_)
  match a with
  | ⟨0, _⟩ => show win1_4.index t (0 : Fin 2) * 1 + 1 * 0 = 0; rw [e0]
  | ⟨1, _⟩ => show win1_4.index t (1 : Fin 2) * 128 + 1 * p.val = p.val; rw [e1]; omega

/-- Operand 6 is one row of 128 entries, whole at every point. -/
theorem read_row6 (c : Dev nD) (t : Fin cfg1.N) (p : Fin 128) :
    iblk1 V c 6 t (ix2 (0 : Fin 1) p) = (V c (Pipeline.arrRef spec1 6) : S1x128.Idx → Elt F .f32) (ix2 (0 : Fin 1) p) := by
  obtain ⟨-, -, -, -, -, -, ⟨e0, e1⟩, -⟩ := point_facts t
  unfold iblk1
  rw [View.read_apply]
  refine congrArg (V c (Pipeline.arrRef spec1 6) : S1x128.Idx → Elt F .f32) (funext fun a => Fin.ext ?_)
  match a with
  | ⟨0, _⟩ => show win1_6.index t (0 : Fin 2) * 1 + 1 * 0 = 0; rw [e0]
  | ⟨1, _⟩ => show win1_6.index t (1 : Fin 2) * 128 + 1 * p.val = p.val; rw [e1]; omega

/-- Operand 8 is one row of 128 entries, whole at every point. -/
theorem read_row8 (c : Dev nD) (t : Fin cfg1.N) (p : Fin 128) :
    iblk1 V c 8 t (ix2 (0 : Fin 1) p) = (V c (Pipeline.arrRef spec1 8) : S1x128.Idx → Elt F .f32) (ix2 (0 : Fin 1) p) := by
  obtain ⟨-, -, -, -, -, -, -, -, ⟨e0, e1⟩, -⟩ := point_facts t
  unfold iblk1
  rw [View.read_apply]
  refine congrArg (V c (Pipeline.arrRef spec1 8) : S1x128.Idx → Elt F .f32) (funext fun a => Fin.ext ?_)
  match a with
  | ⟨0, _⟩ => show win1_8.index t (0 : Fin 2) * 1 + 1 * 0 = 0; rw [e0]
  | ⟨1, _⟩ => show win1_8.index t (1 : Fin 2) * 128 + 1 * p.val = p.val; rw [e1]; omega

/-- Operand 5 is a 128 × 128 weight table, whole at every point. -/
theorem read_table5 (c : Dev nD) (t : Fin cfg1.N) (p q : Fin 128) :
    iblk1 V c 5 t (ix2 p q) = (V c (Pipeline.arrRef spec1 5) : S128x128.Idx → Elt F .f32) (ix2 p q) := by
  obtain ⟨-, -, -, -, -, ⟨e0, e1⟩, -⟩ := point_facts t
  unfold iblk1
  rw [View.read_apply]
  refine congrArg (V c (Pipeline.arrRef spec1 5) : S128x128.Idx → Elt F .f32) (funext fun a => Fin.ext ?_)
  match a with
  | ⟨0, _⟩ => show win1_5.index t (0 : Fin 2) * 128 + 1 * p.val = p.val; rw [e0]; omega
  | ⟨1, _⟩ => show win1_5.index t (1 : Fin 2) * 128 + 1 * q.val = q.val; rw [e1]; omega

/-- Operand 7 is a 128 × 128 weight table, whole at every point. -/
theorem read_table7 (c : Dev nD) (t : Fin cfg1.N) (p q : Fin 128) :
    iblk1 V c 7 t (ix2 p q) = (V c (Pipeline.arrRef spec1 7) : S128x128.Idx → Elt F .f32) (ix2 p q) := by
  obtain ⟨-, -, -, -, -, -, -, ⟨e0, e1⟩, -⟩ := point_facts t
  unfold iblk1
  rw [View.read_apply]
  refine congrArg (V c (Pipeline.arrRef spec1 7) : S128x128.Idx → Elt F .f32) (funext fun a => Fin.ext ?_)
  match a with
  | ⟨0, _⟩ => show win1_7.index t (0 : Fin 2) * 128 + 1 * p.val = p.val; rw [e0]; omega
  | ⟨1, _⟩ => show win1_7.index t (1 : Fin 2) * 128 + 1 * q.val = q.val; rw [e1]; omega

end Cert.KernelIdeal.Region1

end
-- ==== Proof.Payload1.lean ====
/-
  The message kernel's tile payload read at an index, for the second of the kernel's three calls.

  With the grid coordinates (bi, bj), the value the body stores to the output block at (r, k) is the block's previous
  value plus, summed over the tile's 128 senders j, the edge perceptron
      (∑ q, relu (∑ p, relu (A r p + B j p + D r j · wd p + b1 p) · W2T p q + b2 q) · W3T q k) + b3 k
  times the mask that is 0 where the global receiver number 64 bi + r equals the global sender number 128 bj + j and
  1 elsewhere (`block_sum`); and the block the first sender tile starts from is zero (`zero_block`). At the ideal
  values the narrowing of the products' operands is the identity, a product into a zero accumulator is the plain
  sum over the contracted feature, and the reduction over the sender axis is the sum over j; the rest is reading
  each reshaping and broadcast at its index.
-/
import proofs.«170678_j11312943857830_2_alg».proof.Proof.Gen.KernelIdeal.Skeleton
import proofs.«170678_j11312943857830_2_alg».proof.Proof.MessageSum
import proofs.«170678_j11312943857830_2_alg».proof.Proof.PayloadCommon
import Idealize.ShloMosaic.Lib.ValueLayout
import Idealize.ShloMosaic.PureOps.Ideal.Laws

noncomputable section

open scoped BigOperators

namespace Cert.KernelIdeal.Payload1

open Idealize.ShloMosaic Idealize.ShloMosaic.ValueIdx Cert.KernelIdeal Cert.KernelIdeal.Gen Cert.KernelIdeal.PayloadCommon

/-- The bias of the second layer, copied to every pair: row `row` of the [8192, 128] matrix at feature q is b2 q. -/
theorem pay4_apply (x6 : Vec Ideal S1x128 .f32) (row : Fin 8192) (q : Fin 128) :
    Gen.k1_pay4 (F := Ideal) x6 (ix2 row q) = x6 (ix2 (0 : Fin 1) q) := by
  unfold Gen.k1_pay4
  refine (broadcastTo_1b_ab_apply _ _ row q).trans ?_
  refine (shapeCast_a_1a_apply _ _ (0 : Fin 1) q).trans ?_
  exact shapeCast_1a_a_apply _ _ q

/-- The first layer and the first product: at the row of the pair (r, j) and feature q, the sum over p of
    relu (A r p + B j p + D r j · wd p + b1 p) · W2T p q. -/
theorem pay3_apply (x0 : Vec Ideal S64x128 .f32) (x1 : Vec Ideal S128x128 .f32) (x2 : Vec Ideal S64x128 .f32)
    (x3 x4 : Vec Ideal S1x128 .f32) (x5 : Vec Ideal S128x128 .f32) (r : Fin 64) (j q : Fin 128) (row : Fin 8192)
    (hrow : row.val = r.val * 128 + j.val) :
    Gen.k1_pay3 (F := Ideal) x0 x1 x2 x3 x4 x5 (ix2 row q)
      = ∑ p : Fin 128, max (x0 (ix2 r p) + x1 (ix2 j p) + x2 (ix2 r j) * x3 (ix2 (0 : Fin 1) p) + x4 (ix2 (0 : Fin 1) p)) 0
          * x5 (ix2 p q) := by
  unfold Gen.k1_pay3
  refine (matmul_row_apply _ _ row q).trans (Finset.sum_congr rfl fun p _ => ?_)
  refine congrArg₂ (· * ·) ((truncf_bf16_apply _ _ _).trans ?_) ((truncf_bf16_apply _ _ _).trans (congrFun (shapeCast_self x5 _) _))
  refine (cast_abc_mc _ _ r j p row hrow).trans ?_
  refine (maximumf_apply _ _ _).trans (congrArg₂ max ?_ Ideal.ofBits_zero_f32)
  refine (addf_apply _ _ _).trans (congrArg₂ (· + ·) ((addf_apply _ _ _).trans (congrArg₂ (· + ·) ((addf_apply _ _ _).trans (congrArg₂ (· + ·) ?_ ?_)) ((mulf_apply _ _ _).trans (congrArg₂ (· * ·) ?_ ?_)))) ?_)
  · exact (bc_64x1x128 _ _ r j p).trans ((cast_ab_a1b _ _ r (0 : Fin 1) p).trans (congrFun (shapeCast_self x0 _) _))
  · exact (bc_1x128x128 _ _ r j p).trans ((shapeCast_ab_1ab_apply _ _ (0 : Fin 1) j p).trans (congrFun (shapeCast_self x1 _) _))
  · exact (bc_64x128x1 _ _ r j p).trans ((cast_ab_ab1 _ _ r j (0 : Fin 1)).trans (congrFun (shapeCast_self x2 _) _))
  · exact (bc_1x1x128 _ _ r j p).trans ((cast_a_11a _ _ (0 : Fin 1) (0 : Fin 1) p).trans (shapeCast_1a_a_apply _ _ p))
  · exact (bc_1x1x128 _ _ r j p).trans ((cast_a_11a _ _ (0 : Fin 1) (0 : Fin 1) p).trans (shapeCast_1a_a_apply _ _ p))

/-- The second layer, the read-out, the mask, the sum over the senders and the accumulation, over any values
    `v36`, `v38` of the first product and the second bias: at (r, k) the block's previous value plus the sum over the
    senders j of (∑ q, relu (v36 (row r j) q + v38 (row r j) q) · W3T q k + b3 k) times the mask at (r, j). -/
theorem pay1_apply (bi bj : ℕ) (hbi : bi < 8) (hbj : bj < 4) (v36 v38 : FVec Ideal S8192x128 .f32)
    (x7 : Vec Ideal S128x128 .f32) (x8 : Vec Ideal S1x128 .f32) (xo : Vec Ideal S64x128 .f32) (r : Fin 64) (k : Fin 128) :
    Gen.k1_pay1 (F := Ideal) (BitVec.ofNat 32 bi) (BitVec.ofNat 32 bj) v36 v38 x7 x8 xo (ix2 r k)
      = xo (ix2 r k) + ∑ j : Fin 128,
          ((∑ q : Fin 128, max (v36 (ix2 (pairRow r j) q) + v38 (ix2 (pairRow r j) q)) 0 * x7 (ix2 q k))
              + x8 (ix2 (0 : Fin 1) k))
            * (if 64 * bi + r.val = 128 * bj + j.val then (0 : EReal) else 1) := by
  unfold Gen.k1_pay1
  refine (addf_apply _ _ _).trans (congrArg₂ (· + ·) (congrFun (shapeCast_self xo _) _) ?_)
  refine (reduce_senders_apply _ _ _ _ r k).trans (Finset.sum_congr rfl fun j _ => ?_)
  refine (mulf_apply _ _ _).trans (congrArg₂ (· * ·) ?_ ?_)
  · refine (cast_mc_abc _ _ r j k (pairRow r j) (pairRow_val r j)).trans ?_
    refine (addf_apply _ _ _).trans (congrArg₂ (· + ·) ?_ ?_)
    · refine (matmul_row_apply _ _ (pairRow r j) k).trans (Finset.sum_congr rfl fun q _ => ?_)
      refine congrArg₂ (· * ·) ((truncf_bf16_apply _ _ _).trans ?_) ((truncf_bf16_apply _ _ _).trans (congrFun (shapeCast_self x7 _) _))
      exact (maximumf_apply _ _ _).trans (congrArg₂ max (addf_apply _ _ _) Ideal.ofBits_zero_f32)
    · exact (broadcastTo_1b_ab_apply _ _ (pairRow r j) k).trans
        ((shapeCast_a_1a_apply _ _ (0 : Fin 1) k).trans (shapeCast_1a_a_apply _ _ k))
  · exact (bc_64x128x1 _ _ r j k).trans ((cast_ab_ab1 _ _ r j (0 : Fin 1)).trans (mask_apply bi bj hbi hbj _ _ _ r j))

/-- THE TILE'S CONTRIBUTION. With the grid coordinates (bi, bj), the payload stored to the output block at (r, k) is the
    block's previous value plus the sum over the tile's 128 senders of the edge perceptron of receiver row r and
    sender row j, times the off-diagonal mask of the global receiver number 64 bi + r and sender number 128 bj + j. -/
theorem block_sum (bi bj : ℕ) (hbi : bi < 8) (hbj : bj < 4)
    (x0 : Vec Ideal S64x128 .f32) (x1 : Vec Ideal S128x128 .f32) (x2 : Vec Ideal S64x128 .f32) (x3 x4 : Vec Ideal S1x128 .f32)
    (x5 : Vec Ideal S128x128 .f32) (x6 : Vec Ideal S1x128 .f32) (x7 : Vec Ideal S128x128 .f32) (x8 : Vec Ideal S1x128 .f32)
    (xo : Vec Ideal S64x128 .f32) (r : Fin 64) (k : Fin 128) :
    Gen.k1_pay1 (F := Ideal) (BitVec.ofNat 32 bi) (BitVec.ofNat 32 bj) (Gen.k1_pay3 (F := Ideal) x0 x1 x2 x3 x4 x5)
        (Gen.k1_pay4 (F := Ideal) x6) x7 x8 xo (ValueIdx.ix2 r k)
      = xo (ValueIdx.ix2 r k)
        + ∑ jj : Fin 128, Cert.MessageSum.perceptron
            (fun p => x0 (ValueIdx.ix2 r p)) (fun p => x1 (ValueIdx.ix2 jj p)) (x2 (ValueIdx.ix2 r jj))
            (fun p => x3 (ValueIdx.ix2 (0 : Fin 1) p)) (fun p => x4 (ValueIdx.ix2 (0 : Fin 1) p))
            (fun q => x6 (ValueIdx.ix2 (0 : Fin 1) q)) (fun k' => x8 (ValueIdx.ix2 (0 : Fin 1) k'))
            (fun p q => x5 (ValueIdx.ix2 p q)) (fun q k' => x7 (ValueIdx.ix2 q k')) k
          * (if 64 * bi + r.val = 128 * bj + jj.val then (0 : EReal) else 1) := by
  rw [pay1_apply bi bj hbi hbj]
  refine congrArg (xo (ix2 r k) + ·) (Finset.sum_congr rfl fun jj _ => ?_)
  refine congrArg (· * (if 64 * bi + r.val = 128 * bj + jj.val then (0 : EReal) else 1)) ?_
  show _ = (∑ q : Fin 128, max ((∑ p : Fin 128, max (x0 (ix2 r p) + x1 (ix2 jj p) + x2 (ix2 r jj) * x3 (ix2 (0 : Fin 1) p)
      + x4 (ix2 (0 : Fin 1) p)) 0 * x5 (ix2 p q)) + x6 (ix2 (0 : Fin 1) q)) 0 * x7 (ix2 q k)) + x8 (ix2 (0 : Fin 1) k)
  refine congrArg (· + x8 (ix2 (0 : Fin 1) k)) (Finset.sum_congr rfl fun q _ => ?_)
  rw [pay3_apply x0 x1 x2 x3 x4 x5 r jj q (pairRow r jj) (pairRow_val r jj), pay4_apply]

/-- The block the first sender tile starts from: zero everywhere. -/
theorem zero_block (r : Fin 64) (k : Fin 128) : Gen.k1_pay2 (F := Ideal) (ValueIdx.ix2 r k) = 0 := by
  unfold Gen.k1_pay2
  exact Ideal.ofBits_zero_f32

end Cert.KernelIdeal.Payload1

end
-- ==== Proof.Region1Sum.lean ====
/-
  What a launch of the message kernel leaves in its output array: the layer's aggregate.

  At grid point `t` (receiver block `t / 4`, sender block `t % 4`) the body adds to entry `(r, k)` of the output
  block the sum, over the 128 senders of the block, of the masked edge messages. The block is zeroed at the first
  sender block, carried from point to point across the four sender blocks, and written back after the fourth. So the
  array ends, at receiver `64 bi + r`, with `((0 + S₀) + S₁) + S₂) + S₃` of the four per-block sums — the sum over
  all 512 senders, cut into four consecutive blocks of 128.
-/
import proofs.«170678_j11312943857830_2_alg».proof.Proof.Region1Cases
import proofs.«170678_j11312943857830_2_alg».proof.Proof.Region1Blocks
import proofs.«170678_j11312943857830_2_alg».proof.Proof.Payload1
import proofs.«170678_j11312943857830_2_alg».proof.Proof.MessageSum
import proofs.«170678_j11312943857830_2_alg».proof.Proof.LibBlockSum
import Idealize.ShloMosaic.Lib.Pipeline.Value

noncomputable section

namespace Cert.KernelIdeal.Region1

open Cert.KernelIdeal Cert.KernelIdeal.Gen Cert.BlockCoords Cert.MessageSum
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The launch's arrays as curried functions -/

abbrev recv (c : Dev nD) : Fin 512 → Fin 128 → EReal := fun i p => (V c (Pipeline.arrRef spec1 0) : S512x128.Idx → Elt Ideal .f32) (ix2 i p)
abbrev send (c : Dev nD) : Fin 512 → Fin 128 → EReal := fun j p => (V c (Pipeline.arrRef spec1 1) : S512x128.Idx → Elt Ideal .f32) (ix2 j p)
abbrev dist (c : Dev nD) : Fin 512 → Fin 512 → EReal := fun i j => (V c (Pipeline.arrRef spec1 2) : S512x512.Idx → Elt Ideal .f32) (ix2 i j)
abbrev row3 (c : Dev nD) : Fin 128 → EReal := fun p => (V c (Pipeline.arrRef spec1 3) : S1x128.Idx → Elt Ideal .f32) (ix2 (0 : Fin 1) p)
abbrev row4 (c : Dev nD) : Fin 128 → EReal := fun p => (V c (Pipeline.arrRef spec1 4) : S1x128.Idx → Elt Ideal .f32) (ix2 (0 : Fin 1) p)
abbrev tab5 (c : Dev nD) : Fin 128 → Fin 128 → EReal := fun p q => (V c (Pipeline.arrRef spec1 5) : S128x128.Idx → Elt Ideal .f32) (ix2 p q)
abbrev row6 (c : Dev nD) : Fin 128 → EReal := fun p => (V c (Pipeline.arrRef spec1 6) : S1x128.Idx → Elt Ideal .f32) (ix2 (0 : Fin 1) p)
abbrev tab7 (c : Dev nD) : Fin 128 → Fin 128 → EReal := fun p q => (V c (Pipeline.arrRef spec1 7) : S128x128.Idx → Elt Ideal .f32) (ix2 p q)
abbrev row8 (c : Dev nD) : Fin 128 → EReal := fun p => (V c (Pipeline.arrRef spec1 8) : S1x128.Idx → Elt Ideal .f32) (ix2 (0 : Fin 1) p)

/-- The masked edge message between receiver `i` and sender `j`, of the arrays the launch finds. -/
abbrev msg (c : Dev nD) (i j : Fin 512) (k : Fin 128) : EReal :=
  edge (recv V c) (send V c) (dist V c) (row3 V c) (row4 V c) (row6 V c) (row8 V c) (tab5 V c) (tab7 V c) i j k

/-- The layer's aggregate of the arrays the launch finds, as contents of the output array. -/
def aggregate (c : Dev nD) : S512x128.Idx → EReal := fun i =>
  total (recv V c) (send V c) (dist V c) (row3 V c) (row4 V c) (row6 V c) (row8 V c) (tab5 V c) (tab7 V c)
    ⟨(i 0).val, (i 0).isLt⟩ ⟨(i 1).val, (i 1).isLt⟩

/-- The aggregate at an index whose coordinates are `a` and `k`. -/
theorem aggregate_apply (c : Dev nD) (i : S512x128.Idx) (a : Fin 512) (k : Fin 128) (ha : (i 0).val = a.val) (hk : (i 1).val = k.val) :
    aggregate V c i = ∑ j : Fin 512, msg V c a j k := by
  have e1 : (⟨(i 0).val, (i 0).isLt⟩ : Fin 512) = a := Fin.ext ha
  have e2 : (⟨(i 1).val, (i 1).isLt⟩ : Fin 128) = k := Fin.ext hk
  show total (recv V c) (send V c) (dist V c) (row3 V c) (row4 V c) (row6 V c) (row8 V c) (tab5 V c) (tab7 V c)
    ⟨(i 0).val, (i 0).isLt⟩ ⟨(i 1).val, (i 1).isLt⟩ = _
  rw [e1, e2]
  rfl

/-- What one grid point adds at entry `(r, k)` of its output block: the messages of sender block `bj` to receiver
    `64 bi + r`. -/
def addend (c : Dev nD) (bi bj : ℕ) (r : Fin 64) (k : Fin 128) : EReal :=
  ∑ s : Fin 128, msg V c (rowAt bi r) (colAt bj s) k

/-! ## One grid point -/

/-- The body's sum at a point, in terms of the arrays: the loaded blocks are the arrays' tiles, and the mask computed
    from the grid position is the off-diagonal mask of the plane. -/
theorem block_sum_eq (c : Dev nD) (t : Fin cfg1.N) (r : Fin 64) (k : Fin 128) (xo : EReal) :
    xo + ∑ s : Fin 128, perceptron
        (fun p => iblk1 V c 0 t (ix2 r p)) (fun p => iblk1 V c 1 t (ix2 s p)) (iblk1 V c 2 t (ix2 r s))
        (fun p => iblk1 V c 3 t (ix2 (0 : Fin 1) p)) (fun p => iblk1 V c 4 t (ix2 (0 : Fin 1) p))
        (fun q => iblk1 V c 6 t (ix2 (0 : Fin 1) q)) (fun k' => iblk1 V c 8 t (ix2 (0 : Fin 1) k'))
        (fun p q => iblk1 V c 5 t (ix2 p q)) (fun q k' => iblk1 V c 7 t (ix2 q k')) k
        * (if 64 * (grid1.coords t 0).val + r.val = 128 * (grid1.coords t 1).val + s.val then (0 : EReal) else 1)
      = xo + addend V c (t.val / 4) (t.val % 4) r k := by
  obtain ⟨-, -, -, -, -, -, -, -, -, -, ⟨g0, g1⟩⟩ := point_facts t
  have hN : cfg1.N = 32 := N_1
  have ht := t.isLt
  unfold addend
  refine congrArg (xo + ·) (Finset.sum_congr rfl fun s _ => ?_)
  have e0 : (fun p => iblk1 V c 0 t (ix2 r p)) = recv V c (rowAt (t.val / 4) r) := funext fun p => read_recv V c t r p
  have e1 : (fun p => iblk1 V c 1 t (ix2 s p)) = send V c (colAt (t.val % 4) s) := funext fun p => read_send V c t s p
  have e2 : iblk1 V c 2 t (ix2 r s) = dist V c (rowAt (t.val / 4) r) (colAt (t.val % 4) s) := read_dist V c t r s
  have e3 : (fun p => iblk1 V c 3 t (ix2 (0 : Fin 1) p)) = row3 V c := funext fun p => read_row3 V c t p
  have e4 : (fun p => iblk1 V c 4 t (ix2 (0 : Fin 1) p)) = row4 V c := funext fun p => read_row4 V c t p
  have e6 : (fun q => iblk1 V c 6 t (ix2 (0 : Fin 1) q)) = row6 V c := funext fun p => read_row6 V c t p
  have e8 : (fun k' => iblk1 V c 8 t (ix2 (0 : Fin 1) k')) = row8 V c := funext fun p => read_row8 V c t p
  have e5 : (fun p q => iblk1 V c 5 t (ix2 p q)) = tab5 V c := funext fun p => funext fun q => read_table5 V c t p q
  have e7 : (fun q k' => iblk1 V c 7 t (ix2 q k')) = tab7 V c := funext fun p => funext fun q => read_table7 V c t p q
  have em : (if 64 * (grid1.coords t 0).val + r.val = 128 * (grid1.coords t 1).val + s.val then (0 : EReal) else 1)
      = offDiag (rowAt (t.val / 4) r) (colAt (t.val % 4) s) := by
    unfold offDiag
    rw [g0, g1]
    exact if_congr (rowAt_eq_colAt_iff (t.val / 4) (t.val % 4) r s (by omega) (by omega)).symm rfl rfl
  rw [e0, e1, e2, e3, e4, e6, e8, e5, e7, em]
  rfl

/-- The first sender block of a receiver block: the output block is zeroed, then this block's messages are added. -/
theorem point_first (c : Dev nD) (t : Fin cfg1.N) (h0 : t.val % 4 = 0) (r : Fin 64) (k : Fin 128) :
    outsAt1 V c t.val t.isLt (ix2 r k) = 0 + addend V c (t.val / 4) (t.val % 4) r k := by
  obtain ⟨-, -, -, -, -, -, -, -, -, -, ⟨g0, g1⟩⟩ := point_facts t
  have hN : cfg1.N = 32 := N_1
  have ht := t.isLt
  rw [outsAt1_A V c t h0, out_first]
  refine (Cert.KernelIdeal.Payload1.block_sum (grid1.coords t 0).val (grid1.coords t 1).val (by omega) (by omega)
    (iblk1 V c 0 t) (iblk1 V c 1 t) (iblk1 V c 2 t) (iblk1 V c 3 t) (iblk1 V c 4 t) (iblk1 V c 5 t) (iblk1 V c 6 t) (iblk1 V c 7 t) (iblk1 V c 8 t) (k1_pay2 (F := Ideal)) r k).trans ?_
  rw [Cert.KernelIdeal.Payload1.zero_block r k]
  exact block_sum_eq V c t r k 0

/-- A later sender block: this block's messages are added to what the point before left. -/
theorem point_later (c : Dev nD) (t : Fin cfg1.N) (h0 : ¬t.val % 4 = 0) (r : Fin 64) (k : Fin 128) :
    outsAt1 V c t.val t.isLt (ix2 r k)
      = outsAt1 V c (t.val - 1) (Nat.lt_of_le_of_lt (Nat.sub_le _ _) t.isLt) (ix2 r k) + addend V c (t.val / 4) (t.val % 4) r k := by
  obtain ⟨-, -, -, -, -, -, -, -, -, -, ⟨g0, g1⟩⟩ := point_facts t
  have hN : cfg1.N = 32 := N_1
  have ht := t.isLt
  rw [outsAt1_B V c t h0, out_later]
  refine (Cert.KernelIdeal.Payload1.block_sum (grid1.coords t 0).val (grid1.coords t 1).val (by omega) (by omega)
    (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)) r k).trans ?_
  exact block_sum_eq V c t r k _

/-! ## The running sum across a receiver block's four points -/

/-- After point `n` the output block holds, at `(r, k)`, the messages of the sender blocks `0 … n % 4` to receiver
    `64 (n / 4) + r`: by induction on the point. -/
theorem outs_eq (c : Dev nD) : ∀ (n : ℕ) (h : n < cfg1.N) (r : Fin 64) (k : Fin 128),
    outsAt1 V c n h (ix2 r k) = ∑ b ∈ Finset.range (n % 4 + 1), addend V c (n / 4) b r k
  | 0, h, r, k => by
    rw [point_first V c ⟨0, h⟩ rfl r k]
    show 0 + addend V c (0 / 4) (0 % 4) r k = ∑ b ∈ Finset.range (0 % 4 + 1), addend V c (0 / 4) b r k
    rw [zero_add, show 0 % 4 + 1 = 1 from rfl, Finset.sum_range_one]
  | n + 1, h, r, k => by
    by_cases h0 : (n + 1) % 4 = 0
    · rw [point_first V c ⟨n + 1, h⟩ h0 r k]
      show 0 + addend V c ((n + 1) / 4) ((n + 1) % 4) r k = _
      have e : (n + 1) % 4 + 1 = 1 := by omega
      rw [zero_add, e, Finset.sum_range_one, h0]
    · rw [point_later V c ⟨n + 1, h⟩ h0 r k]
      show outsAt1 V c n _ (ix2 r k) + addend V c ((n + 1) / 4) ((n + 1) % 4) r k = _
      rw [outs_eq c n (Nat.lt_of_succ_lt h) r k]
      have e1 : n / 4 = (n + 1) / 4 := by omega
      have e2 : n % 4 + 1 = (n + 1) % 4 := by omega
      rw [e1, e2, Finset.sum_range_succ]

/-- The four per-block sums of a receiver are its sum over all 512 senders. -/
theorem four_blocks (c : Dev nD) (bi : ℕ) (r : Fin 64) (k : Fin 128) :
    ∑ b ∈ Finset.range 4, addend V c bi b r k = ∑ j : Fin 512, msg V c (rowAt bi r) j k := by
  refine Eq.trans ?_ (Cert.LibBlockSum.sum_blocks 4 128 512 rfl (fun j => msg V c (rowAt bi r) j k)).symm
  refine Finset.sum_congr rfl fun b hb => ?_
  have hb4 : b < 4 := Finset.mem_range.mp hb
  unfold addend
  refine Finset.sum_congr rfl fun s _ => ?_
  have hs := s.isLt
  have hlt : 128 * b + s.val < 512 := by omega
  rw [dif_pos hlt]
  refine congrArg (fun j => msg V c (rowAt bi r) j k) (Fin.ext ?_)
  exact colAt_val b s hb4

/-! ## The write-backs and the final array -/

/-- The point that ends a receiver block writes back that block of the aggregate. -/
theorem flushed_eq (c : Dev nD) (t : Fin cfg1.N) (hf : (cfg1.win 9).flush t = true) :
    (dat1 V c).flushed 9 t = ((cfg1.win 9).blk t).view.read (Elt Ideal) (aggregate V c) := by
  have h3 : t.val % 4 = 3 := (flush1_9 t).mp hf
  obtain ⟨-, -, -, -, -, -, -, -, -, ⟨e0, e1⟩, -⟩ := point_facts t
  have hN : cfg1.N = 32 := N_1
  have ht := t.isLt
  show (cfg1.win 9).cut (grid1.coords t) ((dat1 V c).after 9 t) = _
  rw [after1_9]
  funext y
  obtain ⟨r, k, rfl⟩ : ∃ (r : Fin 64) (k : Fin 128), y = ix2 r k := ⟨y 0, y 1, eq_ix2 y⟩
  show outsAt1 V c t.val t.isLt (ix2 r k) = aggregate V c (((cfg1.win 9).blk t).view.emb (ix2 r k))
  have e4 : t.val % 4 + 1 = 4 := by omega
  have hr := r.isLt
  rw [outs_eq V c t.val t.isLt r k, e4, four_blocks V c (t.val / 4) r k]
  refine (aggregate_apply V c _ (rowAt (t.val / 4) r) k ?_ ?_).symm
  · show win1_9.index t (0 : Fin 2) * 64 + 1 * r.val = (64 * (t.val / 4) + r.val) % 512
    rw [e0]; omega
  · show win1_9.index t (1 : Fin 2) * 128 + 1 * k.val = k.val
    rw [e1]; omega

/-- An index of the output array is in point `t`'s block iff each coordinate is in the block's range on its axis. -/
theorem mem_blk (t : Fin cfg1.N) (i : S512x128.Idx) :
    i ∈ ((cfg1.win 9).blk t).view.set ↔ ∀ a : Fin 2, win1_9.index t a * S64x128.size a ≤ (i a).val ∧ (i a).val < win1_9.index t a * S64x128.size a + S64x128.size a := by
  show i ∈ ((View.whole main_v120).slice (win1_9.rect t)).set ↔ _
  rw [View.set_slice_whole, Rect.mem_set_unit]
  exact Iff.rfl

/-- Every entry of the output array is written back by the last point of its receiver block. -/
theorem cover (i : S512x128.Idx) : ∃ t : Fin cfg1.N, (cfg1.win 9).flush t = true ∧ i ∈ ((cfg1.win 9).blk t).view.set := by
  have hN : cfg1.N = 32 := N_1
  have hi0 : (i 0).val < 512 := (i 0).isLt
  have hi1 : (i 1).val < 128 := (i 1).isLt
  have hlt : 4 * ((i 0).val / 64) + 3 < cfg1.N := by omega
  refine ⟨⟨4 * ((i 0).val / 64) + 3, hlt⟩, (flush1_9 _).mpr (by show (4 * ((i 0).val / 64) + 3) % 4 = 3; omega), ?_⟩
  obtain ⟨-, -, -, -, -, -, -, -, -, ⟨e0, e1⟩, -⟩ := point_facts (⟨4 * ((i 0).val / 64) + 3, hlt⟩ : Fin cfg1.N)
  rw [mem_blk]
  intro a
  match a with
  | ⟨0, _⟩ =>
    show win1_9.index ⟨4 * ((i 0).val / 64) + 3, hlt⟩ (0 : Fin 2) * 64 ≤ (i 0).val ∧ (i 0).val < win1_9.index ⟨4 * ((i 0).val / 64) + 3, hlt⟩ (0 : Fin 2) * 64 + 64
    rw [e0]; show (4 * ((i 0).val / 64) + 3) / 4 * 64 ≤ (i 0).val ∧ (i 0).val < (4 * ((i 0).val / 64) + 3) / 4 * 64 + 64; omega
  | ⟨1, _⟩ =>
    show win1_9.index ⟨4 * ((i 0).val / 64) + 3, hlt⟩ (1 : Fin 2) * 128 ≤ (i 1).val ∧ (i 1).val < win1_9.index ⟨4 * ((i 0).val / 64) + 3, hlt⟩ (1 : Fin 2) * 128 + 128
    rw [e1]; omega

/-- The output array after the launch is the layer's aggregate of the arrays the launch found. -/
theorem final (c : Dev nD) : (dat1 V c).arrAt 9 cfg1.N = aggregate V c :=
  (dat1 V c).arrAt_eq_of_cover 9 (aggregate V c) (flushed_eq V c) cover

end Cert.KernelIdeal.Region1

end
-- ==== Proof.RefLayer1.lean ====
/-
  The second graph layer of the reference program computes the shared message sum of its own inputs.

  The layer's aggregate is a sum over the 512 senders of a product: the edge perceptron's output times the
  off-diagonal mask. The perceptron is read stage by stage at an index: the first hidden layer
  `max (A i p + B j p + D i j * wd p + b1 p) 0` from its four broadcast summands, the second hidden layer and the
  read-out as contractions over the 128 hidden units against the transposed weight slices. Every layout
  operation (broadcast, slice, reshape) reads its operand at an index computed from literal coordinates, so
  each stage is a rewriting chain followed by the identification of the composed index functions.
-/
import proofs.«170678_j11312943857830_2_alg».proof.Proof.RefRead
import proofs.«170678_j11312943857830_2_alg».proof.Proof.MessageSum
import Idealize.ShloMosaic.PureOps.IdealRules
import proofs.«170678_j11312943857830_2_alg».proof.Proof.RefLayerCommon

noncomputable section

open Cert.ReferenceIdeal Cert.ReferenceIdeal.ReadP Idealize.ShloMosaic Idealize.ShloMosaic.ValueIdx

namespace Cert.RefLayer1

/-- The first hidden layer at receiver `i`, sender `j`, unit `p`. -/
theorem h1_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (p : Fin 128) :
    val_main_v143 (F := Ideal) x0 x1 x2 x3 x4 x5 x6 x7 x8 x9 x10 x11 x12 x13 x14 x15 x16 x17 x18 x19 (ix3 i j p)
      = max (val_main_v124 (F := Ideal) x0 x1 x2 x3 x4 x5 x6 x7 x8 x9 x10 x11 x12 x13 x14 x15 x16 x17 x18 x19 (ix2 i p) + val_main_v126 (F := Ideal) x0 x1 x2 x3 x4 x5 x6 x7 x8 x9 x10 x11 x12 x13 x14 x15 x16 x17 x18 x19 (ix2 j p)
          + val_main_v36 (F := Ideal) x1 (ix2 i j) * val_main_v122 (F := Ideal) x8 (ix1 p) + val_main_v139 (F := Ideal) x9 (ix1 p)) 0 := by
  rw [val_main_v143_apply, val_main_v142_apply, val_main_v137_apply, val_main_v131_apply, val_main_v136_apply,
    val_main_v129_apply, val_main_v127_apply, val_main_v130_apply, val_main_v128_apply,
    val_main_v134_apply, val_main_v132_apply, val_main_v135_apply, val_main_v133_apply,
    val_main_v141_apply, val_main_v140_apply, val_main_call7_v0_apply, val_main_call7_cst_apply]
  have eA : idx_main_v127 (idx_main_v129 (ix3 i j p)) = ix2 i p := funext fun a => by
    match a with
    | ⟨0, _⟩ => rfl
    | ⟨1, _⟩ => rfl
  have eB : idx_main_v128 (idx_main_v130 (ix3 i j p)) = ix2 j p := funext fun a => by
    match a with
    | ⟨0, _⟩ => rfl
    | ⟨1, _⟩ => rfl
  have eD : idx_main_v132 (idx_main_v134 (ix3 i j p)) = ix2 i j := funext fun a => by
    match a with
    | ⟨0, _⟩ => rfl
    | ⟨1, _⟩ => rfl
  have eW : idx_main_v133 (idx_main_v135 (ix3 i j p)) = ix1 p := funext fun a => by
    match a with
    | ⟨0, _⟩ => rfl
  have eb : idx_main_v140 (idx_main_v141 (ix3 i j p)) = ix1 p := funext fun a => by
    match a with
    | ⟨0, _⟩ => rfl
  rw [eA, eB, eD, eW, eb]
  simp only [Ideal.addf_def, Ideal.mulf_def, Ideal.maximumf_def, Ideal.ofBits_def, Ideal.ofBits_zero_f32]

/-- The second hidden layer at `(i, j)`, unit `q`: the contraction of the first over its units against the
    weight slice read transposed, plus the bias, rectified. -/
theorem h2_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (q : Fin 128) :
    val_main_v152 (F := Ideal) x0 x1 x2 x3 x4 x5 x6 x7 x8 x9 x10 x11 x12 x13 x14 x15 x16 x17 x18 x19 (ix3 i j q)
      = max ((∑ p : Fin 128, val_main_v143 (F := Ideal) x0 x1 x2 x3 x4 x5 x6 x7 x8 x9 x10 x11 x12 x13 x14 x15 x16 x17 x18 x19 (ix3 i j p) * val_main_v145 (F := Ideal) x10 (ix2 q p))
          + val_main_v148 (F := Ideal) x11 (ix1 q)) 0 := by
  rw [val_main_v152_apply, val_main_v151_apply, val_main_v146_apply, val_main_v150_apply, val_main_v149_apply,
    val_main_call8_v0_apply, val_main_call8_cst_apply]
  have eL : ∀ p : Fin 128, lidx_main_v146 (ix3 i j q) p = ix3 i j p := fun p => funext fun a => by
    match a with
    | ⟨0, _⟩ => rfl
    | ⟨1, _⟩ => rfl
    | ⟨2, _⟩ => rfl
  have eR : ∀ p : Fin 128, ridx_main_v146 (ix3 i j q) p = ix2 q p := fun p => funext fun a => by
    match a with
    | ⟨0, _⟩ => rfl
    | ⟨1, _⟩ => rfl
  have eb : idx_main_v149 (idx_main_v150 (ix3 i j q)) = ix1 q := funext fun a => by
    match a with
    | ⟨0, _⟩ => rfl
  rw [eb]
  simp only [eL, eR, Ideal.addf_def, Ideal.maximumf_def, Ideal.ofBits_def, Ideal.ofBits_zero_f32]

/-- The read-out at `(i, j)`, output feature `k`, before the mask. -/
theorem m_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (k : Fin 128) :
    val_main_v160 (F := Ideal) x0 x1 x2 x3 x4 x5 x6 x7 x8 x9 x10 x11 x12 x13 x14 x15 x16 x17 x18 x19 (ix3 i j k)
      = (∑ q : Fin 128, val_main_v152 (F := Ideal) x0 x1 x2 x3 x4 x5 x6 x7 x8 x9 x10 x11 x12 x13 x14 x15 x16 x17 x18 x19 (ix3 i j q) * val_main_v154 (F := Ideal) x12 (ix2 k q))
          + val_main_v157 (F := Ideal) x13 (ix1 k) := by
  rw [val_main_v160_apply, val_main_v155_apply, val_main_v159_apply, val_main_v158_apply]
  have eL : ∀ q : Fin 128, lidx_main_v155 (ix3 i j k) q = ix3 i j q := fun q => funext fun a => by
    match a with
    | ⟨0, _⟩ => rfl
    | ⟨1, _⟩ => rfl
    | ⟨2, _⟩ => rfl
  have eR : ∀ q : Fin 128, ridx_main_v155 (ix3 i j k) q = ix2 k q := fun q => funext fun a => by
    match a with
    | ⟨0, _⟩ => rfl
    | ⟨1, _⟩ => rfl
  have eb : idx_main_v158 (idx_main_v159 (ix3 i j k)) = ix1 k := funext fun a => by
    match a with
    | ⟨0, _⟩ => rfl
  rw [eb]
  simp only [eL, eR, Ideal.addf_def]

/-- The mask broadcast along the feature axis is the off-diagonal mask of `(i, j)`. -/
theorem maskB_apply (i j : Fin 512) (k : Fin 128) :
    val_main_v161 (F := Ideal) (ix3 i j k) = Cert.MessageSum.offDiag i j := by
  rw [val_main_v161_apply]
  have e : idx_main_v161 (ix3 i j k) = ix3 i j (⟨0, Nat.one_pos⟩ : Fin 1) := funext fun a => by
    match a with
    | ⟨0, _⟩ => rfl
    | ⟨1, _⟩ => rfl
    | ⟨2, _⟩ => rfl
  rw [e, Cert.RefLayerCommon.mask_apply]

/-- The layer's aggregate is the shared message sum of the layer's own projections, distance, weights and
    biases; the weight slices enter transposed, as the contractions read them. -/
theorem total_eq (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i : Fin 512) (k : Fin 128) :
    val_main_v163 (F := Ideal) x0 x1 x2 x3 x4 x5 x6 x7 x8 x9 x10 x11 x12 x13 x14 x15 x16 x17 x18 x19 (ix2 i k)
      = Cert.MessageSum.total
          (fun i p => val_main_v124 (F := Ideal) x0 x1 x2 x3 x4 x5 x6 x7 x8 x9 x10 x11 x12 x13 x14 x15 x16 x17 x18 x19 (ix2 i p))
          (fun j p => val_main_v126 (F := Ideal) x0 x1 x2 x3 x4 x5 x6 x7 x8 x9 x10 x11 x12 x13 x14 x15 x16 x17 x18 x19 (ix2 j p))
          (fun i j => val_main_v36 (F := Ideal) x1 (ix2 i j))
          (fun p => val_main_v122 (F := Ideal) x8 (ix1 p))
          (fun p => val_main_v139 (F := Ideal) x9 (ix1 p))
          (fun q => val_main_v148 (F := Ideal) x11 (ix1 q))
          (fun k => val_main_v157 (F := Ideal) x13 (ix1 k))
          (fun p q => val_main_v145 (F := Ideal) x10 (ix2 q p))
          (fun q k => val_main_v154 (F := Ideal) x12 (ix2 k q))
          i k := by
  rw [val_main_v163_apply, val_main_cst_5_apply, Ideal.ofBits_def, Ideal.ofBits_zero_f32, zero_add]
  unfold Cert.MessageSum.total Cert.MessageSum.edge Cert.MessageSum.perceptron
  refine Finset.sum_congr rfl fun j _ => ?_
  have e : idx_main_v163 (ix2 i k) j = ix3 i j k := funext fun a => by
    match a with
    | ⟨0, _⟩ => rfl
    | ⟨1, _⟩ => rfl
    | ⟨2, _⟩ => rfl
  rw [e, val_main_v162_apply, Ideal.mulf_def, maskB_apply, m_apply]
  simp only [h2_apply, h1_apply]

end Cert.RefLayer1

end
-- ==== Proof.Layer1.lean ====
/-
  Layer 1: the launch returns the plain program's aggregate.

  The launch's nine operand arrays are stages of the plain program — the two projections, the distances, and the
  layer's weights re-laid (vectors as one-row tables, the hidden tables transposed). The output array after the launch
  is the message sum of those arrays; the plain program's aggregate stage is the same message sum of the same stages.
-/
import proofs.«170678_j11312943857830_2_alg».proof.Proof.Region1Sum
import proofs.«170678_j11312943857830_2_alg».proof.Proof.RefLayer1
import proofs.«170678_j11312943857830_2_alg».proof.Proof.OperandLayout
import Idealize.ShloMosaic.Lib.ValueIdx

noncomputable section

namespace Cert.KernelIdeal.Layer1

open Cert.KernelIdeal Cert.KernelIdeal.Gen Cert.MessageSum
open Idealize.ShloMosaic Idealize.ShloMosaic.TcCoe Idealize.SL.Sem Idealize.ShloMosaic.ValueIdx

variable (m : (ℓ : Loc nD τ sig) → Buf (Elt Ideal) ℓ) (ρ : Dev nD → PrngReg)

/-- The output array after launch 1 is the plain program's aggregate stage of this layer. -/
theorem aggregate_eq (c : Dev nD)
    (h0 : W13 m ρ c (Proc.devRef .tc main_v101) = Cert.ReferenceIdeal.ReadP.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h1 : W13 m ρ c (Proc.devRef .tc main_v103) = Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h2 : W13 m ρ c (Proc.devRef .tc main_v36) = Cert.ReferenceIdeal.ReadP.val_main_v36 (F := Ideal) (m ((c : Thread nD τ).loc main_arg1)))
    (h3 : W13 m ρ c (Proc.devRef .tc main_v116) = shapeCast S1x128 (Cert.ReferenceIdeal.ReadP.val_main_v122 (F := Ideal) (m ((c : Thread nD τ).loc main_arg8))) shapeCasts_S128_S1x128)
    (h4 : W13 m ρ c (Proc.devRef .tc main_v117) = shapeCast S1x128 (Cert.ReferenceIdeal.ReadP.val_main_v139 (F := Ideal) (m ((c : Thread nD τ).loc main_arg9))) shapeCasts_S128_S1x128)
    (h5 : W13 m ρ c (Proc.devRef .tc main_v106) = transpose S128x128 [1, 0] (Cert.ReferenceIdeal.ReadP.val_main_v145 (F := Ideal) (m ((c : Thread nD τ).loc main_arg10))) transposes_S128x128_S128x128_1_0)
    (h6 : W13 m ρ c (Proc.devRef .tc main_v118) = shapeCast S1x128 (Cert.ReferenceIdeal.ReadP.val_main_v148 (F := Ideal) (m ((c : Thread nD τ).loc main_arg11))) shapeCasts_S128_S1x128)
    (h7 : W13 m ρ c (Proc.devRef .tc main_v109) = transpose S128x128 [1, 0] (Cert.ReferenceIdeal.ReadP.val_main_v154 (F := Ideal) (m ((c : Thread nD τ).loc main_arg12))) transposes_S128x128_S128x128_1_0)
    (h8 : W13 m ρ c (Proc.devRef .tc main_v119) = shapeCast S1x128 (Cert.ReferenceIdeal.ReadP.val_main_v157 (F := Ideal) (m ((c : Thread nD τ).loc main_arg13))) shapeCasts_S128_S1x128) :
    W14 m ρ c (Proc.devRef .tc main_v120) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W14_arr m ρ c 9).trans ?_
  rw [Region1.final (V13 m ρ) c]
  funext i
  obtain ⟨a, k, rfl⟩ : ∃ (a : Fin 512) (k : Fin 128), i = (ix2 a k : S512x128.Idx) := ⟨i 0, i 1, eq_ix2 i⟩
  refine Eq.trans ?_ (Cert.RefLayer1.total_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) a k).symm
  unfold Region1.aggregate
  have e0 : Region1.recv (V13 m ρ) c = fun i p => Cert.ReferenceIdeal.ReadP.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 i p) := funext fun i => funext fun p => congrFun h0 (ix2 i p)
  have e1 : Region1.send (V13 m ρ) c = fun i p => Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 i p) := funext fun i => funext fun p => congrFun h1 (ix2 i p)
  have e2 : Region1.dist (V13 m ρ) c = fun i j => Cert.ReferenceIdeal.ReadP.val_main_v36 (F := Ideal) (m ((c : Thread nD τ).loc main_arg1)) (ix2 i j) := funext fun i => funext fun j => congrFun h2 (ix2 i j)
  have e3 : Region1.row3 (V13 m ρ) c = fun p => Cert.ReferenceIdeal.ReadP.val_main_v122 (F := Ideal) (m ((c : Thread nD τ).loc main_arg8)) (ix1 p) := funext fun p => (congrFun h3 (ix2 (0 : Fin 1) p)).trans (OperandLayout.row_read _ _ p)
  have e4 : Region1.row4 (V13 m ρ) c = fun p => Cert.ReferenceIdeal.ReadP.val_main_v139 (F := Ideal) (m ((c : Thread nD τ).loc main_arg9)) (ix1 p) := funext fun p => (congrFun h4 (ix2 (0 : Fin 1) p)).trans (OperandLayout.row_read _ _ p)
  have e6 : Region1.row6 (V13 m ρ) c = fun p => Cert.ReferenceIdeal.ReadP.val_main_v148 (F := Ideal) (m ((c : Thread nD τ).loc main_arg11)) (ix1 p) := funext fun p => (congrFun h6 (ix2 (0 : Fin 1) p)).trans (OperandLayout.row_read _ _ p)
  have e8 : Region1.row8 (V13 m ρ) c = fun p => Cert.ReferenceIdeal.ReadP.val_main_v157 (F := Ideal) (m ((c : Thread nD τ).loc main_arg13)) (ix1 p) := funext fun p => (congrFun h8 (ix2 (0 : Fin 1) p)).trans (OperandLayout.row_read _ _ p)
  have e5 : Region1.tab5 (V13 m ρ) c = fun p q => Cert.ReferenceIdeal.ReadP.val_main_v145 (F := Ideal) (m ((c : Thread nD τ).loc main_arg10)) (ix2 q p) := funext fun p => funext fun q => (congrFun h5 (ix2 p q)).trans (OperandLayout.table_read _ _ p q)
  have e7 : Region1.tab7 (V13 m ρ) c = fun p q => Cert.ReferenceIdeal.ReadP.val_main_v154 (F := Ideal) (m ((c : Thread nD τ).loc main_arg12)) (ix2 q p) := funext fun p => funext fun q => (congrFun h7 (ix2 p q)).trans (OperandLayout.table_read _ _ p q)
  rw [e0, e1, e2, e3, e4, e6, e8, e5, e7]

end Cert.KernelIdeal.Layer1

end
-- ==== Proof.Region2Cases.lean ====
/-
  What one grid point of the message kernel leaves in its output block, as a value.

  The body stores once per point (twice at the first sender block of a receiver block, where it first stores the
  zero block): the last store's value is the body's arithmetic applied to the blocks it loaded, with the output
  block's previous contents — the zero block just stored, or what the point before left — as the accumulator.
-/
import proofs.«170678_j11312943857830_2_alg».proof.Proof.Gen.KernelIdeal.Frame
import Idealize.ShloMosaic.Lib.Pipeline.Value
import Idealize.ShloMosaic.Lib.Tactic

noncomputable section

namespace Cert.KernelIdeal.Region2

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A later sender block: the body adds this block's partial sums to what the point before left. -/
theorem out_later (c : Dev nD) (i : grid2.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : ¬cond2_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) (xo : Vec F S64x128 .f32) :
    out2_B_9 c i arg2 harg2 arg3 harg3 arg4 harg4 arg5 harg5 arg6 harg6 arg7 harg7 arg8 harg8 arg9 harg9 arg10 harg10 arg11 harg11 hc x0 x1 x2 x3 x4 x5 x6 x7 x8 xo
      = k2_pay1 (BitVec.ofNat 32 (i 0).val) (BitVec.ofNat 32 (i 1).val) (k2_pay3 x0 x1 x2 x3 x4 x5) (k2_pay4 x6) x7 x8 xo := by
  unfold out2_B_9
  rw [View.read_writes_eq_canon _ _ _ (cover2_B_9 c i arg2 harg2 arg3 harg3 arg4 harg4 arg5 harg5 arg6 harg6 arg7 harg7 arg8 harg8 arg9 harg9 arg10 harg10 arg11 harg11 hc x0 x1 x2 x3 x4 x5 x6 x7 x8 xo)]
  unfold kernelRun2_B
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

/-- The first sender block: the body stores the zero block, reads it back and adds this block's partial sums. -/
theorem out_first (c : Dev nD) (i : grid2.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S64x128 .f32) (harg11 : arg11.IsWhole) (hc : cond2_0 i)
    (x0 : Vec F S64x128 .f32) (x1 : Vec F S128x128 .f32) (x2 : Vec F S64x128 .f32) (x3 : Vec F S1x128 .f32) (x4 : Vec F S1x128 .f32) (x5 : Vec F S128x128 .f32) (x6 : Vec F S1x128 .f32) (x7 : Vec F S128x128 .f32) (x8 : Vec F S1x128 .f32) :
    out2_A_9 c i arg2 harg2 arg3 harg3 arg4 harg4 arg5 harg5 arg6 harg6 arg7 harg7 arg8 harg8 arg9 harg9 arg10 harg10 arg11 harg11 hc x0 x1 x2 x3 x4 x5 x6 x7 x8
      = k2_pay1 (BitVec.ofNat 32 (i 0).val) (BitVec.ofNat 32 (i 1).val) (k2_pay3 x0 x1 x2 x3 x4 x5) (k2_pay4 x6) x7 x8 (k2_pay2 (F := F)) := by
  unfold out2_A_9
  rw [View.read_writes_eq_canon _ _ _ (cover2_A_9 c i arg2 harg2 arg3 harg3 arg4 harg4 arg5 harg5 arg6 harg6 arg7 harg7 arg8 harg8 arg9 harg9 arg10 harg10 arg11 harg11 hc x0 x1 x2 x3 x4 x5 x6 x7 x8)]
  unfold kernelRun2_A
  dsimp only
  rw [View.canon_cons_unit_zero (S := S64x128) hz]
  sl_unfold_words
  rw [View.readCov_unit_zero (S := S64x128) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x128) hz, View.ld_unit_zero (S := S128x128) hz, View.ld_unit_zero (S := S1x128) hz]

end Cert.KernelIdeal.Region2

end
-- ==== Proof.Region2Blocks.lean ====
/-
  The blocks the message kernel loads at a grid point, as entries of the arrays the launch finds.

  The grid is 8 receiver blocks by 4 sender blocks, walked row by row: point `t` is receiver block `t / 4` and
  sender block `t % 4`. The receiver projection's block is rows `64 (t / 4) …`, the sender projection's block rows
  `128 (t % 4) …`, the distance block the corresponding 64 × 128 tile; the weights and biases are whole arrays at
  every point.
-/
import proofs.«170678_j11312943857830_2_alg».proof.Proof.Gen.KernelIdeal.Frame
import proofs.«170678_j11312943857830_2_alg».proof.Proof.BlockCoords
import Idealize.ShloMosaic.Lib.Pipeline.Value
import Idealize.ShloMosaic.Lib.ValueIdx

noncomputable section

namespace Cert.KernelIdeal.Region2

open Cert.KernelIdeal Cert.KernelIdeal.Gen Cert.BlockCoords
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed block-index maps and grid coordinates in closed form, decided once over the 32 points. -/
theorem point_facts : ∀ t : Fin cfg2.N,
    (win2_0.index t (0 : Fin 2) = t.val / 4 ∧ win2_0.index t (1 : Fin 2) = 0)
    ∧ (win2_1.index t (0 : Fin 2) = t.val % 4 ∧ win2_1.index t (1 : Fin 2) = 0)
    ∧ (win2_2.index t (0 : Fin 2) = t.val / 4 ∧ win2_2.index t (1 : Fin 2) = t.val % 4)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val / 4 ∧ win2_9.index t (1 : Fin 2) = 0)
    ∧ ((grid2.coords t 0).val = t.val / 4 ∧ (grid2.coords t 1).val = t.val % 4) :=
  (by decide +kernel : ∀ t : Fin grid2.N, _)

/-- The receiver projection's block: rows `64 (t / 4) + r`. -/
theorem read_recv (c : Dev nD) (t : Fin cfg2.N) (r : Fin 64) (p : Fin 128) :
    iblk2 V c 0 t (ix2 r p) = (V c (Pipeline.arrRef spec2 0) : S512x128.Idx → Elt F .f32) (ix2 (rowAt (t.val / 4) r) p) := by
  obtain ⟨⟨e0, e1⟩, -⟩ := point_facts t
  have hN : cfg2.N = 32 := N_2
  have ht := t.isLt
  have hr := r.isLt
  unfold iblk2
  rw [View.read_apply]
  refine congrArg (V c (Pipeline.arrRef spec2 0) : S512x128.Idx → Elt F .f32) (funext fun a => Fin.ext ?_)
  match a with
  | ⟨0, _⟩ => show win2_0.index t (0 : Fin 2) * 64 + 1 * r.val = (64 * (t.val / 4) + r.val) % 512; rw [e0]; omega
  | ⟨1, _⟩ => show win2_0.index t (1 : Fin 2) * 128 + 1 * p.val = p.val; rw [e1]; omega

/-- The sender projection's block: rows `128 (t % 4) + s`. -/
theorem read_send (c : Dev nD) (t : Fin cfg2.N) (s : Fin 128) (p : Fin 128) :
    iblk2 V c 1 t (ix2 s p) = (V c (Pipeline.arrRef spec2 1) : S512x128.Idx → Elt F .f32) (ix2 (colAt (t.val % 4) s) p) := by
  obtain ⟨-, ⟨e0, e1⟩, -⟩ := point_facts t
  have hs := s.isLt
  unfold iblk2
  rw [View.read_apply]
  refine congrArg (V c (Pipeline.arrRef spec2 1) : S512x128.Idx → Elt F .f32) (funext fun a => Fin.ext ?_)
  match a with
  | ⟨0, _⟩ => show win2_1.index t (0 : Fin 2) * 128 + 1 * s.val = (128 * (t.val % 4) + s.val) % 512; rw [e0]; omega
  | ⟨1, _⟩ => show win2_1.index t (1 : Fin 2) * 128 + 1 * p.val = p.val; rw [e1]; omega

/-- The distance tile: receiver rows `64 (t / 4) + r`, sender columns `128 (t % 4) + s`. -/
theorem read_dist (c : Dev nD) (t : Fin cfg2.N) (r : Fin 64) (s : Fin 128) :
    iblk2 V c 2 t (ix2 r s)
      = (V c (Pipeline.arrRef spec2 2) : S512x512.Idx → Elt F .f32) (ix2 (rowAt (t.val / 4) r) (colAt (t.val % 4) s)) := by
  obtain ⟨-, -, ⟨e0, e1⟩, -⟩ := point_facts t
  have hN : cfg2.N = 32 := N_2
  have ht := t.isLt
  have hr := r.isLt
  have hs := s.isLt
  unfold iblk2
  rw [View.read_apply]
  refine congrArg (V c (Pipeline.arrRef spec2 2) : S512x512.Idx → Elt F .f32) (funext fun a => Fin.ext ?_)
  match a with
  | ⟨0, _⟩ => show win2_2.index t (0 : Fin 2) * 64 + 1 * r.val = (64 * (t.val / 4) + r.val) % 512; rw [e0]; omega
  | ⟨1, _⟩ => show win2_2.index t (1 : Fin 2) * 128 + 1 * s.val = (128 * (t.val % 4) + s.val) % 512; rw [e1]; omega

/-- Operand 3 is one row of 128 entries, whole at every point. -/
theorem read_row3 (c : Dev nD) (t : Fin cfg2.N) (p : Fin 128) :
    iblk2 V c 3 t (ix2 (0 : Fin 1) p) = (V c (Pipeline.arrRef spec2 3) : S1x128.Idx → Elt F .f32) (ix2 (0 : Fin 1) p) := by
  obtain ⟨-, -, -, ⟨e0, e1⟩, -⟩ := point_facts t
  unfold iblk2
  rw [View.read_apply]
  refine congrArg (V c (Pipeline.arrRef spec2 3) : S1x128.Idx → Elt F .f32) (funext fun a => Fin.ext ?_)
  match a with
  | ⟨0, _⟩ => show win2_3.index t (0 : Fin 2) * 1 + 1 * 0 = 0; rw [e0]
  | ⟨1, _⟩ => show win2_3.index t (1 : Fin 2) * 128 + 1 * p.val = p.val; rw [e1]; omega

/-- Operand 4 is one row of 128 entries, whole at every point. -/
theorem read_row4 (c : Dev nD) (t : Fin cfg2.N) (p : Fin 128) :
    iblk2 V c 4 t (ix2 (0 : Fin 1) p) = (V c (Pipeline.arrRef spec2 4) : S1x128.Idx → Elt F .f32) (ix2 (0 : Fin 1) p) := by
  obtain ⟨-, -, -, -, ⟨e0, e1⟩, -⟩ := point_facts t
  unfold iblk2
  rw [View.read_apply]
  refine congrArg (V c (Pipeline.arrRef spec2 4) : S1x128.Idx → Elt F .f32) (funext fun a => Fin.ext ?_)
  match a with
  | ⟨0, _⟩ => show win2_4.index t (0 : Fin 2) * 1 + 1 * 0 = 0; rw [e0]
  | ⟨1, _⟩ => show win2_4.index t (1 : Fin 2) * 128 + 1 * p.val = p.val; rw [e1]; omega

/-- Operand 6 is one row of 128 entries, whole at every point. -/
theorem read_row6 (c : Dev nD) (t : Fin cfg2.N) (p : Fin 128) :
    iblk2 V c 6 t (ix2 (0 : Fin 1) p) = (V c (Pipeline.arrRef spec2 6) : S1x128.Idx → Elt F .f32) (ix2 (0 : Fin 1) p) := by
  obtain ⟨-, -, -, -, -, -, ⟨e0, e1⟩, -⟩ := point_facts t
  unfold iblk2
  rw [View.read_apply]
  refine congrArg (V c (Pipeline.arrRef spec2 6) : S1x128.Idx → Elt F .f32) (funext fun a => Fin.ext ?_)
  match a with
  | ⟨0, _⟩ => show win2_6.index t (0 : Fin 2) * 1 + 1 * 0 = 0; rw [e0]
  | ⟨1, _⟩ => show win2_6.index t (1 : Fin 2) * 128 + 1 * p.val = p.val; rw [e1]; omega

/-- Operand 8 is one row of 128 entries, whole at every point. -/
theorem read_row8 (c : Dev nD) (t : Fin cfg2.N) (p : Fin 128) :
    iblk2 V c 8 t (ix2 (0 : Fin 1) p) = (V c (Pipeline.arrRef spec2 8) : S1x128.Idx → Elt F .f32) (ix2 (0 : Fin 1) p) := by
  obtain ⟨-, -, -, -, -, -, -, -, ⟨e0, e1⟩, -⟩ := point_facts t
  unfold iblk2
  rw [View.read_apply]
  refine congrArg (V c (Pipeline.arrRef spec2 8) : S1x128.Idx → Elt F .f32) (funext fun a => Fin.ext ?_)
  match a with
  | ⟨0, _⟩ => show win2_8.index t (0 : Fin 2) * 1 + 1 * 0 = 0; rw [e0]
  | ⟨1, _⟩ => show win2_8.index t (1 : Fin 2) * 128 + 1 * p.val = p.val; rw [e1]; omega

/-- Operand 5 is a 128 × 128 weight table, whole at every point. -/
theorem read_table5 (c : Dev nD) (t : Fin cfg2.N) (p q : Fin 128) :
    iblk2 V c 5 t (ix2 p q) = (V c (Pipeline.arrRef spec2 5) : S128x128.Idx → Elt F .f32) (ix2 p q) := by
  obtain ⟨-, -, -, -, -, ⟨e0, e1⟩, -⟩ := point_facts t
  unfold iblk2
  rw [View.read_apply]
  refine congrArg (V c (Pipeline.arrRef spec2 5) : S128x128.Idx → Elt F .f32) (funext fun a => Fin.ext ?_)
  match a with
  | ⟨0, _⟩ => show win2_5.index t (0 : Fin 2) * 128 + 1 * p.val = p.val; rw [e0]; omega
  | ⟨1, _⟩ => show win2_5.index t (1 : Fin 2) * 128 + 1 * q.val = q.val; rw [e1]; omega

/-- Operand 7 is a 128 × 128 weight table, whole at every point. -/
theorem read_table7 (c : Dev nD) (t : Fin cfg2.N) (p q : Fin 128) :
    iblk2 V c 7 t (ix2 p q) = (V c (Pipeline.arrRef spec2 7) : S128x128.Idx → Elt F .f32) (ix2 p q) := by
  obtain ⟨-, -, -, -, -, -, -, ⟨e0, e1⟩, -⟩ := point_facts t
  unfold iblk2
  rw [View.read_apply]
  refine congrArg (V c (Pipeline.arrRef spec2 7) : S128x128.Idx → Elt F .f32) (funext fun a => Fin.ext ?_)
  match a with
  | ⟨0, _⟩ => show win2_7.index t (0 : Fin 2) * 128 + 1 * p.val = p.val; rw [e0]; omega
  | ⟨1, _⟩ => show win2_7.index t (1 : Fin 2) * 128 + 1 * q.val = q.val; rw [e1]; omega

end Cert.KernelIdeal.Region2

end
-- ==== Proof.Payload2.lean ====
/-
  The message kernel's tile payload read at an index, for the third of the kernel's three calls.

  With the grid coordinates (bi, bj), the value the body stores to the output block at (r, k) is the block's previous
  value plus, summed over the tile's 128 senders j, the edge perceptron
      (∑ q, relu (∑ p, relu (A r p + B j p + D r j · wd p + b1 p) · W2T p q + b2 q) · W3T q k) + b3 k
  times the mask that is 0 where the global receiver number 64 bi + r equals the global sender number 128 bj + j and
  1 elsewhere (`block_sum`); and the block the first sender tile starts from is zero (`zero_block`). At the ideal
  values the narrowing of the products' operands is the identity, a product into a zero accumulator is the plain
  sum over the contracted feature, and the reduction over the sender axis is the sum over j; the rest is reading
  each reshaping and broadcast at its index.
-/
import proofs.«170678_j11312943857830_2_alg».proof.Proof.Gen.KernelIdeal.Skeleton
import proofs.«170678_j11312943857830_2_alg».proof.Proof.MessageSum
import proofs.«170678_j11312943857830_2_alg».proof.Proof.PayloadCommon
import Idealize.ShloMosaic.Lib.ValueLayout
import Idealize.ShloMosaic.PureOps.Ideal.Laws

noncomputable section

open scoped BigOperators

namespace Cert.KernelIdeal.Payload2

open Idealize.ShloMosaic Idealize.ShloMosaic.ValueIdx Cert.KernelIdeal Cert.KernelIdeal.Gen Cert.KernelIdeal.PayloadCommon

/-- The bias of the second layer, copied to every pair: row `row` of the [8192, 128] matrix at feature q is b2 q. -/
theorem pay4_apply (x6 : Vec Ideal S1x128 .f32) (row : Fin 8192) (q : Fin 128) :
    Gen.k2_pay4 (F := Ideal) x6 (ix2 row q) = x6 (ix2 (0 : Fin 1) q) := by
  unfold Gen.k2_pay4
  refine (broadcastTo_1b_ab_apply _ _ row q).trans ?_
  refine (shapeCast_a_1a_apply _ _ (0 : Fin 1) q).trans ?_
  exact shapeCast_1a_a_apply _ _ q

/-- The first layer and the first product: at the row of the pair (r, j) and feature q, the sum over p of
    relu (A r p + B j p + D r j · wd p + b1 p) · W2T p q. -/
theorem pay3_apply (x0 : Vec Ideal S64x128 .f32) (x1 : Vec Ideal S128x128 .f32) (x2 : Vec Ideal S64x128 .f32)
    (x3 x4 : Vec Ideal S1x128 .f32) (x5 : Vec Ideal S128x128 .f32) (r : Fin 64) (j q : Fin 128) (row : Fin 8192)
    (hrow : row.val = r.val * 128 + j.val) :
    Gen.k2_pay3 (F := Ideal) x0 x1 x2 x3 x4 x5 (ix2 row q)
      = ∑ p : Fin 128, max (x0 (ix2 r p) + x1 (ix2 j p) + x2 (ix2 r j) * x3 (ix2 (0 : Fin 1) p) + x4 (ix2 (0 : Fin 1) p)) 0
          * x5 (ix2 p q) := by
  unfold Gen.k2_pay3
  refine (matmul_row_apply _ _ row q).trans (Finset.sum_congr rfl fun p _ => ?_)
  refine congrArg₂ (· * ·) ((truncf_bf16_apply _ _ _).trans ?_) ((truncf_bf16_apply _ _ _).trans (congrFun (shapeCast_self x5 _) _))
  refine (cast_abc_mc _ _ r j p row hrow).trans ?_
  refine (maximumf_apply _ _ _).trans (congrArg₂ max ?_ Ideal.ofBits_zero_f32)
  refine (addf_apply _ _ _).trans (congrArg₂ (· + ·) ((addf_apply _ _ _).trans (congrArg₂ (· + ·) ((addf_apply _ _ _).trans (congrArg₂ (· + ·) ?_ ?_)) ((mulf_apply _ _ _).trans (congrArg₂ (· * ·) ?_ ?_)))) ?_)
  · exact (bc_64x1x128 _ _ r j p).trans ((cast_ab_a1b _ _ r (0 : Fin 1) p).trans (congrFun (shapeCast_self x0 _) _))
  · exact (bc_1x128x128 _ _ r j p).trans ((shapeCast_ab_1ab_apply _ _ (0 : Fin 1) j p).trans (congrFun (shapeCast_self x1 _) _))
  · exact (bc_64x128x1 _ _ r j p).trans ((cast_ab_ab1 _ _ r j (0 : Fin 1)).trans (congrFun (shapeCast_self x2 _) _))
  · exact (bc_1x1x128 _ _ r j p).trans ((cast_a_11a _ _ (0 : Fin 1) (0 : Fin 1) p).trans (shapeCast_1a_a_apply _ _ p))
  · exact (bc_1x1x128 _ _ r j p).trans ((cast_a_11a _ _ (0 : Fin 1) (0 : Fin 1) p).trans (shapeCast_1a_a_apply _ _ p))

/-- The second layer, the read-out, the mask, the sum over the senders and the accumulation, over any values
    `v36`, `v38` of the first product and the second bias: at (r, k) the block's previous value plus the sum over the
    senders j of (∑ q, relu (v36 (row r j) q + v38 (row r j) q) · W3T q k + b3 k) times the mask at (r, j). -/
theorem pay1_apply (bi bj : ℕ) (hbi : bi < 8) (hbj : bj < 4) (v36 v38 : FVec Ideal S8192x128 .f32)
    (x7 : Vec Ideal S128x128 .f32) (x8 : Vec Ideal S1x128 .f32) (xo : Vec Ideal S64x128 .f32) (r : Fin 64) (k : Fin 128) :
    Gen.k2_pay1 (F := Ideal) (BitVec.ofNat 32 bi) (BitVec.ofNat 32 bj) v36 v38 x7 x8 xo (ix2 r k)
      = xo (ix2 r k) + ∑ j : Fin 128,
          ((∑ q : Fin 128, max (v36 (ix2 (pairRow r j) q) + v38 (ix2 (pairRow r j) q)) 0 * x7 (ix2 q k))
              + x8 (ix2 (0 : Fin 1) k))
            * (if 64 * bi + r.val = 128 * bj + j.val then (0 : EReal) else 1) := by
  unfold Gen.k2_pay1
  refine (addf_apply _ _ _).trans (congrArg₂ (· + ·) (congrFun (shapeCast_self xo _) _) ?_)
  refine (reduce_senders_apply _ _ _ _ r k).trans (Finset.sum_congr rfl fun j _ => ?_)
  refine (mulf_apply _ _ _).trans (congrArg₂ (· * ·) ?_ ?_)
  · refine (cast_mc_abc _ _ r j k (pairRow r j) (pairRow_val r j)).trans ?_
    refine (addf_apply _ _ _).trans (congrArg₂ (· + ·) ?_ ?_)
    · refine (matmul_row_apply _ _ (pairRow r j) k).trans (Finset.sum_congr rfl fun q _ => ?_)
      refine congrArg₂ (· * ·) ((truncf_bf16_apply _ _ _).trans ?_) ((truncf_bf16_apply _ _ _).trans (congrFun (shapeCast_self x7 _) _))
      exact (maximumf_apply _ _ _).trans (congrArg₂ max (addf_apply _ _ _) Ideal.ofBits_zero_f32)
    · exact (broadcastTo_1b_ab_apply _ _ (pairRow r j) k).trans
        ((shapeCast_a_1a_apply _ _ (0 : Fin 1) k).trans (shapeCast_1a_a_apply _ _ k))
  · exact (bc_64x128x1 _ _ r j k).trans ((cast_ab_ab1 _ _ r j (0 : Fin 1)).trans (mask_apply bi bj hbi hbj _ _ _ r j))

/-- THE TILE'S CONTRIBUTION. With the grid coordinates (bi, bj), the payload stored to the output block at (r, k) is the
    block's previous value plus the sum over the tile's 128 senders of the edge perceptron of receiver row r and
    sender row j, times the off-diagonal mask of the global receiver number 64 bi + r and sender number 128 bj + j. -/
theorem block_sum (bi bj : ℕ) (hbi : bi < 8) (hbj : bj < 4)
    (x0 : Vec Ideal S64x128 .f32) (x1 : Vec Ideal S128x128 .f32) (x2 : Vec Ideal S64x128 .f32) (x3 x4 : Vec Ideal S1x128 .f32)
    (x5 : Vec Ideal S128x128 .f32) (x6 : Vec Ideal S1x128 .f32) (x7 : Vec Ideal S128x128 .f32) (x8 : Vec Ideal S1x128 .f32)
    (xo : Vec Ideal S64x128 .f32) (r : Fin 64) (k : Fin 128) :
    Gen.k2_pay1 (F := Ideal) (BitVec.ofNat 32 bi) (BitVec.ofNat 32 bj) (Gen.k2_pay3 (F := Ideal) x0 x1 x2 x3 x4 x5)
        (Gen.k2_pay4 (F := Ideal) x6) x7 x8 xo (ValueIdx.ix2 r k)
      = xo (ValueIdx.ix2 r k)
        + ∑ jj : Fin 128, Cert.MessageSum.perceptron
            (fun p => x0 (ValueIdx.ix2 r p)) (fun p => x1 (ValueIdx.ix2 jj p)) (x2 (ValueIdx.ix2 r jj))
            (fun p => x3 (ValueIdx.ix2 (0 : Fin 1) p)) (fun p => x4 (ValueIdx.ix2 (0 : Fin 1) p))
            (fun q => x6 (ValueIdx.ix2 (0 : Fin 1) q)) (fun k' => x8 (ValueIdx.ix2 (0 : Fin 1) k'))
            (fun p q => x5 (ValueIdx.ix2 p q)) (fun q k' => x7 (ValueIdx.ix2 q k')) k
          * (if 64 * bi + r.val = 128 * bj + jj.val then (0 : EReal) else 1) := by
  rw [pay1_apply bi bj hbi hbj]
  refine congrArg (xo (ix2 r k) + ·) (Finset.sum_congr rfl fun jj _ => ?_)
  refine congrArg (· * (if 64 * bi + r.val = 128 * bj + jj.val then (0 : EReal) else 1)) ?_
  show _ = (∑ q : Fin 128, max ((∑ p : Fin 128, max (x0 (ix2 r p) + x1 (ix2 jj p) + x2 (ix2 r jj) * x3 (ix2 (0 : Fin 1) p)
      + x4 (ix2 (0 : Fin 1) p)) 0 * x5 (ix2 p q)) + x6 (ix2 (0 : Fin 1) q)) 0 * x7 (ix2 q k)) + x8 (ix2 (0 : Fin 1) k)
  refine congrArg (· + x8 (ix2 (0 : Fin 1) k)) (Finset.sum_congr rfl fun q _ => ?_)
  rw [pay3_apply x0 x1 x2 x3 x4 x5 r jj q (pairRow r jj) (pairRow_val r jj), pay4_apply]

/-- The block the first sender tile starts from: zero everywhere. -/
theorem zero_block (r : Fin 64) (k : Fin 128) : Gen.k2_pay2 (F := Ideal) (ValueIdx.ix2 r k) = 0 := by
  unfold Gen.k2_pay2
  exact Ideal.ofBits_zero_f32

end Cert.KernelIdeal.Payload2

end
-- ==== Proof.Region2Sum.lean ====
/-
  What a launch of the message kernel leaves in its output array: the layer's aggregate.

  At grid point `t` (receiver block `t / 4`, sender block `t % 4`) the body adds to entry `(r, k)` of the output
  block the sum, over the 128 senders of the block, of the masked edge messages. The block is zeroed at the first
  sender block, carried from point to point across the four sender blocks, and written back after the fourth. So the
  array ends, at receiver `64 bi + r`, with `((0 + S₀) + S₁) + S₂) + S₃` of the four per-block sums — the sum over
  all 512 senders, cut into four consecutive blocks of 128.
-/
import proofs.«170678_j11312943857830_2_alg».proof.Proof.Region2Cases
import proofs.«170678_j11312943857830_2_alg».proof.Proof.Region2Blocks
import proofs.«170678_j11312943857830_2_alg».proof.Proof.Payload2
import proofs.«170678_j11312943857830_2_alg».proof.Proof.MessageSum
import proofs.«170678_j11312943857830_2_alg».proof.Proof.LibBlockSum
import Idealize.ShloMosaic.Lib.Pipeline.Value

noncomputable section

namespace Cert.KernelIdeal.Region2

open Cert.KernelIdeal Cert.KernelIdeal.Gen Cert.BlockCoords Cert.MessageSum
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The launch's arrays as curried functions -/

abbrev recv (c : Dev nD) : Fin 512 → Fin 128 → EReal := fun i p => (V c (Pipeline.arrRef spec2 0) : S512x128.Idx → Elt Ideal .f32) (ix2 i p)
abbrev send (c : Dev nD) : Fin 512 → Fin 128 → EReal := fun j p => (V c (Pipeline.arrRef spec2 1) : S512x128.Idx → Elt Ideal .f32) (ix2 j p)
abbrev dist (c : Dev nD) : Fin 512 → Fin 512 → EReal := fun i j => (V c (Pipeline.arrRef spec2 2) : S512x512.Idx → Elt Ideal .f32) (ix2 i j)
abbrev row3 (c : Dev nD) : Fin 128 → EReal := fun p => (V c (Pipeline.arrRef spec2 3) : S1x128.Idx → Elt Ideal .f32) (ix2 (0 : Fin 1) p)
abbrev row4 (c : Dev nD) : Fin 128 → EReal := fun p => (V c (Pipeline.arrRef spec2 4) : S1x128.Idx → Elt Ideal .f32) (ix2 (0 : Fin 1) p)
abbrev tab5 (c : Dev nD) : Fin 128 → Fin 128 → EReal := fun p q => (V c (Pipeline.arrRef spec2 5) : S128x128.Idx → Elt Ideal .f32) (ix2 p q)
abbrev row6 (c : Dev nD) : Fin 128 → EReal := fun p => (V c (Pipeline.arrRef spec2 6) : S1x128.Idx → Elt Ideal .f32) (ix2 (0 : Fin 1) p)
abbrev tab7 (c : Dev nD) : Fin 128 → Fin 128 → EReal := fun p q => (V c (Pipeline.arrRef spec2 7) : S128x128.Idx → Elt Ideal .f32) (ix2 p q)
abbrev row8 (c : Dev nD) : Fin 128 → EReal := fun p => (V c (Pipeline.arrRef spec2 8) : S1x128.Idx → Elt Ideal .f32) (ix2 (0 : Fin 1) p)

/-- The masked edge message between receiver `i` and sender `j`, of the arrays the launch finds. -/
abbrev msg (c : Dev nD) (i j : Fin 512) (k : Fin 128) : EReal :=
  edge (recv V c) (send V c) (dist V c) (row3 V c) (row4 V c) (row6 V c) (row8 V c) (tab5 V c) (tab7 V c) i j k

/-- The layer's aggregate of the arrays the launch finds, as contents of the output array. -/
def aggregate (c : Dev nD) : S512x128.Idx → EReal := fun i =>
  total (recv V c) (send V c) (dist V c) (row3 V c) (row4 V c) (row6 V c) (row8 V c) (tab5 V c) (tab7 V c)
    ⟨(i 0).val, (i 0).isLt⟩ ⟨(i 1).val, (i 1).isLt⟩

/-- The aggregate at an index whose coordinates are `a` and `k`. -/
theorem aggregate_apply (c : Dev nD) (i : S512x128.Idx) (a : Fin 512) (k : Fin 128) (ha : (i 0).val = a.val) (hk : (i 1).val = k.val) :
    aggregate V c i = ∑ j : Fin 512, msg V c a j k := by
  have e1 : (⟨(i 0).val, (i 0).isLt⟩ : Fin 512) = a := Fin.ext ha
  have e2 : (⟨(i 1).val, (i 1).isLt⟩ : Fin 128) = k := Fin.ext hk
  show total (recv V c) (send V c) (dist V c) (row3 V c) (row4 V c) (row6 V c) (row8 V c) (tab5 V c) (tab7 V c)
    ⟨(i 0).val, (i 0).isLt⟩ ⟨(i 1).val, (i 1).isLt⟩ = _
  rw [e1, e2]
  rfl

/-- What one grid point adds at entry `(r, k)` of its output block: the messages of sender block `bj` to receiver
    `64 bi + r`. -/
def addend (c : Dev nD) (bi bj : ℕ) (r : Fin 64) (k : Fin 128) : EReal :=
  ∑ s : Fin 128, msg V c (rowAt bi r) (colAt bj s) k

/-! ## One grid point -/

/-- The body's sum at a point, in terms of the arrays: the loaded blocks are the arrays' tiles, and the mask computed
    from the grid position is the off-diagonal mask of the plane. -/
theorem block_sum_eq (c : Dev nD) (t : Fin cfg2.N) (r : Fin 64) (k : Fin 128) (xo : EReal) :
    xo + ∑ s : Fin 128, perceptron
        (fun p => iblk2 V c 0 t (ix2 r p)) (fun p => iblk2 V c 1 t (ix2 s p)) (iblk2 V c 2 t (ix2 r s))
        (fun p => iblk2 V c 3 t (ix2 (0 : Fin 1) p)) (fun p => iblk2 V c 4 t (ix2 (0 : Fin 1) p))
        (fun q => iblk2 V c 6 t (ix2 (0 : Fin 1) q)) (fun k' => iblk2 V c 8 t (ix2 (0 : Fin 1) k'))
        (fun p q => iblk2 V c 5 t (ix2 p q)) (fun q k' => iblk2 V c 7 t (ix2 q k')) k
        * (if 64 * (grid2.coords t 0).val + r.val = 128 * (grid2.coords t 1).val + s.val then (0 : EReal) else 1)
      = xo + addend V c (t.val / 4) (t.val % 4) r k := by
  obtain ⟨-, -, -, -, -, -, -, -, -, -, ⟨g0, g1⟩⟩ := point_facts t
  have hN : cfg2.N = 32 := N_2
  have ht := t.isLt
  unfold addend
  refine congrArg (xo + ·) (Finset.sum_congr rfl fun s _ => ?_)
  have e0 : (fun p => iblk2 V c 0 t (ix2 r p)) = recv V c (rowAt (t.val / 4) r) := funext fun p => read_recv V c t r p
  have e1 : (fun p => iblk2 V c 1 t (ix2 s p)) = send V c (colAt (t.val % 4) s) := funext fun p => read_send V c t s p
  have e2 : iblk2 V c 2 t (ix2 r s) = dist V c (rowAt (t.val / 4) r) (colAt (t.val % 4) s) := read_dist V c t r s
  have e3 : (fun p => iblk2 V c 3 t (ix2 (0 : Fin 1) p)) = row3 V c := funext fun p => read_row3 V c t p
  have e4 : (fun p => iblk2 V c 4 t (ix2 (0 : Fin 1) p)) = row4 V c := funext fun p => read_row4 V c t p
  have e6 : (fun q => iblk2 V c 6 t (ix2 (0 : Fin 1) q)) = row6 V c := funext fun p => read_row6 V c t p
  have e8 : (fun k' => iblk2 V c 8 t (ix2 (0 : Fin 1) k')) = row8 V c := funext fun p => read_row8 V c t p
  have e5 : (fun p q => iblk2 V c 5 t (ix2 p q)) = tab5 V c := funext fun p => funext fun q => read_table5 V c t p q
  have e7 : (fun q k' => iblk2 V c 7 t (ix2 q k')) = tab7 V c := funext fun p => funext fun q => read_table7 V c t p q
  have em : (if 64 * (grid2.coords t 0).val + r.val = 128 * (grid2.coords t 1).val + s.val then (0 : EReal) else 1)
      = offDiag (rowAt (t.val / 4) r) (colAt (t.val % 4) s) := by
    unfold offDiag
    rw [g0, g1]
    exact if_congr (rowAt_eq_colAt_iff (t.val / 4) (t.val % 4) r s (by omega) (by omega)).symm rfl rfl
  rw [e0, e1, e2, e3, e4, e6, e8, e5, e7, em]
  rfl

/-- The first sender block of a receiver block: the output block is zeroed, then this block's messages are added. -/
theorem point_first (c : Dev nD) (t : Fin cfg2.N) (h0 : t.val % 4 = 0) (r : Fin 64) (k : Fin 128) :
    outsAt2 V c t.val t.isLt (ix2 r k) = 0 + addend V c (t.val / 4) (t.val % 4) r k := by
  obtain ⟨-, -, -, -, -, -, -, -, -, -, ⟨g0, g1⟩⟩ := point_facts t
  have hN : cfg2.N = 32 := N_2
  have ht := t.isLt
  rw [outsAt2_A V c t h0, out_first]
  refine (Cert.KernelIdeal.Payload2.block_sum (grid2.coords t 0).val (grid2.coords t 1).val (by omega) (by omega)
    (iblk2 V c 0 t) (iblk2 V c 1 t) (iblk2 V c 2 t) (iblk2 V c 3 t) (iblk2 V c 4 t) (iblk2 V c 5 t) (iblk2 V c 6 t) (iblk2 V c 7 t) (iblk2 V c 8 t) (k2_pay2 (F := Ideal)) r k).trans ?_
  rw [Cert.KernelIdeal.Payload2.zero_block r k]
  exact block_sum_eq V c t r k 0

/-- A later sender block: this block's messages are added to what the point before left. -/
theorem point_later (c : Dev nD) (t : Fin cfg2.N) (h0 : ¬t.val % 4 = 0) (r : Fin 64) (k : Fin 128) :
    outsAt2 V c t.val t.isLt (ix2 r k)
      = outsAt2 V c (t.val - 1) (Nat.lt_of_le_of_lt (Nat.sub_le _ _) t.isLt) (ix2 r k) + addend V c (t.val / 4) (t.val % 4) r k := by
  obtain ⟨-, -, -, -, -, -, -, -, -, -, ⟨g0, g1⟩⟩ := point_facts t
  have hN : cfg2.N = 32 := N_2
  have ht := t.isLt
  rw [outsAt2_B V c t h0, out_later]
  refine (Cert.KernelIdeal.Payload2.block_sum (grid2.coords t 0).val (grid2.coords t 1).val (by omega) (by omega)
    (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)) r k).trans ?_
  exact block_sum_eq V c t r k _

/-! ## The running sum across a receiver block's four points -/

/-- After point `n` the output block holds, at `(r, k)`, the messages of the sender blocks `0 … n % 4` to receiver
    `64 (n / 4) + r`: by induction on the point. -/
theorem outs_eq (c : Dev nD) : ∀ (n : ℕ) (h : n < cfg2.N) (r : Fin 64) (k : Fin 128),
    outsAt2 V c n h (ix2 r k) = ∑ b ∈ Finset.range (n % 4 + 1), addend V c (n / 4) b r k
  | 0, h, r, k => by
    rw [point_first V c ⟨0, h⟩ rfl r k]
    show 0 + addend V c (0 / 4) (0 % 4) r k = ∑ b ∈ Finset.range (0 % 4 + 1), addend V c (0 / 4) b r k
    rw [zero_add, show 0 % 4 + 1 = 1 from rfl, Finset.sum_range_one]
  | n + 1, h, r, k => by
    by_cases h0 : (n + 1) % 4 = 0
    · rw [point_first V c ⟨n + 1, h⟩ h0 r k]
      show 0 + addend V c ((n + 1) / 4) ((n + 1) % 4) r k = _
      have e : (n + 1) % 4 + 1 = 1 := by omega
      rw [zero_add, e, Finset.sum_range_one, h0]
    · rw [point_later V c ⟨n + 1, h⟩ h0 r k]
      show outsAt2 V c n _ (ix2 r k) + addend V c ((n + 1) / 4) ((n + 1) % 4) r k = _
      rw [outs_eq c n (Nat.lt_of_succ_lt h) r k]
      have e1 : n / 4 = (n + 1) / 4 := by omega
      have e2 : n % 4 + 1 = (n + 1) % 4 := by omega
      rw [e1, e2, Finset.sum_range_succ]

/-- The four per-block sums of a receiver are its sum over all 512 senders. -/
theorem four_blocks (c : Dev nD) (bi : ℕ) (r : Fin 64) (k : Fin 128) :
    ∑ b ∈ Finset.range 4, addend V c bi b r k = ∑ j : Fin 512, msg V c (rowAt bi r) j k := by
  refine Eq.trans ?_ (Cert.LibBlockSum.sum_blocks 4 128 512 rfl (fun j => msg V c (rowAt bi r) j k)).symm
  refine Finset.sum_congr rfl fun b hb => ?_
  have hb4 : b < 4 := Finset.mem_range.mp hb
  unfold addend
  refine Finset.sum_congr rfl fun s _ => ?_
  have hs := s.isLt
  have hlt : 128 * b + s.val < 512 := by omega
  rw [dif_pos hlt]
  refine congrArg (fun j => msg V c (rowAt bi r) j k) (Fin.ext ?_)
  exact colAt_val b s hb4

/-! ## The write-backs and the final array -/

/-- The point that ends a receiver block writes back that block of the aggregate. -/
theorem flushed_eq (c : Dev nD) (t : Fin cfg2.N) (hf : (cfg2.win 9).flush t = true) :
    (dat2 V c).flushed 9 t = ((cfg2.win 9).blk t).view.read (Elt Ideal) (aggregate V c) := by
  have h3 : t.val % 4 = 3 := (flush2_9 t).mp hf
  obtain ⟨-, -, -, -, -, -, -, -, -, ⟨e0, e1⟩, -⟩ := point_facts t
  have hN : cfg2.N = 32 := N_2
  have ht := t.isLt
  show (cfg2.win 9).cut (grid2.coords t) ((dat2 V c).after 9 t) = _
  rw [after2_9]
  funext y
  obtain ⟨r, k, rfl⟩ : ∃ (r : Fin 64) (k : Fin 128), y = ix2 r k := ⟨y 0, y 1, eq_ix2 y⟩
  show outsAt2 V c t.val t.isLt (ix2 r k) = aggregate V c (((cfg2.win 9).blk t).view.emb (ix2 r k))
  have e4 : t.val % 4 + 1 = 4 := by omega
  have hr := r.isLt
  rw [outs_eq V c t.val t.isLt r k, e4, four_blocks V c (t.val / 4) r k]
  refine (aggregate_apply V c _ (rowAt (t.val / 4) r) k ?_ ?_).symm
  · show win2_9.index t (0 : Fin 2) * 64 + 1 * r.val = (64 * (t.val / 4) + r.val) % 512
    rw [e0]; omega
  · show win2_9.index t (1 : Fin 2) * 128 + 1 * k.val = k.val
    rw [e1]; omega

/-- An index of the output array is in point `t`'s block iff each coordinate is in the block's range on its axis. -/
theorem mem_blk (t : Fin cfg2.N) (i : S512x128.Idx) :
    i ∈ ((cfg2.win 9).blk t).view.set ↔ ∀ a : Fin 2, win2_9.index t a * S64x128.size a ≤ (i a).val ∧ (i a).val < win2_9.index t a * S64x128.size a + S64x128.size a := by
  show i ∈ ((View.whole main_v177).slice (win2_9.rect t)).set ↔ _
  rw [View.set_slice_whole, Rect.mem_set_unit]
  exact Iff.rfl

/-- Every entry of the output array is written back by the last point of its receiver block. -/
theorem cover (i : S512x128.Idx) : ∃ t : Fin cfg2.N, (cfg2.win 9).flush t = true ∧ i ∈ ((cfg2.win 9).blk t).view.set := by
  have hN : cfg2.N = 32 := N_2
  have hi0 : (i 0).val < 512 := (i 0).isLt
  have hi1 : (i 1).val < 128 := (i 1).isLt
  have hlt : 4 * ((i 0).val / 64) + 3 < cfg2.N := by omega
  refine ⟨⟨4 * ((i 0).val / 64) + 3, hlt⟩, (flush2_9 _).mpr (by show (4 * ((i 0).val / 64) + 3) % 4 = 3; omega), ?_⟩
  obtain ⟨-, -, -, -, -, -, -, -, -, ⟨e0, e1⟩, -⟩ := point_facts (⟨4 * ((i 0).val / 64) + 3, hlt⟩ : Fin cfg2.N)
  rw [mem_blk]
  intro a
  match a with
  | ⟨0, _⟩ =>
    show win2_9.index ⟨4 * ((i 0).val / 64) + 3, hlt⟩ (0 : Fin 2) * 64 ≤ (i 0).val ∧ (i 0).val < win2_9.index ⟨4 * ((i 0).val / 64) + 3, hlt⟩ (0 : Fin 2) * 64 + 64
    rw [e0]; show (4 * ((i 0).val / 64) + 3) / 4 * 64 ≤ (i 0).val ∧ (i 0).val < (4 * ((i 0).val / 64) + 3) / 4 * 64 + 64; omega
  | ⟨1, _⟩ =>
    show win2_9.index ⟨4 * ((i 0).val / 64) + 3, hlt⟩ (1 : Fin 2) * 128 ≤ (i 1).val ∧ (i 1).val < win2_9.index ⟨4 * ((i 0).val / 64) + 3, hlt⟩ (1 : Fin 2) * 128 + 128
    rw [e1]; omega

/-- The output array after the launch is the layer's aggregate of the arrays the launch found. -/
theorem final (c : Dev nD) : (dat2 V c).arrAt 9 cfg2.N = aggregate V c :=
  (dat2 V c).arrAt_eq_of_cover 9 (aggregate V c) (flushed_eq V c) cover

end Cert.KernelIdeal.Region2

end
-- ==== Proof.RefLayer2.lean ====
/-
  The third graph layer of the reference program computes the shared message sum of its own inputs.

  The layer's aggregate is a sum over the 512 senders of a product: the edge perceptron's output times the
  off-diagonal mask. The perceptron is read stage by stage at an index: the first hidden layer
  `max (A i p + B j p + D i j * wd p + b1 p) 0` from its four broadcast summands, the second hidden layer and the
  read-out as contractions over the 128 hidden units against the transposed weight slices. Every layout
  operation (broadcast, slice, reshape) reads its operand at an index computed from literal coordinates, so
  each stage is a rewriting chain followed by the identification of the composed index functions.
-/
import proofs.«170678_j11312943857830_2_alg».proof.Proof.RefRead
import proofs.«170678_j11312943857830_2_alg».proof.Proof.MessageSum
import Idealize.ShloMosaic.PureOps.IdealRules
import proofs.«170678_j11312943857830_2_alg».proof.Proof.RefLayerCommon

noncomputable section

open Cert.ReferenceIdeal Cert.ReferenceIdeal.ReadP Idealize.ShloMosaic Idealize.ShloMosaic.ValueIdx

namespace Cert.RefLayer2

/-- The first hidden layer at receiver `i`, sender `j`, unit `p`. -/
theorem h1_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (p : Fin 128) :
    val_main_v220 (F := Ideal) x0 x1 x2 x3 x4 x5 x6 x7 x8 x9 x10 x11 x12 x13 x14 x15 x16 x17 x18 x19 (ix3 i j p)
      = max (val_main_v201 (F := Ideal) x0 x1 x2 x3 x4 x5 x6 x7 x8 x9 x10 x11 x12 x13 x14 x15 x16 x17 x18 x19 (ix2 i p) + val_main_v203 (F := Ideal) x0 x1 x2 x3 x4 x5 x6 x7 x8 x9 x10 x11 x12 x13 x14 x15 x16 x17 x18 x19 (ix2 j p)
          + val_main_v36 (F := Ideal) x1 (ix2 i j) * val_main_v199 (F := Ideal) x8 (ix1 p) + val_main_v216 (F := Ideal) x9 (ix1 p)) 0 := by
  rw [val_main_v220_apply, val_main_v219_apply, val_main_v214_apply, val_main_v208_apply, val_main_v213_apply,
    val_main_v206_apply, val_main_v204_apply, val_main_v207_apply, val_main_v205_apply,
    val_main_v211_apply, val_main_v209_apply, val_main_v212_apply, val_main_v210_apply,
    val_main_v218_apply, val_main_v217_apply, val_main_call11_v0_apply, val_main_call11_cst_apply]
  have eA : idx_main_v204 (idx_main_v206 (ix3 i j p)) = ix2 i p := funext fun a => by
    match a with
    | ⟨0, _⟩ => rfl
    | ⟨1, _⟩ => rfl
  have eB : idx_main_v205 (idx_main_v207 (ix3 i j p)) = ix2 j p := funext fun a => by
    match a with
    | ⟨0, _⟩ => rfl
    | ⟨1, _⟩ => rfl
  have eD : idx_main_v209 (idx_main_v211 (ix3 i j p)) = ix2 i j := funext fun a => by
    match a with
    | ⟨0, _⟩ => rfl
    | ⟨1, _⟩ => rfl
  have eW : idx_main_v210 (idx_main_v212 (ix3 i j p)) = ix1 p := funext fun a => by
    match a with
    | ⟨0, _⟩ => rfl
  have eb : idx_main_v217 (idx_main_v218 (ix3 i j p)) = ix1 p := funext fun a => by
    match a with
    | ⟨0, _⟩ => rfl
  rw [eA, eB, eD, eW, eb]
  simp only [Ideal.addf_def, Ideal.mulf_def, Ideal.maximumf_def, Ideal.ofBits_def, Ideal.ofBits_zero_f32]

/-- The second hidden layer at `(i, j)`, unit `q`: the contraction of the first over its units against the
    weight slice read transposed, plus the bias, rectified. -/
theorem h2_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (q : Fin 128) :
    val_main_v229 (F := Ideal) x0 x1 x2 x3 x4 x5 x6 x7 x8 x9 x10 x11 x12 x13 x14 x15 x16 x17 x18 x19 (ix3 i j q)
      = max ((∑ p : Fin 128, val_main_v220 (F := Ideal) x0 x1 x2 x3 x4 x5 x6 x7 x8 x9 x10 x11 x12 x13 x14 x15 x16 x17 x18 x19 (ix3 i j p) * val_main_v222 (F := Ideal) x10 (ix2 q p))
          + val_main_v225 (F := Ideal) x11 (ix1 q)) 0 := by
  rw [val_main_v229_apply, val_main_v228_apply, val_main_v223_apply, val_main_v227_apply, val_main_v226_apply,
    val_main_call12_v0_apply, val_main_call12_cst_apply]
  have eL : ∀ p : Fin 128, lidx_main_v223 (ix3 i j q) p = ix3 i j p := fun p => funext fun a => by
    match a with
    | ⟨0, _⟩ => rfl
    | ⟨1, _⟩ => rfl
    | ⟨2, _⟩ => rfl
  have eR : ∀ p : Fin 128, ridx_main_v223 (ix3 i j q) p = ix2 q p := fun p => funext fun a => by
    match a with
    | ⟨0, _⟩ => rfl
    | ⟨1, _⟩ => rfl
  have eb : idx_main_v226 (idx_main_v227 (ix3 i j q)) = ix1 q := funext fun a => by
    match a with
    | ⟨0, _⟩ => rfl
  rw [eb]
  simp only [eL, eR, Ideal.addf_def, Ideal.maximumf_def, Ideal.ofBits_def, Ideal.ofBits_zero_f32]

/-- The read-out at `(i, j)`, output feature `k`, before the mask. -/
theorem m_apply (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i j : Fin 512) (k : Fin 128) :
    val_main_v237 (F := Ideal) x0 x1 x2 x3 x4 x5 x6 x7 x8 x9 x10 x11 x12 x13 x14 x15 x16 x17 x18 x19 (ix3 i j k)
      = (∑ q : Fin 128, val_main_v229 (F := Ideal) x0 x1 x2 x3 x4 x5 x6 x7 x8 x9 x10 x11 x12 x13 x14 x15 x16 x17 x18 x19 (ix3 i j q) * val_main_v231 (F := Ideal) x12 (ix2 k q))
          + val_main_v234 (F := Ideal) x13 (ix1 k) := by
  rw [val_main_v237_apply, val_main_v232_apply, val_main_v236_apply, val_main_v235_apply]
  have eL : ∀ q : Fin 128, lidx_main_v232 (ix3 i j k) q = ix3 i j q := fun q => funext fun a => by
    match a with
    | ⟨0, _⟩ => rfl
    | ⟨1, _⟩ => rfl
    | ⟨2, _⟩ => rfl
  have eR : ∀ q : Fin 128, ridx_main_v232 (ix3 i j k) q = ix2 k q := fun q => funext fun a => by
    match a with
    | ⟨0, _⟩ => rfl
    | ⟨1, _⟩ => rfl
  have eb : idx_main_v235 (idx_main_v236 (ix3 i j k)) = ix1 k := funext fun a => by
    match a with
    | ⟨0, _⟩ => rfl
  rw [eb]
  simp only [eL, eR, Ideal.addf_def]

/-- The mask broadcast along the feature axis is the off-diagonal mask of `(i, j)`. -/
theorem maskB_apply (i j : Fin 512) (k : Fin 128) :
    val_main_v238 (F := Ideal) (ix3 i j k) = Cert.MessageSum.offDiag i j := by
  rw [val_main_v238_apply]
  have e : idx_main_v238 (ix3 i j k) = ix3 i j (⟨0, Nat.one_pos⟩ : Fin 1) := funext fun a => by
    match a with
    | ⟨0, _⟩ => rfl
    | ⟨1, _⟩ => rfl
    | ⟨2, _⟩ => rfl
  rw [e, Cert.RefLayerCommon.mask_apply]

/-- The layer's aggregate is the shared message sum of the layer's own projections, distance, weights and
    biases; the weight slices enter transposed, as the contractions read them. -/
theorem total_eq (x0 : (⟨S512x32, .f32⟩ : BufTy).Contents (Elt Ideal)) (x1 : (⟨S512x2, .f32⟩ : BufTy).Contents (Elt Ideal)) (x2 : (⟨S128x32, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x257, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S3x128x256, .f32⟩ : BufTy).Contents (Elt Ideal)) (x15 : (⟨S3x128, .f32⟩ : BufTy).Contents (Elt Ideal)) (x16 : (⟨S3x128x128, .f32⟩ : BufTy).Contents (Elt Ideal)) (x17 : (⟨S3x128, .f32⟩ : BufTy).Contents (Elt Ideal)) (x18 : (⟨S3x128x128, .f32⟩ : BufTy).Contents (Elt Ideal)) (x19 : (⟨S3x128, .f32⟩ : BufTy).Contents (Elt Ideal)) (i : Fin 512) (k : Fin 128) :
    val_main_v240 (F := Ideal) x0 x1 x2 x3 x4 x5 x6 x7 x8 x9 x10 x11 x12 x13 x14 x15 x16 x17 x18 x19 (ix2 i k)
      = Cert.MessageSum.total
          (fun i p => val_main_v201 (F := Ideal) x0 x1 x2 x3 x4 x5 x6 x7 x8 x9 x10 x11 x12 x13 x14 x15 x16 x17 x18 x19 (ix2 i p))
          (fun j p => val_main_v203 (F := Ideal) x0 x1 x2 x3 x4 x5 x6 x7 x8 x9 x10 x11 x12 x13 x14 x15 x16 x17 x18 x19 (ix2 j p))
          (fun i j => val_main_v36 (F := Ideal) x1 (ix2 i j))
          (fun p => val_main_v199 (F := Ideal) x8 (ix1 p))
          (fun p => val_main_v216 (F := Ideal) x9 (ix1 p))
          (fun q => val_main_v225 (F := Ideal) x11 (ix1 q))
          (fun k => val_main_v234 (F := Ideal) x13 (ix1 k))
          (fun p q => val_main_v222 (F := Ideal) x10 (ix2 q p))
          (fun q k => val_main_v231 (F := Ideal) x12 (ix2 k q))
          i k := by
  rw [val_main_v240_apply, val_main_cst_6_apply, Ideal.ofBits_def, Ideal.ofBits_zero_f32, zero_add]
  unfold Cert.MessageSum.total Cert.MessageSum.edge Cert.MessageSum.perceptron
  refine Finset.sum_congr rfl fun j _ => ?_
  have e : idx_main_v240 (ix2 i k) j = ix3 i j k := funext fun a => by
    match a with
    | ⟨0, _⟩ => rfl
    | ⟨1, _⟩ => rfl
    | ⟨2, _⟩ => rfl
  rw [e, val_main_v239_apply, Ideal.mulf_def, maskB_apply, m_apply]
  simp only [h2_apply, h1_apply]

end Cert.RefLayer2

end
-- ==== Proof.Layer2.lean ====
/-
  Layer 2: the launch returns the plain program's aggregate.

  The launch's nine operand arrays are stages of the plain program — the two projections, the distances, and the
  layer's weights re-laid (vectors as one-row tables, the hidden tables transposed). The output array after the launch
  is the message sum of those arrays; the plain program's aggregate stage is the same message sum of the same stages.
-/
import proofs.«170678_j11312943857830_2_alg».proof.Proof.Region2Sum
import proofs.«170678_j11312943857830_2_alg».proof.Proof.RefLayer2
import proofs.«170678_j11312943857830_2_alg».proof.Proof.OperandLayout
import Idealize.ShloMosaic.Lib.ValueIdx

noncomputable section

namespace Cert.KernelIdeal.Layer2

open Cert.KernelIdeal Cert.KernelIdeal.Gen Cert.MessageSum
open Idealize.ShloMosaic Idealize.ShloMosaic.TcCoe Idealize.SL.Sem Idealize.ShloMosaic.ValueIdx

variable (m : (ℓ : Loc nD τ sig) → Buf (Elt Ideal) ℓ) (ρ : Dev nD → PrngReg)

/-- The output array after launch 2 is the plain program's aggregate stage of this layer. -/
theorem aggregate_eq (c : Dev nD)
    (h0 : W19 m ρ c (Proc.devRef .tc main_v158) = Cert.ReferenceIdeal.ReadP.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h1 : W19 m ρ c (Proc.devRef .tc main_v160) = Cert.ReferenceIdeal.ReadP.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
    (h2 : W19 m ρ c (Proc.devRef .tc main_v36) = Cert.ReferenceIdeal.ReadP.val_main_v36 (F := Ideal) (m ((c : Thread nD τ).loc main_arg1)))
    (h3 : W19 m ρ c (Proc.devRef .tc main_v173) = shapeCast S1x128 (Cert.ReferenceIdeal.ReadP.val_main_v199 (F := Ideal) (m ((c : Thread nD τ).loc main_arg8))) shapeCasts_S128_S1x128)
    (h4 : W19 m ρ c (Proc.devRef .tc main_v174) = shapeCast S1x128 (Cert.ReferenceIdeal.ReadP.val_main_v216 (F := Ideal) (m ((c : Thread nD τ).loc main_arg9))) shapeCasts_S128_S1x128)
    (h5 : W19 m ρ c (Proc.devRef .tc main_v163) = transpose S128x128 [1, 0] (Cert.ReferenceIdeal.ReadP.val_main_v222 (F := Ideal) (m ((c : Thread nD τ).loc main_arg10))) transposes_S128x128_S128x128_1_0)
    (h6 : W19 m ρ c (Proc.devRef .tc main_v175) = shapeCast S1x128 (Cert.ReferenceIdeal.ReadP.val_main_v225 (F := Ideal) (m ((c : Thread nD τ).loc main_arg11))) shapeCasts_S128_S1x128)
    (h7 : W19 m ρ c (Proc.devRef .tc main_v166) = transpose S128x128 [1, 0] (Cert.ReferenceIdeal.ReadP.val_main_v231 (F := Ideal) (m ((c : Thread nD τ).loc main_arg12))) transposes_S128x128_S128x128_1_0)
    (h8 : W19 m ρ c (Proc.devRef .tc main_v176) = shapeCast S1x128 (Cert.ReferenceIdeal.ReadP.val_main_v234 (F := Ideal) (m ((c : Thread nD τ).loc main_arg13))) shapeCasts_S128_S1x128) :
    W20 m ρ c (Proc.devRef .tc main_v177) = Cert.ReferenceIdeal.ReadP.val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W20_arr m ρ c 9).trans ?_
  rw [Region2.final (V19 m ρ) c]
  funext i
  obtain ⟨a, k, rfl⟩ : ∃ (a : Fin 512) (k : Fin 128), i = (ix2 a k : S512x128.Idx) := ⟨i 0, i 1, eq_ix2 i⟩
  refine Eq.trans ?_ (Cert.RefLayer2.total_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) a k).symm
  unfold Region2.aggregate
  have e0 : Region2.recv (V19 m ρ) c = fun i p => Cert.ReferenceIdeal.ReadP.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 i p) := funext fun i => funext fun p => congrFun h0 (ix2 i p)
  have e1 : Region2.send (V19 m ρ) c = fun i p => Cert.ReferenceIdeal.ReadP.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 i p) := funext fun i => funext fun p => congrFun h1 (ix2 i p)
  have e2 : Region2.dist (V19 m ρ) c = fun i j => Cert.ReferenceIdeal.ReadP.val_main_v36 (F := Ideal) (m ((c : Thread nD τ).loc main_arg1)) (ix2 i j) := funext fun i => funext fun j => congrFun h2 (ix2 i j)
  have e3 : Region2.row3 (V19 m ρ) c = fun p => Cert.ReferenceIdeal.ReadP.val_main_v199 (F := Ideal) (m ((c : Thread nD τ).loc main_arg8)) (ix1 p) := funext fun p => (congrFun h3 (ix2 (0 : Fin 1) p)).trans (OperandLayout.row_read _ _ p)
  have e4 : Region2.row4 (V19 m ρ) c = fun p => Cert.ReferenceIdeal.ReadP.val_main_v216 (F := Ideal) (m ((c : Thread nD τ).loc main_arg9)) (ix1 p) := funext fun p => (congrFun h4 (ix2 (0 : Fin 1) p)).trans (OperandLayout.row_read _ _ p)
  have e6 : Region2.row6 (V19 m ρ) c = fun p => Cert.ReferenceIdeal.ReadP.val_main_v225 (F := Ideal) (m ((c : Thread nD τ).loc main_arg11)) (ix1 p) := funext fun p => (congrFun h6 (ix2 (0 : Fin 1) p)).trans (OperandLayout.row_read _ _ p)
  have e8 : Region2.row8 (V19 m ρ) c = fun p => Cert.ReferenceIdeal.ReadP.val_main_v234 (F := Ideal) (m ((c : Thread nD τ).loc main_arg13)) (ix1 p) := funext fun p => (congrFun h8 (ix2 (0 : Fin 1) p)).trans (OperandLayout.row_read _ _ p)
  have e5 : Region2.tab5 (V19 m ρ) c = fun p q => Cert.ReferenceIdeal.ReadP.val_main_v222 (F := Ideal) (m ((c : Thread nD τ).loc main_arg10)) (ix2 q p) := funext fun p => funext fun q => (congrFun h5 (ix2 p q)).trans (OperandLayout.table_read _ _ p q)
  have e7 : Region2.tab7 (V19 m ρ) c = fun p q => Cert.ReferenceIdeal.ReadP.val_main_v231 (F := Ideal) (m ((c : Thread nD τ).loc main_arg12)) (ix2 q p) := funext fun p => funext fun q => (congrFun h7 (ix2 p q)).trans (OperandLayout.table_read _ _ p q)
  rw [e0, e1, e2, e3, e4, e6, e8, e5, e7]

end Cert.KernelIdeal.Layer2

end
-- ==== Proof.Whole.lean ====
/-
  The whole program: the returned array is the plain program's result stage.

  The buffer contents at the last boundary are followed back through the program (the distances, an operand of
  every launch, are an input array of each and so pass through it unchanged): a stretch of host operations holds
  the plain program's stages of the same arguments; a launch turns the layer's projections, distances and weights
  into the layer's aggregate, which is the plain program's aggregate stage; and so on through the three layers to the
  last update perceptron, whose output is returned.
-/
import proofs.«170678_j11312943857830_2_alg».proof.Proof.HostStage0
import proofs.«170678_j11312943857830_2_alg».proof.Proof.HostStage1
import proofs.«170678_j11312943857830_2_alg».proof.Proof.HostStage2
import proofs.«170678_j11312943857830_2_alg».proof.Proof.HostStage3
import proofs.«170678_j11312943857830_2_alg».proof.Proof.Layer0
import proofs.«170678_j11312943857830_2_alg».proof.Proof.Layer1
import proofs.«170678_j11312943857830_2_alg».proof.Proof.Layer2

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays are never written: at every launch's exit they hold what was launched -/

set_option maxRecDepth 8192 in
set_option maxHeartbeats 40000000 in
theorem W8_arg8 (c : Dev nD) : W8 m ρ c (Proc.devRef .tc main_arg8) = m ((c : Thread nD τ).loc main_arg8) :=
  (W8_of_ne m ρ c main_arg8 (by decide)).trans (by
    show W7 m ρ c (Proc.devRef .tc main_arg8) = _
    after_results_simp <;> rfl)

set_option maxRecDepth 8192 in
set_option maxHeartbeats 40000000 in
theorem W8_arg9 (c : Dev nD) : W8 m ρ c (Proc.devRef .tc main_arg9) = m ((c : Thread nD τ).loc main_arg9) :=
  (W8_of_ne m ρ c main_arg9 (by decide)).trans (by
    show W7 m ρ c (Proc.devRef .tc main_arg9) = _
    after_results_simp <;> rfl)

set_option maxRecDepth 8192 in
set_option maxHeartbeats 40000000 in
theorem W8_arg10 (c : Dev nD) : W8 m ρ c (Proc.devRef .tc main_arg10) = m ((c : Thread nD τ).loc main_arg10) :=
  (W8_of_ne m ρ c main_arg10 (by decide)).trans (by
    show W7 m ρ c (Proc.devRef .tc main_arg10) = _
    after_results_simp <;> rfl)

set_option maxRecDepth 8192 in
set_option maxHeartbeats 40000000 in
theorem W8_arg11 (c : Dev nD) : W8 m ρ c (Proc.devRef .tc main_arg11) = m ((c : Thread nD τ).loc main_arg11) :=
  (W8_of_ne m ρ c main_arg11 (by decide)).trans (by
    show W7 m ρ c (Proc.devRef .tc main_arg11) = _
    after_results_simp <;> rfl)

set_option maxRecDepth 8192 in
set_option maxHeartbeats 40000000 in
theorem W8_arg12 (c : Dev nD) : W8 m ρ c (Proc.devRef .tc main_arg12) = m ((c : Thread nD τ).loc main_arg12) :=
  (W8_of_ne m ρ c main_arg12 (by decide)).trans (by
    show W7 m ρ c (Proc.devRef .tc main_arg12) = _
    after_results_simp <;> rfl)

set_option maxRecDepth 8192 in
set_option maxHeartbeats 40000000 in
theorem W8_arg13 (c : Dev nD) : W8 m ρ c (Proc.devRef .tc main_arg13) = m ((c : Thread nD τ).loc main_arg13) :=
  (W8_of_ne m ρ c main_arg13 (by decide)).trans (by
    show W7 m ρ c (Proc.devRef .tc main_arg13) = _
    after_results_simp <;> rfl)

set_option maxRecDepth 8192 in
set_option maxHeartbeats 40000000 in
theorem W8_arg14 (c : Dev nD) : W8 m ρ c (Proc.devRef .tc main_arg14) = m ((c : Thread nD τ).loc main_arg14) :=
  (W8_of_ne m ρ c main_arg14 (by decide)).trans (by
    show W7 m ρ c (Proc.devRef .tc main_arg14) = _
    after_results_simp <;> rfl)

set_option maxRecDepth 8192 in
set_option maxHeartbeats 40000000 in
theorem W8_arg15 (c : Dev nD) : W8 m ρ c (Proc.devRef .tc main_arg15) = m ((c : Thread nD τ).loc main_arg15) :=
  (W8_of_ne m ρ c main_arg15 (by decide)).trans (by
    show W7 m ρ c (Proc.devRef .tc main_arg15) = _
    after_results_simp <;> rfl)

set_option maxRecDepth 8192 in
set_option maxHeartbeats 40000000 in
theorem W8_arg16 (c : Dev nD) : W8 m ρ c (Proc.devRef .tc main_arg16) = m ((c : Thread nD τ).loc main_arg16) :=
  (W8_of_ne m ρ c main_arg16 (by decide)).trans (by
    show W7 m ρ c (Proc.devRef .tc main_arg16) = _
    after_results_simp <;> rfl)

set_option maxRecDepth 8192 in
set_option maxHeartbeats 40000000 in
theorem W8_arg17 (c : Dev nD) : W8 m ρ c (Proc.devRef .tc main_arg17) = m ((c : Thread nD τ).loc main_arg17) :=
  (W8_of_ne m ρ c main_arg17 (by decide)).trans (by
    show W7 m ρ c (Proc.devRef .tc main_arg17) = _
    after_results_simp <;> rfl)

set_option maxRecDepth 8192 in
set_option maxHeartbeats 40000000 in
theorem W8_arg18 (c : Dev nD) : W8 m ρ c (Proc.devRef .tc main_arg18) = m ((c : Thread nD τ).loc main_arg18) :=
  (W8_of_ne m ρ c main_arg18 (by decide)).trans (by
    show W7 m ρ c (Proc.devRef .tc main_arg18) = _
    after_results_simp <;> rfl)

set_option maxRecDepth 8192 in
set_option maxHeartbeats 40000000 in
theorem W8_arg19 (c : Dev nD) : W8 m ρ c (Proc.devRef .tc main_arg19) = m ((c : Thread nD τ).loc main_arg19) :=
  (W8_of_ne m ρ c main_arg19 (by decide)).trans (by
    show W7 m ρ c (Proc.devRef .tc main_arg19) = _
    after_results_simp <;> rfl)

set_option maxRecDepth 8192 in
set_option maxHeartbeats 40000000 in
theorem W14_arg8 (c : Dev nD) : W14 m ρ c (Proc.devRef .tc main_arg8) = m ((c : Thread nD τ).loc main_arg8) :=
  (W14_of_ne m ρ c main_arg8 (by decide)).trans (by
    show W13 m ρ c (Proc.devRef .tc main_arg8) = _
    after_results_simp
    exact W8_arg8 m ρ c)

set_option maxRecDepth 8192 in
set_option maxHeartbeats 40000000 in
theorem W14_arg9 (c : Dev nD) : W14 m ρ c (Proc.devRef .tc main_arg9) = m ((c : Thread nD τ).loc main_arg9) :=
  (W14_of_ne m ρ c main_arg9 (by decide)).trans (by
    show W13 m ρ c (Proc.devRef .tc main_arg9) = _
    after_results_simp
    exact W8_arg9 m ρ c)

set_option maxRecDepth 8192 in
set_option maxHeartbeats 40000000 in
theorem W14_arg10 (c : Dev nD) : W14 m ρ c (Proc.devRef .tc main_arg10) = m ((c : Thread nD τ).loc main_arg10) :=
  (W14_of_ne m ρ c main_arg10 (by decide)).trans (by
    show W13 m ρ c (Proc.devRef .tc main_arg10) = _
    after_results_simp
    exact W8_arg10 m ρ c)

set_option maxRecDepth 8192 in
set_option maxHeartbeats 40000000 in
theorem W14_arg11 (c : Dev nD) : W14 m ρ c (Proc.devRef .tc main_arg11) = m ((c : Thread nD τ).loc main_arg11) :=
  (W14_of_ne m ρ c main_arg11 (by decide)).trans (by
    show W13 m ρ c (Proc.devRef .tc main_arg11) = _
    after_results_simp
    exact W8_arg11 m ρ c)

set_option maxRecDepth 8192 in
set_option maxHeartbeats 40000000 in
theorem W14_arg12 (c : Dev nD) : W14 m ρ c (Proc.devRef .tc main_arg12) = m ((c : Thread nD τ).loc main_arg12) :=
  (W14_of_ne m ρ c main_arg12 (by decide)).trans (by
    show W13 m ρ c (Proc.devRef .tc main_arg12) = _
    after_results_simp
    exact W8_arg12 m ρ c)

set_option maxRecDepth 8192 in
set_option maxHeartbeats 40000000 in
theorem W14_arg13 (c : Dev nD) : W14 m ρ c (Proc.devRef .tc main_arg13) = m ((c : Thread nD τ).loc main_arg13) :=
  (W14_of_ne m ρ c main_arg13 (by decide)).trans (by
    show W13 m ρ c (Proc.devRef .tc main_arg13) = _
    after_results_simp
    exact W8_arg13 m ρ c)

set_option maxRecDepth 8192 in
set_option maxHeartbeats 40000000 in
theorem W14_arg14 (c : Dev nD) : W14 m ρ c (Proc.devRef .tc main_arg14) = m ((c : Thread nD τ).loc main_arg14) :=
  (W14_of_ne m ρ c main_arg14 (by decide)).trans (by
    show W13 m ρ c (Proc.devRef .tc main_arg14) = _
    after_results_simp
    exact W8_arg14 m ρ c)

set_option maxRecDepth 8192 in
set_option maxHeartbeats 40000000 in
theorem W14_arg15 (c : Dev nD) : W14 m ρ c (Proc.devRef .tc main_arg15) = m ((c : Thread nD τ).loc main_arg15) :=
  (W14_of_ne m ρ c main_arg15 (by decide)).trans (by
    show W13 m ρ c (Proc.devRef .tc main_arg15) = _
    after_results_simp
    exact W8_arg15 m ρ c)

set_option maxRecDepth 8192 in
set_option maxHeartbeats 40000000 in
theorem W14_arg16 (c : Dev nD) : W14 m ρ c (Proc.devRef .tc main_arg16) = m ((c : Thread nD τ).loc main_arg16) :=
  (W14_of_ne m ρ c main_arg16 (by decide)).trans (by
    show W13 m ρ c (Proc.devRef .tc main_arg16) = _
    after_results_simp
    exact W8_arg16 m ρ c)

set_option maxRecDepth 8192 in
set_option maxHeartbeats 40000000 in
theorem W14_arg17 (c : Dev nD) : W14 m ρ c (Proc.devRef .tc main_arg17) = m ((c : Thread nD τ).loc main_arg17) :=
  (W14_of_ne m ρ c main_arg17 (by decide)).trans (by
    show W13 m ρ c (Proc.devRef .tc main_arg17) = _
    after_results_simp
    exact W8_arg17 m ρ c)

set_option maxRecDepth 8192 in
set_option maxHeartbeats 40000000 in
theorem W14_arg18 (c : Dev nD) : W14 m ρ c (Proc.devRef .tc main_arg18) = m ((c : Thread nD τ).loc main_arg18) :=
  (W14_of_ne m ρ c main_arg18 (by decide)).trans (by
    show W13 m ρ c (Proc.devRef .tc main_arg18) = _
    after_results_simp
    exact W8_arg18 m ρ c)

set_option maxRecDepth 8192 in
set_option maxHeartbeats 40000000 in
theorem W14_arg19 (c : Dev nD) : W14 m ρ c (Proc.devRef .tc main_arg19) = m ((c : Thread nD τ).loc main_arg19) :=
  (W14_of_ne m ρ c main_arg19 (by decide)).trans (by
    show W13 m ρ c (Proc.devRef .tc main_arg19) = _
    after_results_simp
    exact W8_arg19 m ρ c)

set_option maxRecDepth 8192 in
set_option maxHeartbeats 40000000 in
theorem W20_arg14 (c : Dev nD) : W20 m ρ c (Proc.devRef .tc main_arg14) = m ((c : Thread nD τ).loc main_arg14) :=
  (W20_of_ne m ρ c main_arg14 (by decide)).trans (by
    show W19 m ρ c (Proc.devRef .tc main_arg14) = _
    after_results_simp
    exact W14_arg14 m ρ c)

set_option maxRecDepth 8192 in
set_option maxHeartbeats 40000000 in
theorem W20_arg15 (c : Dev nD) : W20 m ρ c (Proc.devRef .tc main_arg15) = m ((c : Thread nD τ).loc main_arg15) :=
  (W20_of_ne m ρ c main_arg15 (by decide)).trans (by
    show W19 m ρ c (Proc.devRef .tc main_arg15) = _
    after_results_simp
    exact W14_arg15 m ρ c)

set_option maxRecDepth 8192 in
set_option maxHeartbeats 40000000 in
theorem W20_arg16 (c : Dev nD) : W20 m ρ c (Proc.devRef .tc main_arg16) = m ((c : Thread nD τ).loc main_arg16) :=
  (W20_of_ne m ρ c main_arg16 (by decide)).trans (by
    show W19 m ρ c (Proc.devRef .tc main_arg16) = _
    after_results_simp
    exact W14_arg16 m ρ c)

set_option maxRecDepth 8192 in
set_option maxHeartbeats 40000000 in
theorem W20_arg17 (c : Dev nD) : W20 m ρ c (Proc.devRef .tc main_arg17) = m ((c : Thread nD τ).loc main_arg17) :=
  (W20_of_ne m ρ c main_arg17 (by decide)).trans (by
    show W19 m ρ c (Proc.devRef .tc main_arg17) = _
    after_results_simp
    exact W14_arg17 m ρ c)

set_option maxRecDepth 8192 in
set_option maxHeartbeats 40000000 in
theorem W20_arg18 (c : Dev nD) : W20 m ρ c (Proc.devRef .tc main_arg18) = m ((c : Thread nD τ).loc main_arg18) :=
  (W20_of_ne m ρ c main_arg18 (by decide)).trans (by
    show W19 m ρ c (Proc.devRef .tc main_arg18) = _
    after_results_simp
    exact W14_arg18 m ρ c)

set_option maxRecDepth 8192 in
set_option maxHeartbeats 40000000 in
theorem W20_arg19 (c : Dev nD) : W20 m ρ c (Proc.devRef .tc main_arg19) = m ((c : Thread nD τ).loc main_arg19) :=
  (W20_of_ne m ρ c main_arg19 (by decide)).trans (by
    show W19 m ρ c (Proc.devRef .tc main_arg19) = _
    after_results_simp
    exact W14_arg19 m ρ c)

/-! ## The chain -/

/-- The returned array is the plain program's result stage of the same arguments. -/
theorem result_eq (c : Dev nD) :
    W25 m ρ c (Proc.devRef .tc main_v207) = Cert.ReferenceIdeal.ReadP.val_main_v270 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  -- layer 0
  have L0 := Layer0.aggregate_eq m ρ c (HostStage0.at_v44 m ρ c) (HostStage0.at_v46 m ρ c) (HostStage0.at_v36 m ρ c) (HostStage0.at_v59 m ρ c) (HostStage0.at_v60 m ρ c) (HostStage0.at_v49 m ρ c) (HostStage0.at_v61 m ρ c) (HostStage0.at_v52 m ρ c) (HostStage0.at_v62 m ρ c)
  have z0 := (W8_of_ne m ρ c main_v16 (by decide)).trans (HostStage0.at_v16 m ρ c)
  have d0 : W8 m ρ c (Proc.devRef .tc main_v36) = Cert.ReferenceIdeal.ReadP.val_main_v36 (F := Ideal) (m ((c : Thread nD τ).loc main_arg1)) :=
    (W8_arr m ρ c 2).trans (((dat0 (V7 m ρ) c).arrAt_in 2 rfl _).trans ((A_eq0 (V7 m ρ) c 2).trans (HostStage0.at_v36 m ρ c)))
  -- layer 1
  have L1 := Layer1.aggregate_eq m ρ c (HostStage1.at_v101 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v103 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v36 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v116 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v117 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v106 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v118 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v109 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
    (HostStage1.at_v119 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
  have z1 := (W14_of_ne m ρ c main_v93 (by decide)).trans (HostStage1.at_v93 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))
  have d1 : W14 m ρ c (Proc.devRef .tc main_v36) = Cert.ReferenceIdeal.ReadP.val_main_v36 (F := Ideal) (m ((c : Thread nD τ).loc main_arg1)) :=
    (W14_arr m ρ c 2).trans (((dat1 (V13 m ρ) c).arrAt_in 2 rfl _).trans ((A_eq1 (V13 m ρ) c 2).trans (HostStage1.at_v36 m ρ c z0 L0 d0 (W8_arg8 m ρ c) (W8_arg9 m ρ c) (W8_arg10 m ρ c) (W8_arg11 m ρ c) (W8_arg12 m ρ c) (W8_arg13 m ρ c) (W8_arg14 m ρ c) (W8_arg15 m ρ c) (W8_arg16 m ρ c) (W8_arg17 m ρ c) (W8_arg18 m ρ c) (W8_arg19 m ρ c))))
  -- layer 2
  have L2 := Layer2.aggregate_eq m ρ c (HostStage2.at_v158 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v160 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v36 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v173 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v174 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v163 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v175 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v166 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
    (HostStage2.at_v176 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
  have z2 := (W20_of_ne m ρ c main_v150 (by decide)).trans (HostStage2.at_v150 m ρ c z1 L1 d1 (W14_arg8 m ρ c) (W14_arg9 m ρ c) (W14_arg10 m ρ c) (W14_arg11 m ρ c) (W14_arg12 m ρ c) (W14_arg13 m ρ c) (W14_arg14 m ρ c) (W14_arg15 m ρ c) (W14_arg16 m ρ c) (W14_arg17 m ρ c) (W14_arg18 m ρ c) (W14_arg19 m ρ c))
  -- the last update perceptron
  exact HostStage3.at_v207 m ρ c z2 L2 (W20_arg14 m ρ c) (W20_arg15 m ρ c) (W20_arg16 m ρ c) (W20_arg17 m ρ c) (W20_arg18 m ρ c) (W20_arg19 m ρ c)

end Cert.KernelIdeal.Whole

end
-- ==== Proof.lean ====
/-
  The certificate of a three-layer graph network whose pairwise message sums run in a kernel.

  Each layer sends, from every sender `j` to every receiver `i ≠ j`, the three-layer perceptron of the two nodes'
  projections and their distance, and sums the messages per receiver. The kernel computes that sum tile by tile —
  64 receivers by 128 senders, the four sender blocks of a receiver block accumulated in turn — where the plain
  program forms the whole 512 × 512 × 128 array of messages and sums it over the senders. On the extended reals the
  two are the same sum (addition is commutative and associative; no other law is used, so the precondition is never
  opened), the kernel's mask computed from the tile position is the plain program's `1 - eye`, and every other
  operation of the two programs — the encoder, the distances, the projections, the update perceptrons — is the same
  host operation on the same values. The three frames are the generated runs; nothing was rewritten by the
  idealization, so `preserves` is trivial.
-/
import proofs.«170678_j11312943857830_2_alg».proof.Defs
import proofs.«170678_j11312943857830_2_alg».proof.Proof.Gen.Kernel
import proofs.«170678_j11312943857830_2_alg».proof.Proof.Gen.Kernel.Skeleton
import proofs.«170678_j11312943857830_2_alg».proof.Proof.Gen.Kernel.Launch
import proofs.«170678_j11312943857830_2_alg».proof.Proof.Gen.Kernel.Points
import proofs.«170678_j11312943857830_2_alg».proof.Proof.Gen.Kernel.Frame
import proofs.«170678_j11312943857830_2_alg».proof.Proof.Gen.KernelIdeal
import proofs.«170678_j11312943857830_2_alg».proof.Proof.Gen.KernelIdeal.Skeleton
import proofs.«170678_j11312943857830_2_alg».proof.Proof.Gen.KernelIdeal.Launch
import proofs.«170678_j11312943857830_2_alg».proof.Proof.Gen.KernelIdeal.Points
import proofs.«170678_j11312943857830_2_alg».proof.Proof.Gen.KernelIdeal.Frame
import proofs.«170678_j11312943857830_2_alg».proof.Proof.Gen.ReferenceIdeal
import proofs.«170678_j11312943857830_2_alg».proof.Proof.Gen.Pre_finite_inputs
import proofs.«170678_j11312943857830_2_alg».proof.Proof.RefValueRun
import proofs.«170678_j11312943857830_2_alg».proof.Proof.KernelRun
import proofs.«170678_j11312943857830_2_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's frame: its run with the result dropped. -/
theorem frame_reference : Cert.frame_ReferenceIdeal := fun m ρ _ =>
  (θ_run Cert.ReferenceIdeal.defs _ _).mono (fun _ h c => (h c).2) (Cert.ReferenceIdeal.ValueRun.run m ρ)

theorem preserves : Cert.preserves_Kernel_KernelIdeal := trivial

/-- Run from memories that agree on the arguments, the two idealized programs return the same array: the kernel's
    last boundary holds the plain program's result stage of the kernel's arguments, and the arguments agree. -/
theorem algebraic : Cert.algebraic_KernelIdeal_ReferenceIdeal := by
  intro m ρ m' ρ' _ hagree
  refine ⟨fun c => Cert.KernelIdeal.Gen.W25 m ρ c (Proc.devRef .tc Cert.KernelIdeal.main_v207),
    Cert.KernelIdeal.ValueRun.run (F := Ideal) m ρ, ?_⟩
  refine (θ_run Cert.ReferenceIdeal.defs _ _).mono (fun _ h c => ⟨(h c).1.trans ?_, (h c).2⟩)
    (Cert.ReferenceIdeal.ValueRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
  exact (Cert.KernelIdeal.Whole.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
